-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S512x64 : Shape := ⟨2, ![512, 64]⟩
abbrev S64 : Shape := ⟨1, ![64]⟩
abbrev S768x1 : Shape := ⟨2, ![768, 1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S768x1 : S_.BroadcastsInDim S768x1 (![] : Fin 0 → Fin S768x1.rank)
  reducesTo_S768x1_S_d0_1 : S768x1.ReducesTo [0, 1] S_

variable [Facts]

def fn_part2 {F : FTy → Type} [FloatOps F] (main_arg8 : FVec F S512x256 .f32) (main_arg9 : FVec F S768x1 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S768x1 .f32 := Host.absf main_arg9
  let main_cst_14 : FVec F S_ .f32 := constant S_ .f32 0x7F800000#32
  let main_v40 : FVec F S768x1 .f32 := broadcastInDim S768x1 ![] bcast_S_S768x1 main_cst_14
  let main_v41 : IVec S768x1 1 := cmpf .olt main_v39 main_v40
  let main_c_15 : IVec S_ 1 := constantI S_ 1 1#1
  let main_v42 : IVec S_ 1 := (fun x v => Host.reduce IntOp.andi x v reducesTo_S768x1_S_d0_1 h_S_) main_v41 main_c_15
  let main_v43 : IVec S_ 1 := andi main_v38 main_v42
  main_v43

def fn_part1 {F : FTy → Type} [FloatOps F] (main_arg5 : FVec F S256 .f32) (main_arg6 : FVec F S512x64 .f32) (main_arg7 : FVec F S64 .f32) (main_arg8 : FVec F S512x256 .f32) (main_arg9 : FVec F S768x1 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x64 .f32 := Host.absf main_arg6
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x800000 32) (main_arg2 : FVec F S512x256 .f32) (main_arg3 : FVec F S256 .f32) (main_arg4 : FVec F S512x256 .f32) (main_arg5 : FVec F S256 .f32) (main_arg6 : FVec F S512x64 .f32) (main_arg7 : FVec F S64 .f32) (main_arg8 : FVec F S512x256 .f32) (main_arg9 : FVec F S768x1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S512x64 : Shape := ⟨2, ![512, 64]⟩
abbrev S64 : Shape := ⟨1, ![64]⟩
abbrev S768x1 : Shape := ⟨2, ![768, 1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S800000x1 : Shape := ⟨2, ![800000, 1]⟩
abbrev S800000x256 : Shape := ⟨2, ![800000, 256]⟩
abbrev S50000x1 : Shape := ⟨2, ![50000, 1]⟩
abbrev S1x768 : Shape := ⟨2, ![1, 768]⟩
abbrev S1000x256 : Shape := ⟨2, ![1000, 256]⟩
abbrev S1000x512 : Shape := ⟨2, ![1000, 512]⟩
abbrev S1000 : Shape := ⟨1, ![1000]⟩
abbrev S1000x1 : Shape := ⟨2, ![1000, 1]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 225
  | .vmem => 42
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S512x256, .f32⟩
  | 5 => ⟨S256, .f32⟩
  | 6 => ⟨S512x64, .f32⟩
  | 7 => ⟨S64, .f32⟩
  | 8 => ⟨S512x256, .f32⟩
  | 9 => ⟨S768x1, .f32⟩
  | 10 => ⟨S1x800000, .i32⟩
  | 11 => ⟨S800000, .i32⟩
  | 12 => ⟨S1x800000, .i32⟩
  | 13 => ⟨S800000, .i32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x256, .f32⟩
  | 51 => ⟨S50000x256, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x256, .f32⟩
  | 61 => ⟨S850000x1, .f32⟩
  | 62 => ⟨S850000x256, .f32⟩
  | 63 => ⟨S850000x256, .f32⟩
  | 64 => ⟨S_, .f32⟩
  | 65 => ⟨S50000x256, .f32⟩
  | 66 => ⟨S850000x1, .i32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x256, .f32⟩
  | 83 => ⟨S_, .f32⟩
  | 84 => ⟨S50000x256, .f32⟩
  | 85 => ⟨S800000x1, .i32⟩
  | 86 => ⟨S50000x256, .f32⟩
  | 87 => ⟨S_, .f32⟩
  | 88 => ⟨S800000, .f32⟩
  | 89 => ⟨S_, .f32⟩
  | 90 => ⟨S50000, .f32⟩
  | 91 => ⟨S800000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x256, .f32⟩
  | 98 => ⟨S50000x256, .f32⟩
  | 99 => ⟨S50000x256, .f32⟩
  | 100 => ⟨S50000x256, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x256, .f32⟩
  | 110 => ⟨S_, .f32⟩
  | 111 => ⟨S50000x256, .f32⟩
  | 112 => ⟨S800000x1, .i32⟩
  | 113 => ⟨S50000x256, .f32⟩
  | 114 => ⟨S_, .f32⟩
  | 115 => ⟨S800000, .f32⟩
  | 116 => ⟨S_, .f32⟩
  | 117 => ⟨S50000, .f32⟩
  | 118 => ⟨S800000x1, .i32⟩
  | 119 => ⟨S50000, .f32⟩
  | 120 => ⟨S_, .f32⟩
  | 121 => ⟨S50000, .f32⟩
  | 122 => ⟨S50000, .f32⟩
  | 123 => ⟨S50000x1, .f32⟩
  | 124 => ⟨S50000x256, .f32⟩
  | 125 => ⟨S50000x256, .f32⟩
  | 126 => ⟨S1x768, .f32⟩
  | 127 => ⟨S50000x512, .f32⟩
  | _ => ⟨S50000x512, .f32⟩

abbrev hbmTy0_1 (i : Nat) : BufTy := match i % 128 with
  | 0 => ⟨S50000x256, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000x256, .f32⟩
  | 10 => ⟨S850000x1, .f32⟩
  | 11 => ⟨S850000x256, .f32⟩
  | 12 => ⟨S850000x256, .f32⟩
  | 13 => ⟨S_, .f32⟩
  | 14 => ⟨S50000x256, .f32⟩
  | 15 => ⟨S850000x1, .i32⟩
  | 16 => ⟨S50000x256, .f32⟩
  | 17 => ⟨S1x256, .f32⟩
  | 18 => ⟨S50000x256, .f32⟩
  | 19 => ⟨S50000x256, .f32⟩
  | 20 => ⟨S_, .f32⟩
  | 21 => ⟨S50000x256, .f32⟩
  | 22 => ⟨S50000x256, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x256, .f32⟩
  | 32 => ⟨S_, .f32⟩
  | 33 => ⟨S50000x256, .f32⟩
  | 34 => ⟨S800000x1, .i32⟩
  | 35 => ⟨S50000x256, .f32⟩
  | 36 => ⟨S_, .f32⟩
  | 37 => ⟨S800000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x256, .f32⟩
  | 47 => ⟨S50000x256, .f32⟩
  | 48 => ⟨S50000x256, .f32⟩
  | 49 => ⟨S50000x256, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x256, .f32⟩
  | 59 => ⟨S_, .f32⟩
  | 60 => ⟨S50000x256, .f32⟩
  | 61 => ⟨S800000x1, .i32⟩
  | 62 => ⟨S50000x256, .f32⟩
  | 63 => ⟨S_, .f32⟩
  | 64 => ⟨S800000, .f32⟩
  | 65 => ⟨S_, .f32⟩
  | 66 => ⟨S50000, .f32⟩
  | 67 => ⟨S800000x1, .i32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x256, .f32⟩
  | 74 => ⟨S50000x256, .f32⟩
  | 75 => ⟨S1x768, .f32⟩
  | 76 => ⟨S50000x512, .f32⟩
  | 77 => ⟨S50000x64, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x64, .f32⟩
  | 87 => ⟨S850000x1, .f32⟩
  | 88 => ⟨S850000x64, .f32⟩
  | 89 => ⟨S850000x64, .f32⟩
  | 90 => ⟨S_, .f32⟩
  | 91 => ⟨S50000x64, .f32⟩
  | 92 => ⟨S850000x1, .i32⟩
  | 93 => ⟨S50000x64, .f32⟩
  | 94 => ⟨S1x64, .f32⟩
  | 95 => ⟨S50000x64, .f32⟩
  | 96 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x512, .f32⟩
  | .local _ .vmem, ⟨6, _⟩ => ⟨S2000x512, .f32⟩
  | .local _ .vmem, ⟨7, _⟩ => ⟨S512x256, .f32⟩
  | .local _ .vmem, ⟨8, _⟩ => ⟨S2000x256, .f32⟩
  | .local _ .vmem, ⟨9, _⟩ => ⟨S2000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S1x768, .f32⟩
  | .local _ .vmem, ⟨19, _⟩ => ⟨S1000x512, .f32⟩
  | .local _ .vmem, ⟨20, _⟩ => ⟨S1000x512, .f32⟩
  | .local _ .vmem, ⟨21, _⟩ => ⟨S2000x512, .f32⟩
  | .local _ .vmem, ⟨22, _⟩ => ⟨S2000x512, .f32⟩
  | .local _ .vmem, ⟨23, _⟩ => ⟨S512x256, .f32⟩
  | .local _ .vmem, ⟨24, _⟩ => ⟨S2000x256, .f32⟩
  | .local _ .vmem, ⟨25, _⟩ => ⟨S2000x256, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S1000x256, .f32⟩
  | .local _ .vmem, ⟨32, _⟩ => ⟨S1000x256, .f32⟩
  | .local _ .vmem, ⟨33, _⟩ => ⟨S1000x256, .f32⟩
  | .local _ .vmem, ⟨34, _⟩ => ⟨S1x768, .f32⟩
  | .local _ .vmem, ⟨35, _⟩ => ⟨S1000x512, .f32⟩
  | .local _ .vmem, ⟨36, _⟩ => ⟨S1000x512, .f32⟩
  | .local _ .vmem, ⟨37, _⟩ => ⟨S2000x512, .f32⟩
  | .local _ .vmem, ⟨38, _⟩ => ⟨S2000x512, .f32⟩
  | .local _ .vmem, ⟨39, _⟩ => ⟨S512x64, .f32⟩
  | .local _ .vmem, ⟨40, _⟩ => ⟨S2000x64, .f32⟩
  | .local _ .vmem, ⟨41, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_17 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_18 : Ref sig .tc := ⟨.hbm, 114, rfl⟩
abbrev main_v80 : Ref sig .tc := ⟨.hbm, 115, rfl⟩
abbrev main_cst_19 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_20 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_21 : Ref sig .tc := ⟨.hbm, 129, rfl⟩
abbrev main_v92 : Ref sig .tc := ⟨.hbm, 130, rfl⟩
abbrev main_v93 : Ref sig .tc := ⟨.hbm, 131, rfl⟩
abbrev main_c_22 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_23 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_call2_cst : Ref sig .tc := ⟨.hbm, 148, rfl⟩
abbrev main_call2_v0 : Ref sig .tc := ⟨.hbm, 149, rfl⟩
abbrev main_v108 : Ref sig .tc := ⟨.hbm, 150, rfl⟩
abbrev main_c_24 : Ref sig .tc := ⟨.hbm, 151, rfl⟩
abbrev main_v109 : Ref sig .tc := ⟨.hbm, 152, rfl⟩
abbrev main_v110 : Ref sig .tc := ⟨.hbm, 153, rfl⟩
abbrev main_c_25 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_26 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_27 : Ref sig .tc := ⟨.hbm, 164, rfl⟩
abbrev main_v119 : Ref sig .tc := ⟨.hbm, 165, rfl⟩
abbrev main_cst_28 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_29 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_c_30 : Ref sig .tc := ⟨.hbm, 178, rfl⟩
abbrev main_v130 : Ref sig .tc := ⟨.hbm, 179, rfl⟩
abbrev main_v131 : Ref sig .tc := ⟨.hbm, 180, rfl⟩
abbrev main_c_31 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_32 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_33 : Ref sig .tc := ⟨.hbm, 191, rfl⟩
abbrev main_v140 : Ref sig .tc := ⟨.hbm, 192, rfl⟩
abbrev main_cst_34 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_35 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_c_36 : Ref sig .tc := ⟨.hbm, 206, rfl⟩
abbrev main_v152 : Ref sig .tc := ⟨.hbm, 207, rfl⟩
abbrev main_v153 : Ref sig .tc := ⟨.hbm, 208, rfl⟩
abbrev main_c_37 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_cst_38 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem5_0 : DmaSem sig := 35
abbrev cc4_sem5_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x768 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S768x1_S1x768 : S768x1.ShapeCasts S1x768
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1x768_S1x256_0_0 : ∀ a, (![0, 0] : Fin 2 → Nat) a + S1x256.size a ≤ S1x768.size a
  h_S1x256 : 0 < S1x256.numel
  shapeCasts_S1x256_S1x256 : S1x256.ShapeCasts S1x256
  inb_S1x768_S1x256_0_256 : ∀ a, (![0, 256] : Fin 2 → Nat) a + S1x256.size a ≤ S1x768.size a
  inb_S1x768_S1x256_0_512 : ∀ a, (![0, 512] : Fin 2 → Nat) a + S1x256.size a ≤ S1x768.size a
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  inb_S1000x512_S1000x256_0_0 : ∀ a, (![0, 0] : Fin 2 → Nat) a + S1000x256.size a ≤ S1000x512.size a
  inb_S1000x512_S1000x256_0_256 : ∀ a, (![0, 256] : Fin 2 → Nat) a + S1000x256.size a ≤ S1000x512.size a
  shapeCasts_S2000x512_S2000x512 : S2000x512.ShapeCasts S2000x512
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x512_S512x64_S2000x64_1_0_0_1_n_n_wf : DotDims.WF S2000x512 S512x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S50000x256.size a
  hwx2_1 : ∀ i : grid2.Coords, EltTy.bits .f32 = 32 ∨ (Rect.block (s := S50000x256) S1000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S50000x256.size a
  hwx2_2 : ∀ i : grid2.Coords, EltTy.bits .f32 = 32 ∨ (Rect.block (s := S50000x256) S1000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x256.size a ≤ S50000x256.size a
  hwx2_3 : ∀ i : grid2.Coords, EltTy.bits .f32 = 32 ∨ (Rect.block (s := S50000x256) S1000x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x768.size a ≤ S1x768.size a
  hwx2_4 : ∀ i : grid2.Coords, EltTy.bits .f32 = 32 ∨ (Rect.block (s := S1x768) S1x768.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x512.size a ≤ S50000x512.size a
  hwx2_5 : ∀ i : grid2.Coords, EltTy.bits .f32 = 32 ∨ (Rect.block (s := S50000x512) S1000x512.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S50000x256.size a
  hwx4_0 : ∀ i : grid4.Coords, EltTy.bits .f32 = 32 ∨ (Rect.block (s := S50000x256) S1000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x256.size a ≤ S50000x256.size a
  hwx4_1 : ∀ i : grid4.Coords, EltTy.bits .f32 = 32 ∨ (Rect.block (s := S50000x256) S1000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x256.size a ≤ S50000x256.size a
  hwx4_2 : ∀ i : grid4.Coords, EltTy.bits .f32 = 32 ∨ (Rect.block (s := S50000x256) S1000x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x256.size a ≤ S50000x256.size a
  hwx4_3 : ∀ i : grid4.Coords, EltTy.bits .f32 = 32 ∨ (Rect.block (s := S50000x256) S1000x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x768.size a ≤ S1x768.size a
  hwx4_4 : ∀ i : grid4.Coords, EltTy.bits .f32 = 32 ∨ (Rect.block (s := S1x768) S1x768.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x512.size a ≤ S50000x512.size a
  hwx4_5 : ∀ i : grid4.Coords, EltTy.bits .f32 = 32 ∨ (Rect.block (s := S50000x512) S1000x512.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S50000x512.size a
  hwx5_0 : ∀ i : grid5.Coords, EltTy.bits .f32 = 32 ∨ (Rect.block (s := S50000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x64.size a ≤ S512x64.size a
  hwx5_1 : ∀ i : grid5.Coords, EltTy.bits .f32 = 32 ∨ (Rect.block (s := S512x64) S512x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v88) S1000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v89) S1x768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v90) S1000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v90) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v108) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v127) S1000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v148) S1000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v30) S1000x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v149) S1x768.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v150) S1000x512.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v150) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S512x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v151) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S512x64 : Shape := ⟨2, ![512, 64]⟩
abbrev S64 : Shape := ⟨1, ![64]⟩
abbrev S768x1 : Shape := ⟨2, ![768, 1]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S850000 : Shape := ⟨1, ![850000]⟩
abbrev S850000x1 : Shape := ⟨2, ![850000, 1]⟩
abbrev S850000x256 : Shape := ⟨2, ![850000, 256]⟩
abbrev S1x256 : Shape := ⟨2, ![1, 256]⟩
abbrev S800000x1 : Shape := ⟨2, ![800000, 1]⟩
abbrev S800000x256 : Shape := ⟨2, ![800000, 256]⟩
abbrev S50000x1 : Shape := ⟨2, ![50000, 1]⟩
abbrev S50000x768 : Shape := ⟨2, ![50000, 768]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 354
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S512x256, .f32⟩
  | 5 => ⟨S256, .f32⟩
  | 6 => ⟨S512x64, .f32⟩
  | 7 => ⟨S64, .f32⟩
  | 8 => ⟨S512x256, .f32⟩
  | 9 => ⟨S768x1, .f32⟩
  | 10 => ⟨S1x800000, .i32⟩
  | 11 => ⟨S800000, .i32⟩
  | 12 => ⟨S1x800000, .i32⟩
  | 13 => ⟨S800000, .i32⟩
  | 14 => ⟨S50000x256, .f32⟩
  | 15 => ⟨S_, .f32⟩
  | 16 => ⟨S50000x256, .f32⟩
  | 17 => ⟨S50000x256, .f32⟩
  | 18 => ⟨S50000x256, .f32⟩
  | 19 => ⟨S50000, .i32⟩
  | 20 => ⟨S850000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x256, .f32⟩
  | 64 => ⟨S850000x1, .f32⟩
  | 65 => ⟨S850000x256, .f32⟩
  | 66 => ⟨S850000x256, .f32⟩
  | 67 => ⟨S_, .f32⟩
  | 68 => ⟨S50000x256, .f32⟩
  | 69 => ⟨S850000x1, .i32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x256, .f32⟩
  | 86 => ⟨S_, .f32⟩
  | 87 => ⟨S50000x256, .f32⟩
  | 88 => ⟨S800000x1, .i32⟩
  | 89 => ⟨S50000x256, .f32⟩
  | 90 => ⟨S_, .f32⟩
  | 91 => ⟨S800000, .f32⟩
  | 92 => ⟨S_, .f32⟩
  | 93 => ⟨S50000, .f32⟩
  | 94 => ⟨S800000x1, .i32⟩
  | 95 => ⟨S50000, .f32⟩
  | 96 => ⟨S_, .f32⟩
  | 97 => ⟨S50000, .f32⟩
  | 98 => ⟨S50000, .f32⟩
  | 99 => ⟨S50000x1, .f32⟩
  | 100 => ⟨S50000x256, .f32⟩
  | 101 => ⟨S50000x256, .f32⟩
  | 102 => ⟨S50000x256, .f32⟩
  | 103 => ⟨S50000x256, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x256, .f32⟩
  | 113 => ⟨S_, .f32⟩
  | 114 => ⟨S50000x256, .f32⟩
  | 115 => ⟨S800000x1, .i32⟩
  | 116 => ⟨S50000x256, .f32⟩
  | 117 => ⟨S_, .f32⟩
  | 118 => ⟨S800000, .f32⟩
  | 119 => ⟨S_, .f32⟩
  | 120 => ⟨S50000, .f32⟩
  | 121 => ⟨S800000x1, .i32⟩
  | 122 => ⟨S50000, .f32⟩
  | 123 => ⟨S_, .f32⟩
  | 124 => ⟨S50000, .f32⟩
  | 125 => ⟨S50000, .f32⟩
  | 126 => ⟨S50000x1, .f32⟩
  | 127 => ⟨S50000x256, .f32⟩
  | _ => ⟨S50000x512, .f32⟩

abbrev hbmTy0_1 (i : Nat) : BufTy := match i % 128 with
  | 0 => ⟨S50000x256, .f32⟩
  | 1 => ⟨S50000x256, .f32⟩
  | 2 => ⟨S50000x768, .f32⟩
  | 3 => ⟨S50000x1, .f32⟩
  | 4 => ⟨S50000x1, .f32⟩
  | 5 => ⟨S50000x1, .f32⟩
  | 6 => ⟨S_, .f32⟩
  | 7 => ⟨S50000x1, .f32⟩
  | 8 => ⟨S50000x1, .f32⟩
  | 9 => ⟨S_, .f32⟩
  | 10 => ⟨S50000x1, .f32⟩
  | 11 => ⟨S50000x1, .f32⟩
  | 12 => ⟨S_, .f32⟩
  | 13 => ⟨S50000x1, .f32⟩
  | 14 => ⟨S50000x1, .f32⟩
  | 15 => ⟨S50000x256, .f32⟩
  | 16 => ⟨S50000x256, .f32⟩
  | 17 => ⟨S50000x256, .f32⟩
  | 18 => ⟨S50000x256, .f32⟩
  | 19 => ⟨S50000x512, .f32⟩
  | 20 => ⟨S50000x512, .f32⟩
  | 21 => ⟨S_, .f32⟩
  | 22 => ⟨S50000, .f32⟩
  | 23 => ⟨S50000x1, .f32⟩
  | 24 => ⟨S50000x1, .f32⟩
  | 25 => ⟨S_, .f32⟩
  | 26 => ⟨S50000x1, .f32⟩
  | 27 => ⟨S50000x1, .f32⟩
  | 28 => ⟨S50000x512, .f32⟩
  | 29 => ⟨S50000x512, .f32⟩
  | 30 => ⟨S50000x256, .f32⟩
  | 31 => ⟨S50000, .i32⟩
  | 32 => ⟨S850000, .i32⟩
  | 33 => ⟨S850000, .i32⟩
  | 34 => ⟨S_, .f32⟩
  | 35 => ⟨S850000, .f32⟩
  | 36 => ⟨S_, .f32⟩
  | 37 => ⟨S50000, .f32⟩
  | 38 => ⟨S850000x1, .i32⟩
  | 39 => ⟨S50000, .f32⟩
  | 40 => ⟨S_, .f32⟩
  | 41 => ⟨S50000, .f32⟩
  | 42 => ⟨S50000, .i1⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000, .f32⟩
  | 66 => ⟨S850000, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000x256, .f32⟩
  | 76 => ⟨S850000x1, .f32⟩
  | 77 => ⟨S850000x256, .f32⟩
  | 78 => ⟨S850000x256, .f32⟩
  | 79 => ⟨S_, .f32⟩
  | 80 => ⟨S50000x256, .f32⟩
  | 81 => ⟨S850000x1, .i32⟩
  | 82 => ⟨S50000x256, .f32⟩
  | 83 => ⟨S1x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x256, .f32⟩
  | 98 => ⟨S_, .f32⟩
  | 99 => ⟨S50000x256, .f32⟩
  | 100 => ⟨S800000x1, .i32⟩
  | 101 => ⟨S50000x256, .f32⟩
  | 102 => ⟨S_, .f32⟩
  | 103 => ⟨S800000, .f32⟩
  | 104 => ⟨S_, .f32⟩
  | 105 => ⟨S50000, .f32⟩
  | 106 => ⟨S800000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x256, .f32⟩
  | 113 => ⟨S50000x256, .f32⟩
  | 114 => ⟨S50000x256, .f32⟩
  | 115 => ⟨S50000x256, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x256, .f32⟩
  | 125 => ⟨S_, .f32⟩
  | 126 => ⟨S50000x256, .f32⟩
  | 127 => ⟨S800000x1, .i32⟩
  | _ => ⟨S50000x512, .f32⟩

abbrev hbmTy0_2 (i : Nat) : BufTy := match i % 128 with
  | 0 => ⟨S50000x256, .f32⟩
  | 1 => ⟨S_, .f32⟩
  | 2 => ⟨S800000, .f32⟩
  | 3 => ⟨S_, .f32⟩
  | 4 => ⟨S50000, .f32⟩
  | 5 => ⟨S800000x1, .i32⟩
  | 6 => ⟨S50000, .f32⟩
  | 7 => ⟨S_, .f32⟩
  | 8 => ⟨S50000, .f32⟩
  | 9 => ⟨S50000, .f32⟩
  | 10 => ⟨S50000x1, .f32⟩
  | 11 => ⟨S50000x256, .f32⟩
  | 12 => ⟨S50000x256, .f32⟩
  | 13 => ⟨S50000x256, .f32⟩
  | 14 => ⟨S50000x768, .f32⟩
  | 15 => ⟨S50000x1, .f32⟩
  | 16 => ⟨S50000x1, .f32⟩
  | 17 => ⟨S50000x1, .f32⟩
  | 18 => ⟨S_, .f32⟩
  | 19 => ⟨S50000x1, .f32⟩
  | 20 => ⟨S50000x1, .f32⟩
  | 21 => ⟨S_, .f32⟩
  | 22 => ⟨S50000x1, .f32⟩
  | 23 => ⟨S50000x1, .f32⟩
  | 24 => ⟨S_, .f32⟩
  | 25 => ⟨S50000x1, .f32⟩
  | 26 => ⟨S50000x1, .f32⟩
  | 27 => ⟨S50000x256, .f32⟩
  | 28 => ⟨S50000x256, .f32⟩
  | 29 => ⟨S50000x256, .f32⟩
  | 30 => ⟨S50000x256, .f32⟩
  | 31 => ⟨S50000x512, .f32⟩
  | 32 => ⟨S50000x512, .f32⟩
  | 33 => ⟨S_, .f32⟩
  | 34 => ⟨S50000, .f32⟩
  | 35 => ⟨S50000x1, .f32⟩
  | 36 => ⟨S50000x1, .f32⟩
  | 37 => ⟨S_, .f32⟩
  | 38 => ⟨S50000x1, .f32⟩
  | 39 => ⟨S50000x1, .f32⟩
  | 40 => ⟨S50000x512, .f32⟩
  | 41 => ⟨S50000x512, .f32⟩
  | 42 => ⟨S50000x64, .f32⟩
  | 43 => ⟨S50000, .i32⟩
  | 44 => ⟨S850000, .i32⟩
  | 45 => ⟨S850000, .i32⟩
  | 46 => ⟨S_, .f32⟩
  | 47 => ⟨S850000, .f32⟩
  | 48 => ⟨S_, .f32⟩
  | 49 => ⟨S50000, .f32⟩
  | 50 => ⟨S850000x1, .i32⟩
  | 51 => ⟨S50000, .f32⟩
  | 52 => ⟨S_, .f32⟩
  | 53 => ⟨S50000, .f32⟩
  | 54 => ⟨S50000, .i1⟩
  | 55 => ⟨S50000, .f32⟩
  | 56 => ⟨S_, .f32⟩
  | 57 => ⟨S_, .f32⟩
  | 58 => ⟨S50000, .f32⟩
  | 59 => ⟨S50000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000, .f32⟩
  | 78 => ⟨S850000, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x64, .f32⟩
  | 88 => ⟨S850000x1, .f32⟩
  | 89 => ⟨S850000x64, .f32⟩
  | 90 => ⟨S850000x64, .f32⟩
  | 91 => ⟨S_, .f32⟩
  | 92 => ⟨S50000x64, .f32⟩
  | 93 => ⟨S850000x1, .i32⟩
  | 94 => ⟨S50000x64, .f32⟩
  | 95 => ⟨S1x64, .f32⟩
  | 96 => ⟨S50000x64, .f32⟩
  | 97 => ⟨S50000x64, .f32⟩
  | _ => ⟨S50000x512, .f32⟩

abbrev hbmTy (i : Nat) : BufTy := match i / 128 with
  | 0 => hbmTy0_0 i
  | 1 => hbmTy0_1 i
  | 2 => hbmTy0_2 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call2_cst : Ref sig .tc := ⟨.hbm, 74, rfl⟩
abbrev main_call2_v0 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_17 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_18 : Ref sig .tc := ⟨.hbm, 117, rfl⟩
abbrev main_v81 : Ref sig .tc := ⟨.hbm, 118, rfl⟩
abbrev main_cst_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_20 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_21 : Ref sig .tc := ⟨.hbm, 134, rfl⟩
abbrev main_v95 : Ref sig .tc := ⟨.hbm, 135, rfl⟩
abbrev main_v96 : Ref sig .tc := ⟨.hbm, 136, rfl⟩
abbrev main_cst_22 : Ref sig .tc := ⟨.hbm, 137, rfl⟩
abbrev main_v97 : Ref sig .tc := ⟨.hbm, 138, rfl⟩
abbrev main_v98 : Ref sig .tc := ⟨.hbm, 139, rfl⟩
abbrev main_cst_23 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_call3_v0 : Ref sig .tc := ⟨.hbm, 148, rfl⟩
abbrev main_call3_cst : Ref sig .tc := ⟨.hbm, 149, rfl⟩
abbrev main_call3_v1 : Ref sig .tc := ⟨.hbm, 150, rfl⟩
abbrev main_call3_v2 : Ref sig .tc := ⟨.hbm, 151, rfl⟩
abbrev main_v106 : Ref sig .tc := ⟨.hbm, 152, rfl⟩
abbrev main_cst_24 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_25 : Ref sig .tc := ⟨.hbm, 162, rfl⟩
abbrev main_v115 : Ref sig .tc := ⟨.hbm, 163, rfl⟩
abbrev main_cst_26 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_27 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_28 : Ref sig .tc := ⟨.hbm, 172, rfl⟩
abbrev main_call4_v0 : Ref sig .tc := ⟨.hbm, 173, rfl⟩
abbrev main_call4_v1 : Ref sig .tc := ⟨.hbm, 174, rfl⟩
abbrev main_v122 : Ref sig .tc := ⟨.hbm, 175, rfl⟩
abbrev main_c_29 : Ref sig .tc := ⟨.hbm, 176, rfl⟩
abbrev main_v123 : Ref sig .tc := ⟨.hbm, 177, rfl⟩
abbrev main_v124 : Ref sig .tc := ⟨.hbm, 178, rfl⟩
abbrev main_c_30 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_c_31 : Ref sig .tc := ⟨.hbm, 185, rfl⟩
abbrev main_v130 : Ref sig .tc := ⟨.hbm, 186, rfl⟩
abbrev main_v131 : Ref sig .tc := ⟨.hbm, 187, rfl⟩
abbrev main_c_32 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_c_33 : Ref sig .tc := ⟨.hbm, 195, rfl⟩
abbrev main_v138 : Ref sig .tc := ⟨.hbm, 196, rfl⟩
abbrev main_v139 : Ref sig .tc := ⟨.hbm, 197, rfl⟩
abbrev main_c_34 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_35 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_call5_cst : Ref sig .tc := ⟨.hbm, 214, rfl⟩
abbrev main_call5_v0 : Ref sig .tc := ⟨.hbm, 215, rfl⟩
abbrev main_v154 : Ref sig .tc := ⟨.hbm, 216, rfl⟩
abbrev main_c_36 : Ref sig .tc := ⟨.hbm, 217, rfl⟩
abbrev main_v155 : Ref sig .tc := ⟨.hbm, 218, rfl⟩
abbrev main_v156 : Ref sig .tc := ⟨.hbm, 219, rfl⟩
abbrev main_c_37 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_cst_38 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_cst_39 : Ref sig .tc := ⟨.hbm, 230, rfl⟩
abbrev main_v165 : Ref sig .tc := ⟨.hbm, 231, rfl⟩
abbrev main_cst_40 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_cst_41 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_c_42 : Ref sig .tc := ⟨.hbm, 244, rfl⟩
abbrev main_v176 : Ref sig .tc := ⟨.hbm, 245, rfl⟩
abbrev main_v177 : Ref sig .tc := ⟨.hbm, 246, rfl⟩
abbrev main_c_43 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_cst_44 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_cst_45 : Ref sig .tc := ⟨.hbm, 257, rfl⟩
abbrev main_v186 : Ref sig .tc := ⟨.hbm, 258, rfl⟩
abbrev main_cst_46 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_cst_47 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_cst_48 : Ref sig .tc := ⟨.hbm, 274, rfl⟩
abbrev main_v200 : Ref sig .tc := ⟨.hbm, 275, rfl⟩
abbrev main_v201 : Ref sig .tc := ⟨.hbm, 276, rfl⟩
abbrev main_cst_49 : Ref sig .tc := ⟨.hbm, 277, rfl⟩
abbrev main_v202 : Ref sig .tc := ⟨.hbm, 278, rfl⟩
abbrev main_v203 : Ref sig .tc := ⟨.hbm, 279, rfl⟩
abbrev main_cst_50 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_call6_v0 : Ref sig .tc := ⟨.hbm, 288, rfl⟩
abbrev main_call6_cst : Ref sig .tc := ⟨.hbm, 289, rfl⟩
abbrev main_call6_v1 : Ref sig .tc := ⟨.hbm, 290, rfl⟩
abbrev main_call6_v2 : Ref sig .tc := ⟨.hbm, 291, rfl⟩
abbrev main_v211 : Ref sig .tc := ⟨.hbm, 292, rfl⟩
abbrev main_cst_51 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_cst_52 : Ref sig .tc := ⟨.hbm, 302, rfl⟩
abbrev main_v220 : Ref sig .tc := ⟨.hbm, 303, rfl⟩
abbrev main_cst_53 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_cst_54 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_cst_55 : Ref sig .tc := ⟨.hbm, 312, rfl⟩
abbrev main_call7_v0 : Ref sig .tc := ⟨.hbm, 313, rfl⟩
abbrev main_call7_v1 : Ref sig .tc := ⟨.hbm, 314, rfl⟩
abbrev main_v227 : Ref sig .tc := ⟨.hbm, 315, rfl⟩
abbrev main_c_56 : Ref sig .tc := ⟨.hbm, 316, rfl⟩
abbrev main_v228 : Ref sig .tc := ⟨.hbm, 317, rfl⟩
abbrev main_v229 : Ref sig .tc := ⟨.hbm, 318, rfl⟩
abbrev main_c_57 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_c_58 : Ref sig .tc := ⟨.hbm, 325, rfl⟩
abbrev main_v235 : Ref sig .tc := ⟨.hbm, 326, rfl⟩
abbrev main_v236 : Ref sig .tc := ⟨.hbm, 327, rfl⟩
abbrev main_c_59 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_c_60 : Ref sig .tc := ⟨.hbm, 335, rfl⟩
abbrev main_v243 : Ref sig .tc := ⟨.hbm, 336, rfl⟩
abbrev main_v244 : Ref sig .tc := ⟨.hbm, 337, rfl⟩
abbrev main_c_61 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_cst_62 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_v258 : Ref sig .tc := ⟨.hbm, 353, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x256 : S_.BroadcastsInDim S50000x256 (![] : Fin 0 → Fin S50000x256.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x256_S50000x256_S50000x256_S50000x768_d1 : Shape.Concatenates [S50000x256, S50000x256, S50000x256] S50000x768 1
  bcast_S_S50000x1 : S_.BroadcastsInDim S50000x1 (![] : Fin 0 → Fin S50000x1.rank)
  concatenates_S50000x256_S50000x256_S50000x512_d1 : Shape.Concatenates [S50000x256, S50000x256] S50000x512 1
  reducesTo_S50000x512_S50000_d1 : S50000x512.ReducesTo [1] S50000
  h_S_ : 0 < S_.numel
  bcast_S50000x1_S50000x512_0_1 : S50000x1.BroadcastsInDim S50000x512 (![0, 1] : Fin 2 → Fin S50000x512.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x768_S768x1_S50000x1_1_0_0_1_n_n_wf : DotDims.WF S50000x768 S768x1 S50000x1 [1] [0] [0] [1] [] []
  dot_S50000x512_S512x64_S50000x64_1_0_0_1_n_n_wf : DotDims.WF S50000x512 S512x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x768_S768x1_S50000x1_1_0_0_1_n_n : DotDims S50000x768 S768x1 S50000x1 where
  lhsContracting := [1]
  rhsContracting := [0]
  lhsNonContracting := [0]
  rhsNonContracting := [1]
  lhsBatch := []
  rhsBatch := []
  wf := dot_S50000x768_S768x1_S50000x1_1_0_0_1_n_n_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.RunValue.lean ====
/-
  The idealized kernel program's run with its result named. The program is six kernel regions among stretches of
  host operations; along the run the TensorCore's buffer contents at each boundary are a fold from the launch
  memory (a stretch applies its operations, a region leaves its arrays at what its write-backs wrote). At the
  return the result buffer therefore holds the last fold at that buffer, and every argument array is as launched.
-/
import proofs.«106194_j24283745091829_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the
    boundary fold's last value at that buffer, and the ten argument arrays are unchanged. -/
theorem run : θ_run defs (onTc (τ := τ) (main (F := F))) ⟨m, fun _ => 0, ρ⟩ (fun r => ∀ c : Dev nD,
      r.2.mem ((c.tc : Thread nD τ).loc main_v167) = W16 m ρ c (Proc.devRef .tc main_v167)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v167 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.RunValue

end
-- ==== Proof.Spec.lean ====
/-
  The specification the two programs are compared through, over literal shapes and with no program imported.

  A dense layer's product: entry (p, q) of X·W is the sum over k of X(p, k)·W(k, q); with a rectifier it is the
  larger of that sum and zero.

  The weight-score fusion of one node (one row). From the node's features h, the neighbourhood mean hm, the mean
  absolute deviation hs, the residual features x0 (256 numbers each) and a 768-long weight vector w:
    logit  = (sum_k (hm k · h k) · w k  +  sum_k hs k · w (256 + k))  +  sum_k h k · w (512 + k)
    score  = 1 / (1 + e^(-logit))
    part1 j = (1 - score) · h j,        part2 j = score · x0 j
    sumsq  = sum_k part1 k · part1 k  +  sum_k part2 k · part2 k
    invn   = rsqrt (max sumsq epsSq)
  and the 512-long output row is part1 · invn followed by part2 · invn. `epsSq` is the square of the reference's
  clamp 2305843 / 2^61 on the norm.
-/
import Idealize.ShloMosaic.PureOps.Ideal
import Idealize.ShloMosaic.Lib.ValueIdx

noncomputable section

namespace Cert.Spec

open Idealize.ShloMosaic Idealize.ShloMosaic.ValueIdx

/-- A matrix of extended reals with literal extents. -/
abbrev Mat (a b : ℕ) : Type := (⟨2, ![a, b]⟩ : Shape).Idx → EReal

/-- The matrix product, entry by entry. -/
def mm {A K B : ℕ} (X : Mat A K) (W : Mat K B) : Mat A B :=
  fun i => ∑ k : Fin K, X (ix2 (i 0) k) * W (ix2 k (i 1))

/-- The matrix product followed by the rectifier. -/
def mmRelu {A K B : ℕ} (X : Mat A K) (W : Mat K B) : Mat A B :=
  fun i => max (mm X W i) 0

/-- The score's logit of one row: three 256-term sums against the three thirds of the weight vector. -/
def logit (h hm hs : Fin 256 → EReal) (w : Fin 768 → EReal) : EReal :=
  ((∑ k : Fin 256, hm k * h k * w ⟨k.val, by omega⟩) + (∑ k : Fin 256, hs k * w ⟨256 + k.val, by omega⟩))
    + (∑ k : Fin 256, h k * w ⟨512 + k.val, by omega⟩)

/-- The score of one row. -/
def score (h hm hs : Fin 256 → EReal) (w : Fin 768 → EReal) : EReal := Ideal.logistic (logit h hm hs w)

/-- The de-smoothed part of the fused row. -/
def part1 (s : EReal) (h : Fin 256 → EReal) (j : Fin 256) : EReal := (1 - s) * h j

/-- The residual part of the fused row. -/
def part2 (s : EReal) (x0 : Fin 256 → EReal) (j : Fin 256) : EReal := s * x0 j

/-- The fused row's squared length. -/
def sumsq (s : EReal) (h x0 : Fin 256 → EReal) : EReal :=
  (∑ k : Fin 256, part1 s h k * part1 s h k) + (∑ k : Fin 256, part2 s x0 k * part2 s x0 k)

/-- The square of the reference's clamp on the norm. -/
def epsSq : EReal := ((5316911940649 / 5316911983139663491615228241121378304 : ℝ) : EReal)

/-- The reciprocal of the clamped length. -/
def invn (s : EReal) (h x0 : Fin 256 → EReal) : EReal := Ideal.rsqrt (max (sumsq s h x0) epsSq)

/-- The normalised fused row of one node. -/
def wsRow (h hm hs x0 : Fin 256 → EReal) (w : Fin 768 → EReal) (j : Fin 512) : EReal :=
  if hj : j.val < 256 then part1 (score h hm hs w) h ⟨j.val, hj⟩ * invn (score h hm hs w) h x0
  else part2 (score h hm hs w) x0 ⟨j.val - 256, by omega⟩ * invn (score h hm hs w) h x0

/-- The weight-score fusion of every node: row r of the result is `wsRow` of row r of the four operands. -/
def ws {N : ℕ} (H HM HS X0 : Mat N 256) (WR : Mat 1 768) : Mat N 512 :=
  fun i => wsRow (fun k => H (ix2 (i 0) k)) (fun k => HM (ix2 (i 0) k)) (fun k => HS (ix2 (i 0) k))
    (fun k => X0 (ix2 (i 0) k)) (fun k => WR (ix2 (0 : Fin 1) k)) (i 1)

end Cert.Spec

end
-- ==== Proof.Consts.lean ====
/-
  The float literals the two programs spell, as the extended reals their bit patterns denote, and the one
  arithmetic fact that ties the kernel's named constant to the reference's clamp: 5316911940649 / 2^122 is the
  square of 2305843 / 2^61.
-/
import Idealize.ShloMosaic.PureOps.Ideal

noncomputable section

namespace Cert.Consts

open Idealize.ShloMosaic

/-- The pattern of +0.0 denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = 1 := by
  simp [Ideal.ofBits, Ideal.ieee, -EReal.coe_mul]; norm_num

/-- The reference's clamp on the norm, the single-precision neighbour of 1e-12, denotes 2305843 / 2^61. -/
theorem ofBits_eps : Ideal.ofBits .f32 0x2B8CBCCC#32 = ((2305843 / 2305843009213693952 : ℝ) : EReal) := by
  simp [Ideal.ofBits, Ideal.ieee, -EReal.coe_mul]; norm_num

/-- The kernel's named constant is the square of the reference's clamp. -/
theorem epsSq_eq : (5316911940649 / 5316911983139663491615228241121378304 : ℝ)
    = (2305843 / 2305843009213693952 : ℝ) * (2305843 / 2305843009213693952 : ℝ) := by norm_num

theorem eps_pos : (0 : ℝ) < 2305843 / 2305843009213693952 := by norm_num

end Cert.Consts

end
-- ==== Proof.LibL2Normalize.lean ====
/-
  Normalising a row by its clamped length, on the extended reals.

  For a squared length s ≥ 0 and a positive real clamp D:  p · rsqrt (max s D²) = p / max (sqrt s) D.
  On a real s the square root is monotone, so sqrt (max s D²) = max (sqrt s) D, a positive real, and the reciprocal
  square root is its inverse; at s = +∞ both sides are p · 0. A sum of squares of extended reals is never negative
  (the square of either infinity is +∞), so the law applies to every row.
-/
import Idealize.ShloMosaic.PureOps.Ideal
import Idealize.ShloMosaic.PureOps.Ideal.Laws

noncomputable section

namespace Cert.L2Normalize

open Idealize.ShloMosaic

/-- A square of an extended real is not negative. -/
theorem mul_self_nonneg (x : EReal) : 0 ≤ x * x := by
  induction x using EReal.rec with
  | bot => rw [EReal.bot_mul_bot]; exact le_top
  | coe r => rw [← EReal.coe_mul]; exact EReal.coe_nonneg.mpr (_root_.mul_self_nonneg r)
  | top => rw [EReal.top_mul_top]; exact le_top

/-- A finite sum of squares of extended reals is not negative. -/
theorem sum_mul_self_nonneg {ι : Type} (s : Finset ι) (f : ι → EReal) : 0 ≤ ∑ i ∈ s, f i * f i :=
  Finset.sum_nonneg fun i _ => mul_self_nonneg (f i)

/-- The coercion of the reals commutes with the larger of two. -/
theorem coe_max (a b : ℝ) : ((max a b : ℝ) : EReal) = max (a : EReal) (b : EReal) :=
  EReal.coe_strictMono.monotone.map_max

/-- The square root of the larger of a non-negative real and D² is the larger of its square root and D. -/
theorem sqrt_max_sq {r D : ℝ} (hr : 0 ≤ r) (hD : 0 < D) : Real.sqrt (max r (D * D)) = max (Real.sqrt r) D := by
  have hDD : Real.sqrt (D * D) = D := Real.sqrt_mul_self hD.le
  rcases le_total r (D * D) with h | h
  · rw [max_eq_right h, hDD]
    have : Real.sqrt r ≤ D := by rw [← hDD]; exact Real.sqrt_le_sqrt h
    exact (max_eq_right this).symm
  · rw [max_eq_left h]
    have : D ≤ Real.sqrt r := by rw [← hDD]; exact Real.sqrt_le_sqrt h
    exact (max_eq_left this).symm

/-- Multiplying by the reciprocal square root of the clamped squared length is dividing by the clamped length. -/
theorem mul_rsqrt_max (p s : EReal) (hs : 0 ≤ s) {D : ℝ} (hD : 0 < D) :
    p * Ideal.rsqrt (max s ((D * D : ℝ) : EReal)) = Ideal.div p (max (Ideal.sqrt s) (D : EReal)) := by
  induction s using EReal.rec with
  | bot => exact absurd hs (by simp)
  | coe r =>
    have hr : 0 ≤ r := EReal.coe_nonneg.mp hs
    have ht : 0 < max r (D * D) := lt_of_lt_of_le (mul_pos hD hD) (le_max_right _ _)
    have hu : 0 < max (Real.sqrt r) D := lt_of_lt_of_le hD (le_max_right _ _)
    rw [← coe_max, Ideal.rsqrt_coe, if_neg (not_lt.mpr ht.le), if_neg ht.ne', Ideal.sqrt_coe,
      if_neg (not_lt.mpr hr), ← coe_max, Ideal.div_coe hu.ne', sqrt_max_sq hr hD, one_div]
  | top =>
    have h1 : max (⊤ : EReal) ((D * D : ℝ) : EReal) = ⊤ := max_eq_left le_top
    have h2 : max (Ideal.sqrt ⊤) (D : EReal) = ⊤ := by rw [Ideal.sqrt_top]; exact max_eq_left le_top
    rw [h1, h2, Ideal.rsqrt_top, mul_zero, Ideal.div, if_neg (by simp), EReal.inv_top, mul_zero]

end Cert.L2Normalize

end
-- ==== Proof.LibSageLayer.lean ====
/-
  One layer of a graph network with mean aggregation, over the extended reals: the pieces its two spellings share.

  The layer's entry (p, q) is  max( x(p,·)·ws(·,q) + bs(q) + nei(p,·)·wn(·,q) + bn(q), 0 ).
  One spelling forms the two products separately and adds the biases one at a time. The other lays x and nei side by
  side along the columns, stacks ws on wn along the rows, forms ONE product over the doubled axis and adds bs + bn.

  * `entry_eq`: the two spellings agree. A sum over an axis of length K + K is the sum over its first K positions plus
    the sum over its last K; the rest is commutativity and associativity of addition, which hold on all extended reals
    (no entry need be finite).
  * `cat_cols_left` / `cat_cols_right`, `cat_rows_left` / `cat_rows_right`: a two-piece concatenation of matrices read at
    an entry of either piece, along the columns and along the rows.
  * `dotGeneral_rows_cols`: a host matrix product [A, K] · [K, B] read at (p, q) is ∑ k, L(p,k) · R(k,q), for any
    dimension record whose index facts are supplied.
-/
import Idealize.ShloMosaic.Lib.ValueIdx
import Idealize.ShloMosaic.Lib.Pipeline.Value
import Idealize.ShloMosaic.PureOps.Ideal.Laws

noncomputable section

namespace Cert.SageLayer

open Idealize.ShloMosaic Idealize.ShloMosaic.ValueIdx

/-- The concatenated spelling of one entry equals the separate one. `cr` is a row of the side-by-side matrix (its
    first K entries the row `xr` of x, its last K the row `nr` of nei), `wq` a column of the stacked weights (first K
    entries the column `wsq` of ws, last K the column `wnq` of wn). -/
theorem entry_eq {K K2 : ℕ} (hK : K2 = K + K) (cr wq : Fin K2 → EReal) (xr nr wsq wnq : Fin K → EReal)
    (hcl : ∀ k : Fin K, cr ⟨k.val, by omega⟩ = xr k) (hcr : ∀ k : Fin K, cr ⟨K + k.val, by omega⟩ = nr k)
    (hwl : ∀ k : Fin K, wq ⟨k.val, by omega⟩ = wsq k) (hwr : ∀ k : Fin K, wq ⟨K + k.val, by omega⟩ = wnq k)
    (bs bn : EReal) :
    max ((∑ k, cr k * wq k) + (bs + bn)) 0
      = max ((((∑ k, xr k * wsq k) + bs) + ∑ k, nr k * wnq k) + bn) 0 := by
  subst hK
  -- the doubled axis splits into its two halves
  rw [Fin.sum_univ_add]
  have h1 : ∀ k : Fin K, cr (Fin.castAdd K k) * wq (Fin.castAdd K k) = xr k * wsq k := fun k => by
    rw [← hcl k, ← hwl k]; rfl
  have h2 : ∀ k : Fin K, cr (Fin.natAdd K k) * wq (Fin.natAdd K k) = nr k * wnq k := fun k => by
    rw [← hcr k, ← hwr k]; rfl
  simp only [h1, h2]
  -- (a + b) + (s + n) = ((a + s) + b) + n
  rw [add_add_add_comm, ← add_assoc]

/-- Row `r` of two [A, K] matrices laid side by side, as a function of the column: the first matrix's row on the first
    K columns, the second's on the next K. -/
def catRow {A K K2 : ℕ} (X NEI : (⟨2, ![A, K]⟩ : Shape).Idx → EReal) (r : Fin A) (k : Fin K2) : EReal :=
  if h : k.val < K then X (ix2 r ⟨k.val, h⟩) else if h2 : k.val - K < K then NEI (ix2 r ⟨k.val - K, h2⟩) else 0

theorem catRow_left {A K K2 : ℕ} (X NEI : (⟨2, ![A, K]⟩ : Shape).Idx → EReal) (r : Fin A) (k : Fin K) (hk : k.val < K2) :
    catRow X NEI r (⟨k.val, hk⟩ : Fin K2) = X (ix2 r k) := by
  unfold catRow; rw [dif_pos k.isLt]

theorem catRow_right {A K K2 : ℕ} (X NEI : (⟨2, ![A, K]⟩ : Shape).Idx → EReal) (r : Fin A) (k : Fin K) (hk : K + k.val < K2) :
    catRow X NEI r (⟨K + k.val, hk⟩ : Fin K2) = NEI (ix2 r k) := by
  unfold catRow
  have h1 : ¬ (K + k.val < K) := by omega
  have h2 : K + k.val - K < K := by have := k.isLt; omega
  rw [dif_neg h1, dif_pos h2]
  exact congrArg (fun z => NEI (ix2 r z)) (Fin.ext (by show K + k.val - K = k.val; omega))

/-- Entry (p, q) of the layer in its concatenated spelling: the side-by-side row p against column q of a [K2, M]
    matrix, plus entry q of a bias vector, and the maximum of that with zero. -/
def denseEntry {A K K2 M : ℕ} (X NEI : (⟨2, ![A, K]⟩ : Shape).Idx → EReal) (W : (⟨2, ![K2, M]⟩ : Shape).Idx → EReal)
    (B : (⟨1, ![M]⟩ : Shape).Idx → EReal) (p : Fin A) (q : Fin M) : EReal :=
  max ((∑ k : Fin K2, catRow X NEI p k * W (ix2 k q)) + B (ix1 q)) 0

/-- The layer in its concatenated spelling, as one function of whole arrays. -/
def dense {A K K2 M : ℕ} (X NEI : (⟨2, ![A, K]⟩ : Shape).Idx → EReal) (W : (⟨2, ![K2, M]⟩ : Shape).Idx → EReal)
    (B : (⟨1, ![M]⟩ : Shape).Idx → EReal) : (⟨2, ![A, M]⟩ : Shape).Idx → EReal :=
  fun i => denseEntry X NEI W B (i 0) (i 1)

/-- An entry depends only on row p of the two feature matrices, column q of the weights and entry q of the bias: two
    settings that agree on those (possibly at different row and column numbers, as a block and the array it is cut
    from do) have the same entry. -/
theorem denseEntry_congr {A A' K K2 M M' : ℕ}
    (X NEI : (⟨2, ![A, K]⟩ : Shape).Idx → EReal) (W : (⟨2, ![K2, M]⟩ : Shape).Idx → EReal) (B : (⟨1, ![M]⟩ : Shape).Idx → EReal)
    (X' NEI' : (⟨2, ![A', K]⟩ : Shape).Idx → EReal) (W' : (⟨2, ![K2, M']⟩ : Shape).Idx → EReal) (B' : (⟨1, ![M']⟩ : Shape).Idx → EReal)
    (p : Fin A) (q : Fin M) (p' : Fin A') (q' : Fin M')
    (hX : ∀ k : Fin K, X (ix2 p k) = X' (ix2 p' k)) (hN : ∀ k : Fin K, NEI (ix2 p k) = NEI' (ix2 p' k))
    (hW : ∀ k : Fin K2, W (ix2 k q) = W' (ix2 k q')) (hB : B (ix1 q) = B' (ix1 q')) :
    denseEntry X NEI W B p q = denseEntry X' NEI' W' B' p' q' := by
  unfold denseEntry
  rw [hB]
  refine congrArg (fun s => max (s + B' (ix1 q')) 0) (Finset.sum_congr rfl fun k _ => ?_)
  rw [hW k]
  refine congrArg (· * W' (ix2 k q')) ?_
  unfold catRow
  split
  · exact hX _
  · split
    · exact hN _
    · rfl

variable {α : Type}

/-- Two [A, K] matrices side by side: a column below K reads the first. -/
theorem cat_cols_left {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : k.val < K2) :
    concatenate ⟨2, ![A, K2]⟩ (1 : Fin 2) [⟨⟨2, ![A, K]⟩, x₁⟩, ⟨⟨2, ![A, K]⟩, x₂⟩] h (ix2 p ⟨k.val, hk⟩) = x₁ (ix2 p k) :=
  concatenate_pair_apply_left (t := ⟨2, ![A, K2]⟩) (1 : Fin 2) x₁ x₂ h (ix2 p ⟨k.val, hk⟩) rfl (ix2 p k) fun b => by
    match b with
    | ⟨0, _⟩ => rfl
    | ⟨1, _⟩ => rfl

/-- Two [A, K] matrices side by side: column K + k reads the second at column k. -/
theorem cat_cols_right {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : K + k.val < K2) :
    concatenate ⟨2, ![A, K2]⟩ (1 : Fin 2) [⟨⟨2, ![A, K]⟩, x₁⟩, ⟨⟨2, ![A, K]⟩, x₂⟩] h (ix2 p ⟨K + k.val, hk⟩) = x₂ (ix2 p k) :=
  concatenate_pair_apply_right (t := ⟨2, ![A, K2]⟩) (1 : Fin 2) x₁ x₂ h (ix2 p ⟨K + k.val, hk⟩) rfl rfl (ix2 p k)
    (fun b hb => by
      match b with
      | ⟨0, _⟩ => rfl
      | ⟨1, _⟩ => exact absurd rfl hb)
    (by show k.val + K = K + k.val; omega)

/-- Two [K, M] matrices one above the other: a row below K reads the first. -/
theorem cat_rows_left {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : k.val < K2) :
    concatenate ⟨2, ![K2, M]⟩ (0 : Fin 2) [⟨⟨2, ![K, M]⟩, x₁⟩, ⟨⟨2, ![K, M]⟩, x₂⟩] h (ix2 ⟨k.val, hk⟩ q) = x₁ (ix2 k q) :=
  concatenate_pair_apply_left (t := ⟨2, ![K2, M]⟩) (0 : Fin 2) x₁ x₂ h (ix2 ⟨k.val, hk⟩ q) rfl (ix2 k q) fun b => by
    match b with
    | ⟨0, _⟩ => rfl
    | ⟨1, _⟩ => rfl

/-- Two [K, M] matrices one above the other: row K + k reads the second at row k. -/
theorem cat_rows_right {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : K + k.val < K2) :
    concatenate ⟨2, ![K2, M]⟩ (0 : Fin 2) [⟨⟨2, ![K, M]⟩, x₁⟩, ⟨⟨2, ![K, M]⟩, x₂⟩] h (ix2 ⟨K + k.val, hk⟩ q) = x₂ (ix2 k q) :=
  concatenate_pair_apply_right (t := ⟨2, ![K2, M]⟩) (0 : Fin 2) x₁ x₂ h (ix2 ⟨K + k.val, hk⟩ q) rfl rfl (ix2 k q)
    (fun b hb => by
      match b with
      | ⟨0, _⟩ => exact absurd rfl hb
      | ⟨1, _⟩ => rfl)
    (by show k.val + K = K + k.val; omega)

/-- A concatenation of two [A, K] matrices along the columns, read at (p, k), is the side-by-side row. -/
theorem cat_cols_eq_catRow {A K K2 : ℕ} (hK : K2 = K + K) (x₁ x₂ : (⟨2, ![A, K]⟩ : Shape).Idx → EReal)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k) = catRow x₁ x₂ p k := by
  by_cases hk : k.val < K
  · have e : k = ⟨(⟨k.val, hk⟩ : Fin K).val, k.isLt⟩ := rfl
    rw [e, cat_cols_left x₁ x₂ h p ⟨k.val, hk⟩ k.isLt, catRow_left x₁ x₂ p ⟨k.val, hk⟩ k.isLt]
  · have hk2 : k.val - K < K := by have := k.isLt; omega
    have hlt : K + (⟨k.val - K, hk2⟩ : Fin K).val < K2 := by show K + (k.val - K) < K2; have := k.isLt; omega
    have e : k = ⟨K + (⟨k.val - K, hk2⟩ : Fin K).val, hlt⟩ := Fin.ext (by show k.val = K + (k.val - K); omega)
    rw [e, cat_cols_right x₁ x₂ h p ⟨k.val - K, hk2⟩ hlt, catRow_right x₁ x₂ p ⟨k.val - K, hk2⟩ hlt]

/-- A host matrix product read at (p, q): the sum over the contracted axis of the left operand's row p times the
    right operand's column q. -/
theorem dotGeneral_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.SageLayer

end
-- ==== Proof.LibCatCols.lean ====
/-
  Matrices joined along their columns, read at an entry, and sums over the joined axis.

  Two or three [A, K] matrices side by side form an [A, 2K] or [A, 3K] matrix whose entry (p, k) is the first
  matrix's (p, k) for k < K, the second's (p, k - K) for K ≤ k < 2K, the third's (p, k - 2K) beyond. A sum over the
  joined axis is therefore the sum of the pieces' sums.
-/
import Idealize.ShloMosaic.Lib.ValueIdx
import Idealize.ShloMosaic.Lib.Pipeline.Value
import proofs.«106194_j24283745091829_2_alg».proof.Proof.LibSageLayer

noncomputable section

namespace Cert.CatCols

open Idealize.ShloMosaic Idealize.ShloMosaic.ValueIdx

variable {α : Type}

/-- Two matrices side by side, at column k: the first below K, the second at k - K from K on. -/
theorem cat2_apply {A K K2 : ℕ} (hK : K2 = K + K) (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k)
      = if hk : k.val < K then x₁ (ix2 p ⟨k.val, hk⟩) else x₂ (ix2 p ⟨k.val - K, by omega⟩) := by
  by_cases hk : k.val < K
  · rw [dif_pos hk]
    exact Cert.SageLayer.cat_cols_left x₁ x₂ h p ⟨k.val, hk⟩ k.isLt
  · rw [dif_neg hk]
    have hlt : K + (k.val - K) < K2 := by omega
    have e : (⟨K + (k.val - K), hlt⟩ : Fin K2) = k := Fin.ext (by show K + (k.val - K) = k.val; omega)
    have := Cert.SageLayer.cat_cols_right x₁ x₂ h p ⟨k.val - K, by omega⟩ hlt
    rw [e] at this
    exact this

/-- Three matrices side by side, at column k. -/
theorem cat3_apply {A K K3 : ℕ} (hK : K3 = K + K + K) (x₁ x₂ x₃ : (⟨2, ![A, K]⟩ : Shape).Idx → α)
    (h : Shape.Concatenates [(⟨2, ![A, K]⟩ : Shape), ⟨2, ![A, K]⟩, ⟨2, ![A, K]⟩] ⟨2, ![A, K3]⟩ (1 : Fin 2)) (p : Fin A) (k : Fin K3) :
    concatenate ⟨2, ![A, K3]⟩ (1 : Fin 2) [⟨⟨2, ![A, K]⟩, x₁⟩, ⟨⟨2, ![A, K]⟩, x₂⟩, ⟨⟨2, ![A, K]⟩, x₃⟩] h (ix2 p k)
      = if hk : k.val < K then x₁ (ix2 p ⟨k.val, hk⟩)
        else if hk2 : k.val < K + K then x₂ (ix2 p ⟨k.val - K, by omega⟩)
        else x₃ (ix2 p ⟨k.val - (K + K), by omega⟩) := by
  by_cases hk : k.val < K
  · rw [dif_pos hk]
    refine concatenate_apply_piece (t := ⟨2, ![A, K3]⟩) (1 : Fin 2) [⟨⟨2, ![A, K]⟩, x₁⟩, ⟨⟨2, ![A, K]⟩, x₂⟩, ⟨⟨2, ![A, K]⟩, x₃⟩] h (ix2 p k) 0 (by simp) ⟨2, ![A, K]⟩ x₁ rfl rfl 0 rfl
      (ix2 p ⟨k.val, hk⟩) (fun b hb => ?_) ?_
    · match b with
      | ⟨0, _⟩ => rfl
      | ⟨1, _⟩ => exact absurd rfl hb
    · show 0 + k.val = k.val; omega
  · rw [dif_neg hk]
    by_cases hk2 : k.val < K + K
    · rw [dif_pos hk2]
      refine concatenate_apply_piece (t := ⟨2, ![A, K3]⟩) (1 : Fin 2) [⟨⟨2, ![A, K]⟩, x₁⟩, ⟨⟨2, ![A, K]⟩, x₂⟩, ⟨⟨2, ![A, K]⟩, x₃⟩] h (ix2 p k) 1 (by simp) ⟨2, ![A, K]⟩ x₂ rfl rfl K ?_
        (ix2 p ⟨k.val - K, by omega⟩) (fun b hb => ?_) ?_
      · simp
      · match b with
        | ⟨0, _⟩ => rfl
        | ⟨1, _⟩ => exact absurd rfl hb
      · show K + (k.val - K) = k.val; omega
    · rw [dif_neg hk2]
      refine concatenate_apply_piece (t := ⟨2, ![A, K3]⟩) (1 : Fin 2) [⟨⟨2, ![A, K]⟩, x₁⟩, ⟨⟨2, ![A, K]⟩, x₂⟩, ⟨⟨2, ![A, K]⟩, x₃⟩] h (ix2 p k) 2 (by simp) ⟨2, ![A, K]⟩ x₃ rfl rfl (K + K) ?_
        (ix2 p ⟨k.val - (K + K), by omega⟩) (fun b hb => ?_) ?_
      · simp
      · match b with
        | ⟨0, _⟩ => rfl
        | ⟨1, _⟩ => exact absurd rfl hb
      · show K + K + (k.val - (K + K)) = k.val; omega

/-- A sum over a doubled axis is the sum over its two halves. -/
theorem sum_two {M : Type} [AddCommMonoid M] {K K2 : ℕ} (hK : K2 = K + K) (f : Fin K2 → M) :
    ∑ k : Fin K2, f k = (∑ k : Fin K, f ⟨k.val, by omega⟩) + (∑ k : Fin K, f ⟨K + k.val, by omega⟩) := by
  subst hK
  exact Fin.sum_univ_add f

/-- A sum over a tripled axis is the sum over its three thirds. -/
theorem sum_three {M : Type} [AddCommMonoid M] {K K3 : ℕ} (hK : K3 = K + K + K) (f : Fin K3 → M) :
    ∑ k : Fin K3, f k
      = ((∑ k : Fin K, f ⟨k.val, by omega⟩) + (∑ k : Fin K, f ⟨K + k.val, by omega⟩)) + (∑ k : Fin K, f ⟨K + K + k.val, by omega⟩) := by
  subst hK
  rw [Fin.sum_univ_add f, Fin.sum_univ_add (fun i : Fin (K + K) => f (Fin.castAdd K i))]
  rfl

end Cert.CatCols

end
-- ==== Proof.SpecRef.lean ====
/-
  The reference's spelling of the weight-score row, and its agreement with the kernel's.

  The reference joins hm·h, hs and h into one 768-long row and takes ONE dot product with the weight vector, where
  the kernel adds three 256-term sums: a sum over a joined axis is the sum of the pieces' sums, and addition of
  extended reals is associative and commutative, so the logits agree with no finiteness needed. The score is the
  same function of the logit on both sides (1 / (1 + e^(-x))). The reference then joins part1 and part2 into one
  512-long row c, takes sqrt (0 + sum_k c k · c k), clamps it below at D = 2305843 / 2^61 and divides c by it; the
  kernel multiplies by rsqrt (max (sum of the two halves' squares) D²). The squared length is a sum of squares, so
  it is never negative, and on non-negative s:  p · rsqrt (max s D²) = p / max (sqrt s) D.
-/
import proofs.«106194_j24283745091829_2_alg».proof.Proof.Spec
import proofs.«106194_j24283745091829_2_alg».proof.Proof.Consts
import proofs.«106194_j24283745091829_2_alg».proof.Proof.LibL2Normalize
import proofs.«106194_j24283745091829_2_alg».proof.Proof.LibCatCols

noncomputable section

namespace Cert.Spec

open Idealize.ShloMosaic

/-- A [768, 1] column of weights laid out as the [1, 768] row the kernel loads. -/
def rowOf (w : Mat 768 1) : Mat 1 768 := fun i => w (ValueIdx.ix2 (i 1) (i 0))

/-- Three 256-long rows joined into one of 768. -/
def cat3 (a b c : Fin 256 → EReal) (k : Fin 768) : EReal :=
  if hk : k.val < 256 then a ⟨k.val, hk⟩
  else if hk2 : k.val < 256 + 256 then b ⟨k.val - 256, by omega⟩
  else c ⟨k.val - (256 + 256), by omega⟩

/-- Two 256-long rows joined into one of 512. -/
def cat2 (a b : Fin 256 → EReal) (k : Fin 512) : EReal :=
  if hk : k.val < 256 then a ⟨k.val, hk⟩ else b ⟨k.val - 256, by omega⟩

/-- The reference's logit: one dot product of the joined row with the weight vector. -/
def logitR (h hm hs : Fin 256 → EReal) (w : Fin 768 → EReal) : EReal :=
  ∑ k : Fin 768, cat3 (fun j => hm j * h j) hs h k * w k

/-- The reference's score. -/
def scoreR (h hm hs : Fin 256 → EReal) (w : Fin 768 → EReal) : EReal :=
  Ideal.div 1 (1 + Ideal.exp (-(logitR h hm hs w)))

/-- The reference's clamp on the norm. -/
def eps : EReal := ((2305843 / 2305843009213693952 : ℝ) : EReal)

/-- The reference's normalised fused row. -/
def wsRowR (h hm hs x0 : Fin 256 → EReal) (w : Fin 768 → EReal) (j : Fin 512) : EReal :=
  Ideal.div (cat2 (part1 (scoreR h hm hs w) h) (part2 (scoreR h hm hs w) x0) j)
    (max (Ideal.sqrt (0 + ∑ k : Fin 512, cat2 (part1 (scoreR h hm hs w) h) (part2 (scoreR h hm hs w) x0) k
        * cat2 (part1 (scoreR h hm hs w) h) (part2 (scoreR h hm hs w) x0) k)) eps)

theorem cat3_first (a b c : Fin 256 → EReal) (k : Fin 256) : cat3 a b c ⟨k.val, by omega⟩ = a k := by
  unfold cat3; rw [dif_pos k.isLt]
theorem cat3_second (a b c : Fin 256 → EReal) (k : Fin 256) : cat3 a b c ⟨256 + k.val, by omega⟩ = b k := by
  unfold cat3
  rw [dif_neg (by show ¬ 256 + k.val < 256; omega), dif_pos (by show 256 + k.val < 256 + 256; omega)]
  exact congrArg b (Fin.ext (by show 256 + k.val - 256 = k.val; omega))
theorem cat3_third (a b c : Fin 256 → EReal) (k : Fin 256) : cat3 a b c ⟨256 + 256 + k.val, by omega⟩ = c k := by
  unfold cat3
  rw [dif_neg (by show ¬ 256 + 256 + k.val < 256; omega), dif_neg (by show ¬ 256 + 256 + k.val < 256 + 256; omega)]
  exact congrArg c (Fin.ext (by show 256 + 256 + k.val - (256 + 256) = k.val; omega))
theorem cat2_first (a b : Fin 256 → EReal) (k : Fin 256) : cat2 a b ⟨k.val, by omega⟩ = a k := by
  unfold cat2; rw [dif_pos k.isLt]
theorem cat2_second (a b : Fin 256 → EReal) (k : Fin 256) : cat2 a b ⟨256 + k.val, by omega⟩ = b k := by
  unfold cat2
  rw [dif_neg (by show ¬ 256 + k.val < 256; omega)]
  exact congrArg b (Fin.ext (by show 256 + k.val - 256 = k.val; omega))

/-- One dot product with the joined row is the three dot products added. -/
theorem logitR_eq (h hm hs : Fin 256 → EReal) (w : Fin 768 → EReal) : logitR h hm hs w = logit h hm hs w := by
  unfold logitR logit
  rw [Cert.CatCols.sum_three (K := 256) (K3 := 768) rfl]
  refine congrArg₂ (· + ·) (congrArg₂ (· + ·) ?_ ?_) ?_
  · exact Finset.sum_congr rfl fun k _ => by rw [cat3_first]
  · exact Finset.sum_congr rfl fun k _ => by rw [cat3_second]
  · refine Finset.sum_congr rfl fun k _ => ?_
    rw [cat3_third]

theorem scoreR_eq (h hm hs : Fin 256 → EReal) (w : Fin 768 → EReal) : scoreR h hm hs w = score h hm hs w := by
  unfold scoreR score
  rw [logitR_eq]
  rfl

/-- The joined row's squared length is the two halves' squared lengths added. -/
theorem sumsqR_eq (s : EReal) (h x0 : Fin 256 → EReal) :
    (0 + ∑ k : Fin 512, cat2 (part1 s h) (part2 s x0) k * cat2 (part1 s h) (part2 s x0) k) = sumsq s h x0 := by
  unfold sumsq
  rw [zero_add, Cert.CatCols.sum_two (K := 256) (K2 := 512) rfl]
  refine congrArg₂ (· + ·) ?_ ?_
  · exact Finset.sum_congr rfl fun k _ => by rw [cat2_first]
  · exact Finset.sum_congr rfl fun k _ => by rw [cat2_second]

theorem sumsq_nonneg (s : EReal) (h x0 : Fin 256 → EReal) : 0 ≤ sumsq s h x0 :=
  add_nonneg (Cert.L2Normalize.sum_mul_self_nonneg _ _) (Cert.L2Normalize.sum_mul_self_nonneg _ _)

theorem epsSq_eq_sq : epsSq = (((2305843 / 2305843009213693952 : ℝ) * (2305843 / 2305843009213693952 : ℝ) : ℝ) : EReal) := by
  unfold epsSq; rw [Cert.Consts.epsSq_eq]

/-- The reference's row is the kernel's row. -/
theorem wsRowR_eq (h hm hs x0 : Fin 256 → EReal) (w : Fin 768 → EReal) (j : Fin 512) :
    wsRowR h hm hs x0 w j = wsRow h hm hs x0 w j := by
  unfold wsRowR wsRow
  rw [scoreR_eq, sumsqR_eq]
  have key : ∀ p : EReal, Ideal.div p (max (Ideal.sqrt (sumsq (score h hm hs w) h x0)) eps)
      = p * invn (score h hm hs w) h x0 := fun p => by
    unfold invn eps
    rw [epsSq_eq_sq]
    exact (Cert.L2Normalize.mul_rsqrt_max p _ (sumsq_nonneg _ _ _) Cert.Consts.eps_pos).symm
  rw [key]
  by_cases hj : j.val < 256
  · rw [dif_pos hj]; unfold cat2; rw [dif_pos hj]
  · rw [dif_neg hj]; unfold cat2; rw [dif_neg hj]

end Cert.Spec

end
-- ==== Proof.RefDense.lean ====
/-
  The reference's four dense layers against the specification: a dot_general contracting the left operand's columns
  with the right operand's rows is, entry by entry, the sum over k of X(p, k)·W(k, q), the specification's matrix
  product; the first layer is followed by a maximum with zero.
-/
import proofs.«106194_j24283745091829_2_alg».proof.Proof.RefValP
import proofs.«106194_j24283745091829_2_alg».proof.Proof.Spec
import proofs.«106194_j24283745091829_2_alg».proof.Proof.SpecRef
import proofs.«106194_j24283745091829_2_alg».proof.Proof.Consts
import proofs.«106194_j24283745091829_2_alg».proof.Proof.LibSageLayer
import proofs.«106194_j24283745091829_2_alg».proof.Proof.LibCatCols

noncomputable section

namespace Cert.ReferenceIdeal.RefDense

open Cert.ReferenceIdeal Cert.ReferenceIdeal.ReadP Idealize.ShloMosaic Idealize.ShloMosaic.ValueIdx

/-! ## The dense layers -/

/-- A [50000, 512] by [512, 256] host product is the specification's matrix product. -/
theorem dense256 (X : FVec Ideal S50000x512 .f32) (W : FVec Ideal S512x256 .f32) :
    Host.dotGeneral (F := Ideal) dot_S50000x512_S512x256_S50000x256_1_0_0_1_n_n none X W = Cert.Spec.mm X W := by
  funext i
  obtain ⟨p, q, rfl⟩ : ∃ (p : Fin 50000) (q : Fin 256), i = ix2 p q := ⟨i 0, i 1, eq_ix2 i⟩
  exact Cert.SageLayer.dotGeneral_rows_cols dot_S50000x512_S512x256_S50000x256_1_0_0_1_n_n rfl rfl
    lhs_main_v4_0 lhs_main_v4_1 rhs_main_v4_0 rhs_main_v4_1 none X W p q

/-- A [50000, 512] by [512, 64] host product is the specification's matrix product. -/
theorem dense64 (X : FVec Ideal S50000x512 .f32) (W : FVec Ideal S512x64 .f32) :
    Host.dotGeneral (F := Ideal) dot_S50000x512_S512x64_S50000x64_1_0_0_1_n_n none X W = Cert.Spec.mm X W := by
  funext i
  obtain ⟨p, q, rfl⟩ : ∃ (p : Fin 50000) (q : Fin 64), i = ix2 p q := ⟨i 0, i 1, eq_ix2 i⟩
  exact Cert.SageLayer.dotGeneral_rows_cols dot_S50000x512_S512x64_S50000x64_1_0_0_1_n_n rfl rfl
    lhs_main_v216_0 lhs_main_v216_1 rhs_main_v216_0 rhs_main_v216_1 none X W p q

/-- The residual features: the rectified product of the inputs with the residual weights. -/
theorem residual (x0 : (⟨S50000x512, .f32⟩ : BufTy).Contents (Elt Ideal)) (x8 : (⟨S512x256, .f32⟩ : BufTy).Contents (Elt Ideal)) : val_main_v5 (F := Ideal) x0 x8 = Cert.Spec.mmRelu x0 x8 := by
  funext i
  rw [val_main_v5_apply, val_main_call0_v0_apply, val_main_call0_cst_apply]
  unfold val_main_v4 Cert.Spec.mmRelu
  rw [dense256, ← Cert.Consts.ofBits_zero]
  rfl

/-- The first layer's linear part. -/
theorem linear0 (x0 : (⟨S50000x512, .f32⟩ : BufTy).Contents (Elt Ideal)) (x2 : (⟨S512x256, .f32⟩ : BufTy).Contents (Elt Ideal)) : val_main_v6 (F := Ideal) x0 x2 = Cert.Spec.mm x0 x2 := by
  unfold val_main_v6; exact dense256 _ _

/-- The second layer's linear part, of the first weight-score stage's rows. -/
theorem linear1 (x0 : (⟨S50000x512, .f32⟩ : BufTy).Contents (Elt Ideal)) (x1 : (⟨S2x800000, .i32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x8 : (⟨S512x256, .f32⟩ : BufTy).Contents (Elt Ideal)) (x9 : (⟨S768x1, .f32⟩ : BufTy).Contents (Elt Ideal)) : val_main_v111 (F := Ideal) x0 x1 x2 x3 x4 x8 x9 = Cert.Spec.mm (val_main_v110 (F := Ideal) x0 x1 x2 x3 x8 x9) x4 := by
  unfold val_main_v111; exact dense256 _ _

/-- The last layer's linear part, of the second weight-score stage's rows. -/
theorem linear2 (x0 : (⟨S50000x512, .f32⟩ : BufTy).Contents (Elt Ideal)) (x1 : (⟨S2x800000, .i32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256, .f32⟩ : BufTy).Contents (Elt Ideal)) (x6 : (⟨S512x64, .f32⟩ : BufTy).Contents (Elt Ideal)) (x8 : (⟨S512x256, .f32⟩ : BufTy).Contents (Elt Ideal)) (x9 : (⟨S768x1, .f32⟩ : BufTy).Contents (Elt Ideal)) : val_main_v216 (F := Ideal) x0 x1 x2 x3 x4 x5 x6 x8 x9 = Cert.Spec.mm (val_main_v215 (F := Ideal) x0 x1 x2 x3 x4 x5 x8 x9) x6 := by
  unfold val_main_v216; exact dense64 _ _

end Cert.ReferenceIdeal.RefDense

end
-- ==== Proof.RefWs0.lean ====
/-
  The reference's weight-score stage of layer 0, row by row, against the specification: the joined 768-long row and
  its ONE dot product with the weight column (the logit), the score 1 / (1 + e^(-logit)), the two parts joined into a
  512-long row, and that row divided by its norm clamped below. This is the reference's spelling of the row; the
  specification's second module shows it equal to the kernel's spelling.
-/
import proofs.«106194_j24283745091829_2_alg».proof.Proof.RefValP
import proofs.«106194_j24283745091829_2_alg».proof.Proof.Spec
import proofs.«106194_j24283745091829_2_alg».proof.Proof.SpecRef
import proofs.«106194_j24283745091829_2_alg».proof.Proof.Consts
import proofs.«106194_j24283745091829_2_alg».proof.Proof.LibSageLayer
import proofs.«106194_j24283745091829_2_alg».proof.Proof.LibCatCols

noncomputable section

namespace Cert.ReferenceIdeal.RefWs0

open Cert.ReferenceIdeal Cert.ReferenceIdeal.Gen Cert.ReferenceIdeal.ReadP Idealize.ShloMosaic Idealize.ShloMosaic.ValueIdx

/-! ## The weight-score stage of layer 0, read at a row -/

section Layer0

variable (x0 : (⟨S50000x512, .f32⟩ : BufTy).Contents (Elt Ideal)) (x1 : (⟨S2x800000, .i32⟩ : BufTy).Contents (Elt Ideal)) (x2 : (⟨S512x256, .f32⟩ : BufTy).Contents (Elt Ideal)) (x3 : (⟨S256, .f32⟩ : BufTy).Contents (Elt Ideal)) (x8 : (⟨S512x256, .f32⟩ : BufTy).Contents (Elt Ideal)) (x9 : (⟨S768x1, .f32⟩ : BufTy).Contents (Elt Ideal))

/-- The joined 768-long row at column k. -/
theorem joined0 (r : Fin 50000) (k : Fin 768) :
    val_main_v91 (F := Ideal) x0 x1 x2 x3 (ix2 r k)
      = Cert.Spec.cat3 (fun j : Fin 256 => (val_main_v68 (F := Ideal) x0 x1 x2 x3) (ix2 r j) * (val_main_v49 (F := Ideal) x0 x1 x2 x3) (ix2 r j)) (fun k : Fin 256 => (val_main_v89 (F := Ideal) x0 x1 x2 x3) (ix2 r k)) (fun k : Fin 256 => (val_main_v49 (F := Ideal) x0 x1 x2 x3) (ix2 r k)) k := by
  unfold val_main_v91 val_main_v90
  generalize val_main_v68 (F := Ideal) x0 x1 x2 x3 = a
  generalize val_main_v49 (F := Ideal) x0 x1 x2 x3 = b
  generalize val_main_v89 (F := Ideal) x0 x1 x2 x3 = c
  refine (Cert.CatCols.cat3_apply (K := 256) (K3 := 768) rfl _ _ _ concatenates_S50000x256_S50000x256_S50000x256_S50000x768_d1 r k).trans ?_
  unfold Cert.Spec.cat3
  by_cases hk : k.val < 256
  · rw [dif_pos hk, dif_pos hk]; exact ValueIdx.mulf_apply a b _
  · rw [dif_neg hk, dif_neg hk]

/-- The logit of row r: the joined row's dot product with the weight column. -/
theorem logit0 (r : Fin 50000) :
    val_main_v92 (F := Ideal) x0 x1 x2 x3 x9 (ix2 r (0 : Fin 1)) = Cert.Spec.logitR (fun k : Fin 256 => (val_main_v49 (F := Ideal) x0 x1 x2 x3) (ix2 r k)) (fun k : Fin 256 => (val_main_v68 (F := Ideal) x0 x1 x2 x3) (ix2 r k)) (fun k : Fin 256 => (val_main_v89 (F := Ideal) x0 x1 x2 x3) (ix2 r k)) (fun k : Fin 768 => x9 (ix2 k (0 : Fin 1))) := by
  rw [val_main_v92_apply]
  unfold Cert.Spec.logitR
  refine Finset.sum_congr rfl fun k _ => ?_
  have e1 : lidx_main_v92 (ix2 r (0 : Fin 1)) k = ix2 r k :=
    funext fun a => Fin.ext (by match a with | ⟨0, _⟩ => rfl | ⟨1, _⟩ => rfl)
  have e2 : ridx_main_v92 (ix2 r (0 : Fin 1)) k = ix2 k (0 : Fin 1) :=
    funext fun a => Fin.ext (by match a with | ⟨0, _⟩ => rfl | ⟨1, _⟩ => rfl)
  rw [e1, e2, joined0]

/-- The score of row r. -/
theorem score0 (r : Fin 50000) :
    val_main_v98 (F := Ideal) x0 x1 x2 x3 x9 (ix2 r (0 : Fin 1)) = (Cert.Spec.scoreR (fun k : Fin 256 => (val_main_v49 (F := Ideal) x0 x1 x2 x3) (ix2 r k)) (fun k : Fin 256 => (val_main_v68 (F := Ideal) x0 x1 x2 x3) (ix2 r k)) (fun k : Fin 256 => (val_main_v89 (F := Ideal) x0 x1 x2 x3) (ix2 r k)) (fun k : Fin 768 => x9 (ix2 k (0 : Fin 1)))) := by
  rw [val_main_v98_apply, val_main_v97_apply, val_main_cst_22_apply, val_main_v96_apply, val_main_v95_apply, val_main_cst_21_apply,
    val_main_v94_apply, val_main_v93_apply, logit0]
  unfold Cert.Spec.scoreR
  generalize Cert.Spec.logitR _ _ _ _ = L
  rw [← Cert.Consts.ofBits_one]
  rfl

/-- The de-smoothed part at (r, j). -/
theorem partOne0 (r : Fin 50000) (j : Fin 256) :
    val_main_v102 (F := Ideal) x0 x1 x2 x3 x9 (ix2 r j) = Cert.Spec.part1 (Cert.Spec.scoreR (fun k : Fin 256 => (val_main_v49 (F := Ideal) x0 x1 x2 x3) (ix2 r k)) (fun k : Fin 256 => (val_main_v68 (F := Ideal) x0 x1 x2 x3) (ix2 r k)) (fun k : Fin 256 => (val_main_v89 (F := Ideal) x0 x1 x2 x3) (ix2 r k)) (fun k : Fin 768 => x9 (ix2 k (0 : Fin 1)))) (fun k : Fin 256 => (val_main_v49 (F := Ideal) x0 x1 x2 x3) (ix2 r k)) j := by
  rw [val_main_v102_apply, val_main_v101_apply, val_main_v100_apply, val_main_v99_apply, val_main_cst_23_apply]
  have e : idx_main_v101 (ix2 r j) = ix2 r (0 : Fin 1) :=
    funext fun a => Fin.ext (by match a with | ⟨0, _⟩ => rfl | ⟨1, _⟩ => rfl)
  rw [e, score0]
  unfold Cert.Spec.part1
  generalize Cert.Spec.scoreR _ _ _ _ = S
  generalize val_main_v49 (F := Ideal) x0 x1 x2 x3 = b
  rw [← Cert.Consts.ofBits_one]
  rfl

/-- The residual part at (r, j). -/
theorem partTwo0 (r : Fin 50000) (j : Fin 256) :
    val_main_v104 (F := Ideal) x0 x1 x2 x3 x8 x9 (ix2 r j) = Cert.Spec.part2 (Cert.Spec.scoreR (fun k : Fin 256 => (val_main_v49 (F := Ideal) x0 x1 x2 x3) (ix2 r k)) (fun k : Fin 256 => (val_main_v68 (F := Ideal) x0 x1 x2 x3) (ix2 r k)) (fun k : Fin 256 => (val_main_v89 (F := Ideal) x0 x1 x2 x3) (ix2 r k)) (fun k : Fin 768 => x9 (ix2 k (0 : Fin 1)))) (fun k : Fin 256 => (val_main_v5 (F := Ideal) x0 x8) (ix2 r k)) j := by
  rw [val_main_v104_apply, val_main_v103_apply]
  have e : idx_main_v103 (ix2 r j) = ix2 r (0 : Fin 1) :=
    funext fun a => Fin.ext (by match a with | ⟨0, _⟩ => rfl | ⟨1, _⟩ => rfl)
  rw [e, score0]
  unfold Cert.Spec.part2
  generalize Cert.Spec.scoreR _ _ _ _ = S
  generalize val_main_v5 (F := Ideal) x0 x8 = d
  rfl

/-- The fused 512-long row at column k. -/
theorem fused0 (r : Fin 50000) (k : Fin 512) :
    val_main_v105 (F := Ideal) x0 x1 x2 x3 x8 x9 (ix2 r k) = (Cert.Spec.cat2 (Cert.Spec.part1 (Cert.Spec.scoreR (fun k : Fin 256 => (val_main_v49 (F := Ideal) x0 x1 x2 x3) (ix2 r k)) (fun k : Fin 256 => (val_main_v68 (F := Ideal) x0 x1 x2 x3) (ix2 r k)) (fun k : Fin 256 => (val_main_v89 (F := Ideal) x0 x1 x2 x3) (ix2 r k)) (fun k : Fin 768 => x9 (ix2 k (0 : Fin 1)))) (fun k : Fin 256 => (val_main_v49 (F := Ideal) x0 x1 x2 x3) (ix2 r k))) (Cert.Spec.part2 (Cert.Spec.scoreR (fun k : Fin 256 => (val_main_v49 (F := Ideal) x0 x1 x2 x3) (ix2 r k)) (fun k : Fin 256 => (val_main_v68 (F := Ideal) x0 x1 x2 x3) (ix2 r k)) (fun k : Fin 256 => (val_main_v89 (F := Ideal) x0 x1 x2 x3) (ix2 r k)) (fun k : Fin 768 => x9 (ix2 k (0 : Fin 1)))) (fun k : Fin 256 => (val_main_v5 (F := Ideal) x0 x8) (ix2 r k)))) k := by
  unfold val_main_v105
  refine (Cert.CatCols.cat2_apply (K := 256) (K2 := 512) rfl _ _ concatenates_S50000x256_S50000x256_S50000x512_d1 r k).trans ?_
  unfold Cert.Spec.cat2
  by_cases hk : k.val < 256
  · rw [dif_pos hk, dif_pos hk]; exact partOne0 x0 x1 x2 x3 x9 r ⟨k.val, hk⟩
  · rw [dif_neg hk, dif_neg hk]; exact partTwo0 x0 x1 x2 x3 x8 x9 r ⟨k.val - 256, by omega⟩

/-- The normalised row at (r, j), in the reference's spelling. -/
theorem row0 (r : Fin 50000) (j : Fin 512) :
    val_main_v110 (F := Ideal) x0 x1 x2 x3 x8 x9 (ix2 r j) = Cert.Spec.wsRowR (fun k : Fin 256 => (val_main_v49 (F := Ideal) x0 x1 x2 x3) (ix2 r k)) (fun k : Fin 256 => (val_main_v68 (F := Ideal) x0 x1 x2 x3) (ix2 r k)) (fun k : Fin 256 => (val_main_v89 (F := Ideal) x0 x1 x2 x3) (ix2 r k)) (fun k : Fin 256 => (val_main_v5 (F := Ideal) x0 x8) (ix2 r k)) (fun k : Fin 768 => x9 (ix2 k (0 : Fin 1))) j := by
  rw [val_main_v110_apply, val_main_v109_apply, val_main_v108_apply, val_main_v106_apply, val_main_call3_v2_apply, val_main_call3_v1_apply,
    val_main_v107_apply, val_main_cst_24_apply, val_main_call3_cst_apply, fused0]
  have es : ∀ k : Fin 512, val_main_call3_v0 (F := Ideal) x0 x1 x2 x3 x8 x9 (idx_main_call3_v1 (idx_main_call3_v2 (idx_main_v109 (ix2 r j))) k)
      = (Cert.Spec.cat2 (Cert.Spec.part1 (Cert.Spec.scoreR (fun k : Fin 256 => (val_main_v49 (F := Ideal) x0 x1 x2 x3) (ix2 r k)) (fun k : Fin 256 => (val_main_v68 (F := Ideal) x0 x1 x2 x3) (ix2 r k)) (fun k : Fin 256 => (val_main_v89 (F := Ideal) x0 x1 x2 x3) (ix2 r k)) (fun k : Fin 768 => x9 (ix2 k (0 : Fin 1)))) (fun k : Fin 256 => (val_main_v49 (F := Ideal) x0 x1 x2 x3) (ix2 r k))) (Cert.Spec.part2 (Cert.Spec.scoreR (fun k : Fin 256 => (val_main_v49 (F := Ideal) x0 x1 x2 x3) (ix2 r k)) (fun k : Fin 256 => (val_main_v68 (F := Ideal) x0 x1 x2 x3) (ix2 r k)) (fun k : Fin 256 => (val_main_v89 (F := Ideal) x0 x1 x2 x3) (ix2 r k)) (fun k : Fin 768 => x9 (ix2 k (0 : Fin 1)))) (fun k : Fin 256 => (val_main_v5 (F := Ideal) x0 x8) (ix2 r k)))) k * (Cert.Spec.cat2 (Cert.Spec.part1 (Cert.Spec.scoreR (fun k : Fin 256 => (val_main_v49 (F := Ideal) x0 x1 x2 x3) (ix2 r k)) (fun k : Fin 256 => (val_main_v68 (F := Ideal) x0 x1 x2 x3) (ix2 r k)) (fun k : Fin 256 => (val_main_v89 (F := Ideal) x0 x1 x2 x3) (ix2 r k)) (fun k : Fin 768 => x9 (ix2 k (0 : Fin 1)))) (fun k : Fin 256 => (val_main_v49 (F := Ideal) x0 x1 x2 x3) (ix2 r k))) (Cert.Spec.part2 (Cert.Spec.scoreR (fun k : Fin 256 => (val_main_v49 (F := Ideal) x0 x1 x2 x3) (ix2 r k)) (fun k : Fin 256 => (val_main_v68 (F := Ideal) x0 x1 x2 x3) (ix2 r k)) (fun k : Fin 256 => (val_main_v89 (F := Ideal) x0 x1 x2 x3) (ix2 r k)) (fun k : Fin 768 => x9 (ix2 k (0 : Fin 1)))) (fun k : Fin 256 => (val_main_v5 (F := Ideal) x0 x8) (ix2 r k)))) k := fun k => by
    have e : idx_main_call3_v1 (idx_main_call3_v2 (idx_main_v109 (ix2 r j))) k = ix2 r k :=
      funext fun a => Fin.ext (by match a with | ⟨0, _⟩ => rfl | ⟨1, _⟩ => rfl)
    rw [e, val_main_call3_v0_apply, fused0]
    generalize Cert.Spec.cat2 _ _ k = y
    rfl
  rw [Finset.sum_congr rfl fun k _ => es k]
  unfold Cert.Spec.wsRowR Cert.Spec.eps
  generalize Cert.Spec.cat2 _ _ = cc
  rw [← Cert.Consts.ofBits_eps, ← Cert.Consts.ofBits_zero]
  rfl

/-- The whole stage: the specification's weight-score fusion of the layer's four operands and the weight row. -/
theorem ws0 : val_main_v110 (F := Ideal) x0 x1 x2 x3 x8 x9 = Cert.Spec.ws (val_main_v49 (F := Ideal) x0 x1 x2 x3) (val_main_v68 (F := Ideal) x0 x1 x2 x3) (val_main_v89 (F := Ideal) x0 x1 x2 x3) (val_main_v5 (F := Ideal) x0 x8) (Cert.Spec.rowOf x9) := by
  funext i
  obtain ⟨r, j, rfl⟩ : ∃ (r : Fin 50000) (j : Fin 512), i = ix2 r j := ⟨i 0, i 1, eq_ix2 i⟩
  rw [row0, Cert.Spec.wsRowR_eq]
  generalize val_main_v49 (F := Ideal) x0 x1 x2 x3 = b
  generalize val_main_v68 (F := Ideal) x0 x1 x2 x3 = a
  generalize val_main_v89 (F := Ideal) x0 x1 x2 x3 = c
  generalize val_main_v5 (F := Ideal) x0 x8 = d
  rfl

end Layer0

end Cert.ReferenceIdeal.RefWs0

end
-- ==== Proof.RefWs1.lean ====
/-
  The reference's weight-score stage of layer 1, row by row, against the specification: the joined 768-long row and
  its ONE dot product with the weight column (the logit), the score 1 / (1 + e^(-logit)), the two parts joined into a
  512-long row, and that row divided by its norm clamped below. This is the reference's spelling of the row; the
  specification's second module shows it equal to the kernel's spelling.
-/
import proofs.«106194_j24283745091829_2_alg».proof.Proof.RefValP
import proofs.«106194_j24283745091829_2_alg».proof.Proof.Spec
import proofs.«106194_j24283745091829_2_alg».proof.Proof.SpecRef
import proofs.«106194_j24283745091829_2_alg».proof.Proof.Consts
import proofs.«106194_j24283745091829_2_alg».proof.Proof.LibSageLayer
import proofs.«106194_j24283745091829_2_alg».proof.Proof.LibCatCols

noncomputable section

namespace Cert.ReferenceIdeal.RefWs1

open Cert.ReferenceIdeal Cert.ReferenceIdeal.Gen Cert.ReferenceIdeal.ReadP Idealize.ShloMosaic Idealize.ShloMosaic.ValueIdx

/-! ## The weight-score stage of layer 1, read at a row -/

section Layer1

variable (x0 : (⟨S50000x512, .f32⟩ : BufTy).Contents (Elt Ideal)) (x1 : (⟨S2x800000, .i32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256, .f32⟩ : BufTy).Contents (Elt Ideal)) (x8 : (⟨S512x256, .f32⟩ : BufTy).Contents (Elt Ideal)) (x9 : (⟨S768x1, .f32⟩ : BufTy).Contents (Elt Ideal))

/-- The joined 768-long row at column k. -/
theorem joined1 (r : Fin 50000) (k : Fin 768) :
    val_main_v196 (F := Ideal) x0 x1 x2 x3 x4 x5 x8 x9 (ix2 r k)
      = Cert.Spec.cat3 (fun j : Fin 256 => (val_main_v173 (F := Ideal) x0 x1 x2 x3 x4 x5 x8 x9) (ix2 r j) * (val_main_v154 (F := Ideal) x0 x1 x2 x3 x4 x5 x8 x9) (ix2 r j)) (fun k : Fin 256 => (val_main_v194 (F := Ideal) x0 x1 x2 x3 x4 x5 x8 x9) (ix2 r k)) (fun k : Fin 256 => (val_main_v154 (F := Ideal) x0 x1 x2 x3 x4 x5 x8 x9) (ix2 r k)) k := by
  unfold val_main_v196 val_main_v195
  generalize val_main_v173 (F := Ideal) x0 x1 x2 x3 x4 x5 x8 x9 = a
  generalize val_main_v154 (F := Ideal) x0 x1 x2 x3 x4 x5 x8 x9 = b
  generalize val_main_v194 (F := Ideal) x0 x1 x2 x3 x4 x5 x8 x9 = c
  refine (Cert.CatCols.cat3_apply (K := 256) (K3 := 768) rfl _ _ _ concatenates_S50000x256_S50000x256_S50000x256_S50000x768_d1 r k).trans ?_
  unfold Cert.Spec.cat3
  by_cases hk : k.val < 256
  · rw [dif_pos hk, dif_pos hk]; exact ValueIdx.mulf_apply a b _
  · rw [dif_neg hk, dif_neg hk]

/-- The logit of row r: the joined row's dot product with the weight column. -/
theorem logit1 (r : Fin 50000) :
    val_main_v197 (F := Ideal) x0 x1 x2 x3 x4 x5 x8 x9 (ix2 r (0 : Fin 1)) = Cert.Spec.logitR (fun k : Fin 256 => (val_main_v154 (F := Ideal) x0 x1 x2 x3 x4 x5 x8 x9) (ix2 r k)) (fun k : Fin 256 => (val_main_v173 (F := Ideal) x0 x1 x2 x3 x4 x5 x8 x9) (ix2 r k)) (fun k : Fin 256 => (val_main_v194 (F := Ideal) x0 x1 x2 x3 x4 x5 x8 x9) (ix2 r k)) (fun k : Fin 768 => x9 (ix2 k (0 : Fin 1))) := by
  rw [val_main_v197_apply]
  unfold Cert.Spec.logitR
  refine Finset.sum_congr rfl fun k _ => ?_
  have e1 : lidx_main_v197 (ix2 r (0 : Fin 1)) k = ix2 r k :=
    funext fun a => Fin.ext (by match a with | ⟨0, _⟩ => rfl | ⟨1, _⟩ => rfl)
  have e2 : ridx_main_v197 (ix2 r (0 : Fin 1)) k = ix2 k (0 : Fin 1) :=
    funext fun a => Fin.ext (by match a with | ⟨0, _⟩ => rfl | ⟨1, _⟩ => rfl)
  rw [e1, e2, joined1]

/-- The score of row r. -/
theorem score1 (r : Fin 50000) :
    val_main_v203 (F := Ideal) x0 x1 x2 x3 x4 x5 x8 x9 (ix2 r (0 : Fin 1)) = (Cert.Spec.scoreR (fun k : Fin 256 => (val_main_v154 (F := Ideal) x0 x1 x2 x3 x4 x5 x8 x9) (ix2 r k)) (fun k : Fin 256 => (val_main_v173 (F := Ideal) x0 x1 x2 x3 x4 x5 x8 x9) (ix2 r k)) (fun k : Fin 256 => (val_main_v194 (F := Ideal) x0 x1 x2 x3 x4 x5 x8 x9) (ix2 r k)) (fun k : Fin 768 => x9 (ix2 k (0 : Fin 1)))) := by
  rw [val_main_v203_apply, val_main_v202_apply, val_main_cst_49_apply, val_main_v201_apply, val_main_v200_apply, val_main_cst_48_apply,
    val_main_v199_apply, val_main_v198_apply, logit1]
  unfold Cert.Spec.scoreR
  generalize Cert.Spec.logitR _ _ _ _ = L
  rw [← Cert.Consts.ofBits_one]
  rfl

/-- The de-smoothed part at (r, j). -/
theorem partOne1 (r : Fin 50000) (j : Fin 256) :
    val_main_v207 (F := Ideal) x0 x1 x2 x3 x4 x5 x8 x9 (ix2 r j) = Cert.Spec.part1 (Cert.Spec.scoreR (fun k : Fin 256 => (val_main_v154 (F := Ideal) x0 x1 x2 x3 x4 x5 x8 x9) (ix2 r k)) (fun k : Fin 256 => (val_main_v173 (F := Ideal) x0 x1 x2 x3 x4 x5 x8 x9) (ix2 r k)) (fun k : Fin 256 => (val_main_v194 (F := Ideal) x0 x1 x2 x3 x4 x5 x8 x9) (ix2 r k)) (fun k : Fin 768 => x9 (ix2 k (0 : Fin 1)))) (fun k : Fin 256 => (val_main_v154 (F := Ideal) x0 x1 x2 x3 x4 x5 x8 x9) (ix2 r k)) j := by
  rw [val_main_v207_apply, val_main_v206_apply, val_main_v205_apply, val_main_v204_apply, val_main_cst_50_apply]
  have e : idx_main_v206 (ix2 r j) = ix2 r (0 : Fin 1) :=
    funext fun a => Fin.ext (by match a with | ⟨0, _⟩ => rfl | ⟨1, _⟩ => rfl)
  rw [e, score1]
  unfold Cert.Spec.part1
  generalize Cert.Spec.scoreR _ _ _ _ = S
  generalize val_main_v154 (F := Ideal) x0 x1 x2 x3 x4 x5 x8 x9 = b
  rw [← Cert.Consts.ofBits_one]
  rfl

/-- The residual part at (r, j). -/
theorem partTwo1 (r : Fin 50000) (j : Fin 256) :
    val_main_v209 (F := Ideal) x0 x1 x2 x3 x4 x5 x8 x9 (ix2 r j) = Cert.Spec.part2 (Cert.Spec.scoreR (fun k : Fin 256 => (val_main_v154 (F := Ideal) x0 x1 x2 x3 x4 x5 x8 x9) (ix2 r k)) (fun k : Fin 256 => (val_main_v173 (F := Ideal) x0 x1 x2 x3 x4 x5 x8 x9) (ix2 r k)) (fun k : Fin 256 => (val_main_v194 (F := Ideal) x0 x1 x2 x3 x4 x5 x8 x9) (ix2 r k)) (fun k : Fin 768 => x9 (ix2 k (0 : Fin 1)))) (fun k : Fin 256 => (val_main_v5 (F := Ideal) x0 x8) (ix2 r k)) j := by
  rw [val_main_v209_apply, val_main_v208_apply]
  have e : idx_main_v208 (ix2 r j) = ix2 r (0 : Fin 1) :=
    funext fun a => Fin.ext (by match a with | ⟨0, _⟩ => rfl | ⟨1, _⟩ => rfl)
  rw [e, score1]
  unfold Cert.Spec.part2
  generalize Cert.Spec.scoreR _ _ _ _ = S
  generalize val_main_v5 (F := Ideal) x0 x8 = d
  rfl

/-- The fused 512-long row at column k. -/
theorem fused1 (r : Fin 50000) (k : Fin 512) :
    val_main_v210 (F := Ideal) x0 x1 x2 x3 x4 x5 x8 x9 (ix2 r k) = (Cert.Spec.cat2 (Cert.Spec.part1 (Cert.Spec.scoreR (fun k : Fin 256 => (val_main_v154 (F := Ideal) x0 x1 x2 x3 x4 x5 x8 x9) (ix2 r k)) (fun k : Fin 256 => (val_main_v173 (F := Ideal) x0 x1 x2 x3 x4 x5 x8 x9) (ix2 r k)) (fun k : Fin 256 => (val_main_v194 (F := Ideal) x0 x1 x2 x3 x4 x5 x8 x9) (ix2 r k)) (fun k : Fin 768 => x9 (ix2 k (0 : Fin 1)))) (fun k : Fin 256 => (val_main_v154 (F := Ideal) x0 x1 x2 x3 x4 x5 x8 x9) (ix2 r k))) (Cert.Spec.part2 (Cert.Spec.scoreR (fun k : Fin 256 => (val_main_v154 (F := Ideal) x0 x1 x2 x3 x4 x5 x8 x9) (ix2 r k)) (fun k : Fin 256 => (val_main_v173 (F := Ideal) x0 x1 x2 x3 x4 x5 x8 x9) (ix2 r k)) (fun k : Fin 256 => (val_main_v194 (F := Ideal) x0 x1 x2 x3 x4 x5 x8 x9) (ix2 r k)) (fun k : Fin 768 => x9 (ix2 k (0 : Fin 1)))) (fun k : Fin 256 => (val_main_v5 (F := Ideal) x0 x8) (ix2 r k)))) k := by
  unfold val_main_v210
  refine (Cert.CatCols.cat2_apply (K := 256) (K2 := 512) rfl _ _ concatenates_S50000x256_S50000x256_S50000x512_d1 r k).trans ?_
  unfold Cert.Spec.cat2
  by_cases hk : k.val < 256
  · rw [dif_pos hk, dif_pos hk]; exact partOne1 x0 x1 x2 x3 x4 x5 x8 x9 r ⟨k.val, hk⟩
  · rw [dif_neg hk, dif_neg hk]; exact partTwo1 x0 x1 x2 x3 x4 x5 x8 x9 r ⟨k.val - 256, by omega⟩

/-- The normalised row at (r, j), in the reference's spelling. -/
theorem row1 (r : Fin 50000) (j : Fin 512) :
    val_main_v215 (F := Ideal) x0 x1 x2 x3 x4 x5 x8 x9 (ix2 r j) = Cert.Spec.wsRowR (fun k : Fin 256 => (val_main_v154 (F := Ideal) x0 x1 x2 x3 x4 x5 x8 x9) (ix2 r k)) (fun k : Fin 256 => (val_main_v173 (F := Ideal) x0 x1 x2 x3 x4 x5 x8 x9) (ix2 r k)) (fun k : Fin 256 => (val_main_v194 (F := Ideal) x0 x1 x2 x3 x4 x5 x8 x9) (ix2 r k)) (fun k : Fin 256 => (val_main_v5 (F := Ideal) x0 x8) (ix2 r k)) (fun k : Fin 768 => x9 (ix2 k (0 : Fin 1))) j := by
  rw [val_main_v215_apply, val_main_v214_apply, val_main_v213_apply, val_main_v211_apply, val_main_call6_v2_apply, val_main_call6_v1_apply,
    val_main_v212_apply, val_main_cst_51_apply, val_main_call6_cst_apply, fused1]
  have es : ∀ k : Fin 512, val_main_call6_v0 (F := Ideal) x0 x1 x2 x3 x4 x5 x8 x9 (idx_main_call6_v1 (idx_main_call6_v2 (idx_main_v214 (ix2 r j))) k)
      = (Cert.Spec.cat2 (Cert.Spec.part1 (Cert.Spec.scoreR (fun k : Fin 256 => (val_main_v154 (F := Ideal) x0 x1 x2 x3 x4 x5 x8 x9) (ix2 r k)) (fun k : Fin 256 => (val_main_v173 (F := Ideal) x0 x1 x2 x3 x4 x5 x8 x9) (ix2 r k)) (fun k : Fin 256 => (val_main_v194 (F := Ideal) x0 x1 x2 x3 x4 x5 x8 x9) (ix2 r k)) (fun k : Fin 768 => x9 (ix2 k (0 : Fin 1)))) (fun k : Fin 256 => (val_main_v154 (F := Ideal) x0 x1 x2 x3 x4 x5 x8 x9) (ix2 r k))) (Cert.Spec.part2 (Cert.Spec.scoreR (fun k : Fin 256 => (val_main_v154 (F := Ideal) x0 x1 x2 x3 x4 x5 x8 x9) (ix2 r k)) (fun k : Fin 256 => (val_main_v173 (F := Ideal) x0 x1 x2 x3 x4 x5 x8 x9) (ix2 r k)) (fun k : Fin 256 => (val_main_v194 (F := Ideal) x0 x1 x2 x3 x4 x5 x8 x9) (ix2 r k)) (fun k : Fin 768 => x9 (ix2 k (0 : Fin 1)))) (fun k : Fin 256 => (val_main_v5 (F := Ideal) x0 x8) (ix2 r k)))) k * (Cert.Spec.cat2 (Cert.Spec.part1 (Cert.Spec.scoreR (fun k : Fin 256 => (val_main_v154 (F := Ideal) x0 x1 x2 x3 x4 x5 x8 x9) (ix2 r k)) (fun k : Fin 256 => (val_main_v173 (F := Ideal) x0 x1 x2 x3 x4 x5 x8 x9) (ix2 r k)) (fun k : Fin 256 => (val_main_v194 (F := Ideal) x0 x1 x2 x3 x4 x5 x8 x9) (ix2 r k)) (fun k : Fin 768 => x9 (ix2 k (0 : Fin 1)))) (fun k : Fin 256 => (val_main_v154 (F := Ideal) x0 x1 x2 x3 x4 x5 x8 x9) (ix2 r k))) (Cert.Spec.part2 (Cert.Spec.scoreR (fun k : Fin 256 => (val_main_v154 (F := Ideal) x0 x1 x2 x3 x4 x5 x8 x9) (ix2 r k)) (fun k : Fin 256 => (val_main_v173 (F := Ideal) x0 x1 x2 x3 x4 x5 x8 x9) (ix2 r k)) (fun k : Fin 256 => (val_main_v194 (F := Ideal) x0 x1 x2 x3 x4 x5 x8 x9) (ix2 r k)) (fun k : Fin 768 => x9 (ix2 k (0 : Fin 1)))) (fun k : Fin 256 => (val_main_v5 (F := Ideal) x0 x8) (ix2 r k)))) k := fun k => by
    have e : idx_main_call6_v1 (idx_main_call6_v2 (idx_main_v214 (ix2 r j))) k = ix2 r k :=
      funext fun a => Fin.ext (by match a with | ⟨0, _⟩ => rfl | ⟨1, _⟩ => rfl)
    rw [e, val_main_call6_v0_apply, fused1]
    generalize Cert.Spec.cat2 _ _ k = y
    rfl
  rw [Finset.sum_congr rfl fun k _ => es k]
  unfold Cert.Spec.wsRowR Cert.Spec.eps
  generalize Cert.Spec.cat2 _ _ = cc
  rw [← Cert.Consts.ofBits_eps, ← Cert.Consts.ofBits_zero]
  rfl

/-- The whole stage: the specification's weight-score fusion of the layer's four operands and the weight row. -/
theorem ws1 : val_main_v215 (F := Ideal) x0 x1 x2 x3 x4 x5 x8 x9 = Cert.Spec.ws (val_main_v154 (F := Ideal) x0 x1 x2 x3 x4 x5 x8 x9) (val_main_v173 (F := Ideal) x0 x1 x2 x3 x4 x5 x8 x9) (val_main_v194 (F := Ideal) x0 x1 x2 x3 x4 x5 x8 x9) (val_main_v5 (F := Ideal) x0 x8) (Cert.Spec.rowOf x9) := by
  funext i
  obtain ⟨r, j, rfl⟩ : ∃ (r : Fin 50000) (j : Fin 512), i = ix2 r j := ⟨i 0, i 1, eq_ix2 i⟩
  rw [row1, Cert.Spec.wsRowR_eq]
  generalize val_main_v154 (F := Ideal) x0 x1 x2 x3 x4 x5 x8 x9 = b
  generalize val_main_v173 (F := Ideal) x0 x1 x2 x3 x4 x5 x8 x9 = a
  generalize val_main_v194 (F := Ideal) x0 x1 x2 x3 x4 x5 x8 x9 = c
  generalize val_main_v5 (F := Ideal) x0 x8 = d
  rfl

end Layer1

end Cert.ReferenceIdeal.RefWs1

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.MatmulRegion0.lean ====
/-
  The residual projection's region (the node features times the residual weights, rectified): what its output array holds when the region ends, as one function of the two arrays
  it reads.

  The body, at every point of the grid, multiplies a block of 2000 rows of the [50000, 512] feature array by the whole
  [512, 256] weight array on the matrix unit, into a zero accumulator, and rectifies: entry (p, q) of what it stores is
  max (∑ k, X(p, k) · W(k, q)) 0 for the block's rows X. Point t's row block holds the array's rows 2000·t … 2000·t + 1999
  and the weight window's block is the whole weight array at every point, so what point t writes back is rows
  2000·t … of the rectified product of the two arrays; the 25 row blocks tile the 50000 rows, so the output array ends
  holding the rectified product.
-/
import proofs.«106194_j24283745091829_2_alg».proof.Proof.Gen.KernelIdeal.Frame
import proofs.«106194_j24283745091829_2_alg».proof.Proof.Spec
import proofs.«106194_j24283745091829_2_alg».proof.Proof.Consts
import proofs.«106194_j24283745091829_2_alg».proof.Proof.LibDenseLayer
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.MatmulRegion0

open Cert.KernelIdeal Cert.KernelIdeal.Gen

/-! ## The body's product at an entry -/

/-- The left operand's index takes the output's row … -/
theorem lhs_row (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
/-- … and the contraction position; -/
theorem lhs_col (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
/-- the right operand's the contraction position … -/
theorem rhs_row (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
/-- … and the output's column. -/
theorem rhs_col (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- Entry (p, q) of what the body stores: the rows' product with the weights, rectified. The two roundings to the
    matrix unit's input format are the identity on extended reals, and the rectifier's splat zero is 0. -/
theorem payload_entry (x0 : Vec Ideal S2000x512 .f32) (x1 : Vec Ideal S512x256 .f32) (p : Fin 2000) (q : Fin 256) :
    k0_pay1 (F := Ideal) x0 x1 (ix2 p q) = max (∑ k : Fin 512, x0 (ix2 p k) * x1 (ix2 k q)) 0 := by
  unfold k0_pay1
  refine (maximumf_apply _ _ (ix2 p q)).trans ?_
  rw [broadcast_apply]
  refine congrArg₂ max ?_ Cert.Consts.ofBits_zero
  exact Cert.DenseLayer.matmul_rows_cols dot_S2000x512_S512x256_S2000x256_1_0_0_1_n_n rfl rfl lhs_row lhs_col rhs_row rhs_col none
    (truncf .bf16 x0 bitsLt_bf16_f32) (truncf .bf16 x1 bitsLt_bf16_f32) p q

/-- The same entry against the whole arrays: when the block's row is the first array's row r and the second operand is
    the weight array, the block's entry in column q is entry (r, q) of the rectified product of the arrays. -/
theorem block_entry (X : Cert.Spec.Mat 50000 512) (W : Cert.Spec.Mat 512 256)
    (x0 : Vec Ideal S2000x512 .f32) (x1 : Vec Ideal S512x256 .f32)
    (j : S2000x256.Idx) (i : S50000x256.Idx)
    (hrows : ∀ k : Fin 512, x0 (ix2 (j 0) k) = X (ix2 (i 0) k)) (hw : x1 = W) (hcol : (i 1).val = (j 1).val) :
    k0_pay1 (F := Ideal) x0 x1 j = Cert.Spec.mmRelu X W i := by
  obtain ⟨p, q, rfl⟩ : ∃ (p : Fin 2000) (q : Fin 256), j = ix2 p q := ⟨j 0, j 1, eq_ix2 j⟩
  rw [payload_entry]
  unfold Cert.Spec.mmRelu Cert.Spec.mm
  refine congrArg (max · 0) (Finset.sum_congr rfl fun k _ => ?_)
  rw [show x0 (ix2 p k) = X (ix2 (i 0) k) from hrows k, hw]
  refine congrArg (X (ix2 (i 0) k) * W ·) ?_
  funext a
  match a with
  | ⟨0, _⟩ => rfl
  | ⟨1, _⟩ => exact Fin.ext hcol.symm

variable (V : (c : Dev nD) → (b : Ref sig .tc) → Buf (Elt Ideal) ((c : Thread nD τ).loc b))

/-! ## The windows' blocks -/

/-- The zero offsets of the body's whole-buffer accesses, as the constant function. -/
theorem zero_offsets : (![0, 0] : Fin 2 → Nat) = fun _ => 0 := funext fun a => by fin_cases a <;> rfl

/-- Where the windows' blocks sit, decided over the grid: the first window's and the output window's block at point t
    is row block t, and the weight window's is block (0, 0) at every point. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row y of the first window's block at point t is the array's row 2000·t + y. -/
theorem rows_block (c : Dev nD) (t : Fin cfg0.N) (y : S2000x512.Idx) (i : S50000x512.Idx)
    (h0 : (i 0).val = t.val * 2000 + (y 0).val) (h1 : (i 1).val = (y 1).val) :
    (iblk0 (F := Ideal) V c 0 t : Vec Ideal S2000x512 .f32) y = (V c main_arg0 : S50000x512.Idx → EReal) i := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- The weight window's block is the whole weight array at every point. -/
theorem weights_block (c : Dev nD) (t : Fin cfg0.N) :
    (iblk0 (F := Ideal) V c 1 t : Vec Ideal S512x256 .f32) = (V c main_arg8 : S512x256.Idx → EReal) := by
  obtain ⟨-, -, e0, e1, -⟩ := block_indices t
  funext y
  unfold iblk0
  rw [View.read_apply]
  show V c main_arg8 _ = V c main_arg8 _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 256 + 1 * (y 1).val = (y 1).val; rw [e1]; omega

/-! ## From the blocks to the array -/

/-- What point t writes back is block t of the rectified product of the two arrays. -/
theorem written_back (c : Dev nD) (t : Fin cfg0.N) :
    (dat0 (F := Ideal) V c).flushed 2 t
      = ((cfg0.win 2).blk t).view.read (Elt Ideal) (Cert.Spec.mmRelu (V c main_arg0) (V c main_arg8)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x256) zero_offsets]
  obtain ⟨-, -, -, -, e0, e1⟩ := block_indices t
  funext j
  show k0_pay1 (iblk0 V c 0 t) (iblk0 V c 1 t) j
    = Cert.Spec.mmRelu (V c main_arg0) (V c main_arg8) (((cfg0.win 2).blk t).view.emb j)
  refine block_entry (V c main_arg0) (V c main_arg8) (iblk0 V c 0 t) (iblk0 V c 1 t) j _ (fun k => ?_) (weights_block V c t) ?_
  · refine rows_block V c t _ _ ?_ rfl
    show win0_2.index t (0 : Fin 2) * 2000 + 1 * (j 0).val = t.val * 2000 + (j 0).val
    rw [e0]; omega
  · show win0_2.index t (1 : Fin 2) * 256 + 1 * (j 1).val = (j 1).val
    rw [e1]; omega

/-- An index of the output array is in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- The row blocks tile the array: row r is in the block of point r / 2000, which writes back. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, e0, e1⟩ := block_indices t
  refine ⟨t, flush0_2 t, ?_⟩
  rw [mem_block]
  intro a
  have ht : t.val = (i 0).val / 2000 := rfl
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 256 ≤ (i 1).val ∧ (i 1).val < win0_2.index t (1 : Fin 2) * 256 + 256; rw [e1]; omega

/-- THE OUTPUT ARRAY when the region ends: the rectified product of the two arrays it reads, as the region finds them. -/
theorem arr (c : Dev nD) :
    (dat0 (F := Ideal) V c).arrAt 2 cfg0.N = Cert.Spec.mmRelu (V c main_arg0) (V c main_arg8) :=
  (dat0 (F := Ideal) V c).arrAt_eq_of_cover 2 (Cert.Spec.mmRelu (V c main_arg0) (V c main_arg8))
    (fun t _ => written_back V c t) covered

end Cert.KernelIdeal.MatmulRegion0

end
-- ==== Proof.MatmulRegion1.lean ====
/-
  The first graph layer's linear map (the node features times the layer's weights): what its output array holds when the region ends, as one function of the two arrays
  it reads.

  The body, at every point of the grid, multiplies a block of 2000 rows of the [50000, 512] feature array by the whole
  [512, 256] weight array on the matrix unit, into a zero accumulator: entry (p, q) of what it stores is
  ∑ k, X(p, k) · W(k, q) for the block's rows X. Point t's row block holds the array's rows 2000·t … 2000·t + 1999 and
  the weight window's block is the whole weight array at every point, so what point t writes back is rows 2000·t … of
  the product of the two arrays; the 25 row blocks tile the 50000 rows, so the output array ends holding the product.
-/
import proofs.«106194_j24283745091829_2_alg».proof.Proof.Gen.KernelIdeal.Frame
import proofs.«106194_j24283745091829_2_alg».proof.Proof.Spec
import proofs.«106194_j24283745091829_2_alg».proof.Proof.LibDenseLayer
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.MatmulRegion1

open Cert.KernelIdeal Cert.KernelIdeal.Gen

/-! ## The body's product at an entry -/

/-- The left operand's index takes the output's row … -/
theorem lhs_row (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
/-- … and the contraction position; -/
theorem lhs_col (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
/-- the right operand's the contraction position … -/
theorem rhs_row (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
/-- … and the output's column. -/
theorem rhs_col (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- Entry (p, q) of what the body stores: the rows' product with the weights. The two roundings to the matrix unit's
    input format are the identity on extended reals. -/
theorem payload_entry (x0 : Vec Ideal S2000x512 .f32) (x1 : Vec Ideal S512x256 .f32) (p : Fin 2000) (q : Fin 256) :
    k1_pay1 (F := Ideal) x0 x1 (ix2 p q) = ∑ k : Fin 512, x0 (ix2 p k) * x1 (ix2 k q) := by
  unfold k1_pay1
  exact Cert.DenseLayer.matmul_rows_cols dot_S2000x512_S512x256_S2000x256_1_0_0_1_n_n rfl rfl lhs_row lhs_col rhs_row rhs_col none
    (truncf .bf16 x0 bitsLt_bf16_f32) (truncf .bf16 x1 bitsLt_bf16_f32) p q

/-- The same entry against the whole arrays: when the block's row is the first array's row r and the second operand is
    the weight array, the block's entry in column q is entry (r, q) of the product of the arrays. -/
theorem block_entry (X : Cert.Spec.Mat 50000 512) (W : Cert.Spec.Mat 512 256)
    (x0 : Vec Ideal S2000x512 .f32) (x1 : Vec Ideal S512x256 .f32)
    (j : S2000x256.Idx) (i : S50000x256.Idx)
    (hrows : ∀ k : Fin 512, x0 (ix2 (j 0) k) = X (ix2 (i 0) k)) (hw : x1 = W) (hcol : (i 1).val = (j 1).val) :
    k1_pay1 (F := Ideal) x0 x1 j = Cert.Spec.mm X W i := by
  obtain ⟨p, q, rfl⟩ : ∃ (p : Fin 2000) (q : Fin 256), j = ix2 p q := ⟨j 0, j 1, eq_ix2 j⟩
  rw [payload_entry]
  unfold Cert.Spec.mm
  refine Finset.sum_congr rfl fun k _ => ?_
  rw [show x0 (ix2 p k) = X (ix2 (i 0) k) from hrows k, hw]
  refine congrArg (X (ix2 (i 0) k) * W ·) ?_
  funext a
  match a with
  | ⟨0, _⟩ => rfl
  | ⟨1, _⟩ => exact Fin.ext hcol.symm

variable (V : (c : Dev nD) → (b : Ref sig .tc) → Buf (Elt Ideal) ((c : Thread nD τ).loc b))

/-! ## The windows' blocks -/

/-- The zero offsets of the body's whole-buffer accesses, as the constant function. -/
theorem zero_offsets : (![0, 0] : Fin 2 → Nat) = fun _ => 0 := funext fun a => by fin_cases a <;> rfl

/-- Where the windows' blocks sit, decided over the grid: the first window's and the output window's block at point t
    is row block t, and the weight window's is block (0, 0) at every point. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row y of the first window's block at point t is the array's row 2000·t + y. -/
theorem rows_block (c : Dev nD) (t : Fin cfg1.N) (y : S2000x512.Idx) (i : S50000x512.Idx)
    (h0 : (i 0).val = t.val * 2000 + (y 0).val) (h1 : (i 1).val = (y 1).val) :
    (iblk1 (F := Ideal) V c 0 t : Vec Ideal S2000x512 .f32) y = (V c main_arg0 : S50000x512.Idx → EReal) i := by
  obtain ⟨e0, e1, -⟩ := block_indices t
  unfold iblk1
  rw [View.read_apply]
  show V c main_arg0 _ = V c main_arg0 _
  congr 1
  funext a
  apply Fin.ext
  match a with
  | ⟨0, _⟩ => show win1_0.index t (0 : Fin 2) * 2000 + 1 * (y 0).val = (i 0).val; rw [e0, h0]; omega
  | ⟨1, _⟩ => show win1_0.index t (1 : Fin 2) * 512 + 1 * (y 1).val = (i 1).val; rw [e1, h1]; omega

/-- The weight window's block is the whole weight array at every point. -/
theorem weights_block (c : Dev nD) (t : Fin cfg1.N) :
    (iblk1 (F := Ideal) V c 1 t : Vec Ideal S512x256 .f32) = (V c main_arg2 : S512x256.Idx → EReal) := by
  obtain ⟨-, -, e0, e1, -⟩ := block_indices t
  funext y
  unfold iblk1
  rw [View.read_apply]
  show V c main_arg2 _ = V c main_arg2 _
  congr 1
  funext a
  apply Fin.ext
  match a with
  | ⟨0, _⟩ => show win1_1.index t (0 : Fin 2) * 512 + 1 * (y 0).val = (y 0).val; rw [e0]; omega
  | ⟨1, _⟩ => show win1_1.index t (1 : Fin 2) * 256 + 1 * (y 1).val = (y 1).val; rw [e1]; omega

/-! ## From the blocks to the array -/

/-- What point t writes back is block t of the product of the two arrays. -/
theorem written_back (c : Dev nD) (t : Fin cfg1.N) :
    (dat1 (F := Ideal) V c).flushed 2 t
      = ((cfg1.win 2).blk t).view.read (Elt Ideal) (Cert.Spec.mm (V c main_arg0) (V c main_arg2)) := by
  show (cfg1.win 2).cut (grid1.coords t) ((dat1 V c).after 2 t) = _
  rw [after1_2]
  unfold out1_2
  rw [View.canon_unit_zero zero_offsets]
  simp only [View.ld_unit_zero (S := S2000x512) zero_offsets, View.ld_unit_zero (S := S512x256) zero_offsets]
  obtain ⟨-, -, -, -, e0, e1⟩ := block_indices t
  funext j
  show k1_pay1 (iblk1 V c 0 t) (iblk1 V c 1 t) j
    = Cert.Spec.mm (V c main_arg0) (V c main_arg2) (((cfg1.win 2).blk t).view.emb j)
  refine block_entry (V c main_arg0) (V c main_arg2) (iblk1 V c 0 t) (iblk1 V c 1 t) j _ (fun k => ?_) (weights_block V c t) ?_
  · refine rows_block V c t _ _ ?_ rfl
    show win1_2.index t (0 : Fin 2) * 2000 + 1 * (j 0).val = t.val * 2000 + (j 0).val
    rw [e0]; omega
  · show win1_2.index t (1 : Fin 2) * 256 + 1 * (j 1).val = (j 1).val
    rw [e1]; omega

/-- An index of the output array is in point t's block iff each coordinate is in the block's range on its axis. -/
theorem mem_block (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v31).slice (win1_2.rect t)).set ↔ _
  rw [View.set_slice_whole, Rect.mem_set_unit]
  exact Iff.rfl

/-- The row blocks tile the array: row r is in the block of point r / 2000, which writes back. -/
theorem covered (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨-, -, -, -, e0, e1⟩ := block_indices t
  refine ⟨t, flush1_2 t, ?_⟩
  rw [mem_block]
  intro a
  have ht : t.val = (i 0).val / 2000 := rfl
  match a with
  | ⟨0, _⟩ => show win1_2.index t (0 : Fin 2) * 2000 ≤ (i 0).val ∧ (i 0).val < win1_2.index t (0 : Fin 2) * 2000 + 2000; rw [e0, ht]; omega
  | ⟨1, _⟩ => show win1_2.index t (1 : Fin 2) * 256 ≤ (i 1).val ∧ (i 1).val < win1_2.index t (1 : Fin 2) * 256 + 256; rw [e1]; omega

/-- THE OUTPUT ARRAY when the region ends: the product of the two arrays it reads, as the region finds them. -/
theorem arr (c : Dev nD) :
    (dat1 (F := Ideal) V c).arrAt 2 cfg1.N = Cert.Spec.mm (V c main_arg0) (V c main_arg2) :=
  (dat1 (F := Ideal) V c).arrAt_eq_of_cover 2 (Cert.Spec.mm (V c main_arg0) (V c main_arg2))
    (fun t _ => written_back V c t) covered

end Cert.KernelIdeal.MatmulRegion1

end
-- ==== Proof.MatmulRegion3.lean ====
/-
  The second graph layer's linear map (the fused features times the layer's weights): what its output array holds when the region ends, as one function of the two arrays
  it reads.

  The body, at every point of the grid, multiplies a block of 2000 rows of the [50000, 512] array of fused features by the whole
  [512, 256] weight array on the matrix unit, into a zero accumulator: entry (p, q) of what it stores is
  ∑ k, X(p, k) · W(k, q) for the block's rows X. Point t's row block holds the array's rows 2000·t … 2000·t + 1999 and
  the weight window's block is the whole weight array at every point, so what point t writes back is rows 2000·t … of
  the product of the two arrays; the 25 row blocks tile the 50000 rows, so the output array ends holding the product.
-/
import proofs.«106194_j24283745091829_2_alg».proof.Proof.Gen.KernelIdeal.Frame
import proofs.«106194_j24283745091829_2_alg».proof.Proof.Spec
import proofs.«106194_j24283745091829_2_alg».proof.Proof.LibDenseLayer
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.MatmulRegion3

open Cert.KernelIdeal Cert.KernelIdeal.Gen

/-! ## The body's product at an entry -/

/-- The left operand's index takes the output's row … -/
theorem lhs_row (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
/-- … and the contraction position; -/
theorem lhs_col (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
/-- the right operand's the contraction position … -/
theorem rhs_row (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
/-- … and the output's column. -/
theorem rhs_col (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- Entry (p, q) of what the body stores: the rows' product with the weights. The cast of the rows to their own shape
    and the two roundings to the matrix unit's input format are the identity on extended reals. -/
theorem payload_entry (x0 : Vec Ideal S2000x512 .f32) (x1 : Vec Ideal S512x256 .f32) (p : Fin 2000) (q : Fin 256) :
    k3_pay1 (F := Ideal) x0 x1 (ix2 p q) = ∑ k : Fin 512, x0 (ix2 p k) * x1 (ix2 k q) := by
  unfold k3_pay1
  rw [shapeCast_self x0 shapeCasts_S2000x512_S2000x512]
  exact Cert.DenseLayer.matmul_rows_cols dot_S2000x512_S512x256_S2000x256_1_0_0_1_n_n rfl rfl lhs_row lhs_col rhs_row rhs_col none
    (truncf .bf16 x0 bitsLt_bf16_f32) (truncf .bf16 x1 bitsLt_bf16_f32) p q

/-- The same entry against the whole arrays: when the block's row is the first array's row r and the second operand is
    the weight array, the block's entry in column q is entry (r, q) of the product of the arrays. -/
theorem block_entry (X : Cert.Spec.Mat 50000 512) (W : Cert.Spec.Mat 512 256)
    (x0 : Vec Ideal S2000x512 .f32) (x1 : Vec Ideal S512x256 .f32)
    (j : S2000x256.Idx) (i : S50000x256.Idx)
    (hrows : ∀ k : Fin 512, x0 (ix2 (j 0) k) = X (ix2 (i 0) k)) (hw : x1 = W) (hcol : (i 1).val = (j 1).val) :
    k3_pay1 (F := Ideal) x0 x1 j = Cert.Spec.mm X W i := by
  obtain ⟨p, q, rfl⟩ : ∃ (p : Fin 2000) (q : Fin 256), j = ix2 p q := ⟨j 0, j 1, eq_ix2 j⟩
  rw [payload_entry]
  unfold Cert.Spec.mm
  refine Finset.sum_congr rfl fun k _ => ?_
  rw [show x0 (ix2 p k) = X (ix2 (i 0) k) from hrows k, hw]
  refine congrArg (X (ix2 (i 0) k) * W ·) ?_
  funext a
  match a with
  | ⟨0, _⟩ => rfl
  | ⟨1, _⟩ => exact Fin.ext hcol.symm

variable (V : (c : Dev nD) → (b : Ref sig .tc) → Buf (Elt Ideal) ((c : Thread nD τ).loc b))

/-! ## The windows' blocks -/

/-- The zero offsets of the body's whole-buffer accesses, as the constant function. -/
theorem zero_offsets : (![0, 0] : Fin 2 → Nat) = fun _ => 0 := funext fun a => by fin_cases a <;> rfl

/-- Where the windows' blocks sit, decided over the grid: the first window's and the output window's block at point t
    is row block t, and the weight window's is block (0, 0) at every point. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row y of the first window's block at point t is the array's row 2000·t + y. -/
theorem rows_block (c : Dev nD) (t : Fin cfg3.N) (y : S2000x512.Idx) (i : S50000x512.Idx)
    (h0 : (i 0).val = t.val * 2000 + (y 0).val) (h1 : (i 1).val = (y 1).val) :
    (iblk3 (F := Ideal) V c 0 t : Vec Ideal S2000x512 .f32) y = (V c main_v90 : S50000x512.Idx → EReal) i := by
  obtain ⟨e0, e1, -⟩ := block_indices t
  unfold iblk3
  rw [View.read_apply]
  show V c main_v90 _ = V c main_v90 _
  congr 1
  funext a
  apply Fin.ext
  match a with
  | ⟨0, _⟩ => show win3_0.index t (0 : Fin 2) * 2000 + 1 * (y 0).val = (i 0).val; rw [e0, h0]; omega
  | ⟨1, _⟩ => show win3_0.index t (1 : Fin 2) * 512 + 1 * (y 1).val = (i 1).val; rw [e1, h1]; omega

/-- The weight window's block is the whole weight array at every point. -/
theorem weights_block (c : Dev nD) (t : Fin cfg3.N) :
    (iblk3 (F := Ideal) V c 1 t : Vec Ideal S512x256 .f32) = (V c main_arg4 : S512x256.Idx → EReal) := by
  obtain ⟨-, -, e0, e1, -⟩ := block_indices t
  funext y
  unfold iblk3
  rw [View.read_apply]
  show V c main_arg4 _ = V c main_arg4 _
  congr 1
  funext a
  apply Fin.ext
  match a with
  | ⟨0, _⟩ => show win3_1.index t (0 : Fin 2) * 512 + 1 * (y 0).val = (y 0).val; rw [e0]; omega
  | ⟨1, _⟩ => show win3_1.index t (1 : Fin 2) * 256 + 1 * (y 1).val = (y 1).val; rw [e1]; omega

/-! ## From the blocks to the array -/

/-- What point t writes back is block t of the product of the two arrays. -/
theorem written_back (c : Dev nD) (t : Fin cfg3.N) :
    (dat3 (F := Ideal) V c).flushed 2 t
      = ((cfg3.win 2).blk t).view.read (Elt Ideal) (Cert.Spec.mm (V c main_v90) (V c main_arg4)) := by
  show (cfg3.win 2).cut (grid3.coords t) ((dat3 V c).after 2 t) = _
  rw [after3_2]
  unfold out3_2
  rw [View.canon_unit_zero zero_offsets]
  simp only [View.ld_unit_zero (S := S2000x512) zero_offsets, View.ld_unit_zero (S := S512x256) zero_offsets]
  obtain ⟨-, -, -, -, e0, e1⟩ := block_indices t
  funext j
  show k3_pay1 (iblk3 V c 0 t) (iblk3 V c 1 t) j
    = Cert.Spec.mm (V c main_v90) (V c main_arg4) (((cfg3.win 2).blk t).view.emb j)
  refine block_entry (V c main_v90) (V c main_arg4) (iblk3 V c 0 t) (iblk3 V c 1 t) j _ (fun k => ?_) (weights_block V c t) ?_
  · refine rows_block V c t _ _ ?_ rfl
    show win3_2.index t (0 : Fin 2) * 2000 + 1 * (j 0).val = t.val * 2000 + (j 0).val
    rw [e0]; omega
  · show win3_2.index t (1 : Fin 2) * 256 + 1 * (j 1).val = (j 1).val
    rw [e1]; omega

/-- An index of the output array is in point t's block iff each coordinate is in the block's range on its axis. -/
theorem mem_block (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v91).slice (win3_2.rect t)).set ↔ _
  rw [View.set_slice_whole, Rect.mem_set_unit]
  exact Iff.rfl

/-- The row blocks tile the array: row r is in the block of point r / 2000, which writes back. -/
theorem covered (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have hN : cfg3.N = 25 := N_3
  let t : Fin cfg3.N := ⟨(i 0).val / 2000, by rw [hN]; omega⟩
  obtain ⟨-, -, -, -, e0, e1⟩ := block_indices t
  refine ⟨t, flush3_2 t, ?_⟩
  rw [mem_block]
  intro a
  have ht : t.val = (i 0).val / 2000 := rfl
  match a with
  | ⟨0, _⟩ => show win3_2.index t (0 : Fin 2) * 2000 ≤ (i 0).val ∧ (i 0).val < win3_2.index t (0 : Fin 2) * 2000 + 2000; rw [e0, ht]; omega
  | ⟨1, _⟩ => show win3_2.index t (1 : Fin 2) * 256 ≤ (i 1).val ∧ (i 1).val < win3_2.index t (1 : Fin 2) * 256 + 256; rw [e1]; omega

/-- THE OUTPUT ARRAY when the region ends: the product of the two arrays it reads, as the region finds them. -/
theorem arr (c : Dev nD) :
    (dat3 (F := Ideal) V c).arrAt 2 cfg3.N = Cert.Spec.mm (V c main_v90) (V c main_arg4) :=
  (dat3 (F := Ideal) V c).arrAt_eq_of_cover 2 (Cert.Spec.mm (V c main_v90) (V c main_arg4))
    (fun t _ => written_back V c t) covered

end Cert.KernelIdeal.MatmulRegion3

end
-- ==== Proof.MatmulRegion5.lean ====
/-
  The last graph layer's linear map (the fused features times the layer's weights): what its output array holds when the region ends, as one function of the two arrays
  it reads.

  The body, at every point of the grid, multiplies a block of 2000 rows of the [50000, 512] array of fused features by the whole
  [512, 64] weight array on the matrix unit, into a zero accumulator: entry (p, q) of what it stores is
  ∑ k, X(p, k) · W(k, q) for the block's rows X. Point t's row block holds the array's rows 2000·t … 2000·t + 1999 and
  the weight window's block is the whole weight array at every point, so what point t writes back is rows 2000·t … of
  the product of the two arrays; the 25 row blocks tile the 50000 rows, so the output array ends holding the product.
-/
import proofs.«106194_j24283745091829_2_alg».proof.Proof.Gen.KernelIdeal.Frame
import proofs.«106194_j24283745091829_2_alg».proof.Proof.Spec
import proofs.«106194_j24283745091829_2_alg».proof.Proof.LibDenseLayer
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.MatmulRegion5

open Cert.KernelIdeal Cert.KernelIdeal.Gen

/-! ## The body's product at an entry -/

/-- The left operand's index takes the output's row … -/
theorem lhs_row (i : S2000x64.Idx) (q : dot_S2000x512_S512x64_S2000x64_1_0_0_1_n_n.contr.Idx) :
    (dot_S2000x512_S512x64_S2000x64_1_0_0_1_n_n.lhsIdx i q 0).val = (i 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl
/-- … and the contraction position; -/
theorem lhs_col (i : S2000x64.Idx) (q : dot_S2000x512_S512x64_S2000x64_1_0_0_1_n_n.contr.Idx) :
    (dot_S2000x512_S512x64_S2000x64_1_0_0_1_n_n.lhsIdx i q 1).val = (q ⟨0, by decide⟩).val :=
  dot_S2000x512_S512x64_S2000x64_1_0_0_1_n_n.lhsIdx_val_of_single rfl i q
/-- the right operand's the contraction position … -/
theorem rhs_row (i : S2000x64.Idx) (q : dot_S2000x512_S512x64_S2000x64_1_0_0_1_n_n.contr.Idx) :
    (dot_S2000x512_S512x64_S2000x64_1_0_0_1_n_n.rhsIdx i q 0).val = (q ⟨0, by decide⟩).val :=
  dot_S2000x512_S512x64_S2000x64_1_0_0_1_n_n.rhsIdx_val_of_single rfl i q
/-- … and the output's column. -/
theorem rhs_col (i : S2000x64.Idx) (q : dot_S2000x512_S512x64_S2000x64_1_0_0_1_n_n.contr.Idx) :
    (dot_S2000x512_S512x64_S2000x64_1_0_0_1_n_n.rhsIdx i q 1).val = (i 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

/-- Entry (p, q) of what the body stores: the rows' product with the weights. The cast of the rows to their own shape
    and the two roundings to the matrix unit's input format are the identity on extended reals. -/
theorem payload_entry (x0 : Vec Ideal S2000x512 .f32) (x1 : Vec Ideal S512x64 .f32) (p : Fin 2000) (q : Fin 64) :
    k5_pay1 (F := Ideal) x0 x1 (ix2 p q) = ∑ k : Fin 512, x0 (ix2 p k) * x1 (ix2 k q) := by
  unfold k5_pay1
  rw [shapeCast_self x0 shapeCasts_S2000x512_S2000x512]
  exact Cert.DenseLayer.matmul_rows_cols dot_S2000x512_S512x64_S2000x64_1_0_0_1_n_n rfl rfl lhs_row lhs_col rhs_row rhs_col none
    (truncf .bf16 x0 bitsLt_bf16_f32) (truncf .bf16 x1 bitsLt_bf16_f32) p q

/-- The same entry against the whole arrays: when the block's row is the first array's row r and the second operand is
    the weight array, the block's entry in column q is entry (r, q) of the product of the arrays. -/
theorem block_entry (X : Cert.Spec.Mat 50000 512) (W : Cert.Spec.Mat 512 64)
    (x0 : Vec Ideal S2000x512 .f32) (x1 : Vec Ideal S512x64 .f32)
    (j : S2000x64.Idx) (i : S50000x64.Idx)
    (hrows : ∀ k : Fin 512, x0 (ix2 (j 0) k) = X (ix2 (i 0) k)) (hw : x1 = W) (hcol : (i 1).val = (j 1).val) :
    k5_pay1 (F := Ideal) x0 x1 j = Cert.Spec.mm X W i := by
  obtain ⟨p, q, rfl⟩ : ∃ (p : Fin 2000) (q : Fin 64), j = ix2 p q := ⟨j 0, j 1, eq_ix2 j⟩
  rw [payload_entry]
  unfold Cert.Spec.mm
  refine Finset.sum_congr rfl fun k _ => ?_
  rw [show x0 (ix2 p k) = X (ix2 (i 0) k) from hrows k, hw]
  refine congrArg (X (ix2 (i 0) k) * W ·) ?_
  funext a
  match a with
  | ⟨0, _⟩ => rfl
  | ⟨1, _⟩ => exact Fin.ext hcol.symm

variable (V : (c : Dev nD) → (b : Ref sig .tc) → Buf (Elt Ideal) ((c : Thread nD τ).loc b))

/-! ## The windows' blocks -/

/-- The zero offsets of the body's whole-buffer accesses, as the constant function. -/
theorem zero_offsets : (![0, 0] : Fin 2 → Nat) = fun _ => 0 := funext fun a => by fin_cases a <;> rfl

/-- Where the windows' blocks sit, decided over the grid: the first window's and the output window's block at point t
    is row block t, and the weight window's is block (0, 0) at every point. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row y of the first window's block at point t is the array's row 2000·t + y. -/
theorem rows_block (c : Dev nD) (t : Fin cfg5.N) (y : S2000x512.Idx) (i : S50000x512.Idx)
    (h0 : (i 0).val = t.val * 2000 + (y 0).val) (h1 : (i 1).val = (y 1).val) :
    (iblk5 (F := Ideal) V c 0 t : Vec Ideal S2000x512 .f32) y = (V c main_v150 : S50000x512.Idx → EReal) i := by
  obtain ⟨e0, e1, -⟩ := block_indices t
  unfold iblk5
  rw [View.read_apply]
  show V c main_v150 _ = V c main_v150 _
  congr 1
  funext a
  apply Fin.ext
  match a with
  | ⟨0, _⟩ => show win5_0.index t (0 : Fin 2) * 2000 + 1 * (y 0).val = (i 0).val; rw [e0, h0]; omega
  | ⟨1, _⟩ => show win5_0.index t (1 : Fin 2) * 512 + 1 * (y 1).val = (i 1).val; rw [e1, h1]; omega

/-- The weight window's block is the whole weight array at every point. -/
theorem weights_block (c : Dev nD) (t : Fin cfg5.N) :
    (iblk5 (F := Ideal) V c 1 t : Vec Ideal S512x64 .f32) = (V c main_arg6 : S512x64.Idx → EReal) := by
  obtain ⟨-, -, e0, e1, -⟩ := block_indices t
  funext y
  unfold iblk5
  rw [View.read_apply]
  show V c main_arg6 _ = V c main_arg6 _
  congr 1
  funext a
  apply Fin.ext
  match a with
  | ⟨0, _⟩ => show win5_1.index t (0 : Fin 2) * 512 + 1 * (y 0).val = (y 0).val; rw [e0]; omega
  | ⟨1, _⟩ => show win5_1.index t (1 : Fin 2) * 64 + 1 * (y 1).val = (y 1).val; rw [e1]; omega

/-! ## From the blocks to the array -/

/-- What point t writes back is block t of the product of the two arrays. -/
theorem written_back (c : Dev nD) (t : Fin cfg5.N) :
    (dat5 (F := Ideal) V c).flushed 2 t
      = ((cfg5.win 2).blk t).view.read (Elt Ideal) (Cert.Spec.mm (V c main_v150) (V c main_arg6)) := by
  show (cfg5.win 2).cut (grid5.coords t) ((dat5 V c).after 2 t) = _
  rw [after5_2]
  unfold out5_2
  rw [View.canon_unit_zero zero_offsets]
  simp only [View.ld_unit_zero (S := S2000x512) zero_offsets, View.ld_unit_zero (S := S512x64) zero_offsets]
  obtain ⟨-, -, -, -, e0, e1⟩ := block_indices t
  funext j
  show k5_pay1 (iblk5 V c 0 t) (iblk5 V c 1 t) j
    = Cert.Spec.mm (V c main_v150) (V c main_arg6) (((cfg5.win 2).blk t).view.emb j)
  refine block_entry (V c main_v150) (V c main_arg6) (iblk5 V c 0 t) (iblk5 V c 1 t) j _ (fun k => ?_) (weights_block V c t) ?_
  · refine rows_block V c t _ _ ?_ rfl
    show win5_2.index t (0 : Fin 2) * 2000 + 1 * (j 0).val = t.val * 2000 + (j 0).val
    rw [e0]; omega
  · show win5_2.index t (1 : Fin 2) * 64 + 1 * (j 1).val = (j 1).val
    rw [e1]; omega

/-- An index of the output array is in point t's block iff each coordinate is in the block's range on its axis. -/
theorem mem_block (t : Fin cfg5.N) (i : S50000x64.Idx) :
    i ∈ ((cfg5.win 2).blk t).view.set ↔ ∀ a : Fin 2, win5_2.index t a * S2000x64.size a ≤ (i a).val ∧ (i a).val < win5_2.index t a * S2000x64.size a + S2000x64.size a := by
  show i ∈ ((View.whole main_v151).slice (win5_2.rect t)).set ↔ _
  rw [View.set_slice_whole, Rect.mem_set_unit]
  exact Iff.rfl

/-- The row blocks tile the array: row r is in the block of point r / 2000, which writes back. -/
theorem covered (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : cfg5.N = 25 := N_5
  let t : Fin cfg5.N := ⟨(i 0).val / 2000, by rw [hN]; omega⟩
  obtain ⟨-, -, -, -, e0, e1⟩ := block_indices t
  refine ⟨t, flush5_2 t, ?_⟩
  rw [mem_block]
  intro a
  have ht : t.val = (i 0).val / 2000 := rfl
  match a with
  | ⟨0, _⟩ => show win5_2.index t (0 : Fin 2) * 2000 ≤ (i 0).val ∧ (i 0).val < win5_2.index t (0 : Fin 2) * 2000 + 2000; rw [e0, ht]; omega
  | ⟨1, _⟩ => show win5_2.index t (1 : Fin 2) * 64 ≤ (i 1).val ∧ (i 1).val < win5_2.index t (1 : Fin 2) * 64 + 64; rw [e1]; omega

/-- THE OUTPUT ARRAY when the region ends: the product of the two arrays it reads, as the region finds them. -/
theorem arr (c : Dev nD) :
    (dat5 (F := Ideal) V c).arrAt 2 cfg5.N = Cert.Spec.mm (V c main_v150) (V c main_arg6) :=
  (dat5 (F := Ideal) V c).arrAt_eq_of_cover 2 (Cert.Spec.mm (V c main_v150) (V c main_arg6))
    (fun t _ => written_back V c t) covered

end Cert.KernelIdeal.MatmulRegion5

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«106194_j24283745091829_2_alg».proof.Proof.LibKeepdims
import proofs.«106194_j24283745091829_2_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.WsRegion2.lean ====
/-
  The weight-score region of the kernel, read as one function of its five input arrays.

  A grid point t of the region works on rows 1000·t … 1000·t + 999. From the row blocks of the node features h, the
  neighbourhood mean hm, the mean absolute deviation hs and the residual features x0, and from the whole weight row,
  the body computes, row by row, the score (a logistic of three row sums against the three thirds of the weight row),
  the two parts (1 − score)·h and score·x0, the squared length of the fused row, the reciprocal of the clamped length,
  and stores the two normalised parts as the two column halves of its output block. The body's operations are in the
  specification's own order, so each step is read at an index with layout facts only: a shape cast of a shape to itself
  is the identity, a row [1, 256] spread over 1000 rows reads the row, a row sum kept as a column entry and spread back
  over the row reads the sum.

  Then: what a point writes back is its block of the specification's function of the five whole arrays (the fusion of a
  row block is the row block of the fusion); the 50 blocks tile the output array; so the output array after the region
  is that function.
-/
import proofs.«106194_j24283745091829_2_alg».proof.Proof.Gen.KernelIdeal.Frame
import proofs.«106194_j24283745091829_2_alg».proof.Proof.Spec
import proofs.«106194_j24283745091829_2_alg».proof.Proof.Consts
import proofs.«106194_j24283745091829_2_alg».proof.Proof.LibRowReduce
import Idealize.ShloMosaic.Lib.Pipeline.Value
import Idealize.ShloMosaic.Lib.ValueIdx
import Idealize.ShloMosaic.Lib.ValueLayout
import Idealize.ShloMosaic.PureOps.IdealRules

set_option maxRecDepth 16384

noncomputable section

namespace Cert.KernelIdeal.WsRegion2

open Cert.KernelIdeal Cert.KernelIdeal.Gen Idealize.ShloMosaic Idealize.ShloMosaic.TcCoe Idealize.SL.Sem
open Idealize.ShloMosaic.ValueIdx
open Idealize.ShloMosaic.Pipeline (Dat)

/-! ## The body's steps at an index -/

/-- Row p of a [1000, 256] block. -/
abbrev row (x : Vec Ideal S1000x256 .f32) (p : Fin 1000) : Fin 256 → EReal := fun k => x (ix2 p k)

/-- A row sum kept as a column entry: the sum of row p. -/
theorem colSum_apply (v : FVec Ideal S1000x256 .f32) (hacc : (0x00000000#32 : BitVec 32) = 0x00000000#32)
    (p : Fin 1000) (u : Fin 1) :
    shapeCast S1000x1 (multiReduction .add [1] S1000 v 0x00000000#32 reduces_S1000x256_S1000 (.inl rfl) hacc)
      shapeCasts_S1000_S1000x1 (ix2 p u) = ∑ k : Fin 256, v (ix2 p k) :=
  (Cert.Keepdims.shapeCast_a_a1_apply _ shapeCasts_S1000_S1000x1 p u).trans
    (Cert.RowReduce.rowSum_apply v 0x00000000#32 reduces_S1000x256_S1000 (.inl rfl) hacc p)

/-- A column spread over the row reads the column's entry. -/
theorem spread_apply (v : FVec Ideal S1000x1 .f32) (p : Fin 1000) (j : Fin 256) :
    broadcastTo S1000x256 v broadcasts_S1000x1_S1000x256 (ix2 p j) = v (ix2 p (0 : Fin 1)) :=
  Cert.Keepdims.broadcastTo_a1_ab_apply v broadcasts_S1000x1_S1000x256 p j

/-- A weight row spread over the 1000 rows reads the weight row. -/
theorem wrow_apply (v : FVec Ideal S1x256 .f32) (p : Fin 1000) (j : Fin 256) :
    broadcastTo S1000x256 v broadcasts_S1x256_S1000x256 (ix2 p j) = v (ix2 (0 : Fin 1) j) :=
  broadcastTo_1b_ab_apply v broadcasts_S1x256_S1000x256 p j

/-- The reciprocal square root and the logistic act entry by entry. -/
theorem rsqrt_apply {s : Shape} (v : FVec Ideal s .f32) (i : s.Idx) : rsqrt v i = Ideal.rsqrt (v i) := rfl
theorem logistic_apply {s : Shape} (v : FVec Ideal s .f32) (i : s.Idx) : Idealize.ShloMosaic.logistic v i = Ideal.logistic (v i) := rfl

/-- The kernel's named clamp is the specification's. -/
theorem eps_sq_eq : Named.named (F := Ideal) κ "eps_sq" (φ := .f32) 0x179ABE15#32 = Cert.Spec.epsSq :=
  IdealRules.named_const.ideal_named_scalar _ _ _ _ rfl

/-- The literal 1.0. -/
theorem one_eq : (Scalar.ofBits (F := Ideal) .f32 0x3F800000#32 : EReal) = 1 := Cert.Consts.ofBits_one

section Payloads

variable (h hm hs x0 : Vec Ideal S1000x256 .f32) (w0 w1 w2 : Vec Ideal S1x256 .f32) (w : Fin 768 → EReal)
variable (hw0 : ∀ k : Fin 256, w0 (ix2 (0 : Fin 1) k) = w ⟨k.val, by omega⟩)
variable (hw1 : ∀ k : Fin 256, w1 (ix2 (0 : Fin 1) k) = w ⟨256 + k.val, by omega⟩)
variable (hw2 : ∀ k : Fin 256, w2 (ix2 (0 : Fin 1) k) = w ⟨512 + k.val, by omega⟩)
include hw0 hw1 hw2

/-- The score of row p, as the body computes it. -/
theorem score_apply (p : Fin 1000) (u : Fin 1) :
    k2_pay5 h hm hs w0 w1 w2 (ix2 p u) = Cert.Spec.score (row h p) (row hm p) (row hs p) w := by
  unfold k2_pay5 k2_pay4 Cert.Spec.score Cert.Spec.logit
  simp only [shapeCast_self, logistic_apply, addf_apply]
  refine congrArg Ideal.logistic (congrArg₂ (· + ·) (congrArg₂ (· + ·) ?_ ?_) ?_)
  · refine (colSum_apply _ _ p u).trans (Finset.sum_congr rfl fun k _ => ?_)
    simp only [mulf_apply, wrow_apply, hw0]
  · refine (colSum_apply _ _ p u).trans (Finset.sum_congr rfl fun k _ => ?_)
    simp only [mulf_apply, wrow_apply, hw1]
  · refine (colSum_apply _ _ p u).trans (Finset.sum_congr rfl fun k _ => ?_)
    simp only [mulf_apply, wrow_apply, hw2]

/-- The de-smoothed part at (p, j). -/
theorem part1_apply (p : Fin 1000) (j : Fin 256) :
    k2_pay6 h hm hs w0 w1 w2 (ix2 p j) = Cert.Spec.part1 (Cert.Spec.score (row h p) (row hm p) (row hs p) w) (row h p) j := by
  unfold k2_pay6 k2_pay4
  simp only [shapeCast_self, mulf_apply, spread_apply, subf_apply, broadcast_apply,
    score_apply h hm hs w0 w1 w2 w hw0 hw1 hw2 p, one_eq]
  rfl

/-- The residual part at (p, j). -/
theorem part2_apply (p : Fin 1000) (j : Fin 256) :
    k2_pay7 h hm hs x0 w0 w1 w2 (ix2 p j) = Cert.Spec.part2 (Cert.Spec.score (row h p) (row hm p) (row hs p) w) (row x0 p) j := by
  unfold k2_pay7
  simp only [shapeCast_self, mulf_apply, spread_apply, score_apply h hm hs w0 w1 w2 w hw0 hw1 hw2 p]
  rfl

/-- The squared length of the de-smoothed part of row p, kept as a column entry. -/
theorem sq1_apply (p : Fin 1000) (u : Fin 1) :
    k2_pay8 h hm hs w0 w1 w2 (ix2 p u)
      = ∑ k : Fin 256, Cert.Spec.part1 (Cert.Spec.score (row h p) (row hm p) (row hs p) w) (row h p) k
          * Cert.Spec.part1 (Cert.Spec.score (row h p) (row hm p) (row hs p) w) (row h p) k := by
  unfold k2_pay8
  refine (colSum_apply _ _ p u).trans (Finset.sum_congr rfl fun k _ => ?_)
  simp only [mulf_apply, part1_apply h hm hs w0 w1 w2 w hw0 hw1 hw2 p]

/-- The square of the residual part at (p, j). -/
theorem sq2_apply (p : Fin 1000) (j : Fin 256) :
    k2_pay9 h hm hs x0 w0 w1 w2 (ix2 p j)
      = Cert.Spec.part2 (Cert.Spec.score (row h p) (row hm p) (row hs p) w) (row x0 p) j
          * Cert.Spec.part2 (Cert.Spec.score (row h p) (row hm p) (row hs p) w) (row x0 p) j := by
  unfold k2_pay9
  simp only [mulf_apply, part2_apply h hm hs x0 w0 w1 w2 w hw0 hw1 hw2 p]

/-- The reciprocal of the clamped length of row p. -/
theorem invn_apply (p : Fin 1000) (u : Fin 1) :
    k2_pay1 (k2_pay8 h hm hs w0 w1 w2) (k2_pay9 h hm hs x0 w0 w1 w2) (ix2 p u)
      = Cert.Spec.invn (Cert.Spec.score (row h p) (row hm p) (row hs p) w) (row h p) (row x0 p) := by
  unfold k2_pay1 Cert.Spec.invn Cert.Spec.sumsq
  simp only [rsqrt_apply, maximumf_apply, addf_apply, broadcast_apply, eps_sq_eq,
    sq1_apply h hm hs w0 w1 w2 w hw0 hw1 hw2 p]
  refine congrArg Ideal.rsqrt (congrArg₂ max (congrArg₂ (· + ·) rfl ?_) rfl)
  refine (colSum_apply _ _ p u).trans (Finset.sum_congr rfl fun k _ => ?_)
  exact sq2_apply h hm hs x0 w0 w1 w2 w hw0 hw1 hw2 p k

/-- The first stored half at (p, j): the normalised de-smoothed part. -/
theorem half1_apply (p : Fin 1000) (j : Fin 256) :
    k2_pay2 (k2_pay6 h hm hs w0 w1 w2) (k2_pay8 h hm hs w0 w1 w2) (k2_pay9 h hm hs x0 w0 w1 w2) (ix2 p j)
      = Cert.Spec.part1 (Cert.Spec.score (row h p) (row hm p) (row hs p) w) (row h p) j
          * Cert.Spec.invn (Cert.Spec.score (row h p) (row hm p) (row hs p) w) (row h p) (row x0 p) := by
  unfold k2_pay2
  simp only [mulf_apply, spread_apply, part1_apply h hm hs w0 w1 w2 w hw0 hw1 hw2 p,
    invn_apply h hm hs x0 w0 w1 w2 w hw0 hw1 hw2 p]

/-- The second stored half at (p, j): the normalised residual part. -/
theorem half2_apply (p : Fin 1000) (j : Fin 256) :
    k2_pay3 (k2_pay7 h hm hs x0 w0 w1 w2) (k2_pay8 h hm hs w0 w1 w2) (k2_pay9 h hm hs x0 w0 w1 w2) (ix2 p j)
      = Cert.Spec.part2 (Cert.Spec.score (row h p) (row hm p) (row hs p) w) (row x0 p) j
          * Cert.Spec.invn (Cert.Spec.score (row h p) (row hm p) (row hs p) w) (row h p) (row x0 p) := by
  unfold k2_pay3
  simp only [mulf_apply, spread_apply, part2_apply h hm hs x0 w0 w1 w2 w hw0 hw1 hw2 p,
    invn_apply h hm hs x0 w0 w1 w2 w hw0 hw1 hw2 p]

end Payloads

/-! ## What the body leaves in its output block -/

/-- The first store's rectangle puts (p, j) at (p, j) … -/
theorem emb_left (p : Fin 1000) (j : Fin 256) :
    r2_4.emb (ix2 p j : S1000x256.Idx) = (ix2 p ⟨j.val, by omega⟩ : S1000x512.Idx) := by
  funext d
  apply Fin.ext
  rw [Rect.emb_apply]
  match d with
  | ⟨0, _⟩ => show 0 + 1 * p.val = p.val; omega
  | ⟨1, _⟩ => show 0 + 1 * j.val = j.val; omega

/-- … and the second's at (p, 256 + j). -/
theorem emb_right (p : Fin 1000) (j : Fin 256) :
    r2_5.emb (ix2 p j : S1000x256.Idx) = (ix2 p ⟨256 + j.val, by omega⟩ : S1000x512.Idx) := by
  funext d
  apply Fin.ext
  rw [Rect.emb_apply]
  match d with
  | ⟨0, _⟩ => show 0 + 1 * p.val = p.val; omega
  | ⟨1, _⟩ => show 256 + 1 * j.val = 256 + j.val; omega

theorem zero_off : (![0, 0] : Fin 2 → Nat) = fun _ => 0 := funext fun a => by fin_cases a <;> rfl

/-- The k-th third of the weight row, as the body loads it, is entries 256·k … 256·k + 255 of the row. -/
theorem wslice_apply (x4 : Vec Ideal S1x768 .f32) (k : Fin 256) :
    View.ld x4 r2_1 (ix2 (0 : Fin 1) k) = x4 (ix2 (0 : Fin 1) ⟨k.val, by omega⟩)
    ∧ View.ld x4 r2_2 (ix2 (0 : Fin 1) k) = x4 (ix2 (0 : Fin 1) ⟨256 + k.val, by omega⟩)
    ∧ View.ld x4 r2_3 (ix2 (0 : Fin 1) k) = x4 (ix2 (0 : Fin 1) ⟨512 + k.val, by omega⟩) := by
  refine ⟨congrArg x4 (funext fun d => Fin.ext ?_), congrArg x4 (funext fun d => Fin.ext ?_),
    congrArg x4 (funext fun d => Fin.ext ?_)⟩
  · match d with
    | ⟨0, _⟩ => rfl
    | ⟨1, _⟩ => show 0 + 1 * k.val = k.val; omega
  · match d with
    | ⟨0, _⟩ => rfl
    | ⟨1, _⟩ => show 256 + 1 * k.val = 256 + k.val; omega
  · match d with
    | ⟨0, _⟩ => rfl
    | ⟨1, _⟩ => show 512 + 1 * k.val = 512 + k.val; omega

/-- The body's output block is the fusion of its input blocks, row by row. -/
theorem out_eq (x0 x1 x2 x3 : Vec Ideal S1000x256 .f32) (x4 : Vec Ideal S1x768 .f32) :
    out2_5 x0 x1 x2 x3 x4 = (Cert.Spec.ws (N := 1000) x0 x1 x2 x3 x4 : S1000x512.Idx → EReal) := by
  have hw := wslice_apply x4
  funext y
  unfold out2_5
  simp only [View.ld_unit_zero (S := S1000x256) zero_off]
  refine View.canon_apply_of_pieces (Val := Elt Ideal) (e := .f32) (Cert.Spec.ws (N := 1000) x0 x1 x2 x3 x4) _ ?_ y (cover2_5 _ _ y)
  intro pc hpc
  rcases List.mem_cons.mp hpc with rfl | hpc
  · intro (x : S1000x256.Idx)
    obtain ⟨p, j, rfl⟩ : ∃ (p : Fin 1000) (j : Fin 256), x = ix2 p j := ⟨x 0, x 1, eq_ix2 x⟩
    refine (half2_apply x0 x1 x2 x3 (View.ld x4 r2_1) (View.ld x4 r2_2) (View.ld x4 r2_3) (fun k => x4 (ix2 (0 : Fin 1) k))
      (fun k => (hw k).1) (fun k => (hw k).2.1) (fun k => (hw k).2.2) p j).trans ?_
    refine Eq.trans ?_ (congrArg (Cert.Spec.ws (N := 1000) x0 x1 x2 x3 x4) (emb_right p j).symm)
    show _ = Cert.Spec.wsRow _ _ _ _ _ (⟨256 + j.val, _⟩ : Fin 512)
    unfold Cert.Spec.wsRow
    rw [dif_neg (by show ¬ 256 + j.val < 256; omega)]
    refine congrArg₂ (· * ·) (congrArg _ (Fin.ext ?_)) rfl
    show j.val = 256 + j.val - 256
    omega
  · rcases List.mem_singleton.mp hpc with rfl
    intro (x : S1000x256.Idx)
    obtain ⟨p, j, rfl⟩ : ∃ (p : Fin 1000) (j : Fin 256), x = ix2 p j := ⟨x 0, x 1, eq_ix2 x⟩
    refine (half1_apply x0 x1 x2 x3 (View.ld x4 r2_1) (View.ld x4 r2_2) (View.ld x4 r2_3) (fun k => x4 (ix2 (0 : Fin 1) k))
      (fun k => (hw k).1) (fun k => (hw k).2.1) (fun k => (hw k).2.2) p j).trans ?_
    refine Eq.trans ?_ (congrArg (Cert.Spec.ws (N := 1000) x0 x1 x2 x3 x4) (emb_left p j).symm)
    show _ = Cert.Spec.wsRow _ _ _ _ _ (⟨j.val, _⟩ : Fin 512)
    unfold Cert.Spec.wsRow
    rw [dif_pos (by show j.val < 256; exact j.isLt)]

/-! ## From blocks to the array -/

/-- The fusion of a row block is the row block of the fusion: row p of the blocks is row r of the arrays. -/
theorem ws_block (H HM HS X0 : Cert.Spec.Mat 50000 256) (WR wr : Cert.Spec.Mat 1 768) (h hm hs x0 : Cert.Spec.Mat 1000 256)
    (r : Fin 50000) (p : Fin 1000) (q : Fin 512)
    (eh : ∀ k, h (ix2 p k) = H (ix2 r k)) (ehm : ∀ k, hm (ix2 p k) = HM (ix2 r k))
    (ehs : ∀ k, hs (ix2 p k) = HS (ix2 r k)) (ex0 : ∀ k, x0 (ix2 p k) = X0 (ix2 r k))
    (ew : ∀ k, wr (ix2 (0 : Fin 1) k) = WR (ix2 (0 : Fin 1) k)) :
    Cert.Spec.ws h hm hs x0 wr (ix2 p q) = Cert.Spec.ws H HM HS X0 WR (ix2 r q) := by
  show Cert.Spec.wsRow (fun k => h (ix2 p k)) (fun k => hm (ix2 p k)) (fun k => hs (ix2 p k)) (fun k => x0 (ix2 p k))
      (fun k => wr (ix2 (0 : Fin 1) k)) q
    = Cert.Spec.wsRow (fun k => H (ix2 r k)) (fun k => HM (ix2 r k)) (fun k => HS (ix2 r k)) (fun k => X0 (ix2 r k))
      (fun k => WR (ix2 (0 : Fin 1) k)) q
  rw [funext eh, funext ehm, funext ehs, funext ex0, funext ew]

/-- The printed index maps, decided over the 50 points: at point t the four feature windows and the output window are at
    row block t and column block 0, the weight row's window at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! Row p of a feature window's block at point t is row 1000·t + p of its array. -/

theorem blk0_apply (V : (c : Dev nD) → (b : Ref sig .tc) → Buf (Elt Ideal) ((c : Thread nD τ).loc b)) (c : Dev nD)
    (t : Fin cfg2.N) (p : Fin 1000) (k : Fin 256) (r : Fin 50000) (hr : r.val = t.val * 1000 + p.val) :
    (iblk2 V c 0 t : Vec Ideal S1000x256 .f32) (ix2 p k) = (V c main_v48 : S50000x256.Idx → EReal) (ix2 r k) := by
  obtain ⟨e0, e1, e2, e3, e4, e5, e6, e7, e8, e9, e10, e11⟩ := index_facts t
  unfold iblk2
  show V c main_v48 _ = V c main_v48 _
  congr 1
  funext a
  apply Fin.ext
  match a with
  | ⟨0, _⟩ => show win2_0.index t (0 : Fin 2) * 1000 + 1 * p.val = r.val; rw [e0, hr]; omega
  | ⟨1, _⟩ => show win2_0.index t (1 : Fin 2) * 256 + 1 * k.val = k.val; rw [e1]; omega

theorem blk1_apply (V : (c : Dev nD) → (b : Ref sig .tc) → Buf (Elt Ideal) ((c : Thread nD τ).loc b)) (c : Dev nD)
    (t : Fin cfg2.N) (p : Fin 1000) (k : Fin 256) (r : Fin 50000) (hr : r.val = t.val * 1000 + p.val) :
    (iblk2 V c 1 t : Vec Ideal S1000x256 .f32) (ix2 p k) = (V c main_v67 : S50000x256.Idx → EReal) (ix2 r k) := by
  obtain ⟨e0, e1, e2, e3, e4, e5, e6, e7, e8, e9, e10, e11⟩ := index_facts t
  unfold iblk2
  show V c main_v67 _ = V c main_v67 _
  congr 1
  funext a
  apply Fin.ext
  match a with
  | ⟨0, _⟩ => show win2_1.index t (0 : Fin 2) * 1000 + 1 * p.val = r.val; rw [e2, hr]; omega
  | ⟨1, _⟩ => show win2_1.index t (1 : Fin 2) * 256 + 1 * k.val = k.val; rw [e3]; omega

theorem blk2_apply (V : (c : Dev nD) → (b : Ref sig .tc) → Buf (Elt Ideal) ((c : Thread nD τ).loc b)) (c : Dev nD)
    (t : Fin cfg2.N) (p : Fin 1000) (k : Fin 256) (r : Fin 50000) (hr : r.val = t.val * 1000 + p.val) :
    (iblk2 V c 2 t : Vec Ideal S1000x256 .f32) (ix2 p k) = (V c main_v88 : S50000x256.Idx → EReal) (ix2 r k) := by
  obtain ⟨e0, e1, e2, e3, e4, e5, e6, e7, e8, e9, e10, e11⟩ := index_facts t
  unfold iblk2
  show V c main_v88 _ = V c main_v88 _
  congr 1
  funext a
  apply Fin.ext
  match a with
  | ⟨0, _⟩ => show win2_2.index t (0 : Fin 2) * 1000 + 1 * p.val = r.val; rw [e4, hr]; omega
  | ⟨1, _⟩ => show win2_2.index t (1 : Fin 2) * 256 + 1 * k.val = k.val; rw [e5]; omega

theorem blk3_apply (V : (c : Dev nD) → (b : Ref sig .tc) → Buf (Elt Ideal) ((c : Thread nD τ).loc b)) (c : Dev nD)
    (t : Fin cfg2.N) (p : Fin 1000) (k : Fin 256) (r : Fin 50000) (hr : r.val = t.val * 1000 + p.val) :
    (iblk2 V c 3 t : Vec Ideal S1000x256 .f32) (ix2 p k) = (V c main_v30 : S50000x256.Idx → EReal) (ix2 r k) := by
  obtain ⟨e0, e1, e2, e3, e4, e5, e6, e7, e8, e9, e10, e11⟩ := index_facts t
  unfold iblk2
  show V c main_v30 _ = V c main_v30 _
  congr 1
  funext a
  apply Fin.ext
  match a with
  | ⟨0, _⟩ => show win2_3.index t (0 : Fin 2) * 1000 + 1 * p.val = r.val; rw [e6, hr]; omega
  | ⟨1, _⟩ => show win2_3.index t (1 : Fin 2) * 256 + 1 * k.val = k.val; rw [e7]; omega

/-- The weight row's block at every point is the whole row. -/
theorem blk4_apply (V : (c : Dev nD) → (b : Ref sig .tc) → Buf (Elt Ideal) ((c : Thread nD τ).loc b)) (c : Dev nD)
    (t : Fin cfg2.N) (k : Fin 768) :
    (iblk2 V c 4 t : Vec Ideal S1x768 .f32) (ix2 (0 : Fin 1) k) = (V c main_v89 : S1x768.Idx → EReal) (ix2 (0 : Fin 1) k) := by
  obtain ⟨e0, e1, e2, e3, e4, e5, e6, e7, e8, e9, e10, e11⟩ := index_facts t
  unfold iblk2
  show V c main_v89 _ = V c main_v89 _
  congr 1
  funext a
  apply Fin.ext
  match a with
  | ⟨0, _⟩ => show win2_4.index t (0 : Fin 2) * 1 + 1 * 0 = 0; rw [e8]
  | ⟨1, _⟩ => show win2_4.index t (1 : Fin 2) * 768 + 1 * k.val = k.val; rw [e9]; omega

/-- What point t writes back is block t of the fusion of the five arrays as the region finds them. -/
theorem flushed_eq (V : (c : Dev nD) → (b : Ref sig .tc) → Buf (Elt Ideal) ((c : Thread nD τ).loc b)) (c : Dev nD)
    (t : Fin cfg2.N) :
    (dat2 (F := Ideal) V c).flushed 5 t
      = ((cfg2.win 5).blk t).view.read (Elt Ideal)
          (Cert.Spec.ws (V c main_v48) (V c main_v67) (V c main_v88) (V c main_v30) (V c main_v89)) := by
  show (cfg2.win 5).cut (grid2.coords t) ((dat2 V c).after 5 t) = _
  rw [after2_5]
  refine (congrArg ((cfg2.win 5).cut (grid2.coords t)) (out_eq _ _ _ _ _)).trans ?_
  obtain ⟨e0, e1, e2, e3, e4, e5, e6, e7, e8, e9, e10, e11⟩ := index_facts t
  have hN : cfg2.N = 50 := N_2
  have ht : t.val < 50 := lt_of_lt_of_eq t.isLt hN
  funext (y : S1000x512.Idx)
  obtain ⟨p, q, rfl⟩ : ∃ (p : Fin 1000) (q : Fin 512), y = ix2 p q := ⟨y 0, y 1, eq_ix2 y⟩
  have hp : p.val < 1000 := p.isLt
  obtain ⟨r, hr⟩ : ∃ r : Fin 50000, r.val = t.val * 1000 + p.val := ⟨⟨t.val * 1000 + p.val, by omega⟩, rfl⟩
  have hemb : ((cfg2.win 5).blk t).view.emb (ix2 p q) = (ix2 r q : S50000x512.Idx) := by
    funext a
    apply Fin.ext
    match a with
    | ⟨0, _⟩ => show win2_5.index t (0 : Fin 2) * 1000 + 1 * p.val = r.val; rw [e10, hr]; omega
    | ⟨1, _⟩ => show win2_5.index t (1 : Fin 2) * 512 + 1 * q.val = q.val; rw [e11]; omega
  show Cert.Spec.ws (N := 1000) (iblk2 V c 0 t) (iblk2 V c 1 t) (iblk2 V c 2 t) (iblk2 V c 3 t) (iblk2 V c 4 t) (ix2 p q)
    = Cert.Spec.ws (V c main_v48) (V c main_v67) (V c main_v88) (V c main_v30) (V c main_v89) (((cfg2.win 5).blk t).view.emb (ix2 p q))
  rw [hemb]
  exact ws_block _ _ _ _ _ _ _ _ _ _ r p q
    (fun k => blk0_apply V c t p k r hr) (fun k => blk1_apply V c t p k r hr)
    (fun k => blk2_apply V c t p k r hr) (fun k => blk3_apply V c t p k r hr)
    (fun k => blk4_apply V c t k)

/-- An index of the output array is in point t's block iff its row is in row block t. -/
theorem mem_blk (t : Fin cfg2.N) (i : S50000x512.Idx) :
    i ∈ ((cfg2.win 5).blk t).view.set
      ↔ ∀ a : Fin 2, win2_5.index t a * S1000x512.size a ≤ (i a).val
          ∧ (i a).val < win2_5.index t a * S1000x512.size a + S1000x512.size a := by
  show i ∈ ((View.whole main_v90).slice (win2_5.rect t)).set ↔ _
  rw [View.set_slice_whole, Rect.mem_set_unit]
  exact Iff.rfl

/-- The 50 row blocks tile the output array: row r is in block r / 1000. -/
theorem cover (i : S50000x512.Idx) :
    ∃ t : Fin cfg2.N, (cfg2.win 5).flush t = true ∧ i ∈ ((cfg2.win 5).blk t).view.set := by
  have hi0 : (i 0).val < 50000 := (i 0).isLt
  have hi1 : (i 1).val < 512 := (i 1).isLt
  have hN : cfg2.N = 50 := N_2
  obtain ⟨t, ht⟩ : ∃ t : Fin cfg2.N, t.val = (i 0).val / 1000 := ⟨⟨(i 0).val / 1000, by rw [hN]; omega⟩, rfl⟩
  obtain ⟨e0, e1, e2, e3, e4, e5, e6, e7, e8, e9, e10, e11⟩ := index_facts t
  refine ⟨t, flush2_5 t, ?_⟩
  rw [mem_blk]
  intro a
  match a with
  | ⟨0, _⟩ =>
    show win2_5.index t (0 : Fin 2) * 1000 ≤ (i 0).val ∧ (i 0).val < win2_5.index t (0 : Fin 2) * 1000 + 1000
    rw [e10, ht]; omega
  | ⟨1, _⟩ =>
    show win2_5.index t (1 : Fin 2) * 512 ≤ (i 1).val ∧ (i 1).val < win2_5.index t (1 : Fin 2) * 512 + 512
    rw [e11]; omega

/-- The output array after the region is the fusion of the five input arrays as the region finds them. -/
theorem arr (V : (c : Dev nD) → (b : Ref sig .tc) → Buf (Elt Ideal) ((c : Thread nD τ).loc b)) (c : Dev nD) :
    (Gen.dat2 (F := Ideal) V c).arrAt 5 cfg2.N
      = Cert.Spec.ws (V c main_v48) (V c main_v67) (V c main_v88) (V c main_v30) (V c main_v89) :=
  (dat2 (F := Ideal) V c).arrAt_eq_of_cover 5 _ (fun t _ => flushed_eq V c t) cover

end Cert.KernelIdeal.WsRegion2

end
-- ==== Proof.WsRegion4.lean ====
/-
  The weight-score region of the kernel, read as one function of its five input arrays.

  A grid point t of the region works on rows 1000·t … 1000·t + 999. From the row blocks of the node features h, the
  neighbourhood mean hm, the mean absolute deviation hs and the residual features x0, and from the whole weight row,
  the body computes, row by row, the score (a logistic of three row sums against the three thirds of the weight row),
  the two parts (1 − score)·h and score·x0, the squared length of the fused row, the reciprocal of the clamped length,
  and stores the two normalised parts as the two column halves of its output block. The body's operations are in the
  specification's own order, so each step is read at an index with layout facts only: a shape cast of a shape to itself
  is the identity, a row [1, 256] spread over 1000 rows reads the row, a row sum kept as a column entry and spread back
  over the row reads the sum.

  Then: what a point writes back is its block of the specification's function of the five whole arrays (the fusion of a
  row block is the row block of the fusion); the 50 blocks tile the output array; so the output array after the region
  is that function.
-/
import proofs.«106194_j24283745091829_2_alg».proof.Proof.Gen.KernelIdeal.Frame
import proofs.«106194_j24283745091829_2_alg».proof.Proof.Spec
import proofs.«106194_j24283745091829_2_alg».proof.Proof.Consts
import proofs.«106194_j24283745091829_2_alg».proof.Proof.LibRowReduce
import Idealize.ShloMosaic.Lib.Pipeline.Value
import Idealize.ShloMosaic.Lib.ValueIdx
import Idealize.ShloMosaic.Lib.ValueLayout
import Idealize.ShloMosaic.PureOps.IdealRules

set_option maxRecDepth 16384

noncomputable section

namespace Cert.KernelIdeal.WsRegion4

open Cert.KernelIdeal Cert.KernelIdeal.Gen Idealize.ShloMosaic Idealize.ShloMosaic.TcCoe Idealize.SL.Sem
open Idealize.ShloMosaic.ValueIdx
open Idealize.ShloMosaic.Pipeline (Dat)

/-! ## The body's steps at an index -/

/-- Row p of a [1000, 256] block. -/
abbrev row (x : Vec Ideal S1000x256 .f32) (p : Fin 1000) : Fin 256 → EReal := fun k => x (ix2 p k)

/-- A row sum kept as a column entry: the sum of row p. -/
theorem colSum_apply (v : FVec Ideal S1000x256 .f32) (hacc : (0x00000000#32 : BitVec 32) = 0x00000000#32)
    (p : Fin 1000) (u : Fin 1) :
    shapeCast S1000x1 (multiReduction .add [1] S1000 v 0x00000000#32 reduces_S1000x256_S1000 (.inl rfl) hacc)
      shapeCasts_S1000_S1000x1 (ix2 p u) = ∑ k : Fin 256, v (ix2 p k) :=
  (Cert.Keepdims.shapeCast_a_a1_apply _ shapeCasts_S1000_S1000x1 p u).trans
    (Cert.RowReduce.rowSum_apply v 0x00000000#32 reduces_S1000x256_S1000 (.inl rfl) hacc p)

/-- A column spread over the row reads the column's entry. -/
theorem spread_apply (v : FVec Ideal S1000x1 .f32) (p : Fin 1000) (j : Fin 256) :
    broadcastTo S1000x256 v broadcasts_S1000x1_S1000x256 (ix2 p j) = v (ix2 p (0 : Fin 1)) :=
  Cert.Keepdims.broadcastTo_a1_ab_apply v broadcasts_S1000x1_S1000x256 p j

/-- A weight row spread over the 1000 rows reads the weight row. -/
theorem wrow_apply (v : FVec Ideal S1x256 .f32) (p : Fin 1000) (j : Fin 256) :
    broadcastTo S1000x256 v broadcasts_S1x256_S1000x256 (ix2 p j) = v (ix2 (0 : Fin 1) j) :=
  broadcastTo_1b_ab_apply v broadcasts_S1x256_S1000x256 p j

/-- The reciprocal square root and the logistic act entry by entry. -/
theorem rsqrt_apply {s : Shape} (v : FVec Ideal s .f32) (i : s.Idx) : rsqrt v i = Ideal.rsqrt (v i) := rfl
theorem logistic_apply {s : Shape} (v : FVec Ideal s .f32) (i : s.Idx) : Idealize.ShloMosaic.logistic v i = Ideal.logistic (v i) := rfl

/-- The kernel's named clamp is the specification's. -/
theorem eps_sq_eq : Named.named (F := Ideal) κ "eps_sq" (φ := .f32) 0x179ABE15#32 = Cert.Spec.epsSq :=
  IdealRules.named_const.ideal_named_scalar _ _ _ _ rfl

/-- The literal 1.0. -/
theorem one_eq : (Scalar.ofBits (F := Ideal) .f32 0x3F800000#32 : EReal) = 1 := Cert.Consts.ofBits_one

section Payloads

variable (h hm hs x0 : Vec Ideal S1000x256 .f32) (w0 w1 w2 : Vec Ideal S1x256 .f32) (w : Fin 768 → EReal)
variable (hw0 : ∀ k : Fin 256, w0 (ix2 (0 : Fin 1) k) = w ⟨k.val, by omega⟩)
variable (hw1 : ∀ k : Fin 256, w1 (ix2 (0 : Fin 1) k) = w ⟨256 + k.val, by omega⟩)
variable (hw2 : ∀ k : Fin 256, w2 (ix2 (0 : Fin 1) k) = w ⟨512 + k.val, by omega⟩)
include hw0 hw1 hw2

/-- The score of row p, as the body computes it. -/
theorem score_apply (p : Fin 1000) (u : Fin 1) :
    k4_pay5 h hm hs w0 w1 w2 (ix2 p u) = Cert.Spec.score (row h p) (row hm p) (row hs p) w := by
  unfold k4_pay5 k4_pay4 Cert.Spec.score Cert.Spec.logit
  simp only [shapeCast_self, logistic_apply, addf_apply]
  refine congrArg Ideal.logistic (congrArg₂ (· + ·) (congrArg₂ (· + ·) ?_ ?_) ?_)
  · refine (colSum_apply _ _ p u).trans (Finset.sum_congr rfl fun k _ => ?_)
    simp only [mulf_apply, wrow_apply, hw0]
  · refine (colSum_apply _ _ p u).trans (Finset.sum_congr rfl fun k _ => ?_)
    simp only [mulf_apply, wrow_apply, hw1]
  · refine (colSum_apply _ _ p u).trans (Finset.sum_congr rfl fun k _ => ?_)
    simp only [mulf_apply, wrow_apply, hw2]

/-- The de-smoothed part at (p, j). -/
theorem part1_apply (p : Fin 1000) (j : Fin 256) :
    k4_pay6 h hm hs w0 w1 w2 (ix2 p j) = Cert.Spec.part1 (Cert.Spec.score (row h p) (row hm p) (row hs p) w) (row h p) j := by
  unfold k4_pay6 k4_pay4
  simp only [shapeCast_self, mulf_apply, spread_apply, subf_apply, broadcast_apply,
    score_apply h hm hs w0 w1 w2 w hw0 hw1 hw2 p, one_eq]
  rfl

/-- The residual part at (p, j). -/
theorem part2_apply (p : Fin 1000) (j : Fin 256) :
    k4_pay7 h hm hs x0 w0 w1 w2 (ix2 p j) = Cert.Spec.part2 (Cert.Spec.score (row h p) (row hm p) (row hs p) w) (row x0 p) j := by
  unfold k4_pay7
  simp only [shapeCast_self, mulf_apply, spread_apply, score_apply h hm hs w0 w1 w2 w hw0 hw1 hw2 p]
  rfl

/-- The squared length of the de-smoothed part of row p, kept as a column entry. -/
theorem sq1_apply (p : Fin 1000) (u : Fin 1) :
    k4_pay8 h hm hs w0 w1 w2 (ix2 p u)
      = ∑ k : Fin 256, Cert.Spec.part1 (Cert.Spec.score (row h p) (row hm p) (row hs p) w) (row h p) k
          * Cert.Spec.part1 (Cert.Spec.score (row h p) (row hm p) (row hs p) w) (row h p) k := by
  unfold k4_pay8
  refine (colSum_apply _ _ p u).trans (Finset.sum_congr rfl fun k _ => ?_)
  simp only [mulf_apply, part1_apply h hm hs w0 w1 w2 w hw0 hw1 hw2 p]

/-- The square of the residual part at (p, j). -/
theorem sq2_apply (p : Fin 1000) (j : Fin 256) :
    k4_pay9 h hm hs x0 w0 w1 w2 (ix2 p j)
      = Cert.Spec.part2 (Cert.Spec.score (row h p) (row hm p) (row hs p) w) (row x0 p) j
          * Cert.Spec.part2 (Cert.Spec.score (row h p) (row hm p) (row hs p) w) (row x0 p) j := by
  unfold k4_pay9
  simp only [mulf_apply, part2_apply h hm hs x0 w0 w1 w2 w hw0 hw1 hw2 p]

/-- The reciprocal of the clamped length of row p. -/
theorem invn_apply (p : Fin 1000) (u : Fin 1) :
    k4_pay1 (k4_pay8 h hm hs w0 w1 w2) (k4_pay9 h hm hs x0 w0 w1 w2) (ix2 p u)
      = Cert.Spec.invn (Cert.Spec.score (row h p) (row hm p) (row hs p) w) (row h p) (row x0 p) := by
  unfold k4_pay1 Cert.Spec.invn Cert.Spec.sumsq
  simp only [rsqrt_apply, maximumf_apply, addf_apply, broadcast_apply, eps_sq_eq,
    sq1_apply h hm hs w0 w1 w2 w hw0 hw1 hw2 p]
  refine congrArg Ideal.rsqrt (congrArg₂ max (congrArg₂ (· + ·) rfl ?_) rfl)
  refine (colSum_apply _ _ p u).trans (Finset.sum_congr rfl fun k _ => ?_)
  exact sq2_apply h hm hs x0 w0 w1 w2 w hw0 hw1 hw2 p k

/-- The first stored half at (p, j): the normalised de-smoothed part. -/
theorem half1_apply (p : Fin 1000) (j : Fin 256) :
    k4_pay2 (k4_pay6 h hm hs w0 w1 w2) (k4_pay8 h hm hs w0 w1 w2) (k4_pay9 h hm hs x0 w0 w1 w2) (ix2 p j)
      = Cert.Spec.part1 (Cert.Spec.score (row h p) (row hm p) (row hs p) w) (row h p) j
          * Cert.Spec.invn (Cert.Spec.score (row h p) (row hm p) (row hs p) w) (row h p) (row x0 p) := by
  unfold k4_pay2
  simp only [mulf_apply, spread_apply, part1_apply h hm hs w0 w1 w2 w hw0 hw1 hw2 p,
    invn_apply h hm hs x0 w0 w1 w2 w hw0 hw1 hw2 p]

/-- The second stored half at (p, j): the normalised residual part. -/
theorem half2_apply (p : Fin 1000) (j : Fin 256) :
    k4_pay3 (k4_pay7 h hm hs x0 w0 w1 w2) (k4_pay8 h hm hs w0 w1 w2) (k4_pay9 h hm hs x0 w0 w1 w2) (ix2 p j)
      = Cert.Spec.part2 (Cert.Spec.score (row h p) (row hm p) (row hs p) w) (row x0 p) j
          * Cert.Spec.invn (Cert.Spec.score (row h p) (row hm p) (row hs p) w) (row h p) (row x0 p) := by
  unfold k4_pay3
  simp only [mulf_apply, spread_apply, part2_apply h hm hs x0 w0 w1 w2 w hw0 hw1 hw2 p,
    invn_apply h hm hs x0 w0 w1 w2 w hw0 hw1 hw2 p]

end Payloads

/-! ## What the body leaves in its output block -/

/-- The first store's rectangle puts (p, j) at (p, j) … -/
theorem emb_left (p : Fin 1000) (j : Fin 256) :
    r4_4.emb (ix2 p j : S1000x256.Idx) = (ix2 p ⟨j.val, by omega⟩ : S1000x512.Idx) := by
  funext d
  apply Fin.ext
  rw [Rect.emb_apply]
  match d with
  | ⟨0, _⟩ => show 0 + 1 * p.val = p.val; omega
  | ⟨1, _⟩ => show 0 + 1 * j.val = j.val; omega

/-- … and the second's at (p, 256 + j). -/
theorem emb_right (p : Fin 1000) (j : Fin 256) :
    r4_5.emb (ix2 p j : S1000x256.Idx) = (ix2 p ⟨256 + j.val, by omega⟩ : S1000x512.Idx) := by
  funext d
  apply Fin.ext
  rw [Rect.emb_apply]
  match d with
  | ⟨0, _⟩ => show 0 + 1 * p.val = p.val; omega
  | ⟨1, _⟩ => show 256 + 1 * j.val = 256 + j.val; omega

theorem zero_off : (![0, 0] : Fin 2 → Nat) = fun _ => 0 := funext fun a => by fin_cases a <;> rfl

/-- The k-th third of the weight row, as the body loads it, is entries 256·k … 256·k + 255 of the row. -/
theorem wslice_apply (x4 : Vec Ideal S1x768 .f32) (k : Fin 256) :
    View.ld x4 r4_1 (ix2 (0 : Fin 1) k) = x4 (ix2 (0 : Fin 1) ⟨k.val, by omega⟩)
    ∧ View.ld x4 r4_2 (ix2 (0 : Fin 1) k) = x4 (ix2 (0 : Fin 1) ⟨256 + k.val, by omega⟩)
    ∧ View.ld x4 r4_3 (ix2 (0 : Fin 1) k) = x4 (ix2 (0 : Fin 1) ⟨512 + k.val, by omega⟩) := by
  refine ⟨congrArg x4 (funext fun d => Fin.ext ?_), congrArg x4 (funext fun d => Fin.ext ?_),
    congrArg x4 (funext fun d => Fin.ext ?_)⟩
  · match d with
    | ⟨0, _⟩ => rfl
    | ⟨1, _⟩ => show 0 + 1 * k.val = k.val; omega
  · match d with
    | ⟨0, _⟩ => rfl
    | ⟨1, _⟩ => show 256 + 1 * k.val = 256 + k.val; omega
  · match d with
    | ⟨0, _⟩ => rfl
    | ⟨1, _⟩ => show 512 + 1 * k.val = 512 + k.val; omega

/-- The body's output block is the fusion of its input blocks, row by row. -/
theorem out_eq (x0 x1 x2 x3 : Vec Ideal S1000x256 .f32) (x4 : Vec Ideal S1x768 .f32) :
    out4_5 x0 x1 x2 x3 x4 = (Cert.Spec.ws (N := 1000) x0 x1 x2 x3 x4 : S1000x512.Idx → EReal) := by
  have hw := wslice_apply x4
  funext y
  unfold out4_5
  simp only [View.ld_unit_zero (S := S1000x256) zero_off]
  refine View.canon_apply_of_pieces (Val := Elt Ideal) (e := .f32) (Cert.Spec.ws (N := 1000) x0 x1 x2 x3 x4) _ ?_ y (cover4_5 _ _ y)
  intro pc hpc
  rcases List.mem_cons.mp hpc with rfl | hpc
  · intro (x : S1000x256.Idx)
    obtain ⟨p, j, rfl⟩ : ∃ (p : Fin 1000) (j : Fin 256), x = ix2 p j := ⟨x 0, x 1, eq_ix2 x⟩
    refine (half2_apply x0 x1 x2 x3 (View.ld x4 r4_1) (View.ld x4 r4_2) (View.ld x4 r4_3) (fun k => x4 (ix2 (0 : Fin 1) k))
      (fun k => (hw k).1) (fun k => (hw k).2.1) (fun k => (hw k).2.2) p j).trans ?_
    refine Eq.trans ?_ (congrArg (Cert.Spec.ws (N := 1000) x0 x1 x2 x3 x4) (emb_right p j).symm)
    show _ = Cert.Spec.wsRow _ _ _ _ _ (⟨256 + j.val, _⟩ : Fin 512)
    unfold Cert.Spec.wsRow
    rw [dif_neg (by show ¬ 256 + j.val < 256; omega)]
    refine congrArg₂ (· * ·) (congrArg _ (Fin.ext ?_)) rfl
    show j.val = 256 + j.val - 256
    omega
  · rcases List.mem_singleton.mp hpc with rfl
    intro (x : S1000x256.Idx)
    obtain ⟨p, j, rfl⟩ : ∃ (p : Fin 1000) (j : Fin 256), x = ix2 p j := ⟨x 0, x 1, eq_ix2 x⟩
    refine (half1_apply x0 x1 x2 x3 (View.ld x4 r4_1) (View.ld x4 r4_2) (View.ld x4 r4_3) (fun k => x4 (ix2 (0 : Fin 1) k))
      (fun k => (hw k).1) (fun k => (hw k).2.1) (fun k => (hw k).2.2) p j).trans ?_
    refine Eq.trans ?_ (congrArg (Cert.Spec.ws (N := 1000) x0 x1 x2 x3 x4) (emb_left p j).symm)
    show _ = Cert.Spec.wsRow _ _ _ _ _ (⟨j.val, _⟩ : Fin 512)
    unfold Cert.Spec.wsRow
    rw [dif_pos (by show j.val < 256; exact j.isLt)]

/-! ## From blocks to the array -/

/-- The fusion of a row block is the row block of the fusion: row p of the blocks is row r of the arrays. -/
theorem ws_block (H HM HS X0 : Cert.Spec.Mat 50000 256) (WR wr : Cert.Spec.Mat 1 768) (h hm hs x0 : Cert.Spec.Mat 1000 256)
    (r : Fin 50000) (p : Fin 1000) (q : Fin 512)
    (eh : ∀ k, h (ix2 p k) = H (ix2 r k)) (ehm : ∀ k, hm (ix2 p k) = HM (ix2 r k))
    (ehs : ∀ k, hs (ix2 p k) = HS (ix2 r k)) (ex0 : ∀ k, x0 (ix2 p k) = X0 (ix2 r k))
    (ew : ∀ k, wr (ix2 (0 : Fin 1) k) = WR (ix2 (0 : Fin 1) k)) :
    Cert.Spec.ws h hm hs x0 wr (ix2 p q) = Cert.Spec.ws H HM HS X0 WR (ix2 r q) := by
  show Cert.Spec.wsRow (fun k => h (ix2 p k)) (fun k => hm (ix2 p k)) (fun k => hs (ix2 p k)) (fun k => x0 (ix2 p k))
      (fun k => wr (ix2 (0 : Fin 1) k)) q
    = Cert.Spec.wsRow (fun k => H (ix2 r k)) (fun k => HM (ix2 r k)) (fun k => HS (ix2 r k)) (fun k => X0 (ix2 r k))
      (fun k => WR (ix2 (0 : Fin 1) k)) q
  rw [funext eh, funext ehm, funext ehs, funext ex0, funext ew]

/-- The printed index maps, decided over the 50 points: at point t the four feature windows and the output window are at
    row block t and column block 0, the weight row's window at block (0, 0). -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-! Row p of a feature window's block at point t is row 1000·t + p of its array. -/

theorem blk0_apply (V : (c : Dev nD) → (b : Ref sig .tc) → Buf (Elt Ideal) ((c : Thread nD τ).loc b)) (c : Dev nD)
    (t : Fin cfg4.N) (p : Fin 1000) (k : Fin 256) (r : Fin 50000) (hr : r.val = t.val * 1000 + p.val) :
    (iblk4 V c 0 t : Vec Ideal S1000x256 .f32) (ix2 p k) = (V c main_v108 : S50000x256.Idx → EReal) (ix2 r k) := by
  obtain ⟨e0, e1, e2, e3, e4, e5, e6, e7, e8, e9, e10, e11⟩ := index_facts t
  unfold iblk4
  show V c main_v108 _ = V c main_v108 _
  congr 1
  funext a
  apply Fin.ext
  match a with
  | ⟨0, _⟩ => show win4_0.index t (0 : Fin 2) * 1000 + 1 * p.val = r.val; rw [e0, hr]; omega
  | ⟨1, _⟩ => show win4_0.index t (1 : Fin 2) * 256 + 1 * k.val = k.val; rw [e1]; omega

theorem blk1_apply (V : (c : Dev nD) → (b : Ref sig .tc) → Buf (Elt Ideal) ((c : Thread nD τ).loc b)) (c : Dev nD)
    (t : Fin cfg4.N) (p : Fin 1000) (k : Fin 256) (r : Fin 50000) (hr : r.val = t.val * 1000 + p.val) :
    (iblk4 V c 1 t : Vec Ideal S1000x256 .f32) (ix2 p k) = (V c main_v127 : S50000x256.Idx → EReal) (ix2 r k) := by
  obtain ⟨e0, e1, e2, e3, e4, e5, e6, e7, e8, e9, e10, e11⟩ := index_facts t
  unfold iblk4
  show V c main_v127 _ = V c main_v127 _
  congr 1
  funext a
  apply Fin.ext
  match a with
  | ⟨0, _⟩ => show win4_1.index t (0 : Fin 2) * 1000 + 1 * p.val = r.val; rw [e2, hr]; omega
  | ⟨1, _⟩ => show win4_1.index t (1 : Fin 2) * 256 + 1 * k.val = k.val; rw [e3]; omega

theorem blk2_apply (V : (c : Dev nD) → (b : Ref sig .tc) → Buf (Elt Ideal) ((c : Thread nD τ).loc b)) (c : Dev nD)
    (t : Fin cfg4.N) (p : Fin 1000) (k : Fin 256) (r : Fin 50000) (hr : r.val = t.val * 1000 + p.val) :
    (iblk4 V c 2 t : Vec Ideal S1000x256 .f32) (ix2 p k) = (V c main_v148 : S50000x256.Idx → EReal) (ix2 r k) := by
  obtain ⟨e0, e1, e2, e3, e4, e5, e6, e7, e8, e9, e10, e11⟩ := index_facts t
  unfold iblk4
  show V c main_v148 _ = V c main_v148 _
  congr 1
  funext a
  apply Fin.ext
  match a with
  | ⟨0, _⟩ => show win4_2.index t (0 : Fin 2) * 1000 + 1 * p.val = r.val; rw [e4, hr]; omega
  | ⟨1, _⟩ => show win4_2.index t (1 : Fin 2) * 256 + 1 * k.val = k.val; rw [e5]; omega

theorem blk3_apply (V : (c : Dev nD) → (b : Ref sig .tc) → Buf (Elt Ideal) ((c : Thread nD τ).loc b)) (c : Dev nD)
    (t : Fin cfg4.N) (p : Fin 1000) (k : Fin 256) (r : Fin 50000) (hr : r.val = t.val * 1000 + p.val) :
    (iblk4 V c 3 t : Vec Ideal S1000x256 .f32) (ix2 p k) = (V c main_v30 : S50000x256.Idx → EReal) (ix2 r k) := by
  obtain ⟨e0, e1, e2, e3, e4, e5, e6, e7, e8, e9, e10, e11⟩ := index_facts t
  unfold iblk4
  show V c main_v30 _ = V c main_v30 _
  congr 1
  funext a
  apply Fin.ext
  match a with
  | ⟨0, _⟩ => show win4_3.index t (0 : Fin 2) * 1000 + 1 * p.val = r.val; rw [e6, hr]; omega
  | ⟨1, _⟩ => show win4_3.index t (1 : Fin 2) * 256 + 1 * k.val = k.val; rw [e7]; omega

/-- The weight row's block at every point is the whole row. -/
theorem blk4_apply (V : (c : Dev nD) → (b : Ref sig .tc) → Buf (Elt Ideal) ((c : Thread nD τ).loc b)) (c : Dev nD)
    (t : Fin cfg4.N) (k : Fin 768) :
    (iblk4 V c 4 t : Vec Ideal S1x768 .f32) (ix2 (0 : Fin 1) k) = (V c main_v149 : S1x768.Idx → EReal) (ix2 (0 : Fin 1) k) := by
  obtain ⟨e0, e1, e2, e3, e4, e5, e6, e7, e8, e9, e10, e11⟩ := index_facts t
  unfold iblk4
  show V c main_v149 _ = V c main_v149 _
  congr 1
  funext a
  apply Fin.ext
  match a with
  | ⟨0, _⟩ => show win4_4.index t (0 : Fin 2) * 1 + 1 * 0 = 0; rw [e8]
  | ⟨1, _⟩ => show win4_4.index t (1 : Fin 2) * 768 + 1 * k.val = k.val; rw [e9]; omega

/-- What point t writes back is block t of the fusion of the five arrays as the region finds them. -/
theorem flushed_eq (V : (c : Dev nD) → (b : Ref sig .tc) → Buf (Elt Ideal) ((c : Thread nD τ).loc b)) (c : Dev nD)
    (t : Fin cfg4.N) :
    (dat4 (F := Ideal) V c).flushed 5 t
      = ((cfg4.win 5).blk t).view.read (Elt Ideal)
          (Cert.Spec.ws (V c main_v108) (V c main_v127) (V c main_v148) (V c main_v30) (V c main_v149)) := by
  show (cfg4.win 5).cut (grid4.coords t) ((dat4 V c).after 5 t) = _
  rw [after4_5]
  refine (congrArg ((cfg4.win 5).cut (grid4.coords t)) (out_eq _ _ _ _ _)).trans ?_
  obtain ⟨e0, e1, e2, e3, e4, e5, e6, e7, e8, e9, e10, e11⟩ := index_facts t
  have hN : cfg4.N = 50 := N_4
  have ht : t.val < 50 := lt_of_lt_of_eq t.isLt hN
  funext (y : S1000x512.Idx)
  obtain ⟨p, q, rfl⟩ : ∃ (p : Fin 1000) (q : Fin 512), y = ix2 p q := ⟨y 0, y 1, eq_ix2 y⟩
  have hp : p.val < 1000 := p.isLt
  obtain ⟨r, hr⟩ : ∃ r : Fin 50000, r.val = t.val * 1000 + p.val := ⟨⟨t.val * 1000 + p.val, by omega⟩, rfl⟩
  have hemb : ((cfg4.win 5).blk t).view.emb (ix2 p q) = (ix2 r q : S50000x512.Idx) := by
    funext a
    apply Fin.ext
    match a with
    | ⟨0, _⟩ => show win4_5.index t (0 : Fin 2) * 1000 + 1 * p.val = r.val; rw [e10, hr]; omega
    | ⟨1, _⟩ => show win4_5.index t (1 : Fin 2) * 512 + 1 * q.val = q.val; rw [e11]; omega
  show Cert.Spec.ws (N := 1000) (iblk4 V c 0 t) (iblk4 V c 1 t) (iblk4 V c 2 t) (iblk4 V c 3 t) (iblk4 V c 4 t) (ix2 p q)
    = Cert.Spec.ws (V c main_v108) (V c main_v127) (V c main_v148) (V c main_v30) (V c main_v149) (((cfg4.win 5).blk t).view.emb (ix2 p q))
  rw [hemb]
  exact ws_block _ _ _ _ _ _ _ _ _ _ r p q
    (fun k => blk0_apply V c t p k r hr) (fun k => blk1_apply V c t p k r hr)
    (fun k => blk2_apply V c t p k r hr) (fun k => blk3_apply V c t p k r hr)
    (fun k => blk4_apply V c t k)

/-- An index of the output array is in point t's block iff its row is in row block t. -/
theorem mem_blk (t : Fin cfg4.N) (i : S50000x512.Idx) :
    i ∈ ((cfg4.win 5).blk t).view.set
      ↔ ∀ a : Fin 2, win4_5.index t a * S1000x512.size a ≤ (i a).val
          ∧ (i a).val < win4_5.index t a * S1000x512.size a + S1000x512.size a := by
  show i ∈ ((View.whole main_v150).slice (win4_5.rect t)).set ↔ _
  rw [View.set_slice_whole, Rect.mem_set_unit]
  exact Iff.rfl

/-- The 50 row blocks tile the output array: row r is in block r / 1000. -/
theorem cover (i : S50000x512.Idx) :
    ∃ t : Fin cfg4.N, (cfg4.win 5).flush t = true ∧ i ∈ ((cfg4.win 5).blk t).view.set := by
  have hi0 : (i 0).val < 50000 := (i 0).isLt
  have hi1 : (i 1).val < 512 := (i 1).isLt
  have hN : cfg4.N = 50 := N_4
  obtain ⟨t, ht⟩ : ∃ t : Fin cfg4.N, t.val = (i 0).val / 1000 := ⟨⟨(i 0).val / 1000, by rw [hN]; omega⟩, rfl⟩
  obtain ⟨e0, e1, e2, e3, e4, e5, e6, e7, e8, e9, e10, e11⟩ := index_facts t
  refine ⟨t, flush4_5 t, ?_⟩
  rw [mem_blk]
  intro a
  match a with
  | ⟨0, _⟩ =>
    show win4_5.index t (0 : Fin 2) * 1000 ≤ (i 0).val ∧ (i 0).val < win4_5.index t (0 : Fin 2) * 1000 + 1000
    rw [e10, ht]; omega
  | ⟨1, _⟩ =>
    show win4_5.index t (1 : Fin 2) * 512 ≤ (i 1).val ∧ (i 1).val < win4_5.index t (1 : Fin 2) * 512 + 512
    rw [e11]; omega

/-- The output array after the region is the fusion of the five input arrays as the region finds them. -/
theorem arr (V : (c : Dev nD) → (b : Ref sig .tc) → Buf (Elt Ideal) ((c : Thread nD τ).loc b)) (c : Dev nD) :
    (Gen.dat4 (F := Ideal) V c).arrAt 5 cfg4.N
      = Cert.Spec.ws (V c main_v108) (V c main_v127) (V c main_v148) (V c main_v30) (V c main_v149) :=
  (dat4 (F := Ideal) V c).arrAt_eq_of_cover 5 _ (fun t _ => flushed_eq V c t) cover

end Cert.KernelIdeal.WsRegion4

end
-- ==== Proof.KCarryArgs.lean ====
/-
  The argument arrays along the kernel program's run: each is as launched at the boundary where it is read.
  A buffer that no operation of a host stretch writes keeps its contents across the stretch; a buffer that is not
  an array of a region keeps its contents across the region; an input array of a region is left as the region found it.
  Walking a buffer back through the boundaries of the run with these three facts reads it where it was last written.
-/
import proofs.«106194_j24283745091829_2_alg».proof.Proof.Gen.KernelIdeal.Frame

set_option maxRecDepth 16384

noncomputable section

namespace Cert.KernelIdeal.CarryArgs

open Idealize.ShloMosaic Idealize.ShloMosaic.TcCoe Idealize.SL.Sem
open Idealize.ShloMosaic.Pipeline (Dat Cfg Window)
open Cert.KernelIdeal Cert.KernelIdeal.Gen

variable {F : FTy → Type} [FloatOps F] [Named F]
variable (m : (ℓ : Loc nD τ sig) → Buf (Elt F) ℓ) (ρ : Dev nD → PrngReg) (c : Dev nD)

/-- The argument array main_arg0 is as launched when boundary 3 is reached. -/
theorem arg0_at3 : W3 m ρ c (Proc.devRef .tc main_arg0) = m ((c : Thread nD τ).loc main_arg0) :=
  calc W3 m ρ c (Proc.devRef .tc main_arg0)
    _ = W2 m ρ c (Proc.devRef .tc main_arg0) := (StableHlo.after_of_forall_not_mem (b := Proc.devRef .tc main_arg0) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg0) := (StableHlo.after_of_forall_not_mem (b := Proc.devRef .tc main_arg0) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg0) := (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg0) := rfl

/-- The argument array main_arg8 is as launched when boundary 3 is reached. -/
theorem arg8_at3 : W3 m ρ c (Proc.devRef .tc main_arg8) = m ((c : Thread nD τ).loc main_arg8) :=
  calc W3 m ρ c (Proc.devRef .tc main_arg8)
    _ = W2 m ρ c (Proc.devRef .tc main_arg8) := (StableHlo.after_of_forall_not_mem (b := Proc.devRef .tc main_arg8) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg8) := (StableHlo.after_of_forall_not_mem (b := Proc.devRef .tc main_arg8) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg8) := (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg8) := rfl

/-- The argument array main_arg0 is as launched when boundary 4 is reached. -/
theorem arg0_at4 : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := (StableHlo.after_of_forall_not_mem (b := Proc.devRef .tc main_arg0) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg0) := (StableHlo.after_of_forall_not_mem (b := Proc.devRef .tc main_arg0) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg0) := (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg0) := rfl

/-- The argument array main_arg2 is as launched when boundary 4 is reached. -/
theorem arg2_at4 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (StableHlo.after_of_forall_not_mem (b := Proc.devRef .tc main_arg2) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg2) := (StableHlo.after_of_forall_not_mem (b := Proc.devRef .tc main_arg2) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg2) := (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg2) := rfl

/-- The argument array main_arg3 is as launched when boundary 5 is reached. -/
theorem arg3_at5 : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := (StableHlo.after_of_forall_not_mem (b := Proc.devRef .tc main_arg3) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg3) := (StableHlo.after_of_forall_not_mem (b := Proc.devRef .tc main_arg3) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg3) := (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg3) := rfl

/-- The argument array main_arg9 is as launched when boundary 5 is reached. -/
theorem arg9_at5 : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := (StableHlo.after_of_forall_not_mem (b := Proc.devRef .tc main_arg9) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg9) := (StableHlo.after_of_forall_not_mem (b := Proc.devRef .tc main_arg9) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg9) := (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg9) := rfl

/-- The argument array main_arg4 is as launched when boundary 9 is reached. -/
theorem arg4_at9 : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := (StableHlo.after_of_forall_not_mem (b := Proc.devRef .tc main_arg4) _ _ (List.forall_iff_forall_mem.mp (by
      simp only [hostOps2_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W6 m ρ c (Proc.devRef .tc main_arg4) := (StableHlo.after_of_forall_not_mem (b := Proc.devRef .tc main_arg4) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg4) := (StableHlo.after_of_forall_not_mem (b := Proc.devRef .tc main_arg4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := (StableHlo.after_of_forall_not_mem (b := Proc.devRef .tc main_arg4) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg4) := (StableHlo.after_of_forall_not_mem (b := Proc.devRef .tc main_arg4) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg4) := (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg4) := rfl

/-- The argument array main_arg5 is as launched when boundary 10 is reached. -/
theorem arg5_at10 : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := W9_of_ne m ρ c main_arg5 (by decide)
    _ = W7 m ρ c (Proc.devRef .tc main_arg5) := (StableHlo.after_of_forall_not_mem (b := Proc.devRef .tc main_arg5) _ _ (List.forall_iff_forall_mem.mp (by
      simp only [hostOps2_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W6 m ρ c (Proc.devRef .tc main_arg5) := (StableHlo.after_of_forall_not_mem (b := Proc.devRef .tc main_arg5) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg5) := (StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := (StableHlo.after_of_forall_not_mem (b := Proc.devRef .tc main_arg5) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg5) := (StableHlo.after_of_forall_not_mem (b := Proc.devRef .tc main_arg5) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg5) := (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg5) := rfl

/-- The argument array main_arg9 is as launched when boundary 10 is reached. -/
theorem arg9_at10 : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := (StableHlo.after_of_forall_not_mem (b := Proc.devRef .tc main_arg9) _ _ (List.forall_iff_forall_mem.mp (by
      simp only [hostOps2_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W6 m ρ c (Proc.devRef .tc main_arg9) := (StableHlo.after_of_forall_not_mem (b := Proc.devRef .tc main_arg9) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg9) := (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := (StableHlo.after_of_forall_not_mem (b := Proc.devRef .tc main_arg9) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg9) := (StableHlo.after_of_forall_not_mem (b := Proc.devRef .tc main_arg9) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg9) := (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg9) := rfl

/-- The argument array main_arg6 is as launched when boundary 14 is reached. -/
theorem arg6_at14 : W14 m ρ c (Proc.devRef .tc main_arg6) = m ((c : Thread nD τ).loc main_arg6) :=
  calc W14 m ρ c (Proc.devRef .tc main_arg6)
    _ = W13 m ρ c (Proc.devRef .tc main_arg6) := W14_of_ne m ρ c main_arg6 (by decide)
    _ = W12 m ρ c (Proc.devRef .tc main_arg6) := (StableHlo.after_of_forall_not_mem (b := Proc.devRef .tc main_arg6) _ _ (List.forall_iff_forall_mem.mp (by
      simp only [hostOps4_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W11 m ρ c (Proc.devRef .tc main_arg6) := (StableHlo.after_of_forall_not_mem (b := Proc.devRef .tc main_arg6) _ _ (List.forall_iff_forall_mem.mp (by
      simp only [hostOps4_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_arg6) := (StableHlo.after_of_forall_not_mem (b := Proc.devRef .tc main_arg6) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W9 m ρ c (Proc.devRef .tc main_arg6) := W10_of_ne m ρ c main_arg6 (by decide)
    _ = W8 m ρ c (Proc.devRef .tc main_arg6) := W9_of_ne m ρ c main_arg6 (by decide)
    _ = W7 m ρ c (Proc.devRef .tc main_arg6) := (StableHlo.after_of_forall_not_mem (b := Proc.devRef .tc main_arg6) _ _ (List.forall_iff_forall_mem.mp (by
      simp only [hostOps2_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W6 m ρ c (Proc.devRef .tc main_arg6) := (StableHlo.after_of_forall_not_mem (b := Proc.devRef .tc main_arg6) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg6) := (StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := (StableHlo.after_of_forall_not_mem (b := Proc.devRef .tc main_arg6) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg6) := (StableHlo.after_of_forall_not_mem (b := Proc.devRef .tc main_arg6) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg6) := (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg6) := rfl

/-- The argument array main_arg7 is as launched when boundary 15 is reached. -/
theorem arg7_at15 : W15 m ρ c (Proc.devRef .tc main_arg7) = m ((c : Thread nD τ).loc main_arg7) :=
  calc W15 m ρ c (Proc.devRef .tc main_arg7)
    _ = W14 m ρ c (Proc.devRef .tc main_arg7) := W15_of_ne m ρ c main_arg7 (by decide)
    _ = W13 m ρ c (Proc.devRef .tc main_arg7) := W14_of_ne m ρ c main_arg7 (by decide)
    _ = W12 m ρ c (Proc.devRef .tc main_arg7) := (StableHlo.after_of_forall_not_mem (b := Proc.devRef .tc main_arg7) _ _ (List.forall_iff_forall_mem.mp (by
      simp only [hostOps4_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W11 m ρ c (Proc.devRef .tc main_arg7) := (StableHlo.after_of_forall_not_mem (b := Proc.devRef .tc main_arg7) _ _ (List.forall_iff_forall_mem.mp (by
      simp only [hostOps4_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_arg7) := (StableHlo.after_of_forall_not_mem (b := Proc.devRef .tc main_arg7) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := (StableHlo.after_of_forall_not_mem (b := Proc.devRef .tc main_arg7) _ _ (List.forall_iff_forall_mem.mp (by
      simp only [hostOps2_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W6 m ρ c (Proc.devRef .tc main_arg7) := (StableHlo.after_of_forall_not_mem (b := Proc.devRef .tc main_arg7) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg7) := (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := (StableHlo.after_of_forall_not_mem (b := Proc.devRef .tc main_arg7) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg7) := (StableHlo.after_of_forall_not_mem (b := Proc.devRef .tc main_arg7) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg7) := (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = m ((c : Thread nD τ).loc main_arg7) := rfl

end Cert.KernelIdeal.CarryArgs

end
-- ==== Proof.KCarryVals.lean ====
/-
  The intermediate buffers along the kernel program's run: the edge lists, the normalisation weights and the residual features are computed once and read again at later boundaries.
  A buffer that no operation of a host stretch writes keeps its contents across the stretch; a buffer that is not
  an array of a region keeps its contents across the region; an input array of a region is left as the region found it.
  Walking a buffer back through the boundaries of the run with these three facts reads it where it was last written.
-/
import proofs.«106194_j24283745091829_2_alg».proof.Proof.Gen.KernelIdeal.Frame

set_option maxRecDepth 16384

noncomputable section

namespace Cert.KernelIdeal.CarryVals

open Idealize.ShloMosaic Idealize.ShloMosaic.TcCoe Idealize.SL.Sem
open Idealize.ShloMosaic.Pipeline (Dat Cfg Window)
open Cert.KernelIdeal Cert.KernelIdeal.Gen

variable {F : FTy → Type} [FloatOps F] [Named F]
variable (m : (ℓ : Loc nD τ sig) → Buf (Elt F) ℓ) (ρ : Dev nD → PrngReg) (c : Dev nD)

/-- The buffer main_v1 at boundary 5 is what it was at boundary 3. -/
theorem v1_5from3 : W5 m ρ c (Proc.devRef .tc main_v1) = W3 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)

/-- The buffer main_v3 at boundary 5 is what it was at boundary 3. -/
theorem v3_5from3 : W5 m ρ c (Proc.devRef .tc main_v3) = W3 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)

/-- The buffer main_v5 at boundary 5 is what it was at boundary 3. -/
theorem v5_5from3 : W5 m ρ c (Proc.devRef .tc main_v5) = W3 m ρ c (Proc.devRef .tc main_v5) :=
  calc W5 m ρ c (Proc.devRef .tc main_v5)
    _ = W4 m ρ c (Proc.devRef .tc main_v5) := W5_of_ne m ρ c main_v5 (by decide)
    _ = W3 m ρ c (Proc.devRef .tc main_v5) := W4_of_ne m ρ c main_v5 (by decide)

/-- The buffer main_v6 at boundary 5 is what it was at boundary 3. -/
theorem v6_5from3 : W5 m ρ c (Proc.devRef .tc main_v6) = W3 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)

/-- The buffer main_v29 at boundary 5 is what it was at boundary 3. -/
theorem v29_5from3 : W5 m ρ c (Proc.devRef .tc main_v29) = W3 m ρ c (Proc.devRef .tc main_v29) :=
  calc W5 m ρ c (Proc.devRef .tc main_v29)
    _ = W4 m ρ c (Proc.devRef .tc main_v29) := W5_of_ne m ρ c main_v29 (by decide)
    _ = W3 m ρ c (Proc.devRef .tc main_v29) := W4_of_ne m ρ c main_v29 (by decide)

/-- The buffer main_v30 at boundary 8 is what it was at boundary 4. -/
theorem v30_8from4 : W8 m ρ c (Proc.devRef .tc main_v30) = W4 m ρ c (Proc.devRef .tc main_v30) :=
  calc W8 m ρ c (Proc.devRef .tc main_v30)
    _ = W7 m ρ c (Proc.devRef .tc main_v30) := (StableHlo.after_of_forall_not_mem (b := Proc.devRef .tc main_v30) _ _ (List.forall_iff_forall_mem.mp (by
      simp only [hostOps2_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W6 m ρ c (Proc.devRef .tc main_v30) := (StableHlo.after_of_forall_not_mem (b := Proc.devRef .tc main_v30) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_v30) := (StableHlo.after_of_forall_not_mem (b := Proc.devRef .tc main_v30) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W4 m ρ c (Proc.devRef .tc main_v30) := W5_of_ne m ρ c main_v30 (by decide)

/-- The buffer main_v1 at boundary 10 is what it was at boundary 5. -/
theorem v1_10from5 : W10 m ρ c (Proc.devRef .tc main_v1) = W5 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := W9_of_ne m ρ c main_v1 (by decide)
    _ = W7 m ρ c (Proc.devRef .tc main_v1) := (StableHlo.after_of_forall_not_mem (b := Proc.devRef .tc main_v1) _ _ (List.forall_iff_forall_mem.mp (by
      simp only [hostOps2_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W6 m ρ c (Proc.devRef .tc main_v1) := (StableHlo.after_of_forall_not_mem (b := Proc.devRef .tc main_v1) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_v1) := (StableHlo.after_of_forall_not_mem (b := Proc.devRef .tc main_v1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The buffer main_v3 at boundary 10 is what it was at boundary 5. -/
theorem v3_10from5 : W10 m ρ c (Proc.devRef .tc main_v3) = W5 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := (StableHlo.after_of_forall_not_mem (b := Proc.devRef .tc main_v3) _ _ (List.forall_iff_forall_mem.mp (by
      simp only [hostOps2_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W6 m ρ c (Proc.devRef .tc main_v3) := (StableHlo.after_of_forall_not_mem (b := Proc.devRef .tc main_v3) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_v3) := (StableHlo.after_of_forall_not_mem (b := Proc.devRef .tc main_v3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The buffer main_v5 at boundary 10 is what it was at boundary 5. -/
theorem v5_10from5 : W10 m ρ c (Proc.devRef .tc main_v5) = W5 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := W9_of_ne m ρ c main_v5 (by decide)
    _ = W7 m ρ c (Proc.devRef .tc main_v5) := (StableHlo.after_of_forall_not_mem (b := Proc.devRef .tc main_v5) _ _ (List.forall_iff_forall_mem.mp (by
      simp only [hostOps2_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W6 m ρ c (Proc.devRef .tc main_v5) := (StableHlo.after_of_forall_not_mem (b := Proc.devRef .tc main_v5) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_v5) := (StableHlo.after_of_forall_not_mem (b := Proc.devRef .tc main_v5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The buffer main_v6 at boundary 10 is what it was at boundary 5. -/
theorem v6_10from5 : W10 m ρ c (Proc.devRef .tc main_v6) = W5 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := (StableHlo.after_of_forall_not_mem (b := Proc.devRef .tc main_v6) _ _ (List.forall_iff_forall_mem.mp (by
      simp only [hostOps2_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W6 m ρ c (Proc.devRef .tc main_v6) := (StableHlo.after_of_forall_not_mem (b := Proc.devRef .tc main_v6) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_v6) := (StableHlo.after_of_forall_not_mem (b := Proc.devRef .tc main_v6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The buffer main_v29 at boundary 10 is what it was at boundary 5. -/
theorem v29_10from5 : W10 m ρ c (Proc.devRef .tc main_v29) = W5 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := (StableHlo.after_of_forall_not_mem (b := Proc.devRef .tc main_v29) _ _ (List.forall_iff_forall_mem.mp (by
      simp only [hostOps2_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W6 m ρ c (Proc.devRef .tc main_v29) := (StableHlo.after_of_forall_not_mem (b := Proc.devRef .tc main_v29) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_v29) := (StableHlo.after_of_forall_not_mem (b := Proc.devRef .tc main_v29) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The buffer main_v30 at boundary 13 is what it was at boundary 8. -/
theorem v30_13from8 : W13 m ρ c (Proc.devRef .tc main_v30) = W8 m ρ c (Proc.devRef .tc main_v30) :=
  calc W13 m ρ c (Proc.devRef .tc main_v30)
    _ = W12 m ρ c (Proc.devRef .tc main_v30) := (StableHlo.after_of_forall_not_mem (b := Proc.devRef .tc main_v30) _ _ (List.forall_iff_forall_mem.mp (by
      simp only [hostOps4_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W11 m ρ c (Proc.devRef .tc main_v30) := (StableHlo.after_of_forall_not_mem (b := Proc.devRef .tc main_v30) _ _ (List.forall_iff_forall_mem.mp (by
      simp only [hostOps4_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_v30) := (StableHlo.after_of_forall_not_mem (b := Proc.devRef .tc main_v30) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W9 m ρ c (Proc.devRef .tc main_v30) := W10_of_ne m ρ c main_v30 (by decide)
    _ = W8 m ρ c (Proc.devRef .tc main_v30) := (W9_arr m ρ c 3).trans (((dat2 (V8 m ρ) c).arrAt_in 3 rfl _).trans (A_eq2 (V8 m ρ) c 3))

/-- The buffer main_v5 at boundary 15 is what it was at boundary 10. -/
theorem v5_15from10 : W15 m ρ c (Proc.devRef .tc main_v5) = W10 m ρ c (Proc.devRef .tc main_v5) :=
  calc W15 m ρ c (Proc.devRef .tc main_v5)
    _ = W14 m ρ c (Proc.devRef .tc main_v5) := W15_of_ne m ρ c main_v5 (by decide)
    _ = W13 m ρ c (Proc.devRef .tc main_v5) := W14_of_ne m ρ c main_v5 (by decide)
    _ = W12 m ρ c (Proc.devRef .tc main_v5) := (StableHlo.after_of_forall_not_mem (b := Proc.devRef .tc main_v5) _ _ (List.forall_iff_forall_mem.mp (by
      simp only [hostOps4_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W11 m ρ c (Proc.devRef .tc main_v5) := (StableHlo.after_of_forall_not_mem (b := Proc.devRef .tc main_v5) _ _ (List.forall_iff_forall_mem.mp (by
      simp only [hostOps4_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_v5) := (StableHlo.after_of_forall_not_mem (b := Proc.devRef .tc main_v5) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The buffer main_v6 at boundary 15 is what it was at boundary 10. -/
theorem v6_15from10 : W15 m ρ c (Proc.devRef .tc main_v6) = W10 m ρ c (Proc.devRef .tc main_v6) :=
  calc W15 m ρ c (Proc.devRef .tc main_v6)
    _ = W14 m ρ c (Proc.devRef .tc main_v6) := W15_of_ne m ρ c main_v6 (by decide)
    _ = W13 m ρ c (Proc.devRef .tc main_v6) := W14_of_ne m ρ c main_v6 (by decide)
    _ = W12 m ρ c (Proc.devRef .tc main_v6) := (StableHlo.after_of_forall_not_mem (b := Proc.devRef .tc main_v6) _ _ (List.forall_iff_forall_mem.mp (by
      simp only [hostOps4_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W11 m ρ c (Proc.devRef .tc main_v6) := (StableHlo.after_of_forall_not_mem (b := Proc.devRef .tc main_v6) _ _ (List.forall_iff_forall_mem.mp (by
      simp only [hostOps4_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_v6) := (StableHlo.after_of_forall_not_mem (b := Proc.devRef .tc main_v6) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The buffer main_v29 at boundary 15 is what it was at boundary 10. -/
theorem v29_15from10 : W15 m ρ c (Proc.devRef .tc main_v29) = W10 m ρ c (Proc.devRef .tc main_v29) :=
  calc W15 m ρ c (Proc.devRef .tc main_v29)
    _ = W14 m ρ c (Proc.devRef .tc main_v29) := W15_of_ne m ρ c main_v29 (by decide)
    _ = W13 m ρ c (Proc.devRef .tc main_v29) := W14_of_ne m ρ c main_v29 (by decide)
    _ = W12 m ρ c (Proc.devRef .tc main_v29) := (StableHlo.after_of_forall_not_mem (b := Proc.devRef .tc main_v29) _ _ (List.forall_iff_forall_mem.mp (by
      simp only [hostOps4_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W11 m ρ c (Proc.devRef .tc main_v29) := (StableHlo.after_of_forall_not_mem (b := Proc.devRef .tc main_v29) _ _ (List.forall_iff_forall_mem.mp (by
      simp only [hostOps4_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_v29) := (StableHlo.after_of_forall_not_mem (b := Proc.devRef .tc main_v29) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

end Cert.KernelIdeal.CarryVals

end
-- ==== Proof.KHost.lean ====
/-
  The kernel program's host stretches, read against the reference's stages.

  Between its regions the kernel program runs the same host operations as the reference: the edge lists with the
  self loops appended, the degree normalisation (computed once here, three times in the reference, from the same
  edge list: the same value), and per layer the gather, scaling, scatter-add and bias of the graph convolution, the
  rectifier, and the two neighbourhood means of the weight-score stage. Each stretch's result buffers are therefore
  the reference's stages of the same operands; the three buffers a stretch takes from a region (a layer's linear
  part) enter as hypotheses. The weight column reshaped to a row is the specification's `rowOf`.
-/
import proofs.«106194_j24283745091829_2_alg».proof.Proof.Gen.KernelIdeal.Frame
import proofs.«106194_j24283745091829_2_alg».proof.Proof.RefValP
import proofs.«106194_j24283745091829_2_alg».proof.Proof.SpecRef
import proofs.«106194_j24283745091829_2_alg».proof.Proof.KCarryArgs
import proofs.«106194_j24283745091829_2_alg».proof.Proof.KCarryVals

set_option maxRecDepth 16384

noncomputable section

namespace Cert.KernelIdeal.KHost

open Idealize.ShloMosaic Idealize.ShloMosaic.TcCoe Idealize.SL.Sem Idealize.ShloMosaic.StableHlo Idealize.ShloMosaic.ValueIdx
open Cert.KernelIdeal Cert.KernelIdeal.Gen Cert.KernelIdeal.CarryArgs Cert.KernelIdeal.CarryVals

/-! ## Reading a stretch -/

/-- Finishes what the one-pass reading of a host stretch leaves unread: each remaining "operation's result at a buffer" is
    the operation's function of its operands at the operation's own result buffer, and what was there before at any
    other buffer. -/
macro "after_rest" : tactic =>
  `(tactic| repeat (first
      | rw [StableHlo.nullary_result] | rw [StableHlo.unary_result] | rw [StableHlo.binary_result] | rw [StableHlo.ternary_result]
      | rw [StableHlo.quaternary_result] | rw [StableHlo.reshape_result] | rw [StableHlo.binaryIndexed_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.quaternary_result_ne]; rotate_left; decide)
      | (rw [StableHlo.reshape_result_ne]; rotate_left; decide)
      | (rw [StableHlo.binaryIndexed_result_ne]; rotate_left; decide)))

/-! A value passed to or from a module-local function's buffer is transported along "the buffer's type is the value's";
    for a literal buffer the two types are the same, so the transport is the identity. -/

theorem toBuf_main_cst_2 (h1 : main_cst_2.ty = ⟨S_, .f32⟩) (h2 : main_cst_2.space ≠ .host) (h3 : main_cst_2.isScoped = false)
    (v : (⟨S_, .f32⟩ : BufTy).Contents (Elt Ideal)) : (TRef.of main_cst_2 h1 h2 h3).toBuf v = v := eq_of_heq (cast_heq _ _)
theorem ofBuf_main_cst_2 (h1 : main_cst_2.ty = ⟨S_, .f32⟩) (h2 : main_cst_2.space ≠ .host) (h3 : main_cst_2.isScoped = false)
    (v : main_cst_2.ty.Contents (Elt Ideal)) : (TRef.of main_cst_2 h1 h2 h3).ofBuf v = v := eq_of_heq (cast_heq _ _)

theorem toBuf_main_call0_v0 (h1 : main_call0_v0.ty = ⟨S_, .f32⟩) (h2 : main_call0_v0.space ≠ .host) (h3 : main_call0_v0.isScoped = false)
    (v : (⟨S_, .f32⟩ : BufTy).Contents (Elt Ideal)) : (TRef.of main_call0_v0 h1 h2 h3).toBuf v = v := eq_of_heq (cast_heq _ _)
theorem ofBuf_main_call0_v0 (h1 : main_call0_v0.ty = ⟨S_, .f32⟩) (h2 : main_call0_v0.space ≠ .host) (h3 : main_call0_v0.isScoped = false)
    (v : main_call0_v0.ty.Contents (Elt Ideal)) : (TRef.of main_call0_v0 h1 h2 h3).ofBuf v = v := eq_of_heq (cast_heq _ _)

theorem toBuf_main_call0_v1 (h1 : main_call0_v1.ty = ⟨S50000, .f32⟩) (h2 : main_call0_v1.space ≠ .host) (h3 : main_call0_v1.isScoped = false)
    (v : (⟨S50000, .f32⟩ : BufTy).Contents (Elt Ideal)) : (TRef.of main_call0_v1 h1 h2 h3).toBuf v = v := eq_of_heq (cast_heq _ _)
theorem ofBuf_main_call0_v1 (h1 : main_call0_v1.ty = ⟨S50000, .f32⟩) (h2 : main_call0_v1.space ≠ .host) (h3 : main_call0_v1.isScoped = false)
    (v : main_call0_v1.ty.Contents (Elt Ideal)) : (TRef.of main_call0_v1 h1 h2 h3).ofBuf v = v := eq_of_heq (cast_heq _ _)

theorem toBuf_main_v12 (h1 : main_v12.ty = ⟨S50000, .i1⟩) (h2 : main_v12.space ≠ .host) (h3 : main_v12.isScoped = false)
    (v : (⟨S50000, .i1⟩ : BufTy).Contents (Elt Ideal)) : (TRef.of main_v12 h1 h2 h3).toBuf v = v := eq_of_heq (cast_heq _ _)
theorem ofBuf_main_v12 (h1 : main_v12.ty = ⟨S50000, .i1⟩) (h2 : main_v12.space ≠ .host) (h3 : main_v12.isScoped = false)
    (v : main_v12.ty.Contents (Elt Ideal)) : (TRef.of main_v12 h1 h2 h3).ofBuf v = v := eq_of_heq (cast_heq _ _)

theorem toBuf_main_v13 (h1 : main_v13.ty = ⟨S50000, .f32⟩) (h2 : main_v13.space ≠ .host) (h3 : main_v13.isScoped = false)
    (v : (⟨S50000, .f32⟩ : BufTy).Contents (Elt Ideal)) : (TRef.of main_v13 h1 h2 h3).toBuf v = v := eq_of_heq (cast_heq _ _)
theorem ofBuf_main_v13 (h1 : main_v13.ty = ⟨S50000, .f32⟩) (h2 : main_v13.space ≠ .host) (h3 : main_v13.isScoped = false)
    (v : main_v13.ty.Contents (Elt Ideal)) : (TRef.of main_v13 h1 h2 h3).ofBuf v = v := eq_of_heq (cast_heq _ _)

theorem toBuf_main_v14 (h1 : main_v14.ty = ⟨S50000, .f32⟩) (h2 : main_v14.space ≠ .host) (h3 : main_v14.isScoped = false)
    (v : (⟨S50000, .f32⟩ : BufTy).Contents (Elt Ideal)) : (TRef.of main_v14 h1 h2 h3).toBuf v = v := eq_of_heq (cast_heq _ _)
theorem ofBuf_main_v14 (h1 : main_v14.ty = ⟨S50000, .f32⟩) (h2 : main_v14.space ≠ .host) (h3 : main_v14.isScoped = false)
    (v : main_v14.ty.Contents (Elt Ideal)) : (TRef.of main_v14 h1 h2 h3).ofBuf v = v := eq_of_heq (cast_heq _ _)

theorem toBuf_main_call1_cst (h1 : main_call1_cst.ty = ⟨S_, .f32⟩) (h2 : main_call1_cst.space ≠ .host) (h3 : main_call1_cst.isScoped = false)
    (v : (⟨S_, .f32⟩ : BufTy).Contents (Elt Ideal)) : (TRef.of main_call1_cst h1 h2 h3).toBuf v = v := eq_of_heq (cast_heq _ _)
theorem ofBuf_main_call1_cst (h1 : main_call1_cst.ty = ⟨S_, .f32⟩) (h2 : main_call1_cst.space ≠ .host) (h3 : main_call1_cst.isScoped = false)
    (v : main_call1_cst.ty.Contents (Elt Ideal)) : (TRef.of main_call1_cst h1 h2 h3).ofBuf v = v := eq_of_heq (cast_heq _ _)

theorem toBuf_main_call1_v0 (h1 : main_call1_v0.ty = ⟨S50000x256, .f32⟩) (h2 : main_call1_v0.space ≠ .host) (h3 : main_call1_v0.isScoped = false)
    (v : (⟨S50000x256, .f32⟩ : BufTy).Contents (Elt Ideal)) : (TRef.of main_call1_v0 h1 h2 h3).toBuf v = v := eq_of_heq (cast_heq _ _)
theorem ofBuf_main_call1_v0 (h1 : main_call1_v0.ty = ⟨S50000x256, .f32⟩) (h2 : main_call1_v0.space ≠ .host) (h3 : main_call1_v0.isScoped = false)
    (v : main_call1_v0.ty.Contents (Elt Ideal)) : (TRef.of main_call1_v0 h1 h2 h3).ofBuf v = v := eq_of_heq (cast_heq _ _)

theorem toBuf_main_v47 (h1 : main_v47.ty = ⟨S50000x256, .f32⟩) (h2 : main_v47.space ≠ .host) (h3 : main_v47.isScoped = false)
    (v : (⟨S50000x256, .f32⟩ : BufTy).Contents (Elt Ideal)) : (TRef.of main_v47 h1 h2 h3).toBuf v = v := eq_of_heq (cast_heq _ _)
theorem ofBuf_main_v47 (h1 : main_v47.ty = ⟨S50000x256, .f32⟩) (h2 : main_v47.space ≠ .host) (h3 : main_v47.isScoped = false)
    (v : main_v47.ty.Contents (Elt Ideal)) : (TRef.of main_v47 h1 h2 h3).ofBuf v = v := eq_of_heq (cast_heq _ _)

theorem toBuf_main_v48 (h1 : main_v48.ty = ⟨S50000x256, .f32⟩) (h2 : main_v48.space ≠ .host) (h3 : main_v48.isScoped = false)
    (v : (⟨S50000x256, .f32⟩ : BufTy).Contents (Elt Ideal)) : (TRef.of main_v48 h1 h2 h3).toBuf v = v := eq_of_heq (cast_heq _ _)
theorem ofBuf_main_v48 (h1 : main_v48.ty = ⟨S50000x256, .f32⟩) (h2 : main_v48.space ≠ .host) (h3 : main_v48.isScoped = false)
    (v : main_v48.ty.Contents (Elt Ideal)) : (TRef.of main_v48 h1 h2 h3).ofBuf v = v := eq_of_heq (cast_heq _ _)

theorem toBuf_main_call2_cst (h1 : main_call2_cst.ty = ⟨S_, .f32⟩) (h2 : main_call2_cst.space ≠ .host) (h3 : main_call2_cst.isScoped = false)
    (v : (⟨S_, .f32⟩ : BufTy).Contents (Elt Ideal)) : (TRef.of main_call2_cst h1 h2 h3).toBuf v = v := eq_of_heq (cast_heq _ _)
theorem ofBuf_main_call2_cst (h1 : main_call2_cst.ty = ⟨S_, .f32⟩) (h2 : main_call2_cst.space ≠ .host) (h3 : main_call2_cst.isScoped = false)
    (v : main_call2_cst.ty.Contents (Elt Ideal)) : (TRef.of main_call2_cst h1 h2 h3).ofBuf v = v := eq_of_heq (cast_heq _ _)

theorem toBuf_main_call2_v0 (h1 : main_call2_v0.ty = ⟨S50000x256, .f32⟩) (h2 : main_call2_v0.space ≠ .host) (h3 : main_call2_v0.isScoped = false)
    (v : (⟨S50000x256, .f32⟩ : BufTy).Contents (Elt Ideal)) : (TRef.of main_call2_v0 h1 h2 h3).toBuf v = v := eq_of_heq (cast_heq _ _)
theorem ofBuf_main_call2_v0 (h1 : main_call2_v0.ty = ⟨S50000x256, .f32⟩) (h2 : main_call2_v0.space ≠ .host) (h3 : main_call2_v0.isScoped = false)
    (v : main_call2_v0.ty.Contents (Elt Ideal)) : (TRef.of main_call2_v0 h1 h2 h3).ofBuf v = v := eq_of_heq (cast_heq _ _)

theorem toBuf_main_v107 (h1 : main_v107.ty = ⟨S50000x256, .f32⟩) (h2 : main_v107.space ≠ .host) (h3 : main_v107.isScoped = false)
    (v : (⟨S50000x256, .f32⟩ : BufTy).Contents (Elt Ideal)) : (TRef.of main_v107 h1 h2 h3).toBuf v = v := eq_of_heq (cast_heq _ _)
theorem ofBuf_main_v107 (h1 : main_v107.ty = ⟨S50000x256, .f32⟩) (h2 : main_v107.space ≠ .host) (h3 : main_v107.isScoped = false)
    (v : main_v107.ty.Contents (Elt Ideal)) : (TRef.of main_v107 h1 h2 h3).ofBuf v = v := eq_of_heq (cast_heq _ _)

theorem toBuf_main_v108 (h1 : main_v108.ty = ⟨S50000x256, .f32⟩) (h2 : main_v108.space ≠ .host) (h3 : main_v108.isScoped = false)
    (v : (⟨S50000x256, .f32⟩ : BufTy).Contents (Elt Ideal)) : (TRef.of main_v108 h1 h2 h3).toBuf v = v := eq_of_heq (cast_heq _ _)
theorem ofBuf_main_v108 (h1 : main_v108.ty = ⟨S50000x256, .f32⟩) (h2 : main_v108.space ≠ .host) (h3 : main_v108.isScoped = false)
    (v : main_v108.ty.Contents (Elt Ideal)) : (TRef.of main_v108 h1 h2 h3).ofBuf v = v := eq_of_heq (cast_heq _ _)

variable (m : (ℓ : Loc nD τ sig) → Buf (Elt Ideal) ℓ) (ρ : Dev nD → PrngReg) (c : Dev nD)

/-! ## The first stretch: the edge lists and the normalisation weights -/

/-- The source list. -/
theorem src_at3 : W3 m ρ c (Proc.devRef .tc main_v1) = Cert.ReferenceIdeal.ReadP.val_main_v1 (F := Ideal) (m ((c : Thread nD τ).loc main_arg1)) := by
  dsimp only [W3, W2, W1, hostOps0, hostOps0_1, hostOps0_2]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rfl

/-- The destination list. -/
theorem dst_at3 : W3 m ρ c (Proc.devRef .tc main_v3) = Cert.ReferenceIdeal.ReadP.val_main_v3 (F := Ideal) (m ((c : Thread nD τ).loc main_arg1)) := by
  dsimp only [W3, W2, W1, hostOps0, hostOps0_1, hostOps0_2]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rfl

/-- The source list with the self loops appended. -/
theorem srcFull_at3 : W3 m ρ c (Proc.devRef .tc main_v5) = Cert.ReferenceIdeal.ReadP.val_main_v8 (F := Ideal) (m ((c : Thread nD τ).loc main_arg1)) := by
  dsimp only [W3, W2, W1, hostOps0, hostOps0_1, hostOps0_2]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rfl

/-- The destination list with the self loops appended. -/
theorem dstFull_at3 : W3 m ρ c (Proc.devRef .tc main_v6) = Cert.ReferenceIdeal.ReadP.val_main_v9 (F := Ideal) (m ((c : Thread nD τ).loc main_arg1)) := by
  dsimp only [W3, W2, W1, hostOps0, hostOps0_1, hostOps0_2]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rfl

/-- The symmetric normalisation weight of every edge. -/
theorem norm_at3 : W3 m ρ c (Proc.devRef .tc main_v29) = Cert.ReferenceIdeal.ReadP.val_main_v32 (F := Ideal) (m ((c : Thread nD τ).loc main_arg1)) := by
  dsimp only [W3, W2, W1, hostOps0, hostOps0_1, hostOps0_2]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rfl

/-! ## The weight column as the row the kernel loads -/

/-- A [768, 1] column reshaped to [1, 768] reads, at (0, k), the column's entry k. -/
theorem wrow_eq (w : S768x1.Idx → EReal) :
    (shapeCast S1x768 w shapeCasts_S768x1_S1x768 : S1x768.Idx → EReal) = Cert.Spec.rowOf w := by
  funext i
  obtain ⟨u, k, rfl⟩ : ∃ (u : Fin 1) (k : Fin 768), i = ix2 u k := ⟨i 0, i 1, eq_ix2 i⟩
  refine (shapeCast_apply w shapeCasts_S768x1_S1x768 (ix2 u k) (ix2 k u) ?_).trans rfl
  rw [Shape.rowMajor_val_two, Shape.rowMajor_val_two]
  show k.val * 1 + u.val = u.val * 768 + k.val
  have := u.isLt
  omega

/-! ## The second stretch: the first graph convolution after its linear part, and the neighbourhood means -/

section Layer0
variable (hlin : W5 m ρ c (Proc.devRef .tc main_v31) = Cert.ReferenceIdeal.ReadP.val_main_v6 (F := Ideal) (m ((c : Thread nD τ).loc main_arg0)) (m ((c : Thread nD τ).loc main_arg2)))
include hlin

/-- The first layer's rectified features. -/
theorem h_at8 : W8 m ρ c (Proc.devRef .tc main_v48) = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) := by
  dsimp only [W8, W7, W6, hostOps2, hostOps2_1, hostOps2_2]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rw [hlin, (v5_5from3 m ρ c).trans (srcFull_at3 m ρ c), (v6_5from3 m ρ c).trans (dstFull_at3 m ρ c),
    (v29_5from3 m ρ c).trans (norm_at3 m ρ c), arg3_at5 m ρ c]
  rfl

/-- The first layer's neighbourhood mean. -/
theorem hm_at8 : W8 m ρ c (Proc.devRef .tc main_v67) = Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) := by
  dsimp only [W8, W7, W6, hostOps2, hostOps2_1, hostOps2_2]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rw [hlin, (v5_5from3 m ρ c).trans (srcFull_at3 m ρ c), (v6_5from3 m ρ c).trans (dstFull_at3 m ρ c),
    (v29_5from3 m ρ c).trans (norm_at3 m ρ c), arg3_at5 m ρ c, (v1_5from3 m ρ c).trans (src_at3 m ρ c),
    (v3_5from3 m ρ c).trans (dst_at3 m ρ c)]
  rfl

/-- The first layer's mean absolute deviation from the neighbourhood mean. -/
theorem hs_at8 : W8 m ρ c (Proc.devRef .tc main_v88) = Cert.ReferenceIdeal.ReadP.val_main_v89 (F := Ideal) (m ((c : Thread nD τ).loc main_arg0)) (m ((c : Thread nD τ).loc main_arg1)) (m ((c : Thread nD τ).loc main_arg2)) (m ((c : Thread nD τ).loc main_arg3)) := by
  dsimp only [W8, W7, W6, hostOps2, hostOps2_1, hostOps2_2]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rw [hlin, (v5_5from3 m ρ c).trans (srcFull_at3 m ρ c), (v6_5from3 m ρ c).trans (dstFull_at3 m ρ c),
    (v29_5from3 m ρ c).trans (norm_at3 m ρ c), arg3_at5 m ρ c, (v1_5from3 m ρ c).trans (src_at3 m ρ c),
    (v3_5from3 m ρ c).trans (dst_at3 m ρ c)]
  rfl

end Layer0

/-- The weight row the first weight-score region loads. -/
theorem wrow_at8 : W8 m ρ c (Proc.devRef .tc main_v89) = Cert.Spec.rowOf (m ((c : Thread nD τ).loc main_arg9)) := by
  dsimp only [W8, W7, W6, hostOps2, hostOps2_1, hostOps2_2]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rw [arg9_at5 m ρ c]
  exact wrow_eq _

/-! ## The third stretch: the second graph convolution after its linear part, and the neighbourhood means -/

section Layer1
variable (hlin : W10 m ρ c (Proc.devRef .tc main_v91) = Cert.ReferenceIdeal.ReadP.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)))
include hlin

/-- The second layer's rectified features. -/
theorem h_at13 : W13 m ρ c (Proc.devRef .tc main_v108) = Cert.ReferenceIdeal.ReadP.val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  dsimp only [W13, W12, W11, hostOps4, hostOps4_1, hostOps4_2]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rw [hlin, (v5_10from5 m ρ c).trans ((v5_5from3 m ρ c).trans (srcFull_at3 m ρ c)),
    (v6_10from5 m ρ c).trans ((v6_5from3 m ρ c).trans (dstFull_at3 m ρ c)),
    (v29_10from5 m ρ c).trans ((v29_5from3 m ρ c).trans (norm_at3 m ρ c)), arg5_at10 m ρ c]
  rfl

/-- The second layer's neighbourhood mean. -/
theorem hm_at13 : W13 m ρ c (Proc.devRef .tc main_v127) = Cert.ReferenceIdeal.ReadP.val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  dsimp only [W13, W12, W11, hostOps4, hostOps4_1, hostOps4_2]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rw [hlin, (v5_10from5 m ρ c).trans ((v5_5from3 m ρ c).trans (srcFull_at3 m ρ c)),
    (v6_10from5 m ρ c).trans ((v6_5from3 m ρ c).trans (dstFull_at3 m ρ c)),
    (v29_10from5 m ρ c).trans ((v29_5from3 m ρ c).trans (norm_at3 m ρ c)), arg5_at10 m ρ c,
    (v1_10from5 m ρ c).trans ((v1_5from3 m ρ c).trans (src_at3 m ρ c)),
    (v3_10from5 m ρ c).trans ((v3_5from3 m ρ c).trans (dst_at3 m ρ c))]
  rfl

/-- The second layer's mean absolute deviation from the neighbourhood mean. -/
theorem hs_at13 : W13 m ρ c (Proc.devRef .tc main_v148) = Cert.ReferenceIdeal.ReadP.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  dsimp only [W13, W12, W11, hostOps4, hostOps4_1, hostOps4_2]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rw [hlin, (v5_10from5 m ρ c).trans ((v5_5from3 m ρ c).trans (srcFull_at3 m ρ c)),
    (v6_10from5 m ρ c).trans ((v6_5from3 m ρ c).trans (dstFull_at3 m ρ c)),
    (v29_10from5 m ρ c).trans ((v29_5from3 m ρ c).trans (norm_at3 m ρ c)), arg5_at10 m ρ c,
    (v1_10from5 m ρ c).trans ((v1_5from3 m ρ c).trans (src_at3 m ρ c)),
    (v3_10from5 m ρ c).trans ((v3_5from3 m ρ c).trans (dst_at3 m ρ c))]
  rfl

end Layer1

/-- The weight row the second weight-score region loads. -/
theorem wrow_at13 : W13 m ρ c (Proc.devRef .tc main_v149) = Cert.Spec.rowOf (m ((c : Thread nD τ).loc main_arg9)) := by
  dsimp only [W13, W12, W11, hostOps4, hostOps4_1, hostOps4_2]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rw [arg9_at10 m ρ c]
  exact wrow_eq _

/-! ## The last stretch: the third graph convolution after its linear part -/

/-- The program's result. -/
theorem out_at16 (hlin : W15 m ρ c (Proc.devRef .tc main_v151) = Cert.ReferenceIdeal.ReadP.val_main_v216 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))) :
    W16 m ρ c (Proc.devRef .tc main_v167) = Cert.ReferenceIdeal.ReadP.val_main_v258 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [W16, hostOps6]
  after_results_simp
  after_rest
  try simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14, toBuf_main_call1_cst, ofBuf_main_call1_cst, toBuf_main_call1_v0, ofBuf_main_call1_v0, toBuf_main_v47, ofBuf_main_v47, toBuf_main_v48, ofBuf_main_v48, toBuf_main_call2_cst, ofBuf_main_call2_cst, toBuf_main_call2_v0, ofBuf_main_call2_v0, toBuf_main_v107, ofBuf_main_v107, toBuf_main_v108, ofBuf_main_v108, id]
  rw [hlin, (v5_15from10 m ρ c).trans ((v5_10from5 m ρ c).trans ((v5_5from3 m ρ c).trans (srcFull_at3 m ρ c))),
    (v6_15from10 m ρ c).trans ((v6_10from5 m ρ c).trans ((v6_5from3 m ρ c).trans (dstFull_at3 m ρ c))),
    (v29_15from10 m ρ c).trans ((v29_10from5 m ρ c).trans ((v29_5from3 m ρ c).trans (norm_at3 m ρ c))), arg7_at15 m ρ c]
  rfl

end Cert.KernelIdeal.KHost

end
-- ==== Proof.KValue.lean ====
/-
  The kernel program's result as the reference's last stage of the launch arguments.

  Boundary by boundary: each matmul region leaves the specification's matrix product of its two operands, which is
  the reference's dense layer of the same operands; each weight-score region leaves the specification's fusion of
  its five operands, which is the reference's weight-score stage of the same operands (the reference's spelling of a
  row equals the kernel's); each host stretch applies the reference's own operations to them. The residual features,
  the edge lists and the normalisation weights are computed once and carried to where they are read again.
-/
import proofs.«106194_j24283745091829_2_alg».proof.Proof.Gen.KernelIdeal.Frame
import proofs.«106194_j24283745091829_2_alg».proof.Proof.RefValP
import proofs.«106194_j24283745091829_2_alg».proof.Proof.Spec
import proofs.«106194_j24283745091829_2_alg».proof.Proof.SpecRef
import proofs.«106194_j24283745091829_2_alg».proof.Proof.RefDense
import proofs.«106194_j24283745091829_2_alg».proof.Proof.RefWs0
import proofs.«106194_j24283745091829_2_alg».proof.Proof.RefWs1
import proofs.«106194_j24283745091829_2_alg».proof.Proof.MatmulRegion0
import proofs.«106194_j24283745091829_2_alg».proof.Proof.MatmulRegion1
import proofs.«106194_j24283745091829_2_alg».proof.Proof.MatmulRegion3
import proofs.«106194_j24283745091829_2_alg».proof.Proof.MatmulRegion5
import proofs.«106194_j24283745091829_2_alg».proof.Proof.WsRegion2
import proofs.«106194_j24283745091829_2_alg».proof.Proof.WsRegion4
import proofs.«106194_j24283745091829_2_alg».proof.Proof.KCarryArgs
import proofs.«106194_j24283745091829_2_alg».proof.Proof.KCarryVals
import proofs.«106194_j24283745091829_2_alg».proof.Proof.KHost

set_option maxRecDepth 16384

noncomputable section

namespace Cert.KernelIdeal.KValue

open Idealize.ShloMosaic Idealize.ShloMosaic.TcCoe Idealize.SL.Sem
open Cert.KernelIdeal Cert.KernelIdeal.Gen Cert.KernelIdeal.CarryArgs Cert.KernelIdeal.CarryVals Cert.KernelIdeal.KHost

variable (m : (ℓ : Loc nD τ sig) → Buf (Elt Ideal) ℓ) (ρ : Dev nD → PrngReg) (c : Dev nD)

/-- The residual features: region 0's output. -/
theorem residual_at4 : W4 m ρ c (Proc.devRef .tc main_v30) = Cert.ReferenceIdeal.ReadP.val_main_v5 (F := Ideal) (m ((c : Thread nD τ).loc main_arg0)) (m ((c : Thread nD τ).loc main_arg8)) := by
  refine (W4_arr m ρ c 2).trans ?_
  refine (Cert.KernelIdeal.MatmulRegion0.arr (V3 m ρ) c).trans ?_
  show Cert.Spec.mmRelu (W3 m ρ c (Proc.devRef .tc main_arg0)) (W3 m ρ c (Proc.devRef .tc main_arg8)) = _
  rw [arg0_at3 m ρ c, arg8_at3 m ρ c]
  exact (Cert.ReferenceIdeal.RefDense.residual _ _).symm

/-- The first layer's linear part: region 1's output. -/
theorem linear0_at5 : W5 m ρ c (Proc.devRef .tc main_v31) = Cert.ReferenceIdeal.ReadP.val_main_v6 (F := Ideal) (m ((c : Thread nD τ).loc main_arg0)) (m ((c : Thread nD τ).loc main_arg2)) := by
  refine (W5_arr m ρ c 2).trans ?_
  refine (Cert.KernelIdeal.MatmulRegion1.arr (V4 m ρ) c).trans ?_
  show Cert.Spec.mm (W4 m ρ c (Proc.devRef .tc main_arg0)) (W4 m ρ c (Proc.devRef .tc main_arg2)) = _
  rw [arg0_at4 m ρ c, arg2_at4 m ρ c]
  exact (Cert.ReferenceIdeal.RefDense.linear0 _ _).symm

/-- The residual features where the first weight-score region reads them. -/
theorem residual_at8 : W8 m ρ c (Proc.devRef .tc main_v30) = Cert.ReferenceIdeal.ReadP.val_main_v5 (F := Ideal) (m ((c : Thread nD τ).loc main_arg0)) (m ((c : Thread nD τ).loc main_arg8)) :=
  (v30_8from4 m ρ c).trans (residual_at4 m ρ c)

/-- The first weight-score stage: region 2's output. -/
theorem fused0_at9 : W9 m ρ c (Proc.devRef .tc main_v90) = Cert.ReferenceIdeal.ReadP.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
  refine (W9_arr m ρ c 5).trans ?_
  refine (Cert.KernelIdeal.WsRegion2.arr (V8 m ρ) c).trans ?_
  show Cert.Spec.ws (W8 m ρ c (Proc.devRef .tc main_v48)) (W8 m ρ c (Proc.devRef .tc main_v67)) (W8 m ρ c (Proc.devRef .tc main_v88))
    (W8 m ρ c (Proc.devRef .tc main_v30)) (W8 m ρ c (Proc.devRef .tc main_v89)) = _
  rw [h_at8 m ρ c (linear0_at5 m ρ c), hm_at8 m ρ c (linear0_at5 m ρ c), hs_at8 m ρ c (linear0_at5 m ρ c), residual_at8 m ρ c, wrow_at8 m ρ c]
  exact (Cert.ReferenceIdeal.RefWs0.ws0 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))).symm

/-- The second layer's linear part: region 3's output. -/
theorem linear1_at10 : W10 m ρ c (Proc.devRef .tc main_v91) = Cert.ReferenceIdeal.ReadP.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := by
  refine (W10_arr m ρ c 2).trans ?_
  refine (Cert.KernelIdeal.MatmulRegion3.arr (V9 m ρ) c).trans ?_
  show Cert.Spec.mm (W9 m ρ c (Proc.devRef .tc main_v90)) (W9 m ρ c (Proc.devRef .tc main_arg4)) = _
  rw [fused0_at9 m ρ c, arg4_at9 m ρ c]
  exact (Cert.ReferenceIdeal.RefDense.linear1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9))).symm

/-- The residual features where the second weight-score region reads them. -/
theorem residual_at13 : W13 m ρ c (Proc.devRef .tc main_v30) = Cert.ReferenceIdeal.ReadP.val_main_v5 (F := Ideal) (m ((c : Thread nD τ).loc main_arg0)) (m ((c : Thread nD τ).loc main_arg8)) :=
  (v30_13from8 m ρ c).trans (residual_at8 m ρ c)

/-- The second weight-score stage: region 4's output. -/
theorem fused1_at14 : W14 m ρ c (Proc.devRef .tc main_v150) = Cert.ReferenceIdeal.ReadP.val_main_v215 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  refine (W14_arr m ρ c 5).trans ?_
  refine (Cert.KernelIdeal.WsRegion4.arr (V13 m ρ) c).trans ?_
  show Cert.Spec.ws (W13 m ρ c (Proc.devRef .tc main_v108)) (W13 m ρ c (Proc.devRef .tc main_v127)) (W13 m ρ c (Proc.devRef .tc main_v148))
    (W13 m ρ c (Proc.devRef .tc main_v30)) (W13 m ρ c (Proc.devRef .tc main_v149)) = _
  rw [h_at13 m ρ c (linear1_at10 m ρ c), hm_at13 m ρ c (linear1_at10 m ρ c), hs_at13 m ρ c (linear1_at10 m ρ c), residual_at13 m ρ c, wrow_at13 m ρ c]
  exact (Cert.ReferenceIdeal.RefWs1.ws1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9))).symm

/-- The last layer's linear part: region 5's output. -/
theorem linear2_at15 : W15 m ρ c (Proc.devRef .tc main_v151) = Cert.ReferenceIdeal.ReadP.val_main_v216 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) := by
  refine (W15_arr m ρ c 2).trans ?_
  refine (Cert.KernelIdeal.MatmulRegion5.arr (V14 m ρ) c).trans ?_
  show Cert.Spec.mm (W14 m ρ c (Proc.devRef .tc main_v150)) (W14 m ρ c (Proc.devRef .tc main_arg6)) = _
  rw [fused1_at14 m ρ c, arg6_at14 m ρ c]
  exact (Cert.ReferenceIdeal.RefDense.linear2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))).symm

/-- The program's result is the reference's last stage of the launch arguments. -/
theorem out : W16 m ρ c (Proc.devRef .tc main_v167) = Cert.ReferenceIdeal.ReadP.val_main_v258 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  out_at16 m ρ c (linear2_at15 m ρ c)

end Cert.KernelIdeal.KValue

end
-- ==== Proof.RefChunk1.lean ====
/-
  Operations 1 to 45 of the reference, read against its stages: each buffer this stretch hands on is the
  stage of its name, as a function of the arguments, once the buffers the stretch takes from earlier stretches are.
  (A stage is the function one operation computes of the stages of its operands, so this is the operations' own graph.)
-/
import proofs.«106194_j24283745091829_2_alg».proof.Proof.Gen.ReferenceIdeal
import proofs.«106194_j24283745091829_2_alg».proof.Proof.RefValP
import Idealize.ShloMosaic.Lib.StableHlo.Run

set_option maxRecDepth 16384

noncomputable section

namespace Cert.ReferenceIdeal.RefChunk1

open Cert.ReferenceIdeal Cert.ReferenceIdeal.Gen Idealize.ShloMosaic Idealize.ShloMosaic.TcCoe Idealize.SL.Sem Idealize.ShloMosaic.StableHlo

variable {F : FTy → Type} [FloatOps F]

/-- Finishes what the one-pass reading of the operations leaves unread: each remaining "operation's result at a buffer" is
    the operation's function of its operands at the operation's own result buffer, and what was there before at any other. -/
macro "after_rest_r1" : tactic =>
  `(tactic| repeat (first
      | rw [nullary_result] | rw [unary_result] | rw [binary_result] | rw [ternary_result]
      | rw [quaternary_result] | rw [reshape_result] | rw [binaryIndexed_result] | rw [nary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [binaryIndexed_result_ne]; rotate_left; decide)
      | (rw [nary_result_ne]; rotate_left; decide)))

/-! ## The concatenations as functions of their operands

A concatenation is printed as a function that puts its operands into a list of pieces; naming it as a function of the
operands themselves lets the reading of the run below reach the operands. -/

/-- An 800000-long and a 50000-long list joined. -/
def catEdges (a : (⟨S800000, .i32⟩ : BufTy).Contents (Elt F)) (b : (⟨S50000, .i32⟩ : BufTy).Contents (Elt F)) :
    (⟨S850000, .i32⟩ : BufTy).Contents (Elt F) :=
  concatenate S850000 0 [⟨S800000, a⟩, ⟨S50000, b⟩] concatenates_S800000_S50000_S850000_d0
/-- Two [50000, 256] matrices side by side. -/
def catPair (a b : (⟨S50000x256, .f32⟩ : BufTy).Contents (Elt F)) : (⟨S50000x512, .f32⟩ : BufTy).Contents (Elt F) :=
  concatenate S50000x512 1 [⟨S50000x256, a⟩, ⟨S50000x256, b⟩] concatenates_S50000x256_S50000x256_S50000x512_d1
/-- Three [50000, 256] matrices side by side. -/
def catTriple (a b c : (⟨S50000x256, .f32⟩ : BufTy).Contents (Elt F)) : (⟨S50000x768, .f32⟩ : BufTy).Contents (Elt F) :=
  concatenate S50000x768 1 [⟨S50000x256, a⟩, ⟨S50000x256, b⟩, ⟨S50000x256, c⟩] concatenates_S50000x256_S50000x256_S50000x256_S50000x768_d1

theorem catEdges_fold : (fun (a : (⟨S800000, .i32⟩ : BufTy).Contents (Elt F)) (b : (⟨S50000, .i32⟩ : BufTy).Contents (Elt F)) =>
    concatenate S850000 0 [⟨S800000, a⟩, ⟨S50000, b⟩] concatenates_S800000_S50000_S850000_d0) = catEdges (F := F) := rfl
theorem catPair_fold : (fun (a b : (⟨S50000x256, .f32⟩ : BufTy).Contents (Elt F)) =>
    concatenate S50000x512 1 [⟨S50000x256, a⟩, ⟨S50000x256, b⟩] concatenates_S50000x256_S50000x256_S50000x512_d1) = catPair (F := F) := rfl

theorem catTriple_fold : (fun (u : (k : Fin 3) → (⟨S50000x256, .f32⟩ : BufTy).Contents (Elt F)) =>
    concatenate S50000x768 1 [⟨S50000x256, u 0⟩, ⟨S50000x256, u 1⟩, ⟨S50000x256, u 2⟩] concatenates_S50000x256_S50000x256_S50000x256_S50000x768_d1)
    = fun u => catTriple (F := F) (u 0) (u 1) (u 2) := rfl

/-! A value passed to or from a module-local function's buffer is transported along "the buffer's type is the value's";
    for a literal buffer the two types are the same, so the transport is the identity. -/

theorem toBuf_main_call0_cst (h1 : main_call0_cst.ty = ⟨S_, .f32⟩) (h2 : main_call0_cst.space ≠ .host) (h3 : main_call0_cst.isScoped = false)
    (v : (⟨S_, .f32⟩ : BufTy).Contents (Elt F)) : (TRef.of main_call0_cst h1 h2 h3).toBuf v = v := eq_of_heq (cast_heq _ _)
theorem ofBuf_main_call0_cst (h1 : main_call0_cst.ty = ⟨S_, .f32⟩) (h2 : main_call0_cst.space ≠ .host) (h3 : main_call0_cst.isScoped = false)
    (v : main_call0_cst.ty.Contents (Elt F)) : (TRef.of main_call0_cst h1 h2 h3).ofBuf v = v := eq_of_heq (cast_heq _ _)

theorem toBuf_main_call0_v0 (h1 : main_call0_v0.ty = ⟨S50000x256, .f32⟩) (h2 : main_call0_v0.space ≠ .host) (h3 : main_call0_v0.isScoped = false)
    (v : (⟨S50000x256, .f32⟩ : BufTy).Contents (Elt F)) : (TRef.of main_call0_v0 h1 h2 h3).toBuf v = v := eq_of_heq (cast_heq _ _)
theorem ofBuf_main_call0_v0 (h1 : main_call0_v0.ty = ⟨S50000x256, .f32⟩) (h2 : main_call0_v0.space ≠ .host) (h3 : main_call0_v0.isScoped = false)
    (v : main_call0_v0.ty.Contents (Elt F)) : (TRef.of main_call0_v0 h1 h2 h3).ofBuf v = v := eq_of_heq (cast_heq _ _)

theorem toBuf_main_v4 (h1 : main_v4.ty = ⟨S50000x256, .f32⟩) (h2 : main_v4.space ≠ .host) (h3 : main_v4.isScoped = false)
    (v : (⟨S50000x256, .f32⟩ : BufTy).Contents (Elt F)) : (TRef.of main_v4 h1 h2 h3).toBuf v = v := eq_of_heq (cast_heq _ _)
theorem ofBuf_main_v4 (h1 : main_v4.ty = ⟨S50000x256, .f32⟩) (h2 : main_v4.space ≠ .host) (h3 : main_v4.isScoped = false)
    (v : main_v4.ty.Contents (Elt F)) : (TRef.of main_v4 h1 h2 h3).ofBuf v = v := eq_of_heq (cast_heq _ _)

theorem toBuf_main_v5 (h1 : main_v5.ty = ⟨S50000x256, .f32⟩) (h2 : main_v5.space ≠ .host) (h3 : main_v5.isScoped = false)
    (v : (⟨S50000x256, .f32⟩ : BufTy).Contents (Elt F)) : (TRef.of main_v5 h1 h2 h3).toBuf v = v := eq_of_heq (cast_heq _ _)
theorem ofBuf_main_v5 (h1 : main_v5.ty = ⟨S50000x256, .f32⟩) (h2 : main_v5.space ≠ .host) (h3 : main_v5.isScoped = false)
    (v : main_v5.ty.Contents (Elt F)) : (TRef.of main_v5 h1 h2 h3).ofBuf v = v := eq_of_heq (cast_heq _ _)

theorem toBuf_main_cst_2 (h1 : main_cst_2.ty = ⟨S_, .f32⟩) (h2 : main_cst_2.space ≠ .host) (h3 : main_cst_2.isScoped = false)
    (v : (⟨S_, .f32⟩ : BufTy).Contents (Elt F)) : (TRef.of main_cst_2 h1 h2 h3).toBuf v = v := eq_of_heq (cast_heq _ _)
theorem ofBuf_main_cst_2 (h1 : main_cst_2.ty = ⟨S_, .f32⟩) (h2 : main_cst_2.space ≠ .host) (h3 : main_cst_2.isScoped = false)
    (v : main_cst_2.ty.Contents (Elt F)) : (TRef.of main_cst_2 h1 h2 h3).ofBuf v = v := eq_of_heq (cast_heq _ _)

theorem toBuf_main_call1_v0 (h1 : main_call1_v0.ty = ⟨S_, .f32⟩) (h2 : main_call1_v0.space ≠ .host) (h3 : main_call1_v0.isScoped = false)
    (v : (⟨S_, .f32⟩ : BufTy).Contents (Elt F)) : (TRef.of main_call1_v0 h1 h2 h3).toBuf v = v := eq_of_heq (cast_heq _ _)
theorem ofBuf_main_call1_v0 (h1 : main_call1_v0.ty = ⟨S_, .f32⟩) (h2 : main_call1_v0.space ≠ .host) (h3 : main_call1_v0.isScoped = false)
    (v : main_call1_v0.ty.Contents (Elt F)) : (TRef.of main_call1_v0 h1 h2 h3).ofBuf v = v := eq_of_heq (cast_heq _ _)

theorem toBuf_main_call1_v1 (h1 : main_call1_v1.ty = ⟨S50000, .f32⟩) (h2 : main_call1_v1.space ≠ .host) (h3 : main_call1_v1.isScoped = false)
    (v : (⟨S50000, .f32⟩ : BufTy).Contents (Elt F)) : (TRef.of main_call1_v1 h1 h2 h3).toBuf v = v := eq_of_heq (cast_heq _ _)
theorem ofBuf_main_call1_v1 (h1 : main_call1_v1.ty = ⟨S50000, .f32⟩) (h2 : main_call1_v1.space ≠ .host) (h3 : main_call1_v1.isScoped = false)
    (v : main_call1_v1.ty.Contents (Elt F)) : (TRef.of main_call1_v1 h1 h2 h3).ofBuf v = v := eq_of_heq (cast_heq _ _)

theorem toBuf_main_v15 (h1 : main_v15.ty = ⟨S50000, .i1⟩) (h2 : main_v15.space ≠ .host) (h3 : main_v15.isScoped = false)
    (v : (⟨S50000, .i1⟩ : BufTy).Contents (Elt F)) : (TRef.of main_v15 h1 h2 h3).toBuf v = v := eq_of_heq (cast_heq _ _)
theorem ofBuf_main_v15 (h1 : main_v15.ty = ⟨S50000, .i1⟩) (h2 : main_v15.space ≠ .host) (h3 : main_v15.isScoped = false)
    (v : main_v15.ty.Contents (Elt F)) : (TRef.of main_v15 h1 h2 h3).ofBuf v = v := eq_of_heq (cast_heq _ _)

theorem toBuf_main_v16 (h1 : main_v16.ty = ⟨S50000, .f32⟩) (h2 : main_v16.space ≠ .host) (h3 : main_v16.isScoped = false)
    (v : (⟨S50000, .f32⟩ : BufTy).Contents (Elt F)) : (TRef.of main_v16 h1 h2 h3).toBuf v = v := eq_of_heq (cast_heq _ _)
theorem ofBuf_main_v16 (h1 : main_v16.ty = ⟨S50000, .f32⟩) (h2 : main_v16.space ≠ .host) (h3 : main_v16.isScoped = false)
    (v : main_v16.ty.Contents (Elt F)) : (TRef.of main_v16 h1 h2 h3).ofBuf v = v := eq_of_heq (cast_heq _ _)

theorem toBuf_main_v17 (h1 : main_v17.ty = ⟨S50000, .f32⟩) (h2 : main_v17.space ≠ .host) (h3 : main_v17.isScoped = false)
    (v : (⟨S50000, .f32⟩ : BufTy).Contents (Elt F)) : (TRef.of main_v17 h1 h2 h3).toBuf v = v := eq_of_heq (cast_heq _ _)
theorem ofBuf_main_v17 (h1 : main_v17.ty = ⟨S50000, .f32⟩) (h2 : main_v17.space ≠ .host) (h3 : main_v17.isScoped = false)
    (v : main_v17.ty.Contents (Elt F)) : (TRef.of main_v17 h1 h2 h3).ofBuf v = v := eq_of_heq (cast_heq _ _)

/-- The stretch's operations, in order. -/
abbrev chunk : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg8 main_v4 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v4) (TRef.of (T := ⟨S50000x256, .f32⟩) main_call0_v0) (TRef.of (T := ⟨S50000x256, .f32⟩) main_v5) maximumf,
    binary main_arg0 main_arg2 main_v6 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_v7 (iotaInDim S50000 32 0),
    binary main_v1 main_v7 main_v8 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v7 main_v9 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v10 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v11 (broadcastInDim S50000 ![] bcast_S_S50000 : (⟨S_, .f32⟩ : BufTy).Contents (Elt F) → (⟨S50000, .f32⟩ : BufTy).Contents (Elt F)),
    unary main_v9 main_v12 (broadcastInDim S850000x1 ![0] bcast_S850000_S850000x1_0 : (⟨S850000, .i32⟩ : BufTy).Contents (Elt F) → (⟨S850000x1, .i32⟩ : BufTy).Contents (Elt F)),
    ternary main_v11 main_v12 main_v10 main_v13 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v14 (broadcastInDim S50000 ![] bcast_S_S50000 : (⟨S_, .f32⟩ : BufTy).Contents (Elt F) → (⟨S50000, .f32⟩ : BufTy).Contents (Elt F)),
    binary main_v13 main_v14 main_v15 (cmpf .ogt : (⟨S50000, .f32⟩ : BufTy).Contents (Elt F) → (⟨S50000, .f32⟩ : BufTy).Contents (Elt F) → (⟨S50000, .i1⟩ : BufTy).Contents (Elt F)),
    unary main_v13 main_v16 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v15) (TRef.of (T := ⟨S50000, .f32⟩) main_v16) (TRef.of (T := ⟨S50000, .f32⟩) main_call1_v1) (TRef.of (T := ⟨S50000, .f32⟩) main_v17) select,
    nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v8 main_v18 main_v19 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v20 (broadcastInDim S850000 ![] bcast_S_S850000 : (⟨S_, .i32⟩ : BufTy).Contents (Elt F) → (⟨S850000, .i32⟩ : BufTy).Contents (Elt F)),
    binary main_v8 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v8 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v25 (broadcastInDim S850000 ![] bcast_S_S850000 : (⟨S_, .i32⟩ : BufTy).Contents (Elt F) → (⟨S850000, .i32⟩ : BufTy).Contents (Elt F)),
    binary main_v9 main_v25 main_v26 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v27 (broadcastInDim S850000 ![] bcast_S_S850000 : (⟨S_, .i32⟩ : BufTy).Contents (Elt F) → (⟨S850000, .i32⟩ : BufTy).Contents (Elt F)),
    binary main_v9 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v9 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)) ]

variable (U : Valuation τ sig (Elt F)) (x0 : (⟨S50000x512, .f32⟩ : BufTy).Contents (Elt F)) (x1 : (⟨S2x800000, .i32⟩ : BufTy).Contents (Elt F)) (x2 : (⟨S512x256, .f32⟩ : BufTy).Contents (Elt F)) (x3 : (⟨S256, .f32⟩ : BufTy).Contents (Elt F)) (x4 : (⟨S512x256, .f32⟩ : BufTy).Contents (Elt F)) (x5 : (⟨S256, .f32⟩ : BufTy).Contents (Elt F)) (x6 : (⟨S512x64, .f32⟩ : BufTy).Contents (Elt F)) (x7 : (⟨S64, .f32⟩ : BufTy).Contents (Elt F)) (x8 : (⟨S512x256, .f32⟩ : BufTy).Contents (Elt F)) (x9 : (⟨S768x1, .f32⟩ : BufTy).Contents (Elt F))

set_option maxHeartbeats 1000000 in
/-- The buffer main_v3 after this stretch is the reference's stage of that name, given the stretch's operands at theirs. -/
theorem at_v3
    (h_arg1 : U (Proc.devRef .tc main_arg1) = x1) :
    after (chunk (F := F)) U (Proc.devRef .tc main_v3) = Cert.ReferenceIdeal.ReadP.val_main_v3 (F := F) x1 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r1
  try simp only [Matrix.cons_val_zero, Matrix.cons_val_one, Matrix.cons_val_two, Matrix.head_cons, Matrix.tail_cons, Matrix.cons_val_succ, Matrix.cons_val_fin_one]
  try after_results_simp
  after_rest_r1
  try simp only [toBuf_main_call0_cst, ofBuf_main_call0_cst, toBuf_main_call0_v0, ofBuf_main_call0_v0, toBuf_main_v4, ofBuf_main_v4, toBuf_main_v5, ofBuf_main_v5, toBuf_main_cst_2, ofBuf_main_cst_2, toBuf_main_call1_v0, ofBuf_main_call1_v0, toBuf_main_call1_v1, ofBuf_main_call1_v1, toBuf_main_v15, ofBuf_main_v15, toBuf_main_v16, ofBuf_main_v16, toBuf_main_v17, ofBuf_main_v17, id]
  try simp only [catEdges, catPair, catTriple]
  try rw [h_arg1]
  rfl

set_option maxHeartbeats 1000000 in
/-- The buffer main_v1 after this stretch is the reference's stage of that name, given the stretch's operands at theirs. -/
theorem at_v1
    (h_arg1 : U (Proc.devRef .tc main_arg1) = x1) :
    after (chunk (F := F)) U (Proc.devRef .tc main_v1) = Cert.ReferenceIdeal.ReadP.val_main_v1 (F := F) x1 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r1
  try simp only [Matrix.cons_val_zero, Matrix.cons_val_one, Matrix.cons_val_two, Matrix.head_cons, Matrix.tail_cons, Matrix.cons_val_succ, Matrix.cons_val_fin_one]
  try after_results_simp
  after_rest_r1
  try simp only [toBuf_main_call0_cst, ofBuf_main_call0_cst, toBuf_main_call0_v0, ofBuf_main_call0_v0, toBuf_main_v4, ofBuf_main_v4, toBuf_main_v5, ofBuf_main_v5, toBuf_main_cst_2, ofBuf_main_cst_2, toBuf_main_call1_v0, ofBuf_main_call1_v0, toBuf_main_call1_v1, ofBuf_main_call1_v1, toBuf_main_v15, ofBuf_main_v15, toBuf_main_v16, ofBuf_main_v16, toBuf_main_v17, ofBuf_main_v17, id]
  try simp only [catEdges, catPair, catTriple]
  try rw [h_arg1]
  rfl

set_option maxHeartbeats 1000000 in
/-- The buffer main_v5 after this stretch is the reference's stage of that name, given the stretch's operands at theirs. -/
theorem at_v5
    (h_arg8 : U (Proc.devRef .tc main_arg8) = x8)
    (h_arg0 : U (Proc.devRef .tc main_arg0) = x0) :
    after (chunk (F := F)) U (Proc.devRef .tc main_v5) = Cert.ReferenceIdeal.ReadP.val_main_v5 (F := F) x0 x8 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r1
  try simp only [Matrix.cons_val_zero, Matrix.cons_val_one, Matrix.cons_val_two, Matrix.head_cons, Matrix.tail_cons, Matrix.cons_val_succ, Matrix.cons_val_fin_one]
  try after_results_simp
  after_rest_r1
  try simp only [toBuf_main_call0_cst, ofBuf_main_call0_cst, toBuf_main_call0_v0, ofBuf_main_call0_v0, toBuf_main_v4, ofBuf_main_v4, toBuf_main_v5, ofBuf_main_v5, toBuf_main_cst_2, ofBuf_main_cst_2, toBuf_main_call1_v0, ofBuf_main_call1_v0, toBuf_main_call1_v1, ofBuf_main_call1_v1, toBuf_main_v15, ofBuf_main_v15, toBuf_main_v16, ofBuf_main_v16, toBuf_main_v17, ofBuf_main_v17, id]
  try simp only [catEdges, catPair, catTriple]
  try rw [h_arg8]
  try rw [h_arg0]
  rfl

set_option maxHeartbeats 1000000 in
/-- The buffer main_v32 after this stretch is the reference's stage of that name, given the stretch's operands at theirs. -/
theorem at_v32
    (h_arg1 : U (Proc.devRef .tc main_arg1) = x1) :
    after (chunk (F := F)) U (Proc.devRef .tc main_v32) = Cert.ReferenceIdeal.ReadP.val_main_v32 (F := F) x1 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r1
  try simp only [Matrix.cons_val_zero, Matrix.cons_val_one, Matrix.cons_val_two, Matrix.head_cons, Matrix.tail_cons, Matrix.cons_val_succ, Matrix.cons_val_fin_one]
  try after_results_simp
  after_rest_r1
  try simp only [toBuf_main_call0_cst, ofBuf_main_call0_cst, toBuf_main_call0_v0, ofBuf_main_call0_v0, toBuf_main_v4, ofBuf_main_v4, toBuf_main_v5, ofBuf_main_v5, toBuf_main_cst_2, ofBuf_main_cst_2, toBuf_main_call1_v0, ofBuf_main_call1_v0, toBuf_main_call1_v1, ofBuf_main_call1_v1, toBuf_main_v15, ofBuf_main_v15, toBuf_main_v16, ofBuf_main_v16, toBuf_main_v17, ofBuf_main_v17, id]
  try simp only [catEdges, catPair, catTriple]
  try rw [h_arg1]
  rfl

set_option maxHeartbeats 1000000 in
/-- The buffer main_v8 after this stretch is the reference's stage of that name, given the stretch's operands at theirs. -/
theorem at_v8
    (h_arg1 : U (Proc.devRef .tc main_arg1) = x1) :
    after (chunk (F := F)) U (Proc.devRef .tc main_v8) = Cert.ReferenceIdeal.ReadP.val_main_v8 (F := F) x1 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r1
  try simp only [Matrix.cons_val_zero, Matrix.cons_val_one, Matrix.cons_val_two, Matrix.head_cons, Matrix.tail_cons, Matrix.cons_val_succ, Matrix.cons_val_fin_one]
  try after_results_simp
  after_rest_r1
  try simp only [toBuf_main_call0_cst, ofBuf_main_call0_cst, toBuf_main_call0_v0, ofBuf_main_call0_v0, toBuf_main_v4, ofBuf_main_v4, toBuf_main_v5, ofBuf_main_v5, toBuf_main_cst_2, ofBuf_main_cst_2, toBuf_main_call1_v0, ofBuf_main_call1_v0, toBuf_main_call1_v1, ofBuf_main_call1_v1, toBuf_main_v15, ofBuf_main_v15, toBuf_main_v16, ofBuf_main_v16, toBuf_main_v17, ofBuf_main_v17, id]
  try simp only [catEdges, catPair, catTriple]
  try rw [h_arg1]
  rfl

set_option maxHeartbeats 1000000 in
/-- The buffer main_v6 after this stretch is the reference's stage of that name, given the stretch's operands at theirs. -/
theorem at_v6
    (h_arg2 : U (Proc.devRef .tc main_arg2) = x2)
    (h_arg0 : U (Proc.devRef .tc main_arg0) = x0) :
    after (chunk (F := F)) U (Proc.devRef .tc main_v6) = Cert.ReferenceIdeal.ReadP.val_main_v6 (F := F) x0 x2 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r1
  try simp only [Matrix.cons_val_zero, Matrix.cons_val_one, Matrix.cons_val_two, Matrix.head_cons, Matrix.tail_cons, Matrix.cons_val_succ, Matrix.cons_val_fin_one]
  try after_results_simp
  after_rest_r1
  try simp only [toBuf_main_call0_cst, ofBuf_main_call0_cst, toBuf_main_call0_v0, ofBuf_main_call0_v0, toBuf_main_v4, ofBuf_main_v4, toBuf_main_v5, ofBuf_main_v5, toBuf_main_cst_2, ofBuf_main_cst_2, toBuf_main_call1_v0, ofBuf_main_call1_v0, toBuf_main_call1_v1, ofBuf_main_call1_v1, toBuf_main_v15, ofBuf_main_v15, toBuf_main_v16, ofBuf_main_v16, toBuf_main_v17, ofBuf_main_v17, id]
  try simp only [catEdges, catPair, catTriple]
  try rw [h_arg2]
  try rw [h_arg0]
  rfl

set_option maxHeartbeats 1000000 in
/-- The buffer main_v9 after this stretch is the reference's stage of that name, given the stretch's operands at theirs. -/
theorem at_v9
    (h_arg1 : U (Proc.devRef .tc main_arg1) = x1) :
    after (chunk (F := F)) U (Proc.devRef .tc main_v9) = Cert.ReferenceIdeal.ReadP.val_main_v9 (F := F) x1 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r1
  try simp only [Matrix.cons_val_zero, Matrix.cons_val_one, Matrix.cons_val_two, Matrix.head_cons, Matrix.tail_cons, Matrix.cons_val_succ, Matrix.cons_val_fin_one]
  try after_results_simp
  after_rest_r1
  try simp only [toBuf_main_call0_cst, ofBuf_main_call0_cst, toBuf_main_call0_v0, ofBuf_main_call0_v0, toBuf_main_v4, ofBuf_main_v4, toBuf_main_v5, ofBuf_main_v5, toBuf_main_cst_2, ofBuf_main_cst_2, toBuf_main_call1_v0, ofBuf_main_call1_v0, toBuf_main_call1_v1, ofBuf_main_call1_v1, toBuf_main_v15, ofBuf_main_v15, toBuf_main_v16, ofBuf_main_v16, toBuf_main_v17, ofBuf_main_v17, id]
  try simp only [catEdges, catPair, catTriple]
  try rw [h_arg1]
  rfl

end Cert.ReferenceIdeal.RefChunk1

end
-- ==== Proof.RefChunk2.lean ====
/-
  Operations 46 to 119 of the reference, read against its stages: each buffer this stretch hands on is the
  stage of its name, as a function of the arguments, once the buffers the stretch takes from earlier stretches are.
  (A stage is the function one operation computes of the stages of its operands, so this is the operations' own graph.)
-/
import proofs.«106194_j24283745091829_2_alg».proof.Proof.Gen.ReferenceIdeal
import proofs.«106194_j24283745091829_2_alg».proof.Proof.RefValP
import Idealize.ShloMosaic.Lib.StableHlo.Run

set_option maxRecDepth 16384

noncomputable section

namespace Cert.ReferenceIdeal.RefChunk2

open Cert.ReferenceIdeal Cert.ReferenceIdeal.Gen Idealize.ShloMosaic Idealize.ShloMosaic.TcCoe Idealize.SL.Sem Idealize.ShloMosaic.StableHlo

variable {F : FTy → Type} [FloatOps F]

/-- Finishes what the one-pass reading of the operations leaves unread: each remaining "operation's result at a buffer" is
    the operation's function of its operands at the operation's own result buffer, and what was there before at any other. -/
macro "after_rest_r2" : tactic =>
  `(tactic| repeat (first
      | rw [nullary_result] | rw [unary_result] | rw [binary_result] | rw [ternary_result]
      | rw [quaternary_result] | rw [reshape_result] | rw [binaryIndexed_result] | rw [nary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [binaryIndexed_result_ne]; rotate_left; decide)
      | (rw [nary_result_ne]; rotate_left; decide)))

/-! ## The concatenations as functions of their operands

A concatenation is printed as a function that puts its operands into a list of pieces; naming it as a function of the
operands themselves lets the reading of the run below reach the operands. -/

/-- An 800000-long and a 50000-long list joined. -/
def catEdges (a : (⟨S800000, .i32⟩ : BufTy).Contents (Elt F)) (b : (⟨S50000, .i32⟩ : BufTy).Contents (Elt F)) :
    (⟨S850000, .i32⟩ : BufTy).Contents (Elt F) :=
  concatenate S850000 0 [⟨S800000, a⟩, ⟨S50000, b⟩] concatenates_S800000_S50000_S850000_d0
/-- Two [50000, 256] matrices side by side. -/
def catPair (a b : (⟨S50000x256, .f32⟩ : BufTy).Contents (Elt F)) : (⟨S50000x512, .f32⟩ : BufTy).Contents (Elt F) :=
  concatenate S50000x512 1 [⟨S50000x256, a⟩, ⟨S50000x256, b⟩] concatenates_S50000x256_S50000x256_S50000x512_d1
/-- Three [50000, 256] matrices side by side. -/
def catTriple (a b c : (⟨S50000x256, .f32⟩ : BufTy).Contents (Elt F)) : (⟨S50000x768, .f32⟩ : BufTy).Contents (Elt F) :=
  concatenate S50000x768 1 [⟨S50000x256, a⟩, ⟨S50000x256, b⟩, ⟨S50000x256, c⟩] concatenates_S50000x256_S50000x256_S50000x256_S50000x768_d1

theorem catEdges_fold : (fun (a : (⟨S800000, .i32⟩ : BufTy).Contents (Elt F)) (b : (⟨S50000, .i32⟩ : BufTy).Contents (Elt F)) =>
    concatenate S850000 0 [⟨S800000, a⟩, ⟨S50000, b⟩] concatenates_S800000_S50000_S850000_d0) = catEdges (F := F) := rfl
theorem catPair_fold : (fun (a b : (⟨S50000x256, .f32⟩ : BufTy).Contents (Elt F)) =>
    concatenate S50000x512 1 [⟨S50000x256, a⟩, ⟨S50000x256, b⟩] concatenates_S50000x256_S50000x256_S50000x512_d1) = catPair (F := F) := rfl

theorem catTriple_fold : (fun (u : (k : Fin 3) → (⟨S50000x256, .f32⟩ : BufTy).Contents (Elt F)) =>
    concatenate S50000x768 1 [⟨S50000x256, u 0⟩, ⟨S50000x256, u 1⟩, ⟨S50000x256, u 2⟩] concatenates_S50000x256_S50000x256_S50000x256_S50000x768_d1)
    = fun u => catTriple (F := F) (u 0) (u 1) (u 2) := rfl

/-! A value passed to or from a module-local function's buffer is transported along "the buffer's type is the value's";
    for a literal buffer the two types are the same, so the transport is the identity. -/

theorem toBuf_main_call2_cst (h1 : main_call2_cst.ty = ⟨S_, .f32⟩) (h2 : main_call2_cst.space ≠ .host) (h3 : main_call2_cst.isScoped = false)
    (v : (⟨S_, .f32⟩ : BufTy).Contents (Elt F)) : (TRef.of main_call2_cst h1 h2 h3).toBuf v = v := eq_of_heq (cast_heq _ _)
theorem ofBuf_main_call2_cst (h1 : main_call2_cst.ty = ⟨S_, .f32⟩) (h2 : main_call2_cst.space ≠ .host) (h3 : main_call2_cst.isScoped = false)
    (v : main_call2_cst.ty.Contents (Elt F)) : (TRef.of main_call2_cst h1 h2 h3).ofBuf v = v := eq_of_heq (cast_heq _ _)

theorem toBuf_main_call2_v0 (h1 : main_call2_v0.ty = ⟨S50000x256, .f32⟩) (h2 : main_call2_v0.space ≠ .host) (h3 : main_call2_v0.isScoped = false)
    (v : (⟨S50000x256, .f32⟩ : BufTy).Contents (Elt F)) : (TRef.of main_call2_v0 h1 h2 h3).toBuf v = v := eq_of_heq (cast_heq _ _)
theorem ofBuf_main_call2_v0 (h1 : main_call2_v0.ty = ⟨S50000x256, .f32⟩) (h2 : main_call2_v0.space ≠ .host) (h3 : main_call2_v0.isScoped = false)
    (v : main_call2_v0.ty.Contents (Elt F)) : (TRef.of main_call2_v0 h1 h2 h3).ofBuf v = v := eq_of_heq (cast_heq _ _)

theorem toBuf_main_v48 (h1 : main_v48.ty = ⟨S50000x256, .f32⟩) (h2 : main_v48.space ≠ .host) (h3 : main_v48.isScoped = false)
    (v : (⟨S50000x256, .f32⟩ : BufTy).Contents (Elt F)) : (TRef.of main_v48 h1 h2 h3).toBuf v = v := eq_of_heq (cast_heq _ _)
theorem ofBuf_main_v48 (h1 : main_v48.ty = ⟨S50000x256, .f32⟩) (h2 : main_v48.space ≠ .host) (h3 : main_v48.isScoped = false)
    (v : main_v48.ty.Contents (Elt F)) : (TRef.of main_v48 h1 h2 h3).ofBuf v = v := eq_of_heq (cast_heq _ _)

theorem toBuf_main_v49 (h1 : main_v49.ty = ⟨S50000x256, .f32⟩) (h2 : main_v49.space ≠ .host) (h3 : main_v49.isScoped = false)
    (v : (⟨S50000x256, .f32⟩ : BufTy).Contents (Elt F)) : (TRef.of main_v49 h1 h2 h3).toBuf v = v := eq_of_heq (cast_heq _ _)
theorem ofBuf_main_v49 (h1 : main_v49.ty = ⟨S50000x256, .f32⟩) (h2 : main_v49.space ≠ .host) (h3 : main_v49.isScoped = false)
    (v : main_v49.ty.Contents (Elt F)) : (TRef.of main_v49 h1 h2 h3).ofBuf v = v := eq_of_heq (cast_heq _ _)

/-- The stretch's operations, in order. -/
abbrev chunk : List (HloOp τ sig (Elt F)) :=
  [ nullary main_c_6 (constantI S_ 32 0#32),
    unary main_c_6 main_v33 (broadcastInDim S850000 ![] bcast_S_S850000 : (⟨S_, .i32⟩ : BufTy).Contents (Elt F) → (⟨S850000, .i32⟩ : BufTy).Contents (Elt F)),
    binary main_v8 main_v33 main_v34 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v35 (broadcastInDim S850000 ![] bcast_S_S850000 : (⟨S_, .i32⟩ : BufTy).Contents (Elt F) → (⟨S850000, .i32⟩ : BufTy).Contents (Elt F)),
    binary main_v8 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v8 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v6 main_v38 main_v39 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v32 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x256 ![0, 1] bcast_S850000x1_S850000x256_0_1 : (⟨S850000x1, .f32⟩ : BufTy).Contents (Elt F) → (⟨S850000x256, .f32⟩ : BufTy).Contents (Elt F)),
    binary main_v39 main_v41 main_v42 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v43 (broadcastInDim S50000x256 ![] bcast_S_S50000x256 : (⟨S_, .f32⟩ : BufTy).Contents (Elt F) → (⟨S50000x256, .f32⟩ : BufTy).Contents (Elt F)),
    unary main_v9 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v46 (broadcastInDim S1x256 ![1] bcast_S256_S1x256_1 : (⟨S256, .f32⟩ : BufTy).Contents (Elt F) → (⟨S1x256, .f32⟩ : BufTy).Contents (Elt F)),
    unary main_v46 main_v47 (broadcastInDim S50000x256 ![0, 1] bcast_S1x256_S50000x256_0_1 : (⟨S1x256, .f32⟩ : BufTy).Contents (Elt F) → (⟨S50000x256, .f32⟩ : BufTy).Contents (Elt F)),
    binary main_v45 main_v47 main_v48 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v48) (TRef.of (T := ⟨S50000x256, .f32⟩) main_call2_v0) (TRef.of (T := ⟨S50000x256, .f32⟩) main_v49) maximumf,
    nullary main_c_9 (constantI S_ 32 0#32),
    unary main_c_9 main_v50 (broadcastInDim S800000 ![] bcast_S_S800000 : (⟨S_, .i32⟩ : BufTy).Contents (Elt F) → (⟨S800000, .i32⟩ : BufTy).Contents (Elt F)),
    binary main_v3 main_v50 main_v51 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v52 (broadcastInDim S800000 ![] bcast_S_S800000 : (⟨S_, .i32⟩ : BufTy).Contents (Elt F) → (⟨S800000, .i32⟩ : BufTy).Contents (Elt F)),
    binary main_v3 main_v52 main_v53 (addi : (⟨S800000, .i32⟩ : BufTy).Contents (Elt F) → (⟨S800000, .i32⟩ : BufTy).Contents (Elt F) → (⟨S800000, .i32⟩ : BufTy).Contents (Elt F)),
    ternary main_v51 main_v53 main_v3 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v54 main_v55 (broadcastInDim S800000x1 ![0] bcast_S800000_S800000x1_0 : (⟨S800000, .i32⟩ : BufTy).Contents (Elt F) → (⟨S800000x1, .i32⟩ : BufTy).Contents (Elt F)),
    binary main_v49 main_v55 main_v56 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_11 (constant S_ .f32 0x00000000#32),
    unary main_cst_11 main_v57 (broadcastInDim S50000x256 ![] bcast_S_S50000x256 : (⟨S_, .f32⟩ : BufTy).Contents (Elt F) → (⟨S50000x256, .f32⟩ : BufTy).Contents (Elt F)),
    unary main_v1 main_v58 (broadcastInDim S800000x1 ![0] bcast_S800000_S800000x1_0 : (⟨S800000, .i32⟩ : BufTy).Contents (Elt F) → (⟨S800000x1, .i32⟩ : BufTy).Contents (Elt F)),
    ternary main_v57 main_v58 main_v56 main_v59 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_12 (constant S_ .f32 0x3F800000#32),
    unary main_cst_12 main_v60 (broadcastInDim S800000 ![] bcast_S_S800000 : (⟨S_, .f32⟩ : BufTy).Contents (Elt F) → (⟨S800000, .f32⟩ : BufTy).Contents (Elt F)),
    nullary main_cst_13 (constant S_ .f32 0x00000000#32),
    unary main_cst_13 main_v61 (broadcastInDim S50000 ![] bcast_S_S50000 : (⟨S_, .f32⟩ : BufTy).Contents (Elt F) → (⟨S50000, .f32⟩ : BufTy).Contents (Elt F)),
    unary main_v1 main_v62 (broadcastInDim S800000x1 ![0] bcast_S800000_S800000x1_0 : (⟨S800000, .i32⟩ : BufTy).Contents (Elt F) → (⟨S800000x1, .i32⟩ : BufTy).Contents (Elt F)),
    ternary main_v61 main_v62 main_v60 main_v63 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_14 (constant S_ .f32 0x3F800000#32),
    unary main_cst_14 main_v64 (broadcastInDim S50000 ![] bcast_S_S50000 : (⟨S_, .f32⟩ : BufTy).Contents (Elt F) → (⟨S50000, .f32⟩ : BufTy).Contents (Elt F)),
    binary main_v63 main_v64 main_v65 (maximumf : (⟨S50000, .f32⟩ : BufTy).Contents (Elt F) → (⟨S50000, .f32⟩ : BufTy).Contents (Elt F) → (⟨S50000, .f32⟩ : BufTy).Contents (Elt F)),
    unary main_v65 main_v66 (broadcastInDim S50000x1 ![0] bcast_S50000_S50000x1_0 : (⟨S50000, .f32⟩ : BufTy).Contents (Elt F) → (⟨S50000x1, .f32⟩ : BufTy).Contents (Elt F)),
    unary main_v66 main_v67 (broadcastInDim S50000x256 ![0, 1] bcast_S50000x1_S50000x256_0_1 : (⟨S50000x1, .f32⟩ : BufTy).Contents (Elt F) → (⟨S50000x256, .f32⟩ : BufTy).Contents (Elt F)),
    binary main_v59 main_v67 main_v68 (Host.divf : (⟨S50000x256, .f32⟩ : BufTy).Contents (Elt F) → (⟨S50000x256, .f32⟩ : BufTy).Contents (Elt F) → (⟨S50000x256, .f32⟩ : BufTy).Contents (Elt F)),
    binary main_v49 main_v68 main_v69 (subf : (⟨S50000x256, .f32⟩ : BufTy).Contents (Elt F) → (⟨S50000x256, .f32⟩ : BufTy).Contents (Elt F) → (⟨S50000x256, .f32⟩ : BufTy).Contents (Elt F)),
    unary main_v69 main_v70 (Host.absf : (⟨S50000x256, .f32⟩ : BufTy).Contents (Elt F) → (⟨S50000x256, .f32⟩ : BufTy).Contents (Elt F)),
    nullary main_c_15 (constantI S_ 32 0#32),
    unary main_c_15 main_v71 (broadcastInDim S800000 ![] bcast_S_S800000 : (⟨S_, .i32⟩ : BufTy).Contents (Elt F) → (⟨S800000, .i32⟩ : BufTy).Contents (Elt F)),
    binary main_v3 main_v71 main_v72 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v73 (broadcastInDim S800000 ![] bcast_S_S800000 : (⟨S_, .i32⟩ : BufTy).Contents (Elt F) → (⟨S800000, .i32⟩ : BufTy).Contents (Elt F)),
    binary main_v3 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v3 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v70 main_v76 main_v77 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_17 (constant S_ .f32 0x00000000#32),
    unary main_cst_17 main_v78 (broadcastInDim S50000x256 ![] bcast_S_S50000x256 : (⟨S_, .f32⟩ : BufTy).Contents (Elt F) → (⟨S50000x256, .f32⟩ : BufTy).Contents (Elt F)),
    unary main_v1 main_v79 (broadcastInDim S800000x1 ![0] bcast_S800000_S800000x1_0 : (⟨S800000, .i32⟩ : BufTy).Contents (Elt F) → (⟨S800000x1, .i32⟩ : BufTy).Contents (Elt F)),
    ternary main_v78 main_v79 main_v77 main_v80 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_18 (constant S_ .f32 0x3F800000#32),
    unary main_cst_18 main_v81 (broadcastInDim S800000 ![] bcast_S_S800000 : (⟨S_, .f32⟩ : BufTy).Contents (Elt F) → (⟨S800000, .f32⟩ : BufTy).Contents (Elt F)),
    nullary main_cst_19 (constant S_ .f32 0x00000000#32),
    unary main_cst_19 main_v82 (broadcastInDim S50000 ![] bcast_S_S50000 : (⟨S_, .f32⟩ : BufTy).Contents (Elt F) → (⟨S50000, .f32⟩ : BufTy).Contents (Elt F)),
    unary main_v1 main_v83 (broadcastInDim S800000x1 ![0] bcast_S800000_S800000x1_0 : (⟨S800000, .i32⟩ : BufTy).Contents (Elt F) → (⟨S800000x1, .i32⟩ : BufTy).Contents (Elt F)),
    ternary main_v82 main_v83 main_v81 main_v84 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_20 (constant S_ .f32 0x3F800000#32),
    unary main_cst_20 main_v85 (broadcastInDim S50000 ![] bcast_S_S50000 : (⟨S_, .f32⟩ : BufTy).Contents (Elt F) → (⟨S50000, .f32⟩ : BufTy).Contents (Elt F)),
    binary main_v84 main_v85 main_v86 (maximumf : (⟨S50000, .f32⟩ : BufTy).Contents (Elt F) → (⟨S50000, .f32⟩ : BufTy).Contents (Elt F) → (⟨S50000, .f32⟩ : BufTy).Contents (Elt F)),
    unary main_v86 main_v87 (broadcastInDim S50000x1 ![0] bcast_S50000_S50000x1_0 : (⟨S50000, .f32⟩ : BufTy).Contents (Elt F) → (⟨S50000x1, .f32⟩ : BufTy).Contents (Elt F)),
    unary main_v87 main_v88 (broadcastInDim S50000x256 ![0, 1] bcast_S50000x1_S50000x256_0_1 : (⟨S50000x1, .f32⟩ : BufTy).Contents (Elt F) → (⟨S50000x256, .f32⟩ : BufTy).Contents (Elt F)),
    binary main_v80 main_v88 main_v89 (Host.divf : (⟨S50000x256, .f32⟩ : BufTy).Contents (Elt F) → (⟨S50000x256, .f32⟩ : BufTy).Contents (Elt F) → (⟨S50000x256, .f32⟩ : BufTy).Contents (Elt F)) ]

variable (U : Valuation τ sig (Elt F)) (x0 : (⟨S50000x512, .f32⟩ : BufTy).Contents (Elt F)) (x1 : (⟨S2x800000, .i32⟩ : BufTy).Contents (Elt F)) (x2 : (⟨S512x256, .f32⟩ : BufTy).Contents (Elt F)) (x3 : (⟨S256, .f32⟩ : BufTy).Contents (Elt F)) (x4 : (⟨S512x256, .f32⟩ : BufTy).Contents (Elt F)) (x5 : (⟨S256, .f32⟩ : BufTy).Contents (Elt F)) (x6 : (⟨S512x64, .f32⟩ : BufTy).Contents (Elt F)) (x7 : (⟨S64, .f32⟩ : BufTy).Contents (Elt F)) (x8 : (⟨S512x256, .f32⟩ : BufTy).Contents (Elt F)) (x9 : (⟨S768x1, .f32⟩ : BufTy).Contents (Elt F))

set_option maxHeartbeats 1000000 in
/-- The buffer main_v49 after this stretch is the reference's stage of that name, given the stretch's operands at theirs. -/
theorem at_v49
    (h_arg3 : U (Proc.devRef .tc main_arg3) = x3)
    (h_v32 : U (Proc.devRef .tc main_v32) = Cert.ReferenceIdeal.ReadP.val_main_v32 (F := F) x1)
    (h_v8 : U (Proc.devRef .tc main_v8) = Cert.ReferenceIdeal.ReadP.val_main_v8 (F := F) x1)
    (h_v6 : U (Proc.devRef .tc main_v6) = Cert.ReferenceIdeal.ReadP.val_main_v6 (F := F) x0 x2)
    (h_v9 : U (Proc.devRef .tc main_v9) = Cert.ReferenceIdeal.ReadP.val_main_v9 (F := F) x1) :
    after (chunk (F := F)) U (Proc.devRef .tc main_v49) = Cert.ReferenceIdeal.ReadP.val_main_v49 (F := F) x0 x1 x2 x3 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r2
  try simp only [Matrix.cons_val_zero, Matrix.cons_val_one, Matrix.cons_val_two, Matrix.head_cons, Matrix.tail_cons, Matrix.cons_val_succ, Matrix.cons_val_fin_one]
  try after_results_simp
  after_rest_r2
  try simp only [toBuf_main_call2_cst, ofBuf_main_call2_cst, toBuf_main_call2_v0, ofBuf_main_call2_v0, toBuf_main_v48, ofBuf_main_v48, toBuf_main_v49, ofBuf_main_v49, id]
  try simp only [catEdges, catPair, catTriple]
  try rw [h_arg3]
  try rw [h_v32]
  try rw [h_v8]
  try rw [h_v6]
  try rw [h_v9]
  rfl

set_option maxHeartbeats 1000000 in
/-- The buffer main_v89 after this stretch is the reference's stage of that name, given the stretch's operands at theirs. -/
theorem at_v89
    (h_v1 : U (Proc.devRef .tc main_v1) = Cert.ReferenceIdeal.ReadP.val_main_v1 (F := F) x1)
    (h_v3 : U (Proc.devRef .tc main_v3) = Cert.ReferenceIdeal.ReadP.val_main_v3 (F := F) x1)
    (h_arg3 : U (Proc.devRef .tc main_arg3) = x3)
    (h_v32 : U (Proc.devRef .tc main_v32) = Cert.ReferenceIdeal.ReadP.val_main_v32 (F := F) x1)
    (h_v8 : U (Proc.devRef .tc main_v8) = Cert.ReferenceIdeal.ReadP.val_main_v8 (F := F) x1)
    (h_v6 : U (Proc.devRef .tc main_v6) = Cert.ReferenceIdeal.ReadP.val_main_v6 (F := F) x0 x2)
    (h_v9 : U (Proc.devRef .tc main_v9) = Cert.ReferenceIdeal.ReadP.val_main_v9 (F := F) x1) :
    after (chunk (F := F)) U (Proc.devRef .tc main_v89) = Cert.ReferenceIdeal.ReadP.val_main_v89 (F := F) x0 x1 x2 x3 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r2
  try simp only [Matrix.cons_val_zero, Matrix.cons_val_one, Matrix.cons_val_two, Matrix.head_cons, Matrix.tail_cons, Matrix.cons_val_succ, Matrix.cons_val_fin_one]
  try after_results_simp
  after_rest_r2
  try simp only [toBuf_main_call2_cst, ofBuf_main_call2_cst, toBuf_main_call2_v0, ofBuf_main_call2_v0, toBuf_main_v48, ofBuf_main_v48, toBuf_main_v49, ofBuf_main_v49, id]
  try simp only [catEdges, catPair, catTriple]
  try rw [h_v1]
  try rw [h_v3]
  try rw [h_arg3]
  try rw [h_v32]
  try rw [h_v8]
  try rw [h_v6]
  try rw [h_v9]
  rfl

set_option maxHeartbeats 1000000 in
/-- The buffer main_v68 after this stretch is the reference's stage of that name, given the stretch's operands at theirs. -/
theorem at_v68
    (h_v1 : U (Proc.devRef .tc main_v1) = Cert.ReferenceIdeal.ReadP.val_main_v1 (F := F) x1)
    (h_v3 : U (Proc.devRef .tc main_v3) = Cert.ReferenceIdeal.ReadP.val_main_v3 (F := F) x1)
    (h_arg3 : U (Proc.devRef .tc main_arg3) = x3)
    (h_v32 : U (Proc.devRef .tc main_v32) = Cert.ReferenceIdeal.ReadP.val_main_v32 (F := F) x1)
    (h_v8 : U (Proc.devRef .tc main_v8) = Cert.ReferenceIdeal.ReadP.val_main_v8 (F := F) x1)
    (h_v6 : U (Proc.devRef .tc main_v6) = Cert.ReferenceIdeal.ReadP.val_main_v6 (F := F) x0 x2)
    (h_v9 : U (Proc.devRef .tc main_v9) = Cert.ReferenceIdeal.ReadP.val_main_v9 (F := F) x1) :
    after (chunk (F := F)) U (Proc.devRef .tc main_v68) = Cert.ReferenceIdeal.ReadP.val_main_v68 (F := F) x0 x1 x2 x3 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r2
  try simp only [Matrix.cons_val_zero, Matrix.cons_val_one, Matrix.cons_val_two, Matrix.head_cons, Matrix.tail_cons, Matrix.cons_val_succ, Matrix.cons_val_fin_one]
  try after_results_simp
  after_rest_r2
  try simp only [toBuf_main_call2_cst, ofBuf_main_call2_cst, toBuf_main_call2_v0, ofBuf_main_call2_v0, toBuf_main_v48, ofBuf_main_v48, toBuf_main_v49, ofBuf_main_v49, id]
  try simp only [catEdges, catPair, catTriple]
  try rw [h_v1]
  try rw [h_v3]
  try rw [h_arg3]
  try rw [h_v32]
  try rw [h_v8]
  try rw [h_v6]
  try rw [h_v9]
  rfl

end Cert.ReferenceIdeal.RefChunk2

end
-- ==== Proof.RefChunk3.lean ====
/-
  Operations 120 to 148 of the reference, read against its stages: each buffer this stretch hands on is the
  stage of its name, as a function of the arguments, once the buffers the stretch takes from earlier stretches are.
  (A stage is the function one operation computes of the stages of its operands, so this is the operations' own graph.)
-/
import proofs.«106194_j24283745091829_2_alg».proof.Proof.Gen.ReferenceIdeal
import proofs.«106194_j24283745091829_2_alg».proof.Proof.RefValP
import Idealize.ShloMosaic.Lib.StableHlo.Run

set_option maxRecDepth 16384

noncomputable section

namespace Cert.ReferenceIdeal.RefChunk3

open Cert.ReferenceIdeal Cert.ReferenceIdeal.Gen Idealize.ShloMosaic Idealize.ShloMosaic.TcCoe Idealize.SL.Sem Idealize.ShloMosaic.StableHlo

variable {F : FTy → Type} [FloatOps F]

/-- Finishes what the one-pass reading of the operations leaves unread: each remaining "operation's result at a buffer" is
    the operation's function of its operands at the operation's own result buffer, and what was there before at any other. -/
macro "after_rest_r3" : tactic =>
  `(tactic| repeat (first
      | rw [nullary_result] | rw [unary_result] | rw [binary_result] | rw [ternary_result]
      | rw [quaternary_result] | rw [reshape_result] | rw [binaryIndexed_result] | rw [nary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [binaryIndexed_result_ne]; rotate_left; decide)
      | (rw [nary_result_ne]; rotate_left; decide)))

/-! ## The concatenations as functions of their operands

A concatenation is printed as a function that puts its operands into a list of pieces; naming it as a function of the
operands themselves lets the reading of the run below reach the operands. -/

/-- An 800000-long and a 50000-long list joined. -/
def catEdges (a : (⟨S800000, .i32⟩ : BufTy).Contents (Elt F)) (b : (⟨S50000, .i32⟩ : BufTy).Contents (Elt F)) :
    (⟨S850000, .i32⟩ : BufTy).Contents (Elt F) :=
  concatenate S850000 0 [⟨S800000, a⟩, ⟨S50000, b⟩] concatenates_S800000_S50000_S850000_d0
/-- Two [50000, 256] matrices side by side. -/
def catPair (a b : (⟨S50000x256, .f32⟩ : BufTy).Contents (Elt F)) : (⟨S50000x512, .f32⟩ : BufTy).Contents (Elt F) :=
  concatenate S50000x512 1 [⟨S50000x256, a⟩, ⟨S50000x256, b⟩] concatenates_S50000x256_S50000x256_S50000x512_d1
/-- Three [50000, 256] matrices side by side. -/
def catTriple (a b c : (⟨S50000x256, .f32⟩ : BufTy).Contents (Elt F)) : (⟨S50000x768, .f32⟩ : BufTy).Contents (Elt F) :=
  concatenate S50000x768 1 [⟨S50000x256, a⟩, ⟨S50000x256, b⟩, ⟨S50000x256, c⟩] concatenates_S50000x256_S50000x256_S50000x256_S50000x768_d1

theorem catEdges_fold : (fun (a : (⟨S800000, .i32⟩ : BufTy).Contents (Elt F)) (b : (⟨S50000, .i32⟩ : BufTy).Contents (Elt F)) =>
    concatenate S850000 0 [⟨S800000, a⟩, ⟨S50000, b⟩] concatenates_S800000_S50000_S850000_d0) = catEdges (F := F) := rfl
theorem catPair_fold : (fun (a b : (⟨S50000x256, .f32⟩ : BufTy).Contents (Elt F)) =>
    concatenate S50000x512 1 [⟨S50000x256, a⟩, ⟨S50000x256, b⟩] concatenates_S50000x256_S50000x256_S50000x512_d1) = catPair (F := F) := rfl

theorem catTriple_fold : (fun (u : (k : Fin 3) → (⟨S50000x256, .f32⟩ : BufTy).Contents (Elt F)) =>
    concatenate S50000x768 1 [⟨S50000x256, u 0⟩, ⟨S50000x256, u 1⟩, ⟨S50000x256, u 2⟩] concatenates_S50000x256_S50000x256_S50000x256_S50000x768_d1)
    = fun u => catTriple (F := F) (u 0) (u 1) (u 2) := rfl

/-! A value passed to or from a module-local function's buffer is transported along "the buffer's type is the value's";
    for a literal buffer the two types are the same, so the transport is the identity. -/

theorem toBuf_main_v5 (h1 : main_v5.ty = ⟨S50000x256, .f32⟩) (h2 : main_v5.space ≠ .host) (h3 : main_v5.isScoped = false)
    (v : (⟨S50000x256, .f32⟩ : BufTy).Contents (Elt F)) : (TRef.of main_v5 h1 h2 h3).toBuf v = v := eq_of_heq (cast_heq _ _)
theorem ofBuf_main_v5 (h1 : main_v5.ty = ⟨S50000x256, .f32⟩) (h2 : main_v5.space ≠ .host) (h3 : main_v5.isScoped = false)
    (v : main_v5.ty.Contents (Elt F)) : (TRef.of main_v5 h1 h2 h3).ofBuf v = v := eq_of_heq (cast_heq _ _)

theorem toBuf_main_v49 (h1 : main_v49.ty = ⟨S50000x256, .f32⟩) (h2 : main_v49.space ≠ .host) (h3 : main_v49.isScoped = false)
    (v : (⟨S50000x256, .f32⟩ : BufTy).Contents (Elt F)) : (TRef.of main_v49 h1 h2 h3).toBuf v = v := eq_of_heq (cast_heq _ _)
theorem ofBuf_main_v49 (h1 : main_v49.ty = ⟨S50000x256, .f32⟩) (h2 : main_v49.space ≠ .host) (h3 : main_v49.isScoped = false)
    (v : main_v49.ty.Contents (Elt F)) : (TRef.of main_v49 h1 h2 h3).ofBuf v = v := eq_of_heq (cast_heq _ _)

theorem toBuf_main_v105 (h1 : main_v105.ty = ⟨S50000x512, .f32⟩) (h2 : main_v105.space ≠ .host) (h3 : main_v105.isScoped = false)
    (v : (⟨S50000x512, .f32⟩ : BufTy).Contents (Elt F)) : (TRef.of main_v105 h1 h2 h3).toBuf v = v := eq_of_heq (cast_heq _ _)
theorem ofBuf_main_v105 (h1 : main_v105.ty = ⟨S50000x512, .f32⟩) (h2 : main_v105.space ≠ .host) (h3 : main_v105.isScoped = false)
    (v : main_v105.ty.Contents (Elt F)) : (TRef.of main_v105 h1 h2 h3).ofBuf v = v := eq_of_heq (cast_heq _ _)

theorem toBuf_main_call3_v0 (h1 : main_call3_v0.ty = ⟨S50000x512, .f32⟩) (h2 : main_call3_v0.space ≠ .host) (h3 : main_call3_v0.isScoped = false)
    (v : (⟨S50000x512, .f32⟩ : BufTy).Contents (Elt F)) : (TRef.of main_call3_v0 h1 h2 h3).toBuf v = v := eq_of_heq (cast_heq _ _)
theorem ofBuf_main_call3_v0 (h1 : main_call3_v0.ty = ⟨S50000x512, .f32⟩) (h2 : main_call3_v0.space ≠ .host) (h3 : main_call3_v0.isScoped = false)
    (v : main_call3_v0.ty.Contents (Elt F)) : (TRef.of main_call3_v0 h1 h2 h3).ofBuf v = v := eq_of_heq (cast_heq _ _)

theorem toBuf_main_call3_cst (h1 : main_call3_cst.ty = ⟨S_, .f32⟩) (h2 : main_call3_cst.space ≠ .host) (h3 : main_call3_cst.isScoped = false)
    (v : (⟨S_, .f32⟩ : BufTy).Contents (Elt F)) : (TRef.of main_call3_cst h1 h2 h3).toBuf v = v := eq_of_heq (cast_heq _ _)
theorem ofBuf_main_call3_cst (h1 : main_call3_cst.ty = ⟨S_, .f32⟩) (h2 : main_call3_cst.space ≠ .host) (h3 : main_call3_cst.isScoped = false)
    (v : main_call3_cst.ty.Contents (Elt F)) : (TRef.of main_call3_cst h1 h2 h3).ofBuf v = v := eq_of_heq (cast_heq _ _)

theorem toBuf_main_call3_v1 (h1 : main_call3_v1.ty = ⟨S50000, .f32⟩) (h2 : main_call3_v1.space ≠ .host) (h3 : main_call3_v1.isScoped = false)
    (v : (⟨S50000, .f32⟩ : BufTy).Contents (Elt F)) : (TRef.of main_call3_v1 h1 h2 h3).toBuf v = v := eq_of_heq (cast_heq _ _)
theorem ofBuf_main_call3_v1 (h1 : main_call3_v1.ty = ⟨S50000, .f32⟩) (h2 : main_call3_v1.space ≠ .host) (h3 : main_call3_v1.isScoped = false)
    (v : main_call3_v1.ty.Contents (Elt F)) : (TRef.of main_call3_v1 h1 h2 h3).ofBuf v = v := eq_of_heq (cast_heq _ _)

theorem toBuf_main_call3_v2 (h1 : main_call3_v2.ty = ⟨S50000x1, .f32⟩) (h2 : main_call3_v2.space ≠ .host) (h3 : main_call3_v2.isScoped = false)
    (v : (⟨S50000x1, .f32⟩ : BufTy).Contents (Elt F)) : (TRef.of main_call3_v2 h1 h2 h3).toBuf v = v := eq_of_heq (cast_heq _ _)
theorem ofBuf_main_call3_v2 (h1 : main_call3_v2.ty = ⟨S50000x1, .f32⟩) (h2 : main_call3_v2.space ≠ .host) (h3 : main_call3_v2.isScoped = false)
    (v : main_call3_v2.ty.Contents (Elt F)) : (TRef.of main_call3_v2 h1 h2 h3).ofBuf v = v := eq_of_heq (cast_heq _ _)

theorem toBuf_main_v106 (h1 : main_v106.ty = ⟨S50000x1, .f32⟩) (h2 : main_v106.space ≠ .host) (h3 : main_v106.isScoped = false)
    (v : (⟨S50000x1, .f32⟩ : BufTy).Contents (Elt F)) : (TRef.of main_v106 h1 h2 h3).toBuf v = v := eq_of_heq (cast_heq _ _)
theorem ofBuf_main_v106 (h1 : main_v106.ty = ⟨S50000x1, .f32⟩) (h2 : main_v106.space ≠ .host) (h3 : main_v106.isScoped = false)
    (v : main_v106.ty.Contents (Elt F)) : (TRef.of main_v106 h1 h2 h3).ofBuf v = v := eq_of_heq (cast_heq _ _)

/-- The stretch's operations, in order. -/
abbrev chunk : List (HloOp τ sig (Elt F)) :=
  [ binary main_v68 main_v49 main_v90 (mulf : (⟨S50000x256, .f32⟩ : BufTy).Contents (Elt F) → (⟨S50000x256, .f32⟩ : BufTy).Contents (Elt F) → (⟨S50000x256, .f32⟩ : BufTy).Contents (Elt F)),
    nary ![main_v90, main_v89, main_v49] main_v91 (fun u => concatenate S50000x768 1 [⟨S50000x256, u 0⟩, ⟨S50000x256, u 1⟩, ⟨S50000x256, u 2⟩] concatenates_S50000x256_S50000x256_S50000x256_S50000x768_d1),
    binary main_v91 main_arg9 main_v92 ((fun l r => Host.dotGeneral dot_S50000x768_S768x1_S50000x1_1_0_0_1_n_n none l r) : (⟨S50000x768, .f32⟩ : BufTy).Contents (Elt F) → (⟨S768x1, .f32⟩ : BufTy).Contents (Elt F) → (⟨S50000x1, .f32⟩ : BufTy).Contents (Elt F)),
    unary main_v92 main_v93 (Host.negf : (⟨S50000x1, .f32⟩ : BufTy).Contents (Elt F) → (⟨S50000x1, .f32⟩ : BufTy).Contents (Elt F)),
    unary main_v93 main_v94 (Host.exp : (⟨S50000x1, .f32⟩ : BufTy).Contents (Elt F) → (⟨S50000x1, .f32⟩ : BufTy).Contents (Elt F)),
    nullary main_cst_21 (constant S_ .f32 0x3F800000#32),
    unary main_cst_21 main_v95 (broadcastInDim S50000x1 ![] bcast_S_S50000x1 : (⟨S_, .f32⟩ : BufTy).Contents (Elt F) → (⟨S50000x1, .f32⟩ : BufTy).Contents (Elt F)),
    binary main_v95 main_v94 main_v96 (addf : (⟨S50000x1, .f32⟩ : BufTy).Contents (Elt F) → (⟨S50000x1, .f32⟩ : BufTy).Contents (Elt F) → (⟨S50000x1, .f32⟩ : BufTy).Contents (Elt F)),
    nullary main_cst_22 (constant S_ .f32 0x3F800000#32),
    unary main_cst_22 main_v97 (broadcastInDim S50000x1 ![] bcast_S_S50000x1 : (⟨S_, .f32⟩ : BufTy).Contents (Elt F) → (⟨S50000x1, .f32⟩ : BufTy).Contents (Elt F)),
    binary main_v97 main_v96 main_v98 (Host.divf : (⟨S50000x1, .f32⟩ : BufTy).Contents (Elt F) → (⟨S50000x1, .f32⟩ : BufTy).Contents (Elt F) → (⟨S50000x1, .f32⟩ : BufTy).Contents (Elt F)),
    nullary main_cst_23 (constant S_ .f32 0x3F800000#32),
    unary main_cst_23 main_v99 (broadcastInDim S50000x1 ![] bcast_S_S50000x1 : (⟨S_, .f32⟩ : BufTy).Contents (Elt F) → (⟨S50000x1, .f32⟩ : BufTy).Contents (Elt F)),
    binary main_v99 main_v98 main_v100 (subf : (⟨S50000x1, .f32⟩ : BufTy).Contents (Elt F) → (⟨S50000x1, .f32⟩ : BufTy).Contents (Elt F) → (⟨S50000x1, .f32⟩ : BufTy).Contents (Elt F)),
    unary main_v100 main_v101 (broadcastInDim S50000x256 ![0, 1] bcast_S50000x1_S50000x256_0_1 : (⟨S50000x1, .f32⟩ : BufTy).Contents (Elt F) → (⟨S50000x256, .f32⟩ : BufTy).Contents (Elt F)),
    binary main_v101 main_v49 main_v102 (mulf : (⟨S50000x256, .f32⟩ : BufTy).Contents (Elt F) → (⟨S50000x256, .f32⟩ : BufTy).Contents (Elt F) → (⟨S50000x256, .f32⟩ : BufTy).Contents (Elt F)),
    unary main_v98 main_v103 (broadcastInDim S50000x256 ![0, 1] bcast_S50000x1_S50000x256_0_1 : (⟨S50000x1, .f32⟩ : BufTy).Contents (Elt F) → (⟨S50000x256, .f32⟩ : BufTy).Contents (Elt F)),
    binary main_v103 main_v5 main_v104 (mulf : (⟨S50000x256, .f32⟩ : BufTy).Contents (Elt F) → (⟨S50000x256, .f32⟩ : BufTy).Contents (Elt F) → (⟨S50000x256, .f32⟩ : BufTy).Contents (Elt F)),
    binary main_v102 main_v104 main_v105 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    TRef.binary (TRef.of (T := ⟨S50000x512, .f32⟩) main_v105) (TRef.of (T := ⟨S50000x512, .f32⟩) main_v105) (TRef.of (T := ⟨S50000x512, .f32⟩) main_call3_v0) mulf,
    TRef.nullary (TRef.of (T := ⟨S_, .f32⟩) main_call3_cst) (constant S_ .f32 0x00000000#32),
    TRef.binary (TRef.of (T := ⟨S50000x512, .f32⟩) main_call3_v0) (TRef.of (T := ⟨S_, .f32⟩) main_call3_cst) (TRef.of (T := ⟨S50000, .f32⟩) main_call3_v1) (fun x v => Host.reduceAdd x v reducesTo_S50000x512_S50000_d1 h_S_),
    TRef.unary (TRef.of (T := ⟨S50000, .f32⟩) main_call3_v1) (TRef.of (T := ⟨S50000x1, .f32⟩) main_call3_v2) (broadcastInDim S50000x1 ![0] bcast_S50000_S50000x1_0),
    TRef.unary (TRef.of (T := ⟨S50000x1, .f32⟩) main_call3_v2) (TRef.of (T := ⟨S50000x1, .f32⟩) main_v106) Host.sqrt,
    nullary main_cst_24 (constant S_ .f32 0x2B8CBCCC#32),
    unary main_cst_24 main_v107 (broadcastInDim S50000x1 ![] bcast_S_S50000x1 : (⟨S_, .f32⟩ : BufTy).Contents (Elt F) → (⟨S50000x1, .f32⟩ : BufTy).Contents (Elt F)),
    binary main_v106 main_v107 main_v108 (maximumf : (⟨S50000x1, .f32⟩ : BufTy).Contents (Elt F) → (⟨S50000x1, .f32⟩ : BufTy).Contents (Elt F) → (⟨S50000x1, .f32⟩ : BufTy).Contents (Elt F)),
    unary main_v108 main_v109 (broadcastInDim S50000x512 ![0, 1] bcast_S50000x1_S50000x512_0_1 : (⟨S50000x1, .f32⟩ : BufTy).Contents (Elt F) → (⟨S50000x512, .f32⟩ : BufTy).Contents (Elt F)),
    binary main_v105 main_v109 main_v110 (Host.divf : (⟨S50000x512, .f32⟩ : BufTy).Contents (Elt F) → (⟨S50000x512, .f32⟩ : BufTy).Contents (Elt F) → (⟨S50000x512, .f32⟩ : BufTy).Contents (Elt F)) ]

variable (U : Valuation τ sig (Elt F)) (x0 : (⟨S50000x512, .f32⟩ : BufTy).Contents (Elt F)) (x1 : (⟨S2x800000, .i32⟩ : BufTy).Contents (Elt F)) (x2 : (⟨S512x256, .f32⟩ : BufTy).Contents (Elt F)) (x3 : (⟨S256, .f32⟩ : BufTy).Contents (Elt F)) (x4 : (⟨S512x256, .f32⟩ : BufTy).Contents (Elt F)) (x5 : (⟨S256, .f32⟩ : BufTy).Contents (Elt F)) (x6 : (⟨S512x64, .f32⟩ : BufTy).Contents (Elt F)) (x7 : (⟨S64, .f32⟩ : BufTy).Contents (Elt F)) (x8 : (⟨S512x256, .f32⟩ : BufTy).Contents (Elt F)) (x9 : (⟨S768x1, .f32⟩ : BufTy).Contents (Elt F))

set_option maxHeartbeats 1000000 in
/-- The buffer main_v110 after this stretch is the reference's stage of that name, given the stretch's operands at theirs. -/
theorem at_v110
    (h_v5 : U (Proc.devRef .tc main_v5) = Cert.ReferenceIdeal.ReadP.val_main_v5 (F := F) x0 x8)
    (h_arg9 : U (Proc.devRef .tc main_arg9) = x9)
    (h_v49 : U (Proc.devRef .tc main_v49) = Cert.ReferenceIdeal.ReadP.val_main_v49 (F := F) x0 x1 x2 x3)
    (h_v89 : U (Proc.devRef .tc main_v89) = Cert.ReferenceIdeal.ReadP.val_main_v89 (F := F) x0 x1 x2 x3)
    (h_v68 : U (Proc.devRef .tc main_v68) = Cert.ReferenceIdeal.ReadP.val_main_v68 (F := F) x0 x1 x2 x3) :
    after (chunk (F := F)) U (Proc.devRef .tc main_v110) = Cert.ReferenceIdeal.ReadP.val_main_v110 (F := F) x0 x1 x2 x3 x8 x9 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r3
  try simp only [Matrix.cons_val_zero, Matrix.cons_val_one, Matrix.cons_val_two, Matrix.head_cons, Matrix.tail_cons, Matrix.cons_val_succ, Matrix.cons_val_fin_one]
  try after_results_simp
  after_rest_r3
  try simp only [toBuf_main_v5, ofBuf_main_v5, toBuf_main_v49, ofBuf_main_v49, toBuf_main_v105, ofBuf_main_v105, toBuf_main_call3_v0, ofBuf_main_call3_v0, toBuf_main_call3_cst, ofBuf_main_call3_cst, toBuf_main_call3_v1, ofBuf_main_call3_v1, toBuf_main_call3_v2, ofBuf_main_call3_v2, toBuf_main_v106, ofBuf_main_v106, id]
  try simp only [catEdges, catPair, catTriple]
  try rw [show U (Proc.devRef .tc (Matrix.vecHead (Matrix.vecTail ![main_v89, main_v49]))) = U (Proc.devRef .tc main_v49) from rfl]
  try rw [h_v5]
  try rw [h_arg9]
  try rw [h_v49]
  try rw [h_v89]
  try rw [h_v68]
  rfl

end Cert.ReferenceIdeal.RefChunk3

end
-- ==== Proof.RefChunk4.lean ====
/-
  Operations 149 to 185 of the reference, read against its stages: each buffer this stretch hands on is the
  stage of its name, as a function of the arguments, once the buffers the stretch takes from earlier stretches are.
  (A stage is the function one operation computes of the stages of its operands, so this is the operations' own graph.)
-/
import proofs.«106194_j24283745091829_2_alg».proof.Proof.Gen.ReferenceIdeal
import proofs.«106194_j24283745091829_2_alg».proof.Proof.RefValP
import Idealize.ShloMosaic.Lib.StableHlo.Run

set_option maxRecDepth 16384

noncomputable section

namespace Cert.ReferenceIdeal.RefChunk4

open Cert.ReferenceIdeal Cert.ReferenceIdeal.Gen Idealize.ShloMosaic Idealize.ShloMosaic.TcCoe Idealize.SL.Sem Idealize.ShloMosaic.StableHlo

variable {F : FTy → Type} [FloatOps F]

/-- Finishes what the one-pass reading of the operations leaves unread: each remaining "operation's result at a buffer" is
    the operation's function of its operands at the operation's own result buffer, and what was there before at any other. -/
macro "after_rest_r4" : tactic =>
  `(tactic| repeat (first
      | rw [nullary_result] | rw [unary_result] | rw [binary_result] | rw [ternary_result]
      | rw [quaternary_result] | rw [reshape_result] | rw [binaryIndexed_result] | rw [nary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [binaryIndexed_result_ne]; rotate_left; decide)
      | (rw [nary_result_ne]; rotate_left; decide)))

/-! ## The concatenations as functions of their operands

A concatenation is printed as a function that puts its operands into a list of pieces; naming it as a function of the
operands themselves lets the reading of the run below reach the operands. -/

/-- An 800000-long and a 50000-long list joined. -/
def catEdges (a : (⟨S800000, .i32⟩ : BufTy).Contents (Elt F)) (b : (⟨S50000, .i32⟩ : BufTy).Contents (Elt F)) :
    (⟨S850000, .i32⟩ : BufTy).Contents (Elt F) :=
  concatenate S850000 0 [⟨S800000, a⟩, ⟨S50000, b⟩] concatenates_S800000_S50000_S850000_d0
/-- Two [50000, 256] matrices side by side. -/
def catPair (a b : (⟨S50000x256, .f32⟩ : BufTy).Contents (Elt F)) : (⟨S50000x512, .f32⟩ : BufTy).Contents (Elt F) :=
  concatenate S50000x512 1 [⟨S50000x256, a⟩, ⟨S50000x256, b⟩] concatenates_S50000x256_S50000x256_S50000x512_d1
/-- Three [50000, 256] matrices side by side. -/
def catTriple (a b c : (⟨S50000x256, .f32⟩ : BufTy).Contents (Elt F)) : (⟨S50000x768, .f32⟩ : BufTy).Contents (Elt F) :=
  concatenate S50000x768 1 [⟨S50000x256, a⟩, ⟨S50000x256, b⟩, ⟨S50000x256, c⟩] concatenates_S50000x256_S50000x256_S50000x256_S50000x768_d1

theorem catEdges_fold : (fun (a : (⟨S800000, .i32⟩ : BufTy).Contents (Elt F)) (b : (⟨S50000, .i32⟩ : BufTy).Contents (Elt F)) =>
    concatenate S850000 0 [⟨S800000, a⟩, ⟨S50000, b⟩] concatenates_S800000_S50000_S850000_d0) = catEdges (F := F) := rfl
theorem catPair_fold : (fun (a b : (⟨S50000x256, .f32⟩ : BufTy).Contents (Elt F)) =>
    concatenate S50000x512 1 [⟨S50000x256, a⟩, ⟨S50000x256, b⟩] concatenates_S50000x256_S50000x256_S50000x512_d1) = catPair (F := F) := rfl

theorem catTriple_fold : (fun (u : (k : Fin 3) → (⟨S50000x256, .f32⟩ : BufTy).Contents (Elt F)) =>
    concatenate S50000x768 1 [⟨S50000x256, u 0⟩, ⟨S50000x256, u 1⟩, ⟨S50000x256, u 2⟩] concatenates_S50000x256_S50000x256_S50000x256_S50000x768_d1)
    = fun u => catTriple (F := F) (u 0) (u 1) (u 2) := rfl

/-! A value passed to or from a module-local function's buffer is transported along "the buffer's type is the value's";
    for a literal buffer the two types are the same, so the transport is the identity. -/

theorem toBuf_main_cst_28 (h1 : main_cst_28.ty = ⟨S_, .f32⟩) (h2 : main_cst_28.space ≠ .host) (h3 : main_cst_28.isScoped = false)
    (v : (⟨S_, .f32⟩ : BufTy).Contents (Elt F)) : (TRef.of main_cst_28 h1 h2 h3).toBuf v = v := eq_of_heq (cast_heq _ _)
theorem ofBuf_main_cst_28 (h1 : main_cst_28.ty = ⟨S_, .f32⟩) (h2 : main_cst_28.space ≠ .host) (h3 : main_cst_28.isScoped = false)
    (v : main_cst_28.ty.Contents (Elt F)) : (TRef.of main_cst_28 h1 h2 h3).ofBuf v = v := eq_of_heq (cast_heq _ _)

theorem toBuf_main_call4_v0 (h1 : main_call4_v0.ty = ⟨S_, .f32⟩) (h2 : main_call4_v0.space ≠ .host) (h3 : main_call4_v0.isScoped = false)
    (v : (⟨S_, .f32⟩ : BufTy).Contents (Elt F)) : (TRef.of main_call4_v0 h1 h2 h3).toBuf v = v := eq_of_heq (cast_heq _ _)
theorem ofBuf_main_call4_v0 (h1 : main_call4_v0.ty = ⟨S_, .f32⟩) (h2 : main_call4_v0.space ≠ .host) (h3 : main_call4_v0.isScoped = false)
    (v : main_call4_v0.ty.Contents (Elt F)) : (TRef.of main_call4_v0 h1 h2 h3).ofBuf v = v := eq_of_heq (cast_heq _ _)

theorem toBuf_main_call4_v1 (h1 : main_call4_v1.ty = ⟨S50000, .f32⟩) (h2 : main_call4_v1.space ≠ .host) (h3 : main_call4_v1.isScoped = false)
    (v : (⟨S50000, .f32⟩ : BufTy).Contents (Elt F)) : (TRef.of main_call4_v1 h1 h2 h3).toBuf v = v := eq_of_heq (cast_heq _ _)
theorem ofBuf_main_call4_v1 (h1 : main_call4_v1.ty = ⟨S50000, .f32⟩) (h2 : main_call4_v1.space ≠ .host) (h3 : main_call4_v1.isScoped = false)
    (v : main_call4_v1.ty.Contents (Elt F)) : (TRef.of main_call4_v1 h1 h2 h3).ofBuf v = v := eq_of_heq (cast_heq _ _)

theorem toBuf_main_v120 (h1 : main_v120.ty = ⟨S50000, .i1⟩) (h2 : main_v120.space ≠ .host) (h3 : main_v120.isScoped = false)
    (v : (⟨S50000, .i1⟩ : BufTy).Contents (Elt F)) : (TRef.of main_v120 h1 h2 h3).toBuf v = v := eq_of_heq (cast_heq _ _)
theorem ofBuf_main_v120 (h1 : main_v120.ty = ⟨S50000, .i1⟩) (h2 : main_v120.space ≠ .host) (h3 : main_v120.isScoped = false)
    (v : main_v120.ty.Contents (Elt F)) : (TRef.of main_v120 h1 h2 h3).ofBuf v = v := eq_of_heq (cast_heq _ _)

theorem toBuf_main_v121 (h1 : main_v121.ty = ⟨S50000, .f32⟩) (h2 : main_v121.space ≠ .host) (h3 : main_v121.isScoped = false)
    (v : (⟨S50000, .f32⟩ : BufTy).Contents (Elt F)) : (TRef.of main_v121 h1 h2 h3).toBuf v = v := eq_of_heq (cast_heq _ _)
theorem ofBuf_main_v121 (h1 : main_v121.ty = ⟨S50000, .f32⟩) (h2 : main_v121.space ≠ .host) (h3 : main_v121.isScoped = false)
    (v : main_v121.ty.Contents (Elt F)) : (TRef.of main_v121 h1 h2 h3).ofBuf v = v := eq_of_heq (cast_heq _ _)

theorem toBuf_main_v122 (h1 : main_v122.ty = ⟨S50000, .f32⟩) (h2 : main_v122.space ≠ .host) (h3 : main_v122.isScoped = false)
    (v : (⟨S50000, .f32⟩ : BufTy).Contents (Elt F)) : (TRef.of main_v122 h1 h2 h3).toBuf v = v := eq_of_heq (cast_heq _ _)
theorem ofBuf_main_v122 (h1 : main_v122.ty = ⟨S50000, .f32⟩) (h2 : main_v122.space ≠ .host) (h3 : main_v122.isScoped = false)
    (v : main_v122.ty.Contents (Elt F)) : (TRef.of main_v122 h1 h2 h3).ofBuf v = v := eq_of_heq (cast_heq _ _)

/-- The stretch's operations, in order. -/
abbrev chunk : List (HloOp τ sig (Elt F)) :=
  [ binary main_v110 main_arg4 main_v111 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_v112 (iotaInDim S50000 32 0),
    binary main_v1 main_v112 main_v113 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v112 main_v114 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_25 (constant S_ .f32 0x3F800000#32),
    unary main_cst_25 main_v115 (broadcastInDim S850000 ![] bcast_S_S850000 : (⟨S_, .f32⟩ : BufTy).Contents (Elt F) → (⟨S850000, .f32⟩ : BufTy).Contents (Elt F)),
    nullary main_cst_26 (constant S_ .f32 0x00000000#32),
    unary main_cst_26 main_v116 (broadcastInDim S50000 ![] bcast_S_S50000 : (⟨S_, .f32⟩ : BufTy).Contents (Elt F) → (⟨S50000, .f32⟩ : BufTy).Contents (Elt F)),
    unary main_v114 main_v117 (broadcastInDim S850000x1 ![0] bcast_S850000_S850000x1_0 : (⟨S850000, .i32⟩ : BufTy).Contents (Elt F) → (⟨S850000x1, .i32⟩ : BufTy).Contents (Elt F)),
    ternary main_v116 main_v117 main_v115 main_v118 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_27 (constant S_ .f32 0x00000000#32),
    unary main_cst_27 main_v119 (broadcastInDim S50000 ![] bcast_S_S50000 : (⟨S_, .f32⟩ : BufTy).Contents (Elt F) → (⟨S50000, .f32⟩ : BufTy).Contents (Elt F)),
    binary main_v118 main_v119 main_v120 (cmpf .ogt : (⟨S50000, .f32⟩ : BufTy).Contents (Elt F) → (⟨S50000, .f32⟩ : BufTy).Contents (Elt F) → (⟨S50000, .i1⟩ : BufTy).Contents (Elt F)),
    unary main_v118 main_v121 (Host.rsqrt : (⟨S50000, .f32⟩ : BufTy).Contents (Elt F) → (⟨S50000, .f32⟩ : BufTy).Contents (Elt F)),
    nullary main_cst_28 (constant S_ .f32 0x00000000#32),
    TRef.unary (TRef.of (T := ⟨S_, .f32⟩) main_cst_28) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v120) (TRef.of (T := ⟨S50000, .f32⟩) main_v121) (TRef.of (T := ⟨S50000, .f32⟩) main_call4_v1) (TRef.of (T := ⟨S50000, .f32⟩) main_v122) select,
    nullary main_c_29 (constantI S_ 32 0#32),
    unary main_c_29 main_v123 (broadcastInDim S850000 ![] bcast_S_S850000 : (⟨S_, .i32⟩ : BufTy).Contents (Elt F) → (⟨S850000, .i32⟩ : BufTy).Contents (Elt F)),
    binary main_v113 main_v123 main_v124 (cmpi .slt : (⟨S850000, .i32⟩ : BufTy).Contents (Elt F) → (⟨S850000, .i32⟩ : BufTy).Contents (Elt F) → (⟨S850000, .i1⟩ : BufTy).Contents (Elt F)),
    nullary main_c_30 (constantI S_ 32 50000#32),
    unary main_c_30 main_v125 (broadcastInDim S850000 ![] bcast_S_S850000 : (⟨S_, .i32⟩ : BufTy).Contents (Elt F) → (⟨S850000, .i32⟩ : BufTy).Contents (Elt F)),
    binary main_v113 main_v125 main_v126 (addi : (⟨S850000, .i32⟩ : BufTy).Contents (Elt F) → (⟨S850000, .i32⟩ : BufTy).Contents (Elt F) → (⟨S850000, .i32⟩ : BufTy).Contents (Elt F)),
    ternary main_v124 main_v126 main_v113 main_v127 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v127 main_v128 (broadcastInDim S850000x1 ![0] bcast_S850000_S850000x1_0 : (⟨S850000, .i32⟩ : BufTy).Contents (Elt F) → (⟨S850000x1, .i32⟩ : BufTy).Contents (Elt F)),
    binary main_v122 main_v128 main_v129 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_31 (constantI S_ 32 0#32),
    unary main_c_31 main_v130 (broadcastInDim S850000 ![] bcast_S_S850000 : (⟨S_, .i32⟩ : BufTy).Contents (Elt F) → (⟨S850000, .i32⟩ : BufTy).Contents (Elt F)),
    binary main_v114 main_v130 main_v131 (cmpi .slt : (⟨S850000, .i32⟩ : BufTy).Contents (Elt F) → (⟨S850000, .i32⟩ : BufTy).Contents (Elt F) → (⟨S850000, .i1⟩ : BufTy).Contents (Elt F)),
    nullary main_c_32 (constantI S_ 32 50000#32),
    unary main_c_32 main_v132 (broadcastInDim S850000 ![] bcast_S_S850000 : (⟨S_, .i32⟩ : BufTy).Contents (Elt F) → (⟨S850000, .i32⟩ : BufTy).Contents (Elt F)),
    binary main_v114 main_v132 main_v133 (addi : (⟨S850000, .i32⟩ : BufTy).Contents (Elt F) → (⟨S850000, .i32⟩ : BufTy).Contents (Elt F) → (⟨S850000, .i32⟩ : BufTy).Contents (Elt F)),
    ternary main_v131 main_v133 main_v114 main_v134 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v134 main_v135 (broadcastInDim S850000x1 ![0] bcast_S850000_S850000x1_0 : (⟨S850000, .i32⟩ : BufTy).Contents (Elt F) → (⟨S850000x1, .i32⟩ : BufTy).Contents (Elt F)),
    binary main_v122 main_v135 main_v136 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v129 main_v136 main_v137 (mulf : (⟨S850000, .f32⟩ : BufTy).Contents (Elt F) → (⟨S850000, .f32⟩ : BufTy).Contents (Elt F) → (⟨S850000, .f32⟩ : BufTy).Contents (Elt F)) ]

variable (U : Valuation τ sig (Elt F)) (x0 : (⟨S50000x512, .f32⟩ : BufTy).Contents (Elt F)) (x1 : (⟨S2x800000, .i32⟩ : BufTy).Contents (Elt F)) (x2 : (⟨S512x256, .f32⟩ : BufTy).Contents (Elt F)) (x3 : (⟨S256, .f32⟩ : BufTy).Contents (Elt F)) (x4 : (⟨S512x256, .f32⟩ : BufTy).Contents (Elt F)) (x5 : (⟨S256, .f32⟩ : BufTy).Contents (Elt F)) (x6 : (⟨S512x64, .f32⟩ : BufTy).Contents (Elt F)) (x7 : (⟨S64, .f32⟩ : BufTy).Contents (Elt F)) (x8 : (⟨S512x256, .f32⟩ : BufTy).Contents (Elt F)) (x9 : (⟨S768x1, .f32⟩ : BufTy).Contents (Elt F))

set_option maxHeartbeats 1000000 in
/-- The buffer main_v137 after this stretch is the reference's stage of that name, given the stretch's operands at theirs. -/
theorem at_v137
    (h_v3 : U (Proc.devRef .tc main_v3) = Cert.ReferenceIdeal.ReadP.val_main_v3 (F := F) x1)
    (h_v1 : U (Proc.devRef .tc main_v1) = Cert.ReferenceIdeal.ReadP.val_main_v1 (F := F) x1) :
    after (chunk (F := F)) U (Proc.devRef .tc main_v137) = Cert.ReferenceIdeal.ReadP.val_main_v137 (F := F) x1 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r4
  try simp only [Matrix.cons_val_zero, Matrix.cons_val_one, Matrix.cons_val_two, Matrix.head_cons, Matrix.tail_cons, Matrix.cons_val_succ, Matrix.cons_val_fin_one]
  try after_results_simp
  after_rest_r4
  try simp only [toBuf_main_cst_28, ofBuf_main_cst_28, toBuf_main_call4_v0, ofBuf_main_call4_v0, toBuf_main_call4_v1, ofBuf_main_call4_v1, toBuf_main_v120, ofBuf_main_v120, toBuf_main_v121, ofBuf_main_v121, toBuf_main_v122, ofBuf_main_v122, id]
  try simp only [catEdges, catPair, catTriple]
  try rw [h_v3]
  try rw [h_v1]
  rfl

set_option maxHeartbeats 1000000 in
/-- The buffer main_v113 after this stretch is the reference's stage of that name, given the stretch's operands at theirs. -/
theorem at_v113
    (h_v1 : U (Proc.devRef .tc main_v1) = Cert.ReferenceIdeal.ReadP.val_main_v1 (F := F) x1) :
    after (chunk (F := F)) U (Proc.devRef .tc main_v113) = Cert.ReferenceIdeal.ReadP.val_main_v113 (F := F) x1 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r4
  try simp only [Matrix.cons_val_zero, Matrix.cons_val_one, Matrix.cons_val_two, Matrix.head_cons, Matrix.tail_cons, Matrix.cons_val_succ, Matrix.cons_val_fin_one]
  try after_results_simp
  after_rest_r4
  try simp only [toBuf_main_cst_28, ofBuf_main_cst_28, toBuf_main_call4_v0, ofBuf_main_call4_v0, toBuf_main_call4_v1, ofBuf_main_call4_v1, toBuf_main_v120, ofBuf_main_v120, toBuf_main_v121, ofBuf_main_v121, toBuf_main_v122, ofBuf_main_v122, id]
  try simp only [catEdges, catPair, catTriple]
  try rw [h_v1]
  rfl

set_option maxHeartbeats 1000000 in
/-- The buffer main_v111 after this stretch is the reference's stage of that name, given the stretch's operands at theirs. -/
theorem at_v111
    (h_arg4 : U (Proc.devRef .tc main_arg4) = x4)
    (h_v110 : U (Proc.devRef .tc main_v110) = Cert.ReferenceIdeal.ReadP.val_main_v110 (F := F) x0 x1 x2 x3 x8 x9) :
    after (chunk (F := F)) U (Proc.devRef .tc main_v111) = Cert.ReferenceIdeal.ReadP.val_main_v111 (F := F) x0 x1 x2 x3 x4 x8 x9 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r4
  try simp only [Matrix.cons_val_zero, Matrix.cons_val_one, Matrix.cons_val_two, Matrix.head_cons, Matrix.tail_cons, Matrix.cons_val_succ, Matrix.cons_val_fin_one]
  try after_results_simp
  after_rest_r4
  try simp only [toBuf_main_cst_28, ofBuf_main_cst_28, toBuf_main_call4_v0, ofBuf_main_call4_v0, toBuf_main_call4_v1, ofBuf_main_call4_v1, toBuf_main_v120, ofBuf_main_v120, toBuf_main_v121, ofBuf_main_v121, toBuf_main_v122, ofBuf_main_v122, id]
  try simp only [catEdges, catPair, catTriple]
  try rw [h_arg4]
  try rw [h_v110]
  rfl

set_option maxHeartbeats 1000000 in
/-- The buffer main_v114 after this stretch is the reference's stage of that name, given the stretch's operands at theirs. -/
theorem at_v114
    (h_v3 : U (Proc.devRef .tc main_v3) = Cert.ReferenceIdeal.ReadP.val_main_v3 (F := F) x1) :
    after (chunk (F := F)) U (Proc.devRef .tc main_v114) = Cert.ReferenceIdeal.ReadP.val_main_v114 (F := F) x1 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r4
  try simp only [Matrix.cons_val_zero, Matrix.cons_val_one, Matrix.cons_val_two, Matrix.head_cons, Matrix.tail_cons, Matrix.cons_val_succ, Matrix.cons_val_fin_one]
  try after_results_simp
  after_rest_r4
  try simp only [toBuf_main_cst_28, ofBuf_main_cst_28, toBuf_main_call4_v0, ofBuf_main_call4_v0, toBuf_main_call4_v1, ofBuf_main_call4_v1, toBuf_main_v120, ofBuf_main_v120, toBuf_main_v121, ofBuf_main_v121, toBuf_main_v122, ofBuf_main_v122, id]
  try simp only [catEdges, catPair, catTriple]
  try rw [h_v3]
  rfl

end Cert.ReferenceIdeal.RefChunk4

end
-- ==== Proof.RefChunk5.lean ====
/-
  Operations 186 to 259 of the reference, read against its stages: each buffer this stretch hands on is the
  stage of its name, as a function of the arguments, once the buffers the stretch takes from earlier stretches are.
  (A stage is the function one operation computes of the stages of its operands, so this is the operations' own graph.)
-/
import proofs.«106194_j24283745091829_2_alg».proof.Proof.Gen.ReferenceIdeal
import proofs.«106194_j24283745091829_2_alg».proof.Proof.RefValP
import Idealize.ShloMosaic.Lib.StableHlo.Run

set_option maxRecDepth 16384

noncomputable section

namespace Cert.ReferenceIdeal.RefChunk5

open Cert.ReferenceIdeal Cert.ReferenceIdeal.Gen Idealize.ShloMosaic Idealize.ShloMosaic.TcCoe Idealize.SL.Sem Idealize.ShloMosaic.StableHlo

variable {F : FTy → Type} [FloatOps F]

/-- Finishes what the one-pass reading of the operations leaves unread: each remaining "operation's result at a buffer" is
    the operation's function of its operands at the operation's own result buffer, and what was there before at any other. -/
macro "after_rest_r5" : tactic =>
  `(tactic| repeat (first
      | rw [nullary_result] | rw [unary_result] | rw [binary_result] | rw [ternary_result]
      | rw [quaternary_result] | rw [reshape_result] | rw [binaryIndexed_result] | rw [nary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [binaryIndexed_result_ne]; rotate_left; decide)
      | (rw [nary_result_ne]; rotate_left; decide)))

/-! ## The concatenations as functions of their operands

A concatenation is printed as a function that puts its operands into a list of pieces; naming it as a function of the
operands themselves lets the reading of the run below reach the operands. -/

/-- An 800000-long and a 50000-long list joined. -/
def catEdges (a : (⟨S800000, .i32⟩ : BufTy).Contents (Elt F)) (b : (⟨S50000, .i32⟩ : BufTy).Contents (Elt F)) :
    (⟨S850000, .i32⟩ : BufTy).Contents (Elt F) :=
  concatenate S850000 0 [⟨S800000, a⟩, ⟨S50000, b⟩] concatenates_S800000_S50000_S850000_d0
/-- Two [50000, 256] matrices side by side. -/
def catPair (a b : (⟨S50000x256, .f32⟩ : BufTy).Contents (Elt F)) : (⟨S50000x512, .f32⟩ : BufTy).Contents (Elt F) :=
  concatenate S50000x512 1 [⟨S50000x256, a⟩, ⟨S50000x256, b⟩] concatenates_S50000x256_S50000x256_S50000x512_d1
/-- Three [50000, 256] matrices side by side. -/
def catTriple (a b c : (⟨S50000x256, .f32⟩ : BufTy).Contents (Elt F)) : (⟨S50000x768, .f32⟩ : BufTy).Contents (Elt F) :=
  concatenate S50000x768 1 [⟨S50000x256, a⟩, ⟨S50000x256, b⟩, ⟨S50000x256, c⟩] concatenates_S50000x256_S50000x256_S50000x256_S50000x768_d1

theorem catEdges_fold : (fun (a : (⟨S800000, .i32⟩ : BufTy).Contents (Elt F)) (b : (⟨S50000, .i32⟩ : BufTy).Contents (Elt F)) =>
    concatenate S850000 0 [⟨S800000, a⟩, ⟨S50000, b⟩] concatenates_S800000_S50000_S850000_d0) = catEdges (F := F) := rfl
theorem catPair_fold : (fun (a b : (⟨S50000x256, .f32⟩ : BufTy).Contents (Elt F)) =>
    concatenate S50000x512 1 [⟨S50000x256, a⟩, ⟨S50000x256, b⟩] concatenates_S50000x256_S50000x256_S50000x512_d1) = catPair (F := F) := rfl

theorem catTriple_fold : (fun (u : (k : Fin 3) → (⟨S50000x256, .f32⟩ : BufTy).Contents (Elt F)) =>
    concatenate S50000x768 1 [⟨S50000x256, u 0⟩, ⟨S50000x256, u 1⟩, ⟨S50000x256, u 2⟩] concatenates_S50000x256_S50000x256_S50000x256_S50000x768_d1)
    = fun u => catTriple (F := F) (u 0) (u 1) (u 2) := rfl

/-! A value passed to or from a module-local function's buffer is transported along "the buffer's type is the value's";
    for a literal buffer the two types are the same, so the transport is the identity. -/

theorem toBuf_main_call5_cst (h1 : main_call5_cst.ty = ⟨S_, .f32⟩) (h2 : main_call5_cst.space ≠ .host) (h3 : main_call5_cst.isScoped = false)
    (v : (⟨S_, .f32⟩ : BufTy).Contents (Elt F)) : (TRef.of main_call5_cst h1 h2 h3).toBuf v = v := eq_of_heq (cast_heq _ _)
theorem ofBuf_main_call5_cst (h1 : main_call5_cst.ty = ⟨S_, .f32⟩) (h2 : main_call5_cst.space ≠ .host) (h3 : main_call5_cst.isScoped = false)
    (v : main_call5_cst.ty.Contents (Elt F)) : (TRef.of main_call5_cst h1 h2 h3).ofBuf v = v := eq_of_heq (cast_heq _ _)

theorem toBuf_main_call5_v0 (h1 : main_call5_v0.ty = ⟨S50000x256, .f32⟩) (h2 : main_call5_v0.space ≠ .host) (h3 : main_call5_v0.isScoped = false)
    (v : (⟨S50000x256, .f32⟩ : BufTy).Contents (Elt F)) : (TRef.of main_call5_v0 h1 h2 h3).toBuf v = v := eq_of_heq (cast_heq _ _)
theorem ofBuf_main_call5_v0 (h1 : main_call5_v0.ty = ⟨S50000x256, .f32⟩) (h2 : main_call5_v0.space ≠ .host) (h3 : main_call5_v0.isScoped = false)
    (v : main_call5_v0.ty.Contents (Elt F)) : (TRef.of main_call5_v0 h1 h2 h3).ofBuf v = v := eq_of_heq (cast_heq _ _)

theorem toBuf_main_v153 (h1 : main_v153.ty = ⟨S50000x256, .f32⟩) (h2 : main_v153.space ≠ .host) (h3 : main_v153.isScoped = false)
    (v : (⟨S50000x256, .f32⟩ : BufTy).Contents (Elt F)) : (TRef.of main_v153 h1 h2 h3).toBuf v = v := eq_of_heq (cast_heq _ _)
theorem ofBuf_main_v153 (h1 : main_v153.ty = ⟨S50000x256, .f32⟩) (h2 : main_v153.space ≠ .host) (h3 : main_v153.isScoped = false)
    (v : main_v153.ty.Contents (Elt F)) : (TRef.of main_v153 h1 h2 h3).ofBuf v = v := eq_of_heq (cast_heq _ _)

theorem toBuf_main_v154 (h1 : main_v154.ty = ⟨S50000x256, .f32⟩) (h2 : main_v154.space ≠ .host) (h3 : main_v154.isScoped = false)
    (v : (⟨S50000x256, .f32⟩ : BufTy).Contents (Elt F)) : (TRef.of main_v154 h1 h2 h3).toBuf v = v := eq_of_heq (cast_heq _ _)
theorem ofBuf_main_v154 (h1 : main_v154.ty = ⟨S50000x256, .f32⟩) (h2 : main_v154.space ≠ .host) (h3 : main_v154.isScoped = false)
    (v : main_v154.ty.Contents (Elt F)) : (TRef.of main_v154 h1 h2 h3).ofBuf v = v := eq_of_heq (cast_heq _ _)

/-- The stretch's operations, in order. -/
abbrev chunk : List (HloOp τ sig (Elt F)) :=
  [ nullary main_c_33 (constantI S_ 32 0#32),
    unary main_c_33 main_v138 (broadcastInDim S850000 ![] bcast_S_S850000 : (⟨S_, .i32⟩ : BufTy).Contents (Elt F) → (⟨S850000, .i32⟩ : BufTy).Contents (Elt F)),
    binary main_v113 main_v138 main_v139 (cmpi .slt : (⟨S850000, .i32⟩ : BufTy).Contents (Elt F) → (⟨S850000, .i32⟩ : BufTy).Contents (Elt F) → (⟨S850000, .i1⟩ : BufTy).Contents (Elt F)),
    nullary main_c_34 (constantI S_ 32 50000#32),
    unary main_c_34 main_v140 (broadcastInDim S850000 ![] bcast_S_S850000 : (⟨S_, .i32⟩ : BufTy).Contents (Elt F) → (⟨S850000, .i32⟩ : BufTy).Contents (Elt F)),
    binary main_v113 main_v140 main_v141 (addi : (⟨S850000, .i32⟩ : BufTy).Contents (Elt F) → (⟨S850000, .i32⟩ : BufTy).Contents (Elt F) → (⟨S850000, .i32⟩ : BufTy).Contents (Elt F)),
    ternary main_v139 main_v141 main_v113 main_v142 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v142 main_v143 (broadcastInDim S850000x1 ![0] bcast_S850000_S850000x1_0 : (⟨S850000, .i32⟩ : BufTy).Contents (Elt F) → (⟨S850000x1, .i32⟩ : BufTy).Contents (Elt F)),
    binary main_v111 main_v143 main_v144 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v137 main_v145 (broadcastInDim S850000x1 ![0] bcast_S850000_S850000x1_0 : (⟨S850000, .f32⟩ : BufTy).Contents (Elt F) → (⟨S850000x1, .f32⟩ : BufTy).Contents (Elt F)),
    unary main_v145 main_v146 (broadcastInDim S850000x256 ![0, 1] bcast_S850000x1_S850000x256_0_1 : (⟨S850000x1, .f32⟩ : BufTy).Contents (Elt F) → (⟨S850000x256, .f32⟩ : BufTy).Contents (Elt F)),
    binary main_v144 main_v146 main_v147 (mulf : (⟨S850000x256, .f32⟩ : BufTy).Contents (Elt F) → (⟨S850000x256, .f32⟩ : BufTy).Contents (Elt F) → (⟨S850000x256, .f32⟩ : BufTy).Contents (Elt F)),
    nullary main_cst_35 (constant S_ .f32 0x00000000#32),
    unary main_cst_35 main_v148 (broadcastInDim S50000x256 ![] bcast_S_S50000x256 : (⟨S_, .f32⟩ : BufTy).Contents (Elt F) → (⟨S50000x256, .f32⟩ : BufTy).Contents (Elt F)),
    unary main_v114 main_v149 (broadcastInDim S850000x1 ![0] bcast_S850000_S850000x1_0 : (⟨S850000, .i32⟩ : BufTy).Contents (Elt F) → (⟨S850000x1, .i32⟩ : BufTy).Contents (Elt F)),
    ternary main_v148 main_v149 main_v147 main_v150 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg5 main_v151 (broadcastInDim S1x256 ![1] bcast_S256_S1x256_1 : (⟨S256, .f32⟩ : BufTy).Contents (Elt F) → (⟨S1x256, .f32⟩ : BufTy).Contents (Elt F)),
    unary main_v151 main_v152 (broadcastInDim S50000x256 ![0, 1] bcast_S1x256_S50000x256_0_1 : (⟨S1x256, .f32⟩ : BufTy).Contents (Elt F) → (⟨S50000x256, .f32⟩ : BufTy).Contents (Elt F)),
    binary main_v150 main_v152 main_v153 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x256, .f32⟩) main_call5_v0) (broadcastInDim S50000x256 ![] bcast_S_S50000x256),
    TRef.binary (TRef.of (T := ⟨S50000x256, .f32⟩) main_v153) (TRef.of (T := ⟨S50000x256, .f32⟩) main_call5_v0) (TRef.of (T := ⟨S50000x256, .f32⟩) main_v154) maximumf,
    nullary main_c_36 (constantI S_ 32 0#32),
    unary main_c_36 main_v155 (broadcastInDim S800000 ![] bcast_S_S800000 : (⟨S_, .i32⟩ : BufTy).Contents (Elt F) → (⟨S800000, .i32⟩ : BufTy).Contents (Elt F)),
    binary main_v3 main_v155 main_v156 (cmpi .slt : (⟨S800000, .i32⟩ : BufTy).Contents (Elt F) → (⟨S800000, .i32⟩ : BufTy).Contents (Elt F) → (⟨S800000, .i1⟩ : BufTy).Contents (Elt F)),
    nullary main_c_37 (constantI S_ 32 50000#32),
    unary main_c_37 main_v157 (broadcastInDim S800000 ![] bcast_S_S800000 : (⟨S_, .i32⟩ : BufTy).Contents (Elt F) → (⟨S800000, .i32⟩ : BufTy).Contents (Elt F)),
    binary main_v3 main_v157 main_v158 (addi : (⟨S800000, .i32⟩ : BufTy).Contents (Elt F) → (⟨S800000, .i32⟩ : BufTy).Contents (Elt F) → (⟨S800000, .i32⟩ : BufTy).Contents (Elt F)),
    ternary main_v156 main_v158 main_v3 main_v159 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v159 main_v160 (broadcastInDim S800000x1 ![0] bcast_S800000_S800000x1_0 : (⟨S800000, .i32⟩ : BufTy).Contents (Elt F) → (⟨S800000x1, .i32⟩ : BufTy).Contents (Elt F)),
    binary main_v154 main_v160 main_v161 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_38 (constant S_ .f32 0x00000000#32),
    unary main_cst_38 main_v162 (broadcastInDim S50000x256 ![] bcast_S_S50000x256 : (⟨S_, .f32⟩ : BufTy).Contents (Elt F) → (⟨S50000x256, .f32⟩ : BufTy).Contents (Elt F)),
    unary main_v1 main_v163 (broadcastInDim S800000x1 ![0] bcast_S800000_S800000x1_0 : (⟨S800000, .i32⟩ : BufTy).Contents (Elt F) → (⟨S800000x1, .i32⟩ : BufTy).Contents (Elt F)),
    ternary main_v162 main_v163 main_v161 main_v164 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_39 (constant S_ .f32 0x3F800000#32),
    unary main_cst_39 main_v165 (broadcastInDim S800000 ![] bcast_S_S800000 : (⟨S_, .f32⟩ : BufTy).Contents (Elt F) → (⟨S800000, .f32⟩ : BufTy).Contents (Elt F)),
    nullary main_cst_40 (constant S_ .f32 0x00000000#32),
    unary main_cst_40 main_v166 (broadcastInDim S50000 ![] bcast_S_S50000 : (⟨S_, .f32⟩ : BufTy).Contents (Elt F) → (⟨S50000, .f32⟩ : BufTy).Contents (Elt F)),
    unary main_v1 main_v167 (broadcastInDim S800000x1 ![0] bcast_S800000_S800000x1_0 : (⟨S800000, .i32⟩ : BufTy).Contents (Elt F) → (⟨S800000x1, .i32⟩ : BufTy).Contents (Elt F)),
    ternary main_v166 main_v167 main_v165 main_v168 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_41 (constant S_ .f32 0x3F800000#32),
    unary main_cst_41 main_v169 (broadcastInDim S50000 ![] bcast_S_S50000 : (⟨S_, .f32⟩ : BufTy).Contents (Elt F) → (⟨S50000, .f32⟩ : BufTy).Contents (Elt F)),
    binary main_v168 main_v169 main_v170 (maximumf : (⟨S50000, .f32⟩ : BufTy).Contents (Elt F) → (⟨S50000, .f32⟩ : BufTy).Contents (Elt F) → (⟨S50000, .f32⟩ : BufTy).Contents (Elt F)),
    unary main_v170 main_v171 (broadcastInDim S50000x1 ![0] bcast_S50000_S50000x1_0 : (⟨S50000, .f32⟩ : BufTy).Contents (Elt F) → (⟨S50000x1, .f32⟩ : BufTy).Contents (Elt F)),
    unary main_v171 main_v172 (broadcastInDim S50000x256 ![0, 1] bcast_S50000x1_S50000x256_0_1 : (⟨S50000x1, .f32⟩ : BufTy).Contents (Elt F) → (⟨S50000x256, .f32⟩ : BufTy).Contents (Elt F)),
    binary main_v164 main_v172 main_v173 (Host.divf : (⟨S50000x256, .f32⟩ : BufTy).Contents (Elt F) → (⟨S50000x256, .f32⟩ : BufTy).Contents (Elt F) → (⟨S50000x256, .f32⟩ : BufTy).Contents (Elt F)),
    binary main_v154 main_v173 main_v174 (subf : (⟨S50000x256, .f32⟩ : BufTy).Contents (Elt F) → (⟨S50000x256, .f32⟩ : BufTy).Contents (Elt F) → (⟨S50000x256, .f32⟩ : BufTy).Contents (Elt F)),
    unary main_v174 main_v175 (Host.absf : (⟨S50000x256, .f32⟩ : BufTy).Contents (Elt F) → (⟨S50000x256, .f32⟩ : BufTy).Contents (Elt F)),
    nullary main_c_42 (constantI S_ 32 0#32),
    unary main_c_42 main_v176 (broadcastInDim S800000 ![] bcast_S_S800000 : (⟨S_, .i32⟩ : BufTy).Contents (Elt F) → (⟨S800000, .i32⟩ : BufTy).Contents (Elt F)),
    binary main_v3 main_v176 main_v177 (cmpi .slt : (⟨S800000, .i32⟩ : BufTy).Contents (Elt F) → (⟨S800000, .i32⟩ : BufTy).Contents (Elt F) → (⟨S800000, .i1⟩ : BufTy).Contents (Elt F)),
    nullary main_c_43 (constantI S_ 32 50000#32),
    unary main_c_43 main_v178 (broadcastInDim S800000 ![] bcast_S_S800000 : (⟨S_, .i32⟩ : BufTy).Contents (Elt F) → (⟨S800000, .i32⟩ : BufTy).Contents (Elt F)),
    binary main_v3 main_v178 main_v179 (addi : (⟨S800000, .i32⟩ : BufTy).Contents (Elt F) → (⟨S800000, .i32⟩ : BufTy).Contents (Elt F) → (⟨S800000, .i32⟩ : BufTy).Contents (Elt F)),
    ternary main_v177 main_v179 main_v3 main_v180 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v180 main_v181 (broadcastInDim S800000x1 ![0] bcast_S800000_S800000x1_0 : (⟨S800000, .i32⟩ : BufTy).Contents (Elt F) → (⟨S800000x1, .i32⟩ : BufTy).Contents (Elt F)),
    binary main_v175 main_v181 main_v182 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_44 (constant S_ .f32 0x00000000#32),
    unary main_cst_44 main_v183 (broadcastInDim S50000x256 ![] bcast_S_S50000x256 : (⟨S_, .f32⟩ : BufTy).Contents (Elt F) → (⟨S50000x256, .f32⟩ : BufTy).Contents (Elt F)),
    unary main_v1 main_v184 (broadcastInDim S800000x1 ![0] bcast_S800000_S800000x1_0 : (⟨S800000, .i32⟩ : BufTy).Contents (Elt F) → (⟨S800000x1, .i32⟩ : BufTy).Contents (Elt F)),
    ternary main_v183 main_v184 main_v182 main_v185 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_45 (constant S_ .f32 0x3F800000#32),
    unary main_cst_45 main_v186 (broadcastInDim S800000 ![] bcast_S_S800000 : (⟨S_, .f32⟩ : BufTy).Contents (Elt F) → (⟨S800000, .f32⟩ : BufTy).Contents (Elt F)),
    nullary main_cst_46 (constant S_ .f32 0x00000000#32),
    unary main_cst_46 main_v187 (broadcastInDim S50000 ![] bcast_S_S50000 : (⟨S_, .f32⟩ : BufTy).Contents (Elt F) → (⟨S50000, .f32⟩ : BufTy).Contents (Elt F)),
    unary main_v1 main_v188 (broadcastInDim S800000x1 ![0] bcast_S800000_S800000x1_0 : (⟨S800000, .i32⟩ : BufTy).Contents (Elt F) → (⟨S800000x1, .i32⟩ : BufTy).Contents (Elt F)),
    ternary main_v187 main_v188 main_v186 main_v189 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_47 (constant S_ .f32 0x3F800000#32),
    unary main_cst_47 main_v190 (broadcastInDim S50000 ![] bcast_S_S50000 : (⟨S_, .f32⟩ : BufTy).Contents (Elt F) → (⟨S50000, .f32⟩ : BufTy).Contents (Elt F)),
    binary main_v189 main_v190 main_v191 (maximumf : (⟨S50000, .f32⟩ : BufTy).Contents (Elt F) → (⟨S50000, .f32⟩ : BufTy).Contents (Elt F) → (⟨S50000, .f32⟩ : BufTy).Contents (Elt F)),
    unary main_v191 main_v192 (broadcastInDim S50000x1 ![0] bcast_S50000_S50000x1_0 : (⟨S50000, .f32⟩ : BufTy).Contents (Elt F) → (⟨S50000x1, .f32⟩ : BufTy).Contents (Elt F)),
    unary main_v192 main_v193 (broadcastInDim S50000x256 ![0, 1] bcast_S50000x1_S50000x256_0_1 : (⟨S50000x1, .f32⟩ : BufTy).Contents (Elt F) → (⟨S50000x256, .f32⟩ : BufTy).Contents (Elt F)),
    binary main_v185 main_v193 main_v194 (Host.divf : (⟨S50000x256, .f32⟩ : BufTy).Contents (Elt F) → (⟨S50000x256, .f32⟩ : BufTy).Contents (Elt F) → (⟨S50000x256, .f32⟩ : BufTy).Contents (Elt F)) ]

variable (U : Valuation τ sig (Elt F)) (x0 : (⟨S50000x512, .f32⟩ : BufTy).Contents (Elt F)) (x1 : (⟨S2x800000, .i32⟩ : BufTy).Contents (Elt F)) (x2 : (⟨S512x256, .f32⟩ : BufTy).Contents (Elt F)) (x3 : (⟨S256, .f32⟩ : BufTy).Contents (Elt F)) (x4 : (⟨S512x256, .f32⟩ : BufTy).Contents (Elt F)) (x5 : (⟨S256, .f32⟩ : BufTy).Contents (Elt F)) (x6 : (⟨S512x64, .f32⟩ : BufTy).Contents (Elt F)) (x7 : (⟨S64, .f32⟩ : BufTy).Contents (Elt F)) (x8 : (⟨S512x256, .f32⟩ : BufTy).Contents (Elt F)) (x9 : (⟨S768x1, .f32⟩ : BufTy).Contents (Elt F))

set_option maxHeartbeats 1000000 in
/-- The buffer main_v154 after this stretch is the reference's stage of that name, given the stretch's operands at theirs. -/
theorem at_v154
    (h_arg5 : U (Proc.devRef .tc main_arg5) = x5)
    (h_v137 : U (Proc.devRef .tc main_v137) = Cert.ReferenceIdeal.ReadP.val_main_v137 (F := F) x1)
    (h_v113 : U (Proc.devRef .tc main_v113) = Cert.ReferenceIdeal.ReadP.val_main_v113 (F := F) x1)
    (h_v111 : U (Proc.devRef .tc main_v111) = Cert.ReferenceIdeal.ReadP.val_main_v111 (F := F) x0 x1 x2 x3 x4 x8 x9)
    (h_v114 : U (Proc.devRef .tc main_v114) = Cert.ReferenceIdeal.ReadP.val_main_v114 (F := F) x1) :
    after (chunk (F := F)) U (Proc.devRef .tc main_v154) = Cert.ReferenceIdeal.ReadP.val_main_v154 (F := F) x0 x1 x2 x3 x4 x5 x8 x9 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r5
  try simp only [Matrix.cons_val_zero, Matrix.cons_val_one, Matrix.cons_val_two, Matrix.head_cons, Matrix.tail_cons, Matrix.cons_val_succ, Matrix.cons_val_fin_one]
  try after_results_simp
  after_rest_r5
  try simp only [toBuf_main_call5_cst, ofBuf_main_call5_cst, toBuf_main_call5_v0, ofBuf_main_call5_v0, toBuf_main_v153, ofBuf_main_v153, toBuf_main_v154, ofBuf_main_v154, id]
  try simp only [catEdges, catPair, catTriple]
  try rw [h_arg5]
  try rw [h_v137]
  try rw [h_v113]
  try rw [h_v111]
  try rw [h_v114]
  rfl

set_option maxHeartbeats 1000000 in
/-- The buffer main_v194 after this stretch is the reference's stage of that name, given the stretch's operands at theirs. -/
theorem at_v194
    (h_v1 : U (Proc.devRef .tc main_v1) = Cert.ReferenceIdeal.ReadP.val_main_v1 (F := F) x1)
    (h_v3 : U (Proc.devRef .tc main_v3) = Cert.ReferenceIdeal.ReadP.val_main_v3 (F := F) x1)
    (h_arg5 : U (Proc.devRef .tc main_arg5) = x5)
    (h_v137 : U (Proc.devRef .tc main_v137) = Cert.ReferenceIdeal.ReadP.val_main_v137 (F := F) x1)
    (h_v113 : U (Proc.devRef .tc main_v113) = Cert.ReferenceIdeal.ReadP.val_main_v113 (F := F) x1)
    (h_v111 : U (Proc.devRef .tc main_v111) = Cert.ReferenceIdeal.ReadP.val_main_v111 (F := F) x0 x1 x2 x3 x4 x8 x9)
    (h_v114 : U (Proc.devRef .tc main_v114) = Cert.ReferenceIdeal.ReadP.val_main_v114 (F := F) x1) :
    after (chunk (F := F)) U (Proc.devRef .tc main_v194) = Cert.ReferenceIdeal.ReadP.val_main_v194 (F := F) x0 x1 x2 x3 x4 x5 x8 x9 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r5
  try simp only [Matrix.cons_val_zero, Matrix.cons_val_one, Matrix.cons_val_two, Matrix.head_cons, Matrix.tail_cons, Matrix.cons_val_succ, Matrix.cons_val_fin_one]
  try after_results_simp
  after_rest_r5
  try simp only [toBuf_main_call5_cst, ofBuf_main_call5_cst, toBuf_main_call5_v0, ofBuf_main_call5_v0, toBuf_main_v153, ofBuf_main_v153, toBuf_main_v154, ofBuf_main_v154, id]
  try simp only [catEdges, catPair, catTriple]
  try rw [h_v1]
  try rw [h_v3]
  try rw [h_arg5]
  try rw [h_v137]
  try rw [h_v113]
  try rw [h_v111]
  try rw [h_v114]
  rfl

set_option maxHeartbeats 1000000 in
/-- The buffer main_v173 after this stretch is the reference's stage of that name, given the stretch's operands at theirs. -/
theorem at_v173
    (h_v1 : U (Proc.devRef .tc main_v1) = Cert.ReferenceIdeal.ReadP.val_main_v1 (F := F) x1)
    (h_v3 : U (Proc.devRef .tc main_v3) = Cert.ReferenceIdeal.ReadP.val_main_v3 (F := F) x1)
    (h_arg5 : U (Proc.devRef .tc main_arg5) = x5)
    (h_v137 : U (Proc.devRef .tc main_v137) = Cert.ReferenceIdeal.ReadP.val_main_v137 (F := F) x1)
    (h_v113 : U (Proc.devRef .tc main_v113) = Cert.ReferenceIdeal.ReadP.val_main_v113 (F := F) x1)
    (h_v111 : U (Proc.devRef .tc main_v111) = Cert.ReferenceIdeal.ReadP.val_main_v111 (F := F) x0 x1 x2 x3 x4 x8 x9)
    (h_v114 : U (Proc.devRef .tc main_v114) = Cert.ReferenceIdeal.ReadP.val_main_v114 (F := F) x1) :
    after (chunk (F := F)) U (Proc.devRef .tc main_v173) = Cert.ReferenceIdeal.ReadP.val_main_v173 (F := F) x0 x1 x2 x3 x4 x5 x8 x9 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r5
  try simp only [Matrix.cons_val_zero, Matrix.cons_val_one, Matrix.cons_val_two, Matrix.head_cons, Matrix.tail_cons, Matrix.cons_val_succ, Matrix.cons_val_fin_one]
  try after_results_simp
  after_rest_r5
  try simp only [toBuf_main_call5_cst, ofBuf_main_call5_cst, toBuf_main_call5_v0, ofBuf_main_call5_v0, toBuf_main_v153, ofBuf_main_v153, toBuf_main_v154, ofBuf_main_v154, id]
  try simp only [catEdges, catPair, catTriple]
  try rw [h_v1]
  try rw [h_v3]
  try rw [h_arg5]
  try rw [h_v137]
  try rw [h_v113]
  try rw [h_v111]
  try rw [h_v114]
  rfl

end Cert.ReferenceIdeal.RefChunk5

end
-- ==== Proof.RefChunk6.lean ====
/-
  Operations 260 to 288 of the reference, read against its stages: each buffer this stretch hands on is the
  stage of its name, as a function of the arguments, once the buffers the stretch takes from earlier stretches are.
  (A stage is the function one operation computes of the stages of its operands, so this is the operations' own graph.)
-/
import proofs.«106194_j24283745091829_2_alg».proof.Proof.Gen.ReferenceIdeal
import proofs.«106194_j24283745091829_2_alg».proof.Proof.RefValP
import Idealize.ShloMosaic.Lib.StableHlo.Run

set_option maxRecDepth 16384

noncomputable section

namespace Cert.ReferenceIdeal.RefChunk6

open Cert.ReferenceIdeal Cert.ReferenceIdeal.Gen Idealize.ShloMosaic Idealize.ShloMosaic.TcCoe Idealize.SL.Sem Idealize.ShloMosaic.StableHlo

variable {F : FTy → Type} [FloatOps F]

/-- Finishes what the one-pass reading of the operations leaves unread: each remaining "operation's result at a buffer" is
    the operation's function of its operands at the operation's own result buffer, and what was there before at any other. -/
macro "after_rest_r6" : tactic =>
  `(tactic| repeat (first
      | rw [nullary_result] | rw [unary_result] | rw [binary_result] | rw [ternary_result]
      | rw [quaternary_result] | rw [reshape_result] | rw [binaryIndexed_result] | rw [nary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [binaryIndexed_result_ne]; rotate_left; decide)
      | (rw [nary_result_ne]; rotate_left; decide)))

/-! ## The concatenations as functions of their operands

A concatenation is printed as a function that puts its operands into a list of pieces; naming it as a function of the
operands themselves lets the reading of the run below reach the operands. -/

/-- An 800000-long and a 50000-long list joined. -/
def catEdges (a : (⟨S800000, .i32⟩ : BufTy).Contents (Elt F)) (b : (⟨S50000, .i32⟩ : BufTy).Contents (Elt F)) :
    (⟨S850000, .i32⟩ : BufTy).Contents (Elt F) :=
  concatenate S850000 0 [⟨S800000, a⟩, ⟨S50000, b⟩] concatenates_S800000_S50000_S850000_d0
/-- Two [50000, 256] matrices side by side. -/
def catPair (a b : (⟨S50000x256, .f32⟩ : BufTy).Contents (Elt F)) : (⟨S50000x512, .f32⟩ : BufTy).Contents (Elt F) :=
  concatenate S50000x512 1 [⟨S50000x256, a⟩, ⟨S50000x256, b⟩] concatenates_S50000x256_S50000x256_S50000x512_d1
/-- Three [50000, 256] matrices side by side. -/
def catTriple (a b c : (⟨S50000x256, .f32⟩ : BufTy).Contents (Elt F)) : (⟨S50000x768, .f32⟩ : BufTy).Contents (Elt F) :=
  concatenate S50000x768 1 [⟨S50000x256, a⟩, ⟨S50000x256, b⟩, ⟨S50000x256, c⟩] concatenates_S50000x256_S50000x256_S50000x256_S50000x768_d1

theorem catEdges_fold : (fun (a : (⟨S800000, .i32⟩ : BufTy).Contents (Elt F)) (b : (⟨S50000, .i32⟩ : BufTy).Contents (Elt F)) =>
    concatenate S850000 0 [⟨S800000, a⟩, ⟨S50000, b⟩] concatenates_S800000_S50000_S850000_d0) = catEdges (F := F) := rfl
theorem catPair_fold : (fun (a b : (⟨S50000x256, .f32⟩ : BufTy).Contents (Elt F)) =>
    concatenate S50000x512 1 [⟨S50000x256, a⟩, ⟨S50000x256, b⟩] concatenates_S50000x256_S50000x256_S50000x512_d1) = catPair (F := F) := rfl

theorem catTriple_fold : (fun (u : (k : Fin 3) → (⟨S50000x256, .f32⟩ : BufTy).Contents (Elt F)) =>
    concatenate S50000x768 1 [⟨S50000x256, u 0⟩, ⟨S50000x256, u 1⟩, ⟨S50000x256, u 2⟩] concatenates_S50000x256_S50000x256_S50000x256_S50000x768_d1)
    = fun u => catTriple (F := F) (u 0) (u 1) (u 2) := rfl

/-! A value passed to or from a module-local function's buffer is transported along "the buffer's type is the value's";
    for a literal buffer the two types are the same, so the transport is the identity. -/

theorem toBuf_main_v5 (h1 : main_v5.ty = ⟨S50000x256, .f32⟩) (h2 : main_v5.space ≠ .host) (h3 : main_v5.isScoped = false)
    (v : (⟨S50000x256, .f32⟩ : BufTy).Contents (Elt F)) : (TRef.of main_v5 h1 h2 h3).toBuf v = v := eq_of_heq (cast_heq _ _)
theorem ofBuf_main_v5 (h1 : main_v5.ty = ⟨S50000x256, .f32⟩) (h2 : main_v5.space ≠ .host) (h3 : main_v5.isScoped = false)
    (v : main_v5.ty.Contents (Elt F)) : (TRef.of main_v5 h1 h2 h3).ofBuf v = v := eq_of_heq (cast_heq _ _)

theorem toBuf_main_v154 (h1 : main_v154.ty = ⟨S50000x256, .f32⟩) (h2 : main_v154.space ≠ .host) (h3 : main_v154.isScoped = false)
    (v : (⟨S50000x256, .f32⟩ : BufTy).Contents (Elt F)) : (TRef.of main_v154 h1 h2 h3).toBuf v = v := eq_of_heq (cast_heq _ _)
theorem ofBuf_main_v154 (h1 : main_v154.ty = ⟨S50000x256, .f32⟩) (h2 : main_v154.space ≠ .host) (h3 : main_v154.isScoped = false)
    (v : main_v154.ty.Contents (Elt F)) : (TRef.of main_v154 h1 h2 h3).ofBuf v = v := eq_of_heq (cast_heq _ _)

theorem toBuf_main_v210 (h1 : main_v210.ty = ⟨S50000x512, .f32⟩) (h2 : main_v210.space ≠ .host) (h3 : main_v210.isScoped = false)
    (v : (⟨S50000x512, .f32⟩ : BufTy).Contents (Elt F)) : (TRef.of main_v210 h1 h2 h3).toBuf v = v := eq_of_heq (cast_heq _ _)
theorem ofBuf_main_v210 (h1 : main_v210.ty = ⟨S50000x512, .f32⟩) (h2 : main_v210.space ≠ .host) (h3 : main_v210.isScoped = false)
    (v : main_v210.ty.Contents (Elt F)) : (TRef.of main_v210 h1 h2 h3).ofBuf v = v := eq_of_heq (cast_heq _ _)

theorem toBuf_main_call6_v0 (h1 : main_call6_v0.ty = ⟨S50000x512, .f32⟩) (h2 : main_call6_v0.space ≠ .host) (h3 : main_call6_v0.isScoped = false)
    (v : (⟨S50000x512, .f32⟩ : BufTy).Contents (Elt F)) : (TRef.of main_call6_v0 h1 h2 h3).toBuf v = v := eq_of_heq (cast_heq _ _)
theorem ofBuf_main_call6_v0 (h1 : main_call6_v0.ty = ⟨S50000x512, .f32⟩) (h2 : main_call6_v0.space ≠ .host) (h3 : main_call6_v0.isScoped = false)
    (v : main_call6_v0.ty.Contents (Elt F)) : (TRef.of main_call6_v0 h1 h2 h3).ofBuf v = v := eq_of_heq (cast_heq _ _)

theorem toBuf_main_call6_cst (h1 : main_call6_cst.ty = ⟨S_, .f32⟩) (h2 : main_call6_cst.space ≠ .host) (h3 : main_call6_cst.isScoped = false)
    (v : (⟨S_, .f32⟩ : BufTy).Contents (Elt F)) : (TRef.of main_call6_cst h1 h2 h3).toBuf v = v := eq_of_heq (cast_heq _ _)
theorem ofBuf_main_call6_cst (h1 : main_call6_cst.ty = ⟨S_, .f32⟩) (h2 : main_call6_cst.space ≠ .host) (h3 : main_call6_cst.isScoped = false)
    (v : main_call6_cst.ty.Contents (Elt F)) : (TRef.of main_call6_cst h1 h2 h3).ofBuf v = v := eq_of_heq (cast_heq _ _)

theorem toBuf_main_call6_v1 (h1 : main_call6_v1.ty = ⟨S50000, .f32⟩) (h2 : main_call6_v1.space ≠ .host) (h3 : main_call6_v1.isScoped = false)
    (v : (⟨S50000, .f32⟩ : BufTy).Contents (Elt F)) : (TRef.of main_call6_v1 h1 h2 h3).toBuf v = v := eq_of_heq (cast_heq _ _)
theorem ofBuf_main_call6_v1 (h1 : main_call6_v1.ty = ⟨S50000, .f32⟩) (h2 : main_call6_v1.space ≠ .host) (h3 : main_call6_v1.isScoped = false)
    (v : main_call6_v1.ty.Contents (Elt F)) : (TRef.of main_call6_v1 h1 h2 h3).ofBuf v = v := eq_of_heq (cast_heq _ _)

theorem toBuf_main_call6_v2 (h1 : main_call6_v2.ty = ⟨S50000x1, .f32⟩) (h2 : main_call6_v2.space ≠ .host) (h3 : main_call6_v2.isScoped = false)
    (v : (⟨S50000x1, .f32⟩ : BufTy).Contents (Elt F)) : (TRef.of main_call6_v2 h1 h2 h3).toBuf v = v := eq_of_heq (cast_heq _ _)
theorem ofBuf_main_call6_v2 (h1 : main_call6_v2.ty = ⟨S50000x1, .f32⟩) (h2 : main_call6_v2.space ≠ .host) (h3 : main_call6_v2.isScoped = false)
    (v : main_call6_v2.ty.Contents (Elt F)) : (TRef.of main_call6_v2 h1 h2 h3).ofBuf v = v := eq_of_heq (cast_heq _ _)

theorem toBuf_main_v211 (h1 : main_v211.ty = ⟨S50000x1, .f32⟩) (h2 : main_v211.space ≠ .host) (h3 : main_v211.isScoped = false)
    (v : (⟨S50000x1, .f32⟩ : BufTy).Contents (Elt F)) : (TRef.of main_v211 h1 h2 h3).toBuf v = v := eq_of_heq (cast_heq _ _)
theorem ofBuf_main_v211 (h1 : main_v211.ty = ⟨S50000x1, .f32⟩) (h2 : main_v211.space ≠ .host) (h3 : main_v211.isScoped = false)
    (v : main_v211.ty.Contents (Elt F)) : (TRef.of main_v211 h1 h2 h3).ofBuf v = v := eq_of_heq (cast_heq _ _)

/-- The stretch's operations, in order. -/
abbrev chunk : List (HloOp τ sig (Elt F)) :=
  [ binary main_v173 main_v154 main_v195 (mulf : (⟨S50000x256, .f32⟩ : BufTy).Contents (Elt F) → (⟨S50000x256, .f32⟩ : BufTy).Contents (Elt F) → (⟨S50000x256, .f32⟩ : BufTy).Contents (Elt F)),
    nary ![main_v195, main_v194, main_v154] main_v196 (fun u => concatenate S50000x768 1 [⟨S50000x256, u 0⟩, ⟨S50000x256, u 1⟩, ⟨S50000x256, u 2⟩] concatenates_S50000x256_S50000x256_S50000x256_S50000x768_d1),
    binary main_v196 main_arg9 main_v197 ((fun l r => Host.dotGeneral dot_S50000x768_S768x1_S50000x1_1_0_0_1_n_n none l r) : (⟨S50000x768, .f32⟩ : BufTy).Contents (Elt F) → (⟨S768x1, .f32⟩ : BufTy).Contents (Elt F) → (⟨S50000x1, .f32⟩ : BufTy).Contents (Elt F)),
    unary main_v197 main_v198 (Host.negf : (⟨S50000x1, .f32⟩ : BufTy).Contents (Elt F) → (⟨S50000x1, .f32⟩ : BufTy).Contents (Elt F)),
    unary main_v198 main_v199 (Host.exp : (⟨S50000x1, .f32⟩ : BufTy).Contents (Elt F) → (⟨S50000x1, .f32⟩ : BufTy).Contents (Elt F)),
    nullary main_cst_48 (constant S_ .f32 0x3F800000#32),
    unary main_cst_48 main_v200 (broadcastInDim S50000x1 ![] bcast_S_S50000x1 : (⟨S_, .f32⟩ : BufTy).Contents (Elt F) → (⟨S50000x1, .f32⟩ : BufTy).Contents (Elt F)),
    binary main_v200 main_v199 main_v201 (addf : (⟨S50000x1, .f32⟩ : BufTy).Contents (Elt F) → (⟨S50000x1, .f32⟩ : BufTy).Contents (Elt F) → (⟨S50000x1, .f32⟩ : BufTy).Contents (Elt F)),
    nullary main_cst_49 (constant S_ .f32 0x3F800000#32),
    unary main_cst_49 main_v202 (broadcastInDim S50000x1 ![] bcast_S_S50000x1 : (⟨S_, .f32⟩ : BufTy).Contents (Elt F) → (⟨S50000x1, .f32⟩ : BufTy).Contents (Elt F)),
    binary main_v202 main_v201 main_v203 (Host.divf : (⟨S50000x1, .f32⟩ : BufTy).Contents (Elt F) → (⟨S50000x1, .f32⟩ : BufTy).Contents (Elt F) → (⟨S50000x1, .f32⟩ : BufTy).Contents (Elt F)),
    nullary main_cst_50 (constant S_ .f32 0x3F800000#32),
    unary main_cst_50 main_v204 (broadcastInDim S50000x1 ![] bcast_S_S50000x1 : (⟨S_, .f32⟩ : BufTy).Contents (Elt F) → (⟨S50000x1, .f32⟩ : BufTy).Contents (Elt F)),
    binary main_v204 main_v203 main_v205 (subf : (⟨S50000x1, .f32⟩ : BufTy).Contents (Elt F) → (⟨S50000x1, .f32⟩ : BufTy).Contents (Elt F) → (⟨S50000x1, .f32⟩ : BufTy).Contents (Elt F)),
    unary main_v205 main_v206 (broadcastInDim S50000x256 ![0, 1] bcast_S50000x1_S50000x256_0_1 : (⟨S50000x1, .f32⟩ : BufTy).Contents (Elt F) → (⟨S50000x256, .f32⟩ : BufTy).Contents (Elt F)),
    binary main_v206 main_v154 main_v207 (mulf : (⟨S50000x256, .f32⟩ : BufTy).Contents (Elt F) → (⟨S50000x256, .f32⟩ : BufTy).Contents (Elt F) → (⟨S50000x256, .f32⟩ : BufTy).Contents (Elt F)),
    unary main_v203 main_v208 (broadcastInDim S50000x256 ![0, 1] bcast_S50000x1_S50000x256_0_1 : (⟨S50000x1, .f32⟩ : BufTy).Contents (Elt F) → (⟨S50000x256, .f32⟩ : BufTy).Contents (Elt F)),
    binary main_v208 main_v5 main_v209 (mulf : (⟨S50000x256, .f32⟩ : BufTy).Contents (Elt F) → (⟨S50000x256, .f32⟩ : BufTy).Contents (Elt F) → (⟨S50000x256, .f32⟩ : BufTy).Contents (Elt F)),
    binary main_v207 main_v209 main_v210 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    TRef.binary (TRef.of (T := ⟨S50000x512, .f32⟩) main_v210) (TRef.of (T := ⟨S50000x512, .f32⟩) main_v210) (TRef.of (T := ⟨S50000x512, .f32⟩) main_call6_v0) mulf,
    TRef.nullary (TRef.of (T := ⟨S_, .f32⟩) main_call6_cst) (constant S_ .f32 0x00000000#32),
    TRef.binary (TRef.of (T := ⟨S50000x512, .f32⟩) main_call6_v0) (TRef.of (T := ⟨S_, .f32⟩) main_call6_cst) (TRef.of (T := ⟨S50000, .f32⟩) main_call6_v1) (fun x v => Host.reduceAdd x v reducesTo_S50000x512_S50000_d1 h_S_),
    TRef.unary (TRef.of (T := ⟨S50000, .f32⟩) main_call6_v1) (TRef.of (T := ⟨S50000x1, .f32⟩) main_call6_v2) (broadcastInDim S50000x1 ![0] bcast_S50000_S50000x1_0),
    TRef.unary (TRef.of (T := ⟨S50000x1, .f32⟩) main_call6_v2) (TRef.of (T := ⟨S50000x1, .f32⟩) main_v211) Host.sqrt,
    nullary main_cst_51 (constant S_ .f32 0x2B8CBCCC#32),
    unary main_cst_51 main_v212 (broadcastInDim S50000x1 ![] bcast_S_S50000x1 : (⟨S_, .f32⟩ : BufTy).Contents (Elt F) → (⟨S50000x1, .f32⟩ : BufTy).Contents (Elt F)),
    binary main_v211 main_v212 main_v213 (maximumf : (⟨S50000x1, .f32⟩ : BufTy).Contents (Elt F) → (⟨S50000x1, .f32⟩ : BufTy).Contents (Elt F) → (⟨S50000x1, .f32⟩ : BufTy).Contents (Elt F)),
    unary main_v213 main_v214 (broadcastInDim S50000x512 ![0, 1] bcast_S50000x1_S50000x512_0_1 : (⟨S50000x1, .f32⟩ : BufTy).Contents (Elt F) → (⟨S50000x512, .f32⟩ : BufTy).Contents (Elt F)),
    binary main_v210 main_v214 main_v215 (Host.divf : (⟨S50000x512, .f32⟩ : BufTy).Contents (Elt F) → (⟨S50000x512, .f32⟩ : BufTy).Contents (Elt F) → (⟨S50000x512, .f32⟩ : BufTy).Contents (Elt F)) ]

variable (U : Valuation τ sig (Elt F)) (x0 : (⟨S50000x512, .f32⟩ : BufTy).Contents (Elt F)) (x1 : (⟨S2x800000, .i32⟩ : BufTy).Contents (Elt F)) (x2 : (⟨S512x256, .f32⟩ : BufTy).Contents (Elt F)) (x3 : (⟨S256, .f32⟩ : BufTy).Contents (Elt F)) (x4 : (⟨S512x256, .f32⟩ : BufTy).Contents (Elt F)) (x5 : (⟨S256, .f32⟩ : BufTy).Contents (Elt F)) (x6 : (⟨S512x64, .f32⟩ : BufTy).Contents (Elt F)) (x7 : (⟨S64, .f32⟩ : BufTy).Contents (Elt F)) (x8 : (⟨S512x256, .f32⟩ : BufTy).Contents (Elt F)) (x9 : (⟨S768x1, .f32⟩ : BufTy).Contents (Elt F))

set_option maxHeartbeats 1000000 in
/-- The buffer main_v215 after this stretch is the reference's stage of that name, given the stretch's operands at theirs. -/
theorem at_v215
    (h_v5 : U (Proc.devRef .tc main_v5) = Cert.ReferenceIdeal.ReadP.val_main_v5 (F := F) x0 x8)
    (h_arg9 : U (Proc.devRef .tc main_arg9) = x9)
    (h_v154 : U (Proc.devRef .tc main_v154) = Cert.ReferenceIdeal.ReadP.val_main_v154 (F := F) x0 x1 x2 x3 x4 x5 x8 x9)
    (h_v194 : U (Proc.devRef .tc main_v194) = Cert.ReferenceIdeal.ReadP.val_main_v194 (F := F) x0 x1 x2 x3 x4 x5 x8 x9)
    (h_v173 : U (Proc.devRef .tc main_v173) = Cert.ReferenceIdeal.ReadP.val_main_v173 (F := F) x0 x1 x2 x3 x4 x5 x8 x9) :
    after (chunk (F := F)) U (Proc.devRef .tc main_v215) = Cert.ReferenceIdeal.ReadP.val_main_v215 (F := F) x0 x1 x2 x3 x4 x5 x8 x9 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r6
  try simp only [Matrix.cons_val_zero, Matrix.cons_val_one, Matrix.cons_val_two, Matrix.head_cons, Matrix.tail_cons, Matrix.cons_val_succ, Matrix.cons_val_fin_one]
  try after_results_simp
  after_rest_r6
  try simp only [toBuf_main_v5, ofBuf_main_v5, toBuf_main_v154, ofBuf_main_v154, toBuf_main_v210, ofBuf_main_v210, toBuf_main_call6_v0, ofBuf_main_call6_v0, toBuf_main_call6_cst, ofBuf_main_call6_cst, toBuf_main_call6_v1, ofBuf_main_call6_v1, toBuf_main_call6_v2, ofBuf_main_call6_v2, toBuf_main_v211, ofBuf_main_v211, id]
  try simp only [catEdges, catPair, catTriple]
  try rw [show U (Proc.devRef .tc (Matrix.vecHead (Matrix.vecTail ![main_v194, main_v154]))) = U (Proc.devRef .tc main_v154) from rfl]
  try rw [h_v5]
  try rw [h_arg9]
  try rw [h_v154]
  try rw [h_v194]
  try rw [h_v173]
  rfl

end Cert.ReferenceIdeal.RefChunk6

end
-- ==== Proof.RefChunk7.lean ====
/-
  Operations 289 to 325 of the reference, read against its stages: each buffer this stretch hands on is the
  stage of its name, as a function of the arguments, once the buffers the stretch takes from earlier stretches are.
  (A stage is the function one operation computes of the stages of its operands, so this is the operations' own graph.)
-/
import proofs.«106194_j24283745091829_2_alg».proof.Proof.Gen.ReferenceIdeal
import proofs.«106194_j24283745091829_2_alg».proof.Proof.RefValP
import Idealize.ShloMosaic.Lib.StableHlo.Run

set_option maxRecDepth 16384

noncomputable section

namespace Cert.ReferenceIdeal.RefChunk7

open Cert.ReferenceIdeal Cert.ReferenceIdeal.Gen Idealize.ShloMosaic Idealize.ShloMosaic.TcCoe Idealize.SL.Sem Idealize.ShloMosaic.StableHlo

variable {F : FTy → Type} [FloatOps F]

/-- Finishes what the one-pass reading of the operations leaves unread: each remaining "operation's result at a buffer" is
    the operation's function of its operands at the operation's own result buffer, and what was there before at any other. -/
macro "after_rest_r7" : tactic =>
  `(tactic| repeat (first
      | rw [nullary_result] | rw [unary_result] | rw [binary_result] | rw [ternary_result]
      | rw [quaternary_result] | rw [reshape_result] | rw [binaryIndexed_result] | rw [nary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [binaryIndexed_result_ne]; rotate_left; decide)
      | (rw [nary_result_ne]; rotate_left; decide)))

/-! ## The concatenations as functions of their operands

A concatenation is printed as a function that puts its operands into a list of pieces; naming it as a function of the
operands themselves lets the reading of the run below reach the operands. -/

/-- An 800000-long and a 50000-long list joined. -/
def catEdges (a : (⟨S800000, .i32⟩ : BufTy).Contents (Elt F)) (b : (⟨S50000, .i32⟩ : BufTy).Contents (Elt F)) :
    (⟨S850000, .i32⟩ : BufTy).Contents (Elt F) :=
  concatenate S850000 0 [⟨S800000, a⟩, ⟨S50000, b⟩] concatenates_S800000_S50000_S850000_d0
/-- Two [50000, 256] matrices side by side. -/
def catPair (a b : (⟨S50000x256, .f32⟩ : BufTy).Contents (Elt F)) : (⟨S50000x512, .f32⟩ : BufTy).Contents (Elt F) :=
  concatenate S50000x512 1 [⟨S50000x256, a⟩, ⟨S50000x256, b⟩] concatenates_S50000x256_S50000x256_S50000x512_d1
/-- Three [50000, 256] matrices side by side. -/
def catTriple (a b c : (⟨S50000x256, .f32⟩ : BufTy).Contents (Elt F)) : (⟨S50000x768, .f32⟩ : BufTy).Contents (Elt F) :=
  concatenate S50000x768 1 [⟨S50000x256, a⟩, ⟨S50000x256, b⟩, ⟨S50000x256, c⟩] concatenates_S50000x256_S50000x256_S50000x256_S50000x768_d1

theorem catEdges_fold : (fun (a : (⟨S800000, .i32⟩ : BufTy).Contents (Elt F)) (b : (⟨S50000, .i32⟩ : BufTy).Contents (Elt F)) =>
    concatenate S850000 0 [⟨S800000, a⟩, ⟨S50000, b⟩] concatenates_S800000_S50000_S850000_d0) = catEdges (F := F) := rfl
theorem catPair_fold : (fun (a b : (⟨S50000x256, .f32⟩ : BufTy).Contents (Elt F)) =>
    concatenate S50000x512 1 [⟨S50000x256, a⟩, ⟨S50000x256, b⟩] concatenates_S50000x256_S50000x256_S50000x512_d1) = catPair (F := F) := rfl

theorem catTriple_fold : (fun (u : (k : Fin 3) → (⟨S50000x256, .f32⟩ : BufTy).Contents (Elt F)) =>
    concatenate S50000x768 1 [⟨S50000x256, u 0⟩, ⟨S50000x256, u 1⟩, ⟨S50000x256, u 2⟩] concatenates_S50000x256_S50000x256_S50000x256_S50000x768_d1)
    = fun u => catTriple (F := F) (u 0) (u 1) (u 2) := rfl

/-! A value passed to or from a module-local function's buffer is transported along "the buffer's type is the value's";
    for a literal buffer the two types are the same, so the transport is the identity. -/

theorem toBuf_main_cst_55 (h1 : main_cst_55.ty = ⟨S_, .f32⟩) (h2 : main_cst_55.space ≠ .host) (h3 : main_cst_55.isScoped = false)
    (v : (⟨S_, .f32⟩ : BufTy).Contents (Elt F)) : (TRef.of main_cst_55 h1 h2 h3).toBuf v = v := eq_of_heq (cast_heq _ _)
theorem ofBuf_main_cst_55 (h1 : main_cst_55.ty = ⟨S_, .f32⟩) (h2 : main_cst_55.space ≠ .host) (h3 : main_cst_55.isScoped = false)
    (v : main_cst_55.ty.Contents (Elt F)) : (TRef.of main_cst_55 h1 h2 h3).ofBuf v = v := eq_of_heq (cast_heq _ _)

theorem toBuf_main_call7_v0 (h1 : main_call7_v0.ty = ⟨S_, .f32⟩) (h2 : main_call7_v0.space ≠ .host) (h3 : main_call7_v0.isScoped = false)
    (v : (⟨S_, .f32⟩ : BufTy).Contents (Elt F)) : (TRef.of main_call7_v0 h1 h2 h3).toBuf v = v := eq_of_heq (cast_heq _ _)
theorem ofBuf_main_call7_v0 (h1 : main_call7_v0.ty = ⟨S_, .f32⟩) (h2 : main_call7_v0.space ≠ .host) (h3 : main_call7_v0.isScoped = false)
    (v : main_call7_v0.ty.Contents (Elt F)) : (TRef.of main_call7_v0 h1 h2 h3).ofBuf v = v := eq_of_heq (cast_heq _ _)

theorem toBuf_main_call7_v1 (h1 : main_call7_v1.ty = ⟨S50000, .f32⟩) (h2 : main_call7_v1.space ≠ .host) (h3 : main_call7_v1.isScoped = false)
    (v : (⟨S50000, .f32⟩ : BufTy).Contents (Elt F)) : (TRef.of main_call7_v1 h1 h2 h3).toBuf v = v := eq_of_heq (cast_heq _ _)
theorem ofBuf_main_call7_v1 (h1 : main_call7_v1.ty = ⟨S50000, .f32⟩) (h2 : main_call7_v1.space ≠ .host) (h3 : main_call7_v1.isScoped = false)
    (v : main_call7_v1.ty.Contents (Elt F)) : (TRef.of main_call7_v1 h1 h2 h3).ofBuf v = v := eq_of_heq (cast_heq _ _)

theorem toBuf_main_v225 (h1 : main_v225.ty = ⟨S50000, .i1⟩) (h2 : main_v225.space ≠ .host) (h3 : main_v225.isScoped = false)
    (v : (⟨S50000, .i1⟩ : BufTy).Contents (Elt F)) : (TRef.of main_v225 h1 h2 h3).toBuf v = v := eq_of_heq (cast_heq _ _)
theorem ofBuf_main_v225 (h1 : main_v225.ty = ⟨S50000, .i1⟩) (h2 : main_v225.space ≠ .host) (h3 : main_v225.isScoped = false)
    (v : main_v225.ty.Contents (Elt F)) : (TRef.of main_v225 h1 h2 h3).ofBuf v = v := eq_of_heq (cast_heq _ _)

theorem toBuf_main_v226 (h1 : main_v226.ty = ⟨S50000, .f32⟩) (h2 : main_v226.space ≠ .host) (h3 : main_v226.isScoped = false)
    (v : (⟨S50000, .f32⟩ : BufTy).Contents (Elt F)) : (TRef.of main_v226 h1 h2 h3).toBuf v = v := eq_of_heq (cast_heq _ _)
theorem ofBuf_main_v226 (h1 : main_v226.ty = ⟨S50000, .f32⟩) (h2 : main_v226.space ≠ .host) (h3 : main_v226.isScoped = false)
    (v : main_v226.ty.Contents (Elt F)) : (TRef.of main_v226 h1 h2 h3).ofBuf v = v := eq_of_heq (cast_heq _ _)

theorem toBuf_main_v227 (h1 : main_v227.ty = ⟨S50000, .f32⟩) (h2 : main_v227.space ≠ .host) (h3 : main_v227.isScoped = false)
    (v : (⟨S50000, .f32⟩ : BufTy).Contents (Elt F)) : (TRef.of main_v227 h1 h2 h3).toBuf v = v := eq_of_heq (cast_heq _ _)
theorem ofBuf_main_v227 (h1 : main_v227.ty = ⟨S50000, .f32⟩) (h2 : main_v227.space ≠ .host) (h3 : main_v227.isScoped = false)
    (v : main_v227.ty.Contents (Elt F)) : (TRef.of main_v227 h1 h2 h3).ofBuf v = v := eq_of_heq (cast_heq _ _)

/-- The stretch's operations, in order. -/
abbrev chunk : List (HloOp τ sig (Elt F)) :=
  [ binary main_v215 main_arg6 main_v216 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)),
    nullary main_v217 (iotaInDim S50000 32 0),
    binary main_v1 main_v217 main_v218 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v217 main_v219 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_52 (constant S_ .f32 0x3F800000#32),
    unary main_cst_52 main_v220 (broadcastInDim S850000 ![] bcast_S_S850000 : (⟨S_, .f32⟩ : BufTy).Contents (Elt F) → (⟨S850000, .f32⟩ : BufTy).Contents (Elt F)),
    nullary main_cst_53 (constant S_ .f32 0x00000000#32),
    unary main_cst_53 main_v221 (broadcastInDim S50000 ![] bcast_S_S50000 : (⟨S_, .f32⟩ : BufTy).Contents (Elt F) → (⟨S50000, .f32⟩ : BufTy).Contents (Elt F)),
    unary main_v219 main_v222 (broadcastInDim S850000x1 ![0] bcast_S850000_S850000x1_0 : (⟨S850000, .i32⟩ : BufTy).Contents (Elt F) → (⟨S850000x1, .i32⟩ : BufTy).Contents (Elt F)),
    ternary main_v221 main_v222 main_v220 main_v223 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_54 (constant S_ .f32 0x00000000#32),
    unary main_cst_54 main_v224 (broadcastInDim S50000 ![] bcast_S_S50000 : (⟨S_, .f32⟩ : BufTy).Contents (Elt F) → (⟨S50000, .f32⟩ : BufTy).Contents (Elt F)),
    binary main_v223 main_v224 main_v225 (cmpf .ogt : (⟨S50000, .f32⟩ : BufTy).Contents (Elt F) → (⟨S50000, .f32⟩ : BufTy).Contents (Elt F) → (⟨S50000, .i1⟩ : BufTy).Contents (Elt F)),
    unary main_v223 main_v226 (Host.rsqrt : (⟨S50000, .f32⟩ : BufTy).Contents (Elt F) → (⟨S50000, .f32⟩ : BufTy).Contents (Elt F)),
    nullary main_cst_55 (constant S_ .f32 0x00000000#32),
    TRef.unary (TRef.of (T := ⟨S_, .f32⟩) main_cst_55) (TRef.of (T := ⟨S_, .f32⟩) main_call7_v0) id,
    TRef.unary (TRef.of (T := ⟨S_, .f32⟩) main_call7_v0) (TRef.of (T := ⟨S50000, .f32⟩) main_call7_v1) (broadcastInDim S50000 ![] bcast_S_S50000),
    TRef.ternary (TRef.of (T := ⟨S50000, .i1⟩) main_v225) (TRef.of (T := ⟨S50000, .f32⟩) main_v226) (TRef.of (T := ⟨S50000, .f32⟩) main_call7_v1) (TRef.of (T := ⟨S50000, .f32⟩) main_v227) select,
    nullary main_c_56 (constantI S_ 32 0#32),
    unary main_c_56 main_v228 (broadcastInDim S850000 ![] bcast_S_S850000 : (⟨S_, .i32⟩ : BufTy).Contents (Elt F) → (⟨S850000, .i32⟩ : BufTy).Contents (Elt F)),
    binary main_v218 main_v228 main_v229 (cmpi .slt : (⟨S850000, .i32⟩ : BufTy).Contents (Elt F) → (⟨S850000, .i32⟩ : BufTy).Contents (Elt F) → (⟨S850000, .i1⟩ : BufTy).Contents (Elt F)),
    nullary main_c_57 (constantI S_ 32 50000#32),
    unary main_c_57 main_v230 (broadcastInDim S850000 ![] bcast_S_S850000 : (⟨S_, .i32⟩ : BufTy).Contents (Elt F) → (⟨S850000, .i32⟩ : BufTy).Contents (Elt F)),
    binary main_v218 main_v230 main_v231 (addi : (⟨S850000, .i32⟩ : BufTy).Contents (Elt F) → (⟨S850000, .i32⟩ : BufTy).Contents (Elt F) → (⟨S850000, .i32⟩ : BufTy).Contents (Elt F)),
    ternary main_v229 main_v231 main_v218 main_v232 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v232 main_v233 (broadcastInDim S850000x1 ![0] bcast_S850000_S850000x1_0 : (⟨S850000, .i32⟩ : BufTy).Contents (Elt F) → (⟨S850000x1, .i32⟩ : BufTy).Contents (Elt F)),
    binary main_v227 main_v233 main_v234 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_58 (constantI S_ 32 0#32),
    unary main_c_58 main_v235 (broadcastInDim S850000 ![] bcast_S_S850000 : (⟨S_, .i32⟩ : BufTy).Contents (Elt F) → (⟨S850000, .i32⟩ : BufTy).Contents (Elt F)),
    binary main_v219 main_v235 main_v236 (cmpi .slt : (⟨S850000, .i32⟩ : BufTy).Contents (Elt F) → (⟨S850000, .i32⟩ : BufTy).Contents (Elt F) → (⟨S850000, .i1⟩ : BufTy).Contents (Elt F)),
    nullary main_c_59 (constantI S_ 32 50000#32),
    unary main_c_59 main_v237 (broadcastInDim S850000 ![] bcast_S_S850000 : (⟨S_, .i32⟩ : BufTy).Contents (Elt F) → (⟨S850000, .i32⟩ : BufTy).Contents (Elt F)),
    binary main_v219 main_v237 main_v238 (addi : (⟨S850000, .i32⟩ : BufTy).Contents (Elt F) → (⟨S850000, .i32⟩ : BufTy).Contents (Elt F) → (⟨S850000, .i32⟩ : BufTy).Contents (Elt F)),
    ternary main_v236 main_v238 main_v219 main_v239 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v239 main_v240 (broadcastInDim S850000x1 ![0] bcast_S850000_S850000x1_0 : (⟨S850000, .i32⟩ : BufTy).Contents (Elt F) → (⟨S850000x1, .i32⟩ : BufTy).Contents (Elt F)),
    binary main_v227 main_v240 main_v241 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v234 main_v241 main_v242 (mulf : (⟨S850000, .f32⟩ : BufTy).Contents (Elt F) → (⟨S850000, .f32⟩ : BufTy).Contents (Elt F) → (⟨S850000, .f32⟩ : BufTy).Contents (Elt F)) ]

variable (U : Valuation τ sig (Elt F)) (x0 : (⟨S50000x512, .f32⟩ : BufTy).Contents (Elt F)) (x1 : (⟨S2x800000, .i32⟩ : BufTy).Contents (Elt F)) (x2 : (⟨S512x256, .f32⟩ : BufTy).Contents (Elt F)) (x3 : (⟨S256, .f32⟩ : BufTy).Contents (Elt F)) (x4 : (⟨S512x256, .f32⟩ : BufTy).Contents (Elt F)) (x5 : (⟨S256, .f32⟩ : BufTy).Contents (Elt F)) (x6 : (⟨S512x64, .f32⟩ : BufTy).Contents (Elt F)) (x7 : (⟨S64, .f32⟩ : BufTy).Contents (Elt F)) (x8 : (⟨S512x256, .f32⟩ : BufTy).Contents (Elt F)) (x9 : (⟨S768x1, .f32⟩ : BufTy).Contents (Elt F))

set_option maxHeartbeats 1000000 in
/-- The buffer main_v242 after this stretch is the reference's stage of that name, given the stretch's operands at theirs. -/
theorem at_v242
    (h_v3 : U (Proc.devRef .tc main_v3) = Cert.ReferenceIdeal.ReadP.val_main_v3 (F := F) x1)
    (h_v1 : U (Proc.devRef .tc main_v1) = Cert.ReferenceIdeal.ReadP.val_main_v1 (F := F) x1) :
    after (chunk (F := F)) U (Proc.devRef .tc main_v242) = Cert.ReferenceIdeal.ReadP.val_main_v242 (F := F) x1 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r7
  try simp only [Matrix.cons_val_zero, Matrix.cons_val_one, Matrix.cons_val_two, Matrix.head_cons, Matrix.tail_cons, Matrix.cons_val_succ, Matrix.cons_val_fin_one]
  try after_results_simp
  after_rest_r7
  try simp only [toBuf_main_cst_55, ofBuf_main_cst_55, toBuf_main_call7_v0, ofBuf_main_call7_v0, toBuf_main_call7_v1, ofBuf_main_call7_v1, toBuf_main_v225, ofBuf_main_v225, toBuf_main_v226, ofBuf_main_v226, toBuf_main_v227, ofBuf_main_v227, id]
  try simp only [catEdges, catPair, catTriple]
  try rw [h_v3]
  try rw [h_v1]
  rfl

set_option maxHeartbeats 1000000 in
/-- The buffer main_v218 after this stretch is the reference's stage of that name, given the stretch's operands at theirs. -/
theorem at_v218
    (h_v1 : U (Proc.devRef .tc main_v1) = Cert.ReferenceIdeal.ReadP.val_main_v1 (F := F) x1) :
    after (chunk (F := F)) U (Proc.devRef .tc main_v218) = Cert.ReferenceIdeal.ReadP.val_main_v218 (F := F) x1 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r7
  try simp only [Matrix.cons_val_zero, Matrix.cons_val_one, Matrix.cons_val_two, Matrix.head_cons, Matrix.tail_cons, Matrix.cons_val_succ, Matrix.cons_val_fin_one]
  try after_results_simp
  after_rest_r7
  try simp only [toBuf_main_cst_55, ofBuf_main_cst_55, toBuf_main_call7_v0, ofBuf_main_call7_v0, toBuf_main_call7_v1, ofBuf_main_call7_v1, toBuf_main_v225, ofBuf_main_v225, toBuf_main_v226, ofBuf_main_v226, toBuf_main_v227, ofBuf_main_v227, id]
  try simp only [catEdges, catPair, catTriple]
  try rw [h_v1]
  rfl

set_option maxHeartbeats 1000000 in
/-- The buffer main_v216 after this stretch is the reference's stage of that name, given the stretch's operands at theirs. -/
theorem at_v216
    (h_arg6 : U (Proc.devRef .tc main_arg6) = x6)
    (h_v215 : U (Proc.devRef .tc main_v215) = Cert.ReferenceIdeal.ReadP.val_main_v215 (F := F) x0 x1 x2 x3 x4 x5 x8 x9) :
    after (chunk (F := F)) U (Proc.devRef .tc main_v216) = Cert.ReferenceIdeal.ReadP.val_main_v216 (F := F) x0 x1 x2 x3 x4 x5 x6 x8 x9 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r7
  try simp only [Matrix.cons_val_zero, Matrix.cons_val_one, Matrix.cons_val_two, Matrix.head_cons, Matrix.tail_cons, Matrix.cons_val_succ, Matrix.cons_val_fin_one]
  try after_results_simp
  after_rest_r7
  try simp only [toBuf_main_cst_55, ofBuf_main_cst_55, toBuf_main_call7_v0, ofBuf_main_call7_v0, toBuf_main_call7_v1, ofBuf_main_call7_v1, toBuf_main_v225, ofBuf_main_v225, toBuf_main_v226, ofBuf_main_v226, toBuf_main_v227, ofBuf_main_v227, id]
  try simp only [catEdges, catPair, catTriple]
  try rw [h_arg6]
  try rw [h_v215]
  rfl

set_option maxHeartbeats 1000000 in
/-- The buffer main_v219 after this stretch is the reference's stage of that name, given the stretch's operands at theirs. -/
theorem at_v219
    (h_v3 : U (Proc.devRef .tc main_v3) = Cert.ReferenceIdeal.ReadP.val_main_v3 (F := F) x1) :
    after (chunk (F := F)) U (Proc.devRef .tc main_v219) = Cert.ReferenceIdeal.ReadP.val_main_v219 (F := F) x1 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r7
  try simp only [Matrix.cons_val_zero, Matrix.cons_val_one, Matrix.cons_val_two, Matrix.head_cons, Matrix.tail_cons, Matrix.cons_val_succ, Matrix.cons_val_fin_one]
  try after_results_simp
  after_rest_r7
  try simp only [toBuf_main_cst_55, ofBuf_main_cst_55, toBuf_main_call7_v0, ofBuf_main_call7_v0, toBuf_main_call7_v1, ofBuf_main_call7_v1, toBuf_main_v225, ofBuf_main_v225, toBuf_main_v226, ofBuf_main_v226, toBuf_main_v227, ofBuf_main_v227, id]
  try simp only [catEdges, catPair, catTriple]
  try rw [h_v3]
  rfl

end Cert.ReferenceIdeal.RefChunk7

end
-- ==== Proof.RefChunk8.lean ====
/-
  Operations 326 to 344 of the reference, read against its stages: each buffer this stretch hands on is the
  stage of its name, as a function of the arguments, once the buffers the stretch takes from earlier stretches are.
  (A stage is the function one operation computes of the stages of its operands, so this is the operations' own graph.)
-/
import proofs.«106194_j24283745091829_2_alg».proof.Proof.Gen.ReferenceIdeal
import proofs.«106194_j24283745091829_2_alg».proof.Proof.RefValP
import Idealize.ShloMosaic.Lib.StableHlo.Run

set_option maxRecDepth 16384

noncomputable section

namespace Cert.ReferenceIdeal.RefChunk8

open Cert.ReferenceIdeal Cert.ReferenceIdeal.Gen Idealize.ShloMosaic Idealize.ShloMosaic.TcCoe Idealize.SL.Sem Idealize.ShloMosaic.StableHlo

variable {F : FTy → Type} [FloatOps F]

/-- Finishes what the one-pass reading of the operations leaves unread: each remaining "operation's result at a buffer" is
    the operation's function of its operands at the operation's own result buffer, and what was there before at any other. -/
macro "after_rest_r8" : tactic =>
  `(tactic| repeat (first
      | rw [nullary_result] | rw [unary_result] | rw [binary_result] | rw [ternary_result]
      | rw [quaternary_result] | rw [reshape_result] | rw [binaryIndexed_result] | rw [nary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [binaryIndexed_result_ne]; rotate_left; decide)
      | (rw [nary_result_ne]; rotate_left; decide)))

/-! ## The concatenations as functions of their operands

A concatenation is printed as a function that puts its operands into a list of pieces; naming it as a function of the
operands themselves lets the reading of the run below reach the operands. -/

/-- An 800000-long and a 50000-long list joined. -/
def catEdges (a : (⟨S800000, .i32⟩ : BufTy).Contents (Elt F)) (b : (⟨S50000, .i32⟩ : BufTy).Contents (Elt F)) :
    (⟨S850000, .i32⟩ : BufTy).Contents (Elt F) :=
  concatenate S850000 0 [⟨S800000, a⟩, ⟨S50000, b⟩] concatenates_S800000_S50000_S850000_d0
/-- Two [50000, 256] matrices side by side. -/
def catPair (a b : (⟨S50000x256, .f32⟩ : BufTy).Contents (Elt F)) : (⟨S50000x512, .f32⟩ : BufTy).Contents (Elt F) :=
  concatenate S50000x512 1 [⟨S50000x256, a⟩, ⟨S50000x256, b⟩] concatenates_S50000x256_S50000x256_S50000x512_d1
/-- Three [50000, 256] matrices side by side. -/
def catTriple (a b c : (⟨S50000x256, .f32⟩ : BufTy).Contents (Elt F)) : (⟨S50000x768, .f32⟩ : BufTy).Contents (Elt F) :=
  concatenate S50000x768 1 [⟨S50000x256, a⟩, ⟨S50000x256, b⟩, ⟨S50000x256, c⟩] concatenates_S50000x256_S50000x256_S50000x256_S50000x768_d1

theorem catEdges_fold : (fun (a : (⟨S800000, .i32⟩ : BufTy).Contents (Elt F)) (b : (⟨S50000, .i32⟩ : BufTy).Contents (Elt F)) =>
    concatenate S850000 0 [⟨S800000, a⟩, ⟨S50000, b⟩] concatenates_S800000_S50000_S850000_d0) = catEdges (F := F) := rfl
theorem catPair_fold : (fun (a b : (⟨S50000x256, .f32⟩ : BufTy).Contents (Elt F)) =>
    concatenate S50000x512 1 [⟨S50000x256, a⟩, ⟨S50000x256, b⟩] concatenates_S50000x256_S50000x256_S50000x512_d1) = catPair (F := F) := rfl

theorem catTriple_fold : (fun (u : (k : Fin 3) → (⟨S50000x256, .f32⟩ : BufTy).Contents (Elt F)) =>
    concatenate S50000x768 1 [⟨S50000x256, u 0⟩, ⟨S50000x256, u 1⟩, ⟨S50000x256, u 2⟩] concatenates_S50000x256_S50000x256_S50000x256_S50000x768_d1)
    = fun u => catTriple (F := F) (u 0) (u 1) (u 2) := rfl

/-! A value passed to or from a module-local function's buffer is transported along "the buffer's type is the value's";
    for a literal buffer the two types are the same, so the transport is the identity. -/

/-- The stretch's operations, in order. -/
abbrev chunk : List (HloOp τ sig (Elt F)) :=
  [ nullary main_c_60 (constantI S_ 32 0#32),
    unary main_c_60 main_v243 (broadcastInDim S850000 ![] bcast_S_S850000 : (⟨S_, .i32⟩ : BufTy).Contents (Elt F) → (⟨S850000, .i32⟩ : BufTy).Contents (Elt F)),
    binary main_v218 main_v243 main_v244 (cmpi .slt : (⟨S850000, .i32⟩ : BufTy).Contents (Elt F) → (⟨S850000, .i32⟩ : BufTy).Contents (Elt F) → (⟨S850000, .i1⟩ : BufTy).Contents (Elt F)),
    nullary main_c_61 (constantI S_ 32 50000#32),
    unary main_c_61 main_v245 (broadcastInDim S850000 ![] bcast_S_S850000 : (⟨S_, .i32⟩ : BufTy).Contents (Elt F) → (⟨S850000, .i32⟩ : BufTy).Contents (Elt F)),
    binary main_v218 main_v245 main_v246 (addi : (⟨S850000, .i32⟩ : BufTy).Contents (Elt F) → (⟨S850000, .i32⟩ : BufTy).Contents (Elt F) → (⟨S850000, .i32⟩ : BufTy).Contents (Elt F)),
    ternary main_v244 main_v246 main_v218 main_v247 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v247 main_v248 (broadcastInDim S850000x1 ![0] bcast_S850000_S850000x1_0 : (⟨S850000, .i32⟩ : BufTy).Contents (Elt F) → (⟨S850000x1, .i32⟩ : BufTy).Contents (Elt F)),
    binary main_v216 main_v248 main_v249 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v242 main_v250 (broadcastInDim S850000x1 ![0] bcast_S850000_S850000x1_0 : (⟨S850000, .f32⟩ : BufTy).Contents (Elt F) → (⟨S850000x1, .f32⟩ : BufTy).Contents (Elt F)),
    unary main_v250 main_v251 (broadcastInDim S850000x64 ![0, 1] bcast_S850000x1_S850000x64_0_1 : (⟨S850000x1, .f32⟩ : BufTy).Contents (Elt F) → (⟨S850000x64, .f32⟩ : BufTy).Contents (Elt F)),
    binary main_v249 main_v251 main_v252 (mulf : (⟨S850000x64, .f32⟩ : BufTy).Contents (Elt F) → (⟨S850000x64, .f32⟩ : BufTy).Contents (Elt F) → (⟨S850000x64, .f32⟩ : BufTy).Contents (Elt F)),
    nullary main_cst_62 (constant S_ .f32 0x00000000#32),
    unary main_cst_62 main_v253 (broadcastInDim S50000x64 ![] bcast_S_S50000x64 : (⟨S_, .f32⟩ : BufTy).Contents (Elt F) → (⟨S50000x64, .f32⟩ : BufTy).Contents (Elt F)),
    unary main_v219 main_v254 (broadcastInDim S850000x1 ![0] bcast_S850000_S850000x1_0 : (⟨S850000, .i32⟩ : BufTy).Contents (Elt F) → (⟨S850000x1, .i32⟩ : BufTy).Contents (Elt F)),
    ternary main_v253 main_v254 main_v252 main_v255 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg7 main_v256 (broadcastInDim S1x64 ![1] bcast_S64_S1x64_1 : (⟨S64, .f32⟩ : BufTy).Contents (Elt F) → (⟨S1x64, .f32⟩ : BufTy).Contents (Elt F)),
    unary main_v256 main_v257 (broadcastInDim S50000x64 ![0, 1] bcast_S1x64_S50000x64_0_1 : (⟨S1x64, .f32⟩ : BufTy).Contents (Elt F) → (⟨S50000x64, .f32⟩ : BufTy).Contents (Elt F)),
    binary main_v255 main_v257 main_v258 (addf : (⟨S50000x64, .f32⟩ : BufTy).Contents (Elt F) → (⟨S50000x64, .f32⟩ : BufTy).Contents (Elt F) → (⟨S50000x64, .f32⟩ : BufTy).Contents (Elt F)) ]

variable (U : Valuation τ sig (Elt F)) (x0 : (⟨S50000x512, .f32⟩ : BufTy).Contents (Elt F)) (x1 : (⟨S2x800000, .i32⟩ : BufTy).Contents (Elt F)) (x2 : (⟨S512x256, .f32⟩ : BufTy).Contents (Elt F)) (x3 : (⟨S256, .f32⟩ : BufTy).Contents (Elt F)) (x4 : (⟨S512x256, .f32⟩ : BufTy).Contents (Elt F)) (x5 : (⟨S256, .f32⟩ : BufTy).Contents (Elt F)) (x6 : (⟨S512x64, .f32⟩ : BufTy).Contents (Elt F)) (x7 : (⟨S64, .f32⟩ : BufTy).Contents (Elt F)) (x8 : (⟨S512x256, .f32⟩ : BufTy).Contents (Elt F)) (x9 : (⟨S768x1, .f32⟩ : BufTy).Contents (Elt F))

set_option maxHeartbeats 1000000 in
/-- The buffer main_v258 after this stretch is the reference's stage of that name, given the stretch's operands at theirs. -/
theorem at_v258
    (h_arg7 : U (Proc.devRef .tc main_arg7) = x7)
    (h_v242 : U (Proc.devRef .tc main_v242) = Cert.ReferenceIdeal.ReadP.val_main_v242 (F := F) x1)
    (h_v218 : U (Proc.devRef .tc main_v218) = Cert.ReferenceIdeal.ReadP.val_main_v218 (F := F) x1)
    (h_v216 : U (Proc.devRef .tc main_v216) = Cert.ReferenceIdeal.ReadP.val_main_v216 (F := F) x0 x1 x2 x3 x4 x5 x6 x8 x9)
    (h_v219 : U (Proc.devRef .tc main_v219) = Cert.ReferenceIdeal.ReadP.val_main_v219 (F := F) x1) :
    after (chunk (F := F)) U (Proc.devRef .tc main_v258) = Cert.ReferenceIdeal.ReadP.val_main_v258 (F := F) x0 x1 x2 x3 x4 x5 x6 x7 x8 x9 := by
  dsimp only [chunk]
  try simp only [catEdges_fold, catPair_fold, catTriple_fold]
  after_results_simp
  try simp only [Matrix.cons_val_zero, Matrix.cons_val_one, Matrix.cons_val_two, Matrix.head_cons, Matrix.tail_cons, Matrix.cons_val_succ, Matrix.cons_val_fin_one]
  try after_results_simp
  after_rest_r8
  try simp only [Matrix.cons_val_zero, Matrix.cons_val_one, Matrix.cons_val_two, Matrix.head_cons, Matrix.tail_cons, Matrix.cons_val_succ, Matrix.cons_val_fin_one]
  try after_results_simp
  after_rest_r8
  try simp only [id]
  try simp only [catEdges, catPair, catTriple]
  try rw [h_arg7]
  try rw [h_v242]
  try rw [h_v218]
  try rw [h_v216]
  try rw [h_v219]
  rfl

end Cert.ReferenceIdeal.RefChunk8

end
-- ==== Proof.RefRun.lean ====
/-
  The reference's run, read against its stages.

  The reference is a straight line of 344 host operations, so every weakly fair execution terminates with each buffer at
  the fold of the operations' results over the launch contents. No operation writes an argument array, so the
  arguments end as launched. The line is cut into eight stretches; the fold over the whole line is the folds over the
  stretches one after the other; each stretch leaves the buffers it hands on at the reference's stages of their names
  (the modules of the stretches), and a buffer a stretch does not write passes through it. So the result buffer ends
  at the last stage of the arguments.
-/
import proofs.«106194_j24283745091829_2_alg».proof.Proof.RefOpsP
import proofs.«106194_j24283745091829_2_alg».proof.Proof.RefValP
import proofs.«106194_j24283745091829_2_alg».proof.Proof.RefChunk1
import proofs.«106194_j24283745091829_2_alg».proof.Proof.RefChunk2
import proofs.«106194_j24283745091829_2_alg».proof.Proof.RefChunk3
import proofs.«106194_j24283745091829_2_alg».proof.Proof.RefChunk4
import proofs.«106194_j24283745091829_2_alg».proof.Proof.RefChunk5
import proofs.«106194_j24283745091829_2_alg».proof.Proof.RefChunk6
import proofs.«106194_j24283745091829_2_alg».proof.Proof.RefChunk7
import proofs.«106194_j24283745091829_2_alg».proof.Proof.RefChunk8

set_option maxRecDepth 16384

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## The line as its stretches -/

set_option maxHeartbeats 2000000 in
/-- The reference's operations are the eight stretches one after the other. -/
theorem ops_split : (ops (F := F)) = RefChunk1.chunk ++ (RefChunk2.chunk ++ (RefChunk3.chunk ++ (RefChunk4.chunk ++ (RefChunk5.chunk ++ (RefChunk6.chunk ++ (RefChunk7.chunk ++ (RefChunk8.chunk))))))) := rfl

/-- The fold over two lines one after the other is the second's fold over the first's. -/
theorem after_append (A B : List (HloOp τ sig (Elt F))) (V : Valuation τ sig (Elt F)) :
    after (A ++ B) V = after B (after A V) := by
  induction A generalizing V with
  | nil => rfl
  | cons op A ih => simp only [List.cons_append, after_cons, ih]

/-- The buffer contents after the first 1 stretch. -/
def U1 (V : Valuation τ sig (Elt F)) : Valuation τ sig (Elt F) := after (RefChunk1.chunk (F := F)) V
/-- The buffer contents after the first 2 stretches. -/
def U2 (V : Valuation τ sig (Elt F)) : Valuation τ sig (Elt F) := after (RefChunk2.chunk (F := F)) (U1 V)
/-- The buffer contents after the first 3 stretches. -/
def U3 (V : Valuation τ sig (Elt F)) : Valuation τ sig (Elt F) := after (RefChunk3.chunk (F := F)) (U2 V)
/-- The buffer contents after the first 4 stretches. -/
def U4 (V : Valuation τ sig (Elt F)) : Valuation τ sig (Elt F) := after (RefChunk4.chunk (F := F)) (U3 V)
/-- The buffer contents after the first 5 stretches. -/
def U5 (V : Valuation τ sig (Elt F)) : Valuation τ sig (Elt F) := after (RefChunk5.chunk (F := F)) (U4 V)
/-- The buffer contents after the first 6 stretches. -/
def U6 (V : Valuation τ sig (Elt F)) : Valuation τ sig (Elt F) := after (RefChunk6.chunk (F := F)) (U5 V)
/-- The buffer contents after the first 7 stretches. -/
def U7 (V : Valuation τ sig (Elt F)) : Valuation τ sig (Elt F) := after (RefChunk7.chunk (F := F)) (U6 V)
/-- The buffer contents after the first 8 stretches. -/
def U8 (V : Valuation τ sig (Elt F)) : Valuation τ sig (Elt F) := after (RefChunk8.chunk (F := F)) (U7 V)

theorem after_ops (V : Valuation τ sig (Elt F)) : after (ops (F := F)) V = U8 V := by
  rw [ops_split]
  simp only [after_append]
  rfl

/-! ## The buffers each stretch hands on -/

/-! ### After stretch 1 -/

theorem arg7_at1 (V : Valuation τ sig (Elt F)) : (U1 V) (Proc.devRef .tc main_arg7) = V (Proc.devRef .tc main_arg7) :=
  (show U1 V (Proc.devRef .tc main_arg7) = V (Proc.devRef .tc main_arg7) from
    (after_of_forall_not_mem (b := Proc.devRef .tc main_arg7) _ _ (List.forall_iff_forall_mem.mp (by
      simp only [RefChunk1.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (rfl)

theorem arg6_at1 (V : Valuation τ sig (Elt F)) : (U1 V) (Proc.devRef .tc main_arg6) = V (Proc.devRef .tc main_arg6) :=
  (show U1 V (Proc.devRef .tc main_arg6) = V (Proc.devRef .tc main_arg6) from
    (after_of_forall_not_mem (b := Proc.devRef .tc main_arg6) _ _ (List.forall_iff_forall_mem.mp (by
      simp only [RefChunk1.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (rfl)

theorem arg9_at1 (V : Valuation τ sig (Elt F)) : (U1 V) (Proc.devRef .tc main_arg9) = V (Proc.devRef .tc main_arg9) :=
  (show U1 V (Proc.devRef .tc main_arg9) = V (Proc.devRef .tc main_arg9) from
    (after_of_forall_not_mem (b := Proc.devRef .tc main_arg9) _ _ (List.forall_iff_forall_mem.mp (by
      simp only [RefChunk1.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (rfl)

theorem arg5_at1 (V : Valuation τ sig (Elt F)) : (U1 V) (Proc.devRef .tc main_arg5) = V (Proc.devRef .tc main_arg5) :=
  (show U1 V (Proc.devRef .tc main_arg5) = V (Proc.devRef .tc main_arg5) from
    (after_of_forall_not_mem (b := Proc.devRef .tc main_arg5) _ _ (List.forall_iff_forall_mem.mp (by
      simp only [RefChunk1.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (rfl)

theorem arg4_at1 (V : Valuation τ sig (Elt F)) : (U1 V) (Proc.devRef .tc main_arg4) = V (Proc.devRef .tc main_arg4) :=
  (show U1 V (Proc.devRef .tc main_arg4) = V (Proc.devRef .tc main_arg4) from
    (after_of_forall_not_mem (b := Proc.devRef .tc main_arg4) _ _ (List.forall_iff_forall_mem.mp (by
      simp only [RefChunk1.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (rfl)

theorem arg3_at1 (V : Valuation τ sig (Elt F)) : (U1 V) (Proc.devRef .tc main_arg3) = V (Proc.devRef .tc main_arg3) :=
  (show U1 V (Proc.devRef .tc main_arg3) = V (Proc.devRef .tc main_arg3) from
    (after_of_forall_not_mem (b := Proc.devRef .tc main_arg3) _ _ (List.forall_iff_forall_mem.mp (by
      simp only [RefChunk1.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (rfl)

theorem v3_at1 (V : Valuation τ sig (Elt F)) : (U1 V) (Proc.devRef .tc main_v3) = Cert.ReferenceIdeal.ReadP.val_main_v3 (F := F) (V (Proc.devRef .tc main_arg1)) :=
  RefChunk1.at_v3 V (V (Proc.devRef .tc main_arg1)) rfl

theorem v1_at1 (V : Valuation τ sig (Elt F)) : (U1 V) (Proc.devRef .tc main_v1) = Cert.ReferenceIdeal.ReadP.val_main_v1 (F := F) (V (Proc.devRef .tc main_arg1)) :=
  RefChunk1.at_v1 V (V (Proc.devRef .tc main_arg1)) rfl

theorem v5_at1 (V : Valuation τ sig (Elt F)) : (U1 V) (Proc.devRef .tc main_v5) = Cert.ReferenceIdeal.ReadP.val_main_v5 (F := F) (V (Proc.devRef .tc main_arg0)) (V (Proc.devRef .tc main_arg8)) :=
  RefChunk1.at_v5 V (V (Proc.devRef .tc main_arg0)) (V (Proc.devRef .tc main_arg8)) rfl rfl

theorem v32_at1 (V : Valuation τ sig (Elt F)) : (U1 V) (Proc.devRef .tc main_v32) = Cert.ReferenceIdeal.ReadP.val_main_v32 (F := F) (V (Proc.devRef .tc main_arg1)) :=
  RefChunk1.at_v32 V (V (Proc.devRef .tc main_arg1)) rfl

theorem v8_at1 (V : Valuation τ sig (Elt F)) : (U1 V) (Proc.devRef .tc main_v8) = Cert.ReferenceIdeal.ReadP.val_main_v8 (F := F) (V (Proc.devRef .tc main_arg1)) :=
  RefChunk1.at_v8 V (V (Proc.devRef .tc main_arg1)) rfl

theorem v6_at1 (V : Valuation τ sig (Elt F)) : (U1 V) (Proc.devRef .tc main_v6) = Cert.ReferenceIdeal.ReadP.val_main_v6 (F := F) (V (Proc.devRef .tc main_arg0)) (V (Proc.devRef .tc main_arg2)) :=
  RefChunk1.at_v6 V (V (Proc.devRef .tc main_arg0)) (V (Proc.devRef .tc main_arg2)) rfl rfl

theorem v9_at1 (V : Valuation τ sig (Elt F)) : (U1 V) (Proc.devRef .tc main_v9) = Cert.ReferenceIdeal.ReadP.val_main_v9 (F := F) (V (Proc.devRef .tc main_arg1)) :=
  RefChunk1.at_v9 V (V (Proc.devRef .tc main_arg1)) rfl

/-! ### After stretch 2 -/

theorem arg7_at2 (V : Valuation τ sig (Elt F)) : (U2 V) (Proc.devRef .tc main_arg7) = V (Proc.devRef .tc main_arg7) :=
  (show U2 V (Proc.devRef .tc main_arg7) = (U1 V) (Proc.devRef .tc main_arg7) from
    (after_of_forall_not_mem (b := Proc.devRef .tc main_arg7) _ _ (List.forall_iff_forall_mem.mp (by
      simp only [RefChunk2.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg7_at1 V)

theorem v3_at2 (V : Valuation τ sig (Elt F)) : (U2 V) (Proc.devRef .tc main_v3) = Cert.ReferenceIdeal.ReadP.val_main_v3 (F := F) (V (Proc.devRef .tc main_arg1)) :=
  (show U2 V (Proc.devRef .tc main_v3) = (U1 V) (Proc.devRef .tc main_v3) from
    (after_of_forall_not_mem (b := Proc.devRef .tc main_v3) _ _ (List.forall_iff_forall_mem.mp (by
      simp only [RefChunk2.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v3_at1 V)

theorem v1_at2 (V : Valuation τ sig (Elt F)) : (U2 V) (Proc.devRef .tc main_v1) = Cert.ReferenceIdeal.ReadP.val_main_v1 (F := F) (V (Proc.devRef .tc main_arg1)) :=
  (show U2 V (Proc.devRef .tc main_v1) = (U1 V) (Proc.devRef .tc main_v1) from
    (after_of_forall_not_mem (b := Proc.devRef .tc main_v1) _ _ (List.forall_iff_forall_mem.mp (by
      simp only [RefChunk2.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v1_at1 V)

theorem arg6_at2 (V : Valuation τ sig (Elt F)) : (U2 V) (Proc.devRef .tc main_arg6) = V (Proc.devRef .tc main_arg6) :=
  (show U2 V (Proc.devRef .tc main_arg6) = (U1 V) (Proc.devRef .tc main_arg6) from
    (after_of_forall_not_mem (b := Proc.devRef .tc main_arg6) _ _ (List.forall_iff_forall_mem.mp (by
      simp only [RefChunk2.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg6_at1 V)

theorem v5_at2 (V : Valuation τ sig (Elt F)) : (U2 V) (Proc.devRef .tc main_v5) = Cert.ReferenceIdeal.ReadP.val_main_v5 (F := F) (V (Proc.devRef .tc main_arg0)) (V (Proc.devRef .tc main_arg8)) :=
  (show U2 V (Proc.devRef .tc main_v5) = (U1 V) (Proc.devRef .tc main_v5) from
    (after_of_forall_not_mem (b := Proc.devRef .tc main_v5) _ _ (List.forall_iff_forall_mem.mp (by
      simp only [RefChunk2.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v5_at1 V)

theorem arg9_at2 (V : Valuation τ sig (Elt F)) : (U2 V) (Proc.devRef .tc main_arg9) = V (Proc.devRef .tc main_arg9) :=
  (show U2 V (Proc.devRef .tc main_arg9) = (U1 V) (Proc.devRef .tc main_arg9) from
    (after_of_forall_not_mem (b := Proc.devRef .tc main_arg9) _ _ (List.forall_iff_forall_mem.mp (by
      simp only [RefChunk2.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg9_at1 V)

theorem arg5_at2 (V : Valuation τ sig (Elt F)) : (U2 V) (Proc.devRef .tc main_arg5) = V (Proc.devRef .tc main_arg5) :=
  (show U2 V (Proc.devRef .tc main_arg5) = (U1 V) (Proc.devRef .tc main_arg5) from
    (after_of_forall_not_mem (b := Proc.devRef .tc main_arg5) _ _ (List.forall_iff_forall_mem.mp (by
      simp only [RefChunk2.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg5_at1 V)

theorem arg4_at2 (V : Valuation τ sig (Elt F)) : (U2 V) (Proc.devRef .tc main_arg4) = V (Proc.devRef .tc main_arg4) :=
  (show U2 V (Proc.devRef .tc main_arg4) = (U1 V) (Proc.devRef .tc main_arg4) from
    (after_of_forall_not_mem (b := Proc.devRef .tc main_arg4) _ _ (List.forall_iff_forall_mem.mp (by
      simp only [RefChunk2.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg4_at1 V)

theorem v49_at2 (V : Valuation τ sig (Elt F)) : (U2 V) (Proc.devRef .tc main_v49) = Cert.ReferenceIdeal.ReadP.val_main_v49 (F := F) (V (Proc.devRef .tc main_arg0)) (V (Proc.devRef .tc main_arg1)) (V (Proc.devRef .tc main_arg2)) (V (Proc.devRef .tc main_arg3)) :=
  RefChunk2.at_v49 (U1 V) (V (Proc.devRef .tc main_arg0)) (V (Proc.devRef .tc main_arg1)) (V (Proc.devRef .tc main_arg2)) (V (Proc.devRef .tc main_arg3)) (arg3_at1 V) (v32_at1 V) (v8_at1 V) (v6_at1 V) (v9_at1 V)

theorem v89_at2 (V : Valuation τ sig (Elt F)) : (U2 V) (Proc.devRef .tc main_v89) = Cert.ReferenceIdeal.ReadP.val_main_v89 (F := F) (V (Proc.devRef .tc main_arg0)) (V (Proc.devRef .tc main_arg1)) (V (Proc.devRef .tc main_arg2)) (V (Proc.devRef .tc main_arg3)) :=
  RefChunk2.at_v89 (U1 V) (V (Proc.devRef .tc main_arg0)) (V (Proc.devRef .tc main_arg1)) (V (Proc.devRef .tc main_arg2)) (V (Proc.devRef .tc main_arg3)) (v1_at1 V) (v3_at1 V) (arg3_at1 V) (v32_at1 V) (v8_at1 V) (v6_at1 V) (v9_at1 V)

theorem v68_at2 (V : Valuation τ sig (Elt F)) : (U2 V) (Proc.devRef .tc main_v68) = Cert.ReferenceIdeal.ReadP.val_main_v68 (F := F) (V (Proc.devRef .tc main_arg0)) (V (Proc.devRef .tc main_arg1)) (V (Proc.devRef .tc main_arg2)) (V (Proc.devRef .tc main_arg3)) :=
  RefChunk2.at_v68 (U1 V) (V (Proc.devRef .tc main_arg0)) (V (Proc.devRef .tc main_arg1)) (V (Proc.devRef .tc main_arg2)) (V (Proc.devRef .tc main_arg3)) (v1_at1 V) (v3_at1 V) (arg3_at1 V) (v32_at1 V) (v8_at1 V) (v6_at1 V) (v9_at1 V)

/-! ### After stretch 3 -/

theorem arg7_at3 (V : Valuation τ sig (Elt F)) : (U3 V) (Proc.devRef .tc main_arg7) = V (Proc.devRef .tc main_arg7) :=
  (show U3 V (Proc.devRef .tc main_arg7) = (U2 V) (Proc.devRef .tc main_arg7) from
    (after_of_forall_not_mem (b := Proc.devRef .tc main_arg7) _ _ (List.forall_iff_forall_mem.mp (by
      simp only [RefChunk3.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg7_at2 V)

theorem v3_at3 (V : Valuation τ sig (Elt F)) : (U3 V) (Proc.devRef .tc main_v3) = Cert.ReferenceIdeal.ReadP.val_main_v3 (F := F) (V (Proc.devRef .tc main_arg1)) :=
  (show U3 V (Proc.devRef .tc main_v3) = (U2 V) (Proc.devRef .tc main_v3) from
    (after_of_forall_not_mem (b := Proc.devRef .tc main_v3) _ _ (List.forall_iff_forall_mem.mp (by
      simp only [RefChunk3.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v3_at2 V)

theorem v1_at3 (V : Valuation τ sig (Elt F)) : (U3 V) (Proc.devRef .tc main_v1) = Cert.ReferenceIdeal.ReadP.val_main_v1 (F := F) (V (Proc.devRef .tc main_arg1)) :=
  (show U3 V (Proc.devRef .tc main_v1) = (U2 V) (Proc.devRef .tc main_v1) from
    (after_of_forall_not_mem (b := Proc.devRef .tc main_v1) _ _ (List.forall_iff_forall_mem.mp (by
      simp only [RefChunk3.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v1_at2 V)

theorem arg6_at3 (V : Valuation τ sig (Elt F)) : (U3 V) (Proc.devRef .tc main_arg6) = V (Proc.devRef .tc main_arg6) :=
  (show U3 V (Proc.devRef .tc main_arg6) = (U2 V) (Proc.devRef .tc main_arg6) from
    (after_of_forall_not_mem (b := Proc.devRef .tc main_arg6) _ _ (List.forall_iff_forall_mem.mp (by
      simp only [RefChunk3.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg6_at2 V)

theorem v5_at3 (V : Valuation τ sig (Elt F)) : (U3 V) (Proc.devRef .tc main_v5) = Cert.ReferenceIdeal.ReadP.val_main_v5 (F := F) (V (Proc.devRef .tc main_arg0)) (V (Proc.devRef .tc main_arg8)) :=
  (show U3 V (Proc.devRef .tc main_v5) = (U2 V) (Proc.devRef .tc main_v5) from
    (after_of_forall_not_mem (b := Proc.devRef .tc main_v5) _ _ (List.forall_iff_forall_mem.mp (by
      simp only [RefChunk3.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v5_at2 V)

theorem arg9_at3 (V : Valuation τ sig (Elt F)) : (U3 V) (Proc.devRef .tc main_arg9) = V (Proc.devRef .tc main_arg9) :=
  (show U3 V (Proc.devRef .tc main_arg9) = (U2 V) (Proc.devRef .tc main_arg9) from
    (after_of_forall_not_mem (b := Proc.devRef .tc main_arg9) _ _ (List.forall_iff_forall_mem.mp (by
      simp only [RefChunk3.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg9_at2 V)

theorem arg5_at3 (V : Valuation τ sig (Elt F)) : (U3 V) (Proc.devRef .tc main_arg5) = V (Proc.devRef .tc main_arg5) :=
  (show U3 V (Proc.devRef .tc main_arg5) = (U2 V) (Proc.devRef .tc main_arg5) from
    (after_of_forall_not_mem (b := Proc.devRef .tc main_arg5) _ _ (List.forall_iff_forall_mem.mp (by
      simp only [RefChunk3.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg5_at2 V)

theorem arg4_at3 (V : Valuation τ sig (Elt F)) : (U3 V) (Proc.devRef .tc main_arg4) = V (Proc.devRef .tc main_arg4) :=
  (show U3 V (Proc.devRef .tc main_arg4) = (U2 V) (Proc.devRef .tc main_arg4) from
    (after_of_forall_not_mem (b := Proc.devRef .tc main_arg4) _ _ (List.forall_iff_forall_mem.mp (by
      simp only [RefChunk3.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg4_at2 V)

theorem v110_at3 (V : Valuation τ sig (Elt F)) : (U3 V) (Proc.devRef .tc main_v110) = Cert.ReferenceIdeal.ReadP.val_main_v110 (F := F) (V (Proc.devRef .tc main_arg0)) (V (Proc.devRef .tc main_arg1)) (V (Proc.devRef .tc main_arg2)) (V (Proc.devRef .tc main_arg3)) (V (Proc.devRef .tc main_arg8)) (V (Proc.devRef .tc main_arg9)) :=
  RefChunk3.at_v110 (U2 V) (V (Proc.devRef .tc main_arg0)) (V (Proc.devRef .tc main_arg1)) (V (Proc.devRef .tc main_arg2)) (V (Proc.devRef .tc main_arg3)) (V (Proc.devRef .tc main_arg8)) (V (Proc.devRef .tc main_arg9)) (v5_at2 V) (arg9_at2 V) (v49_at2 V) (v89_at2 V) (v68_at2 V)

/-! ### After stretch 4 -/

theorem arg7_at4 (V : Valuation τ sig (Elt F)) : (U4 V) (Proc.devRef .tc main_arg7) = V (Proc.devRef .tc main_arg7) :=
  (show U4 V (Proc.devRef .tc main_arg7) = (U3 V) (Proc.devRef .tc main_arg7) from
    (after_of_forall_not_mem (b := Proc.devRef .tc main_arg7) _ _ (List.forall_iff_forall_mem.mp (by
      simp only [RefChunk4.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg7_at3 V)

theorem v3_at4 (V : Valuation τ sig (Elt F)) : (U4 V) (Proc.devRef .tc main_v3) = Cert.ReferenceIdeal.ReadP.val_main_v3 (F := F) (V (Proc.devRef .tc main_arg1)) :=
  (show U4 V (Proc.devRef .tc main_v3) = (U3 V) (Proc.devRef .tc main_v3) from
    (after_of_forall_not_mem (b := Proc.devRef .tc main_v3) _ _ (List.forall_iff_forall_mem.mp (by
      simp only [RefChunk4.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v3_at3 V)

theorem v1_at4 (V : Valuation τ sig (Elt F)) : (U4 V) (Proc.devRef .tc main_v1) = Cert.ReferenceIdeal.ReadP.val_main_v1 (F := F) (V (Proc.devRef .tc main_arg1)) :=
  (show U4 V (Proc.devRef .tc main_v1) = (U3 V) (Proc.devRef .tc main_v1) from
    (after_of_forall_not_mem (b := Proc.devRef .tc main_v1) _ _ (List.forall_iff_forall_mem.mp (by
      simp only [RefChunk4.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v1_at3 V)

theorem arg6_at4 (V : Valuation τ sig (Elt F)) : (U4 V) (Proc.devRef .tc main_arg6) = V (Proc.devRef .tc main_arg6) :=
  (show U4 V (Proc.devRef .tc main_arg6) = (U3 V) (Proc.devRef .tc main_arg6) from
    (after_of_forall_not_mem (b := Proc.devRef .tc main_arg6) _ _ (List.forall_iff_forall_mem.mp (by
      simp only [RefChunk4.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg6_at3 V)

theorem v5_at4 (V : Valuation τ sig (Elt F)) : (U4 V) (Proc.devRef .tc main_v5) = Cert.ReferenceIdeal.ReadP.val_main_v5 (F := F) (V (Proc.devRef .tc main_arg0)) (V (Proc.devRef .tc main_arg8)) :=
  (show U4 V (Proc.devRef .tc main_v5) = (U3 V) (Proc.devRef .tc main_v5) from
    (after_of_forall_not_mem (b := Proc.devRef .tc main_v5) _ _ (List.forall_iff_forall_mem.mp (by
      simp only [RefChunk4.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v5_at3 V)

theorem arg9_at4 (V : Valuation τ sig (Elt F)) : (U4 V) (Proc.devRef .tc main_arg9) = V (Proc.devRef .tc main_arg9) :=
  (show U4 V (Proc.devRef .tc main_arg9) = (U3 V) (Proc.devRef .tc main_arg9) from
    (after_of_forall_not_mem (b := Proc.devRef .tc main_arg9) _ _ (List.forall_iff_forall_mem.mp (by
      simp only [RefChunk4.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg9_at3 V)

theorem arg5_at4 (V : Valuation τ sig (Elt F)) : (U4 V) (Proc.devRef .tc main_arg5) = V (Proc.devRef .tc main_arg5) :=
  (show U4 V (Proc.devRef .tc main_arg5) = (U3 V) (Proc.devRef .tc main_arg5) from
    (after_of_forall_not_mem (b := Proc.devRef .tc main_arg5) _ _ (List.forall_iff_forall_mem.mp (by
      simp only [RefChunk4.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg5_at3 V)

theorem v137_at4 (V : Valuation τ sig (Elt F)) : (U4 V) (Proc.devRef .tc main_v137) = Cert.ReferenceIdeal.ReadP.val_main_v137 (F := F) (V (Proc.devRef .tc main_arg1)) :=
  RefChunk4.at_v137 (U3 V) (V (Proc.devRef .tc main_arg1)) (v3_at3 V) (v1_at3 V)

theorem v113_at4 (V : Valuation τ sig (Elt F)) : (U4 V) (Proc.devRef .tc main_v113) = Cert.ReferenceIdeal.ReadP.val_main_v113 (F := F) (V (Proc.devRef .tc main_arg1)) :=
  RefChunk4.at_v113 (U3 V) (V (Proc.devRef .tc main_arg1)) (v1_at3 V)

theorem v111_at4 (V : Valuation τ sig (Elt F)) : (U4 V) (Proc.devRef .tc main_v111) = Cert.ReferenceIdeal.ReadP.val_main_v111 (F := F) (V (Proc.devRef .tc main_arg0)) (V (Proc.devRef .tc main_arg1)) (V (Proc.devRef .tc main_arg2)) (V (Proc.devRef .tc main_arg3)) (V (Proc.devRef .tc main_arg4)) (V (Proc.devRef .tc main_arg8)) (V (Proc.devRef .tc main_arg9)) :=
  RefChunk4.at_v111 (U3 V) (V (Proc.devRef .tc main_arg0)) (V (Proc.devRef .tc main_arg1)) (V (Proc.devRef .tc main_arg2)) (V (Proc.devRef .tc main_arg3)) (V (Proc.devRef .tc main_arg4)) (V (Proc.devRef .tc main_arg8)) (V (Proc.devRef .tc main_arg9)) (arg4_at3 V) (v110_at3 V)

theorem v114_at4 (V : Valuation τ sig (Elt F)) : (U4 V) (Proc.devRef .tc main_v114) = Cert.ReferenceIdeal.ReadP.val_main_v114 (F := F) (V (Proc.devRef .tc main_arg1)) :=
  RefChunk4.at_v114 (U3 V) (V (Proc.devRef .tc main_arg1)) (v3_at3 V)

/-! ### After stretch 5 -/

theorem arg7_at5 (V : Valuation τ sig (Elt F)) : (U5 V) (Proc.devRef .tc main_arg7) = V (Proc.devRef .tc main_arg7) :=
  (show U5 V (Proc.devRef .tc main_arg7) = (U4 V) (Proc.devRef .tc main_arg7) from
    (after_of_forall_not_mem (b := Proc.devRef .tc main_arg7) _ _ (List.forall_iff_forall_mem.mp (by
      simp only [RefChunk5.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg7_at4 V)

theorem v3_at5 (V : Valuation τ sig (Elt F)) : (U5 V) (Proc.devRef .tc main_v3) = Cert.ReferenceIdeal.ReadP.val_main_v3 (F := F) (V (Proc.devRef .tc main_arg1)) :=
  (show U5 V (Proc.devRef .tc main_v3) = (U4 V) (Proc.devRef .tc main_v3) from
    (after_of_forall_not_mem (b := Proc.devRef .tc main_v3) _ _ (List.forall_iff_forall_mem.mp (by
      simp only [RefChunk5.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v3_at4 V)

theorem v1_at5 (V : Valuation τ sig (Elt F)) : (U5 V) (Proc.devRef .tc main_v1) = Cert.ReferenceIdeal.ReadP.val_main_v1 (F := F) (V (Proc.devRef .tc main_arg1)) :=
  (show U5 V (Proc.devRef .tc main_v1) = (U4 V) (Proc.devRef .tc main_v1) from
    (after_of_forall_not_mem (b := Proc.devRef .tc main_v1) _ _ (List.forall_iff_forall_mem.mp (by
      simp only [RefChunk5.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v1_at4 V)

theorem arg6_at5 (V : Valuation τ sig (Elt F)) : (U5 V) (Proc.devRef .tc main_arg6) = V (Proc.devRef .tc main_arg6) :=
  (show U5 V (Proc.devRef .tc main_arg6) = (U4 V) (Proc.devRef .tc main_arg6) from
    (after_of_forall_not_mem (b := Proc.devRef .tc main_arg6) _ _ (List.forall_iff_forall_mem.mp (by
      simp only [RefChunk5.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg6_at4 V)

theorem v5_at5 (V : Valuation τ sig (Elt F)) : (U5 V) (Proc.devRef .tc main_v5) = Cert.ReferenceIdeal.ReadP.val_main_v5 (F := F) (V (Proc.devRef .tc main_arg0)) (V (Proc.devRef .tc main_arg8)) :=
  (show U5 V (Proc.devRef .tc main_v5) = (U4 V) (Proc.devRef .tc main_v5) from
    (after_of_forall_not_mem (b := Proc.devRef .tc main_v5) _ _ (List.forall_iff_forall_mem.mp (by
      simp only [RefChunk5.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v5_at4 V)

theorem arg9_at5 (V : Valuation τ sig (Elt F)) : (U5 V) (Proc.devRef .tc main_arg9) = V (Proc.devRef .tc main_arg9) :=
  (show U5 V (Proc.devRef .tc main_arg9) = (U4 V) (Proc.devRef .tc main_arg9) from
    (after_of_forall_not_mem (b := Proc.devRef .tc main_arg9) _ _ (List.forall_iff_forall_mem.mp (by
      simp only [RefChunk5.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg9_at4 V)

theorem v154_at5 (V : Valuation τ sig (Elt F)) : (U5 V) (Proc.devRef .tc main_v154) = Cert.ReferenceIdeal.ReadP.val_main_v154 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg8)) (V (Proc.devRef .tc main_arg9)) :=
  RefChunk5.at_v154 (U4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg8)) (V (Proc.devRef .tc main_arg9)) (arg5_at4 V) (v137_at4 V) (v113_at4 V) (v111_at4 V) (v114_at4 V)

theorem v194_at5 (V : Valuation τ sig (Elt F)) : (U5 V) (Proc.devRef .tc main_v194) = Cert.ReferenceIdeal.ReadP.val_main_v194 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg8)) (V (Proc.devRef .tc main_arg9)) :=
  RefChunk5.at_v194 (U4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg8)) (V (Proc.devRef .tc main_arg9)) (v1_at4 V) (v3_at4 V) (arg5_at4 V) (v137_at4 V) (v113_at4 V) (v111_at4 V) (v114_at4 V)

theorem v173_at5 (V : Valuation τ sig (Elt F)) : (U5 V) (Proc.devRef .tc main_v173) = Cert.ReferenceIdeal.ReadP.val_main_v173 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg8)) (V (Proc.devRef .tc main_arg9)) :=
  RefChunk5.at_v173 (U4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg8)) (V (Proc.devRef .tc main_arg9)) (v1_at4 V) (v3_at4 V) (arg5_at4 V) (v137_at4 V) (v113_at4 V) (v111_at4 V) (v114_at4 V)

/-! ### After stretch 6 -/

theorem arg7_at6 (V : Valuation τ sig (Elt F)) : (U6 V) (Proc.devRef .tc main_arg7) = V (Proc.devRef .tc main_arg7) :=
  (show U6 V (Proc.devRef .tc main_arg7) = (U5 V) (Proc.devRef .tc main_arg7) from
    (after_of_forall_not_mem (b := Proc.devRef .tc main_arg7) _ _ (List.forall_iff_forall_mem.mp (by
      simp only [RefChunk6.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg7_at5 V)

theorem v3_at6 (V : Valuation τ sig (Elt F)) : (U6 V) (Proc.devRef .tc main_v3) = Cert.ReferenceIdeal.ReadP.val_main_v3 (F := F) (V (Proc.devRef .tc main_arg1)) :=
  (show U6 V (Proc.devRef .tc main_v3) = (U5 V) (Proc.devRef .tc main_v3) from
    (after_of_forall_not_mem (b := Proc.devRef .tc main_v3) _ _ (List.forall_iff_forall_mem.mp (by
      simp only [RefChunk6.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v3_at5 V)

theorem v1_at6 (V : Valuation τ sig (Elt F)) : (U6 V) (Proc.devRef .tc main_v1) = Cert.ReferenceIdeal.ReadP.val_main_v1 (F := F) (V (Proc.devRef .tc main_arg1)) :=
  (show U6 V (Proc.devRef .tc main_v1) = (U5 V) (Proc.devRef .tc main_v1) from
    (after_of_forall_not_mem (b := Proc.devRef .tc main_v1) _ _ (List.forall_iff_forall_mem.mp (by
      simp only [RefChunk6.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (v1_at5 V)

theorem arg6_at6 (V : Valuation τ sig (Elt F)) : (U6 V) (Proc.devRef .tc main_arg6) = V (Proc.devRef .tc main_arg6) :=
  (show U6 V (Proc.devRef .tc main_arg6) = (U5 V) (Proc.devRef .tc main_arg6) from
    (after_of_forall_not_mem (b := Proc.devRef .tc main_arg6) _ _ (List.forall_iff_forall_mem.mp (by
      simp only [RefChunk6.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg6_at5 V)

theorem v215_at6 (V : Valuation τ sig (Elt F)) : (U6 V) (Proc.devRef .tc main_v215) = Cert.ReferenceIdeal.ReadP.val_main_v215 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg8)) (V (Proc.devRef .tc main_arg9)) :=
  RefChunk6.at_v215 (U5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg8)) (V (Proc.devRef .tc main_arg9)) (v5_at5 V) (arg9_at5 V) (v154_at5 V) (v194_at5 V) (v173_at5 V)

/-! ### After stretch 7 -/

theorem arg7_at7 (V : Valuation τ sig (Elt F)) : (U7 V) (Proc.devRef .tc main_arg7) = V (Proc.devRef .tc main_arg7) :=
  (show U7 V (Proc.devRef .tc main_arg7) = (U6 V) (Proc.devRef .tc main_arg7) from
    (after_of_forall_not_mem (b := Proc.devRef .tc main_arg7) _ _ (List.forall_iff_forall_mem.mp (by
      simp only [RefChunk7.chunk, List.Forall, nullary_writes, unary_writes, binary_writes, ternary_writes, quaternary_writes,
        reshape_writes, binaryIndexed_writes, nary_writes, unaryIndexed_writes, Finset.mem_singleton]
      repeat' apply And.intro
      all_goals exact devRef_ne_of_ne (by decide))))).trans (arg7_at6 V)

theorem v242_at7 (V : Valuation τ sig (Elt F)) : (U7 V) (Proc.devRef .tc main_v242) = Cert.ReferenceIdeal.ReadP.val_main_v242 (F := F) (V (Proc.devRef .tc main_arg1)) :=
  RefChunk7.at_v242 (U6 V) (V (Proc.devRef .tc main_arg1)) (v3_at6 V) (v1_at6 V)

theorem v218_at7 (V : Valuation τ sig (Elt F)) : (U7 V) (Proc.devRef .tc main_v218) = Cert.ReferenceIdeal.ReadP.val_main_v218 (F := F) (V (Proc.devRef .tc main_arg1)) :=
  RefChunk7.at_v218 (U6 V) (V (Proc.devRef .tc main_arg1)) (v1_at6 V)

theorem v216_at7 (V : Valuation τ sig (Elt F)) : (U7 V) (Proc.devRef .tc main_v216) = Cert.ReferenceIdeal.ReadP.val_main_v216 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg8)) (V (Proc.devRef .tc main_arg9)) :=
  RefChunk7.at_v216 (U6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg8)) (V (Proc.devRef .tc main_arg9)) (arg6_at6 V) (v215_at6 V)

theorem v219_at7 (V : Valuation τ sig (Elt F)) : (U7 V) (Proc.devRef .tc main_v219) = Cert.ReferenceIdeal.ReadP.val_main_v219 (F := F) (V (Proc.devRef .tc main_arg1)) :=
  RefChunk7.at_v219 (U6 V) (V (Proc.devRef .tc main_arg1)) (v3_at6 V)

/-! ### After stretch 8 -/

theorem v258_at8 (V : Valuation τ sig (Elt F)) : (U8 V) (Proc.devRef .tc main_v258) = Cert.ReferenceIdeal.ReadP.val_main_v258 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  RefChunk8.at_v258 (U7 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (arg7_at7 V) (v242_at7 V) (v218_at7 V) (v216_at7 V) (v219_at7 V)

/-! ## The result buffer and the arguments after the operations -/

/-- The result buffer after the operations, from any contents, is the reference's last stage of the arguments' contents. -/
theorem result_eq (V : Valuation τ sig (Elt F)) :
    after (ops (F := F)) V (Proc.devRef .tc main_v258) = Cert.ReferenceIdeal.ReadP.val_main_v258 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (congrFun (after_ops V) _).trans (v258_at8 V)

/-- No operation of the reference writes the argument array main_arg0. -/
theorem kept_arg0 (V : Valuation τ sig (Elt F)) :
    after (ops (F := F)) V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, ternary_writes, quaternary_writes,
      reshape_writes, binaryIndexed_writes, nary_writes, unaryIndexed_writes, Finset.mem_singleton]
    repeat' apply And.intro
    all_goals exact devRef_ne_of_ne (by decide)))

/-- No operation of the reference writes the argument array main_arg1. -/
theorem kept_arg1 (V : Valuation τ sig (Elt F)) :
    after (ops (F := F)) V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, ternary_writes, quaternary_writes,
      reshape_writes, binaryIndexed_writes, nary_writes, unaryIndexed_writes, Finset.mem_singleton]
    repeat' apply And.intro
    all_goals exact devRef_ne_of_ne (by decide)))

/-- No operation of the reference writes the argument array main_arg2. -/
theorem kept_arg2 (V : Valuation τ sig (Elt F)) :
    after (ops (F := F)) V (Proc.devRef .tc main_arg2) = V (Proc.devRef .tc main_arg2) :=
  after_of_forall_not_mem (b := Proc.devRef .tc main_arg2) _ _ (List.forall_iff_forall_mem.mp (by
    simp only [ops, List.Forall, nullary_writes, unary_writes, binary_writes, ternary_writes, quaternary_writes,
      reshape_writes, binaryIndexed_writes, nary_writes, unaryIndexed_writes, Finset.mem_singleton]
    repeat' apply And.intro
    all_goals exact devRef_ne_of_ne (by decide)))

/-- No operation of the reference writes the argument array main_arg3. -/
theorem kept_arg3 (V : Valuation τ sig (Elt F)) :
    after (ops (F := F)) V (Proc.devRef .tc main_arg3) = V (Proc.devRef .tc main_arg3) :=
  after_of_forall_not_mem (b := Proc.devRef .tc main_arg3) _ _ (List.forall_iff_forall_mem.mp (by
    simp only [ops, List.Forall, nullary_writes, unary_writes, binary_writes, ternary_writes, quaternary_writes,
      reshape_writes, binaryIndexed_writes, nary_writes, unaryIndexed_writes, Finset.mem_singleton]
    repeat' apply And.intro
    all_goals exact devRef_ne_of_ne (by decide)))

/-- No operation of the reference writes the argument array main_arg4. -/
theorem kept_arg4 (V : Valuation τ sig (Elt F)) :
    after (ops (F := F)) V (Proc.devRef .tc main_arg4) = V (Proc.devRef .tc main_arg4) :=
  after_of_forall_not_mem (b := Proc.devRef .tc main_arg4) _ _ (List.forall_iff_forall_mem.mp (by
    simp only [ops, List.Forall, nullary_writes, unary_writes, binary_writes, ternary_writes, quaternary_writes,
      reshape_writes, binaryIndexed_writes, nary_writes, unaryIndexed_writes, Finset.mem_singleton]
    repeat' apply And.intro
    all_goals exact devRef_ne_of_ne (by decide)))

/-- No operation of the reference writes the argument array main_arg5. -/
theorem kept_arg5 (V : Valuation τ sig (Elt F)) :
    after (ops (F := F)) V (Proc.devRef .tc main_arg5) = V (Proc.devRef .tc main_arg5) :=
  after_of_forall_not_mem (b := Proc.devRef .tc main_arg5) _ _ (List.forall_iff_forall_mem.mp (by
    simp only [ops, List.Forall, nullary_writes, unary_writes, binary_writes, ternary_writes, quaternary_writes,
      reshape_writes, binaryIndexed_writes, nary_writes, unaryIndexed_writes, Finset.mem_singleton]
    repeat' apply And.intro
    all_goals exact devRef_ne_of_ne (by decide)))

/-- No operation of the reference writes the argument array main_arg6. -/
theorem kept_arg6 (V : Valuation τ sig (Elt F)) :
    after (ops (F := F)) V (Proc.devRef .tc main_arg6) = V (Proc.devRef .tc main_arg6) :=
  after_of_forall_not_mem (b := Proc.devRef .tc main_arg6) _ _ (List.forall_iff_forall_mem.mp (by
    simp only [ops, List.Forall, nullary_writes, unary_writes, binary_writes, ternary_writes, quaternary_writes,
      reshape_writes, binaryIndexed_writes, nary_writes, unaryIndexed_writes, Finset.mem_singleton]
    repeat' apply And.intro
    all_goals exact devRef_ne_of_ne (by decide)))

/-- No operation of the reference writes the argument array main_arg7. -/
theorem kept_arg7 (V : Valuation τ sig (Elt F)) :
    after (ops (F := F)) V (Proc.devRef .tc main_arg7) = V (Proc.devRef .tc main_arg7) :=
  after_of_forall_not_mem (b := Proc.devRef .tc main_arg7) _ _ (List.forall_iff_forall_mem.mp (by
    simp only [ops, List.Forall, nullary_writes, unary_writes, binary_writes, ternary_writes, quaternary_writes,
      reshape_writes, binaryIndexed_writes, nary_writes, unaryIndexed_writes, Finset.mem_singleton]
    repeat' apply And.intro
    all_goals exact devRef_ne_of_ne (by decide)))

/-- No operation of the reference writes the argument array main_arg8. -/
theorem kept_arg8 (V : Valuation τ sig (Elt F)) :
    after (ops (F := F)) V (Proc.devRef .tc main_arg8) = V (Proc.devRef .tc main_arg8) :=
  after_of_forall_not_mem (b := Proc.devRef .tc main_arg8) _ _ (List.forall_iff_forall_mem.mp (by
    simp only [ops, List.Forall, nullary_writes, unary_writes, binary_writes, ternary_writes, quaternary_writes,
      reshape_writes, binaryIndexed_writes, nary_writes, unaryIndexed_writes, Finset.mem_singleton]
    repeat' apply And.intro
    all_goals exact devRef_ne_of_ne (by decide)))

/-- No operation of the reference writes the argument array main_arg9. -/
theorem kept_arg9 (V : Valuation τ sig (Elt F)) :
    after (ops (F := F)) V (Proc.devRef .tc main_arg9) = V (Proc.devRef .tc main_arg9) :=
  after_of_forall_not_mem (b := Proc.devRef .tc main_arg9) _ _ (List.forall_iff_forall_mem.mp (by
    simp only [ops, List.Forall, nullary_writes, unary_writes, binary_writes, ternary_writes, quaternary_writes,
      reshape_writes, binaryIndexed_writes, nary_writes, unaryIndexed_writes, Finset.mem_singleton]
    repeat' apply And.intro
    all_goals exact devRef_ne_of_ne (by decide)))

/-! ## The run -/

/-- On every device, from any memory with zero counters: every weakly fair execution of the reference terminates with
    the result buffer at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v258) = Cert.ReferenceIdeal.ReadP.val_main_v258 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v258).trans (result_eq (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c))⟩)
    (run_seq scopedRefs_eq scopedSems_eq defs main (fun _ => ops) main_eq (fun _ => ops_sub) m ρ)

end Cert.ReferenceIdeal.RefRun

end
-- ==== Proof.lean ====
/-
  The certificate of a three-layer graph convolution with a weight-score fusion after the first two layers.

  The kernel program tiles its four dense layers and its two weight-score fusions over the rows on the TensorCore and
  leaves the edge-wise gathers and scatter-additions to the host; the reference is one host program. Over the extended
  reals the two end with the same result array. The kernel's run is read boundary by boundary (the host stretches
  apply the reference's own operations; a matmul region's array is the dense layer's product, rounding to the
  narrower float format being the identity there; a weight-score region's array is the fused, normalised rows) and
  every boundary's buffers are the reference's stages of the launch arguments. The one place where the two programs
  spell a number differently is the clamp of the row norm: the reference divides by max(norm, D) with D the
  single-precision neighbour of 1e-12, the kernel multiplies by rsqrt(max(sumsq, D²)), its constant named as the
  exact square D² = 5316911940649 / 2^122; on a sum of squares, which is never negative, the two agree.

  The frames of the two kernel programs are their generated frame certificates; the reference's frame is its run with
  the result dropped; the idealization's ledger has the named constant's two occurrences.
-/
import proofs.«106194_j24283745091829_2_alg».proof.Defs
import proofs.«106194_j24283745091829_2_alg».proof.Proof.Gen.Kernel
import proofs.«106194_j24283745091829_2_alg».proof.Proof.Gen.Kernel.Skeleton
import proofs.«106194_j24283745091829_2_alg».proof.Proof.Gen.Kernel.Launch
import proofs.«106194_j24283745091829_2_alg».proof.Proof.Gen.Kernel.Points
import proofs.«106194_j24283745091829_2_alg».proof.Proof.Gen.Kernel.Frame
import proofs.«106194_j24283745091829_2_alg».proof.Proof.Gen.KernelIdeal
import proofs.«106194_j24283745091829_2_alg».proof.Proof.Gen.KernelIdeal.Skeleton
import proofs.«106194_j24283745091829_2_alg».proof.Proof.Gen.KernelIdeal.Launch
import proofs.«106194_j24283745091829_2_alg».proof.Proof.Gen.KernelIdeal.Points
import proofs.«106194_j24283745091829_2_alg».proof.Proof.Gen.KernelIdeal.Frame
import proofs.«106194_j24283745091829_2_alg».proof.Proof.Gen.ReferenceIdeal
import proofs.«106194_j24283745091829_2_alg».proof.Proof.Gen.Pre_finite_inputs
import proofs.«106194_j24283745091829_2_alg».proof.Proof.RunValue
import proofs.«106194_j24283745091829_2_alg».proof.Proof.KValue
import proofs.«106194_j24283745091829_2_alg».proof.Proof.RefRun
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ledger's two entries: the clamp's constant, at both weight-score kernels, denotes the exact square named for it. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
   IdealRules.named_const.statement Cert.KernelIdeal.κ "eps_sq" .f32 0x179ABE15#32
      ((5316911940649 / 5316911983139663491615228241121378304 : ℝ) : EReal) rfl⟩

/-- From memories agreeing on the arguments both idealized programs run, and the kernel's result array is the
    reference's: both are the reference's last stage of the arguments. -/
theorem algebraic : Cert.algebraic_KernelIdeal_ReferenceIdeal := by
  intro m ρ m' ρ' _ hagree
  refine ⟨fun c => Cert.KernelIdeal.Gen.W16 m ρ c (Proc.devRef .tc Cert.KernelIdeal.main_v167),
    Cert.KernelIdeal.RunValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.KernelIdeal.KValue.out m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
